-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x1x128x128x128 : Shape := ⟨5, ![4, 1, 128, 128, 128]⟩
abbrev S_ : Shape := ⟨0, ![]⟩

class Facts : Prop where
  bcast_S_S4x1x128x128x128 : S_.BroadcastsInDim S4x1x128x128x128 (![] : Fin 0 → Fin S4x1x128x128x128.rank)
  reducesTo_S4x1x128x128x128_S_d0_1_2_3_4 : S4x1x128x128x128.ReducesTo [0, 1, 2, 3, 4] S_
  h_S_ : 0 < S_.numel

variable [Facts]

def fn {F : FTy → Type} [FloatOps F] (main_arg0 : FVec F S4x1x128x128x128 .f32) (main_arg1 : FVec F S4x1x128x128x128 .f32) (main_arg2 : IVec S4x1x128x128x128 32) : IVec S_ 1 :=
  let main_v0 : FVec F S4x1x128x128x128 .f32 := Host.absf main_arg0
  let main_cst : FVec F S_ .f32 := constant S_ .f32 0x7F800000#32
  let main_v1 : FVec F S4x1x128x128x128 .f32 := broadcastInDim S4x1x128x128x128 ![] bcast_S_S4x1x128x128x128 main_cst
  let main_v2 : IVec S4x1x128x128x128 1 := cmpf .olt main_v0 main_v1
  let main_c : IVec S_ 1 := constantI S_ 1 1#1
  let main_v3 : IVec S_ 1 := (fun x v => Host.reduce IntOp.andi x v reducesTo_S4x1x128x128x128_S_d0_1_2_3_4 h_S_) main_v2 main_c
  let main_v4 : FVec F S4x1x128x128x128 .f32 := Host.absf main_arg1
  let main_cst_0 : FVec F S_ .f32 := constant S_ .f32 0x7F800000#32
  let main_v5 : FVec F S4x1x128x128x128 .f32 := broadcastInDim S4x1x128x128x128 ![] bcast_S_S4x1x128x128x128 main_cst_0
  let main_v6 : IVec S4x1x128x128x128 1 := cmpf .olt main_v4 main_v5
  let main_c_1 : IVec S_ 1 := constantI S_ 1 1#1
  let main_v7 : IVec S_ 1 := (fun x v => Host.reduce IntOp.andi x v reducesTo_S4x1x128x128x128_S_d0_1_2_3_4 h_S_) main_v6 main_c_1
  let main_v8 : IVec S_ 1 := andi main_v3 main_v7
  let main_c_2 : IVec S_ 32 := constantI S_ 32 0#32
  let main_v9 : IVec S4x1x128x128x128 32 := broadcastInDim S4x1x128x128x128 ![] bcast_S_S4x1x128x128x128 main_c_2
  let main_v10 : IVec S4x1x128x128x128 1 := cmpi .sge main_arg2 main_v9
  let main_c_3 : IVec S_ 32 := constantI S_ 32 1#32
  let main_v11 : IVec S4x1x128x128x128 32 := broadcastInDim S4x1x128x128x128 ![] bcast_S_S4x1x128x128x128 main_c_3
  let main_v12 : IVec S4x1x128x128x128 1 := cmpi .sle main_arg2 main_v11
  let main_v13 : IVec S4x1x128x128x128 1 := andi main_v10 main_v12
  let main_c_4 : IVec S_ 1 := constantI S_ 1 1#1
  let main_v14 : IVec S_ 1 := (fun x v => Host.reduce IntOp.andi x v reducesTo_S4x1x128x128x128_S_d0_1_2_3_4 h_S_) main_v13 main_c_4
  let main_v15 : IVec S_ 1 := andi main_v8 main_v14
  main_v15
-- ==== Kernel.lean ====
abbrev S4x1x128x128x128 : Shape := ⟨5, ![4, 1, 128, 128, 128]⟩
abbrev S8388608 : Shape := ⟨1, ![8388608]⟩
abbrev S32x32 : Shape := ⟨2, ![32, 32]⟩
abbrev S2x16384 : Shape := ⟨2, ![2, 16384]⟩
abbrev S32 : Shape := ⟨1, ![32]⟩
abbrev S_ : Shape := ⟨0, ![]⟩
abbrev S16 : Shape := ⟨1, ![16]⟩
abbrev S1x16384 : Shape := ⟨2, ![1, 16384]⟩
abbrev S16384 : Shape := ⟨1, ![16384]⟩
abbrev S1x16 : Shape := ⟨2, ![1, 16]⟩
abbrev S1x32 : Shape := ⟨2, ![1, 32]⟩
abbrev S65536x128 : Shape := ⟨2, ![65536, 128]⟩
abbrev S1 : Shape := ⟨1, ![1]⟩
abbrev S2048x128 : Shape := ⟨2, ![2048, 128]⟩
abbrev S2x128 : Shape := ⟨2, ![2, 128]⟩
abbrev S1x128 : Shape := ⟨2, ![1, 128]⟩
abbrev S128 : Shape := ⟨1, ![128]⟩
abbrev S1x1x128 : Shape := ⟨3, ![1, 1, 128]⟩
abbrev S1x1x1 : Shape := ⟨3, ![1, 1, 1]⟩
abbrev S32x2x16 : Shape := ⟨3, ![32, 2, 16]⟩
abbrev S2 : Shape := ⟨1, ![2]⟩

abbrev nBuf : Table → Nat
  | .hbm => 26
  | .local .tc .vmem => 7
  | .local .tc .smem => 2
  | .local .scVector .vmem => 4
  | _ => 0

abbrev bufTy : (tb : Table) → Fin (nBuf tb) → BufTy
  | .hbm, ⟨0, _⟩ => ⟨S4x1x128x128x128, .f32⟩
  | .hbm, ⟨1, _⟩ => ⟨S4x1x128x128x128, .f32⟩
  | .hbm, ⟨2, _⟩ => ⟨S4x1x128x128x128, .i32⟩
  | .hbm, ⟨3, _⟩ => ⟨S8388608, .f32⟩
  | .hbm, ⟨4, _⟩ => ⟨S8388608, .f32⟩
  | .hbm, ⟨5, _⟩ => ⟨S8388608, .i32⟩
  | .hbm, ⟨6, _⟩ => ⟨S32x32, .f32⟩
  | .hbm, ⟨7, _⟩ => ⟨S65536x128, .f32⟩
  | .hbm, ⟨8, _⟩ => ⟨S65536x128, .f32⟩
  | .hbm, ⟨9, _⟩ => ⟨S65536x128, .i32⟩
  | .hbm, ⟨10, _⟩ => ⟨S1, .f32⟩
  | .hbm, ⟨11, _⟩ => ⟨S1, .f32⟩
  | .hbm, ⟨12, _⟩ => ⟨S32x2x16, .f32⟩
  | .hbm, ⟨13, _⟩ => ⟨S_, .f32⟩
  | .hbm, ⟨14, _⟩ => ⟨S2, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .i32⟩
  | .local .tc .vmem, ⟨5, _⟩ => ⟨S2048x128, .i32⟩
  | .local .tc .vmem, ⟨6, _⟩ => ⟨S2x128, .f32⟩
  | .local .tc .smem, ⟨0, _⟩ => ⟨S1, .f32⟩
  | .local .tc .smem, ⟨1, _⟩ => ⟨S1, .f32⟩
  | .local .scVector .vmem, ⟨0, _⟩ => ⟨S2x16384, .f32⟩
  | .local .scVector .vmem, ⟨1, _⟩ => ⟨S2x16384, .f32⟩
  | .local .scVector .vmem, ⟨2, _⟩ => ⟨S2x16384, .i32⟩
  | .local .scVector .vmem, ⟨3, _⟩ => ⟨S32, .f32⟩
  | _, _ => ⟨S4x1x128x128x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_scratch0 : Ref sig .tc := ⟨.vmem, 6, rfl⟩
abbrev cc1_stg3_0 : Ref sig .tc := ⟨.smem, 0, rfl⟩
abbrev cc1_stg4_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c49152_i32 : BitVec 32 := 49152#32
  let v2 : BitVec 32 := Scalar.muli v1 c49152_i32
  let v5 : BitVec 32 := Scalar.addi v2 c0_i32
  ![v5.toNat]
@[reducible] def k0_t1_loop : Scf.Loop 32 :=
  let c0_i32_27 : BitVec 32 := 0#32
  let c1024_i32 : BitVec 32 := 1024#32
  let v61 : BitVec 32 := Scalar.addi c0_i32_27 c1024_i32
  let c1_i32_28 : BitVec 32 := 1#32
  ⟨c0_i32_27, v61, c1_i32_28⟩
def k0_off2 (k0_t1 : Fin k0_t1_loop.trips) : Fin 2 → Nat :=
  let c0_i32_65 : BitVec 32 := 0#32
  let v129 : Index := Scalar.indexCast c0_i32_65
  let c0_i32_27 : BitVec 32 := 0#32
  let c1_i32_28 : BitVec 32 := 1#32
  let arg12 : BitVec 32 := Scf.iv c0_i32_27 c1_i32_28 k0_t1
  let c16_i32 : BitVec 32 := 16#32
  let v128 : BitVec 32 := Scalar.muli arg12 c16_i32
  let v130 : Index := Scalar.indexCast v128
  ![0, v130.toNat]
@[reducible] def k0_t2_loop : Scf.Loop 32 :=
  let c0_i32_48 : BitVec 32 := 0#32
  let c1024_i32_49 : BitVec 32 := 1024#32
  let v100 : BitVec 32 := Scalar.addi c0_i32_48 c1024_i32_49
  let c1_i32_50 : BitVec 32 := 1#32
  ⟨c0_i32_48, v100, c1_i32_50⟩
def k0_off3 (k0_t2 : Fin k0_t2_loop.trips) : Fin 2 → Nat :=
  let c1_i32_65 : BitVec 32 := 1#32
  let v129 : Index := Scalar.indexCast c1_i32_65
  let c0_i32_48 : BitVec 32 := 0#32
  let c1_i32_50 : BitVec 32 := 1#32
  let arg12 : BitVec 32 := Scf.iv c0_i32_48 c1_i32_50 k0_t2
  let c16_i32 : BitVec 32 := 16#32
  let v128 : BitVec 32 := Scalar.muli arg12 c16_i32
  let v130 : Index := Scalar.indexCast v128
  ![1, v130.toNat]
@[reducible] def k0_t3_loop : Scf.Loop 32 :=
  let c0_i32_61 : BitVec 32 := 0#32
  let c1024_i32_62 : BitVec 32 := 1024#32
  let v120 : BitVec 32 := Scalar.addi c0_i32_61 c1024_i32_62
  let c1_i32_63 : BitVec 32 := 1#32
  ⟨c0_i32_61, v120, c1_i32_63⟩
def k0_off4 (k0_t3 : Fin k0_t3_loop.trips) : Fin 2 → Nat :=
  let c0_i32_65 : BitVec 32 := 0#32
  let v129 : Index := Scalar.indexCast c0_i32_65
  let c0_i32_61 : BitVec 32 := 0#32
  let c1_i32_63 : BitVec 32 := 1#32
  let arg12 : BitVec 32 := Scf.iv c0_i32_61 c1_i32_63 k0_t3
  let c16_i32 : BitVec 32 := 16#32
  let v128 : BitVec 32 := Scalar.muli arg12 c16_i32
  let v130 : Index := Scalar.indexCast v128
  ![0, v130.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65_r0 : BitVec 32 := 0#32
  ![v1.toNat, 0]
abbrev grid1 : Pipeline.Grid := ⟨1, ![26], ![false]⟩

def k1_cond2 (i : grid1.Coords) : BitVec 1 :=
  let arg0 : BitVec 32 := BitVec.ofNat 32 (i 0).val
  let c25_i32 : BitVec 32 := 25#32
  let v32 : BitVec 1 := Scalar.cmpi .eq arg0 c25_i32
  let v33 : BitVec 32 := Scalar.extui v32
  let c0_i32_18 : BitVec 32 := 0#32
  let v34 : BitVec 1 := Scalar.cmpi .ne v33 c0_i32_18
  v34

def cc1_transform_0 (i : grid1.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x1x128x128x128_S8388608 : S4x1x128x128x128.ShapeCasts S8388608
  inb_S2x16384_S1x16384_0_0 : ∀ a, (![0, 0] : Fin 2 → Nat) a + S1x16384.size a ≤ S2x16384.size a
  squeezes_S1x16384_S16384 : S1x16384.Squeezes S16384
  inb_S2x16384_S1x16384_1_0 : ∀ a, (![1, 0] : Fin 2 → Nat) a + S1x16384.size a ≤ S2x16384.size a
  h_S1x16 : 0 < S1x16.numel
  shapeCasts_S1x16_S16 : S1x16.ShapeCasts S16
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  squeezes_S1x32_S32 : S1x32.Squeezes S32
  shapeCasts_S8388608_S65536x128 : S8388608.ShapeCasts S65536x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2x128_S1x128_0_0 : ∀ a, (![0, 0] : Fin 2 → Nat) a + S1x128.size a ≤ S2x128.size a
  h_S1x128 : 0 < S1x128.numel
  reduces_S2048x128_S128 : S2048x128.Reduces [0] S128
  shapeCasts_S128_S1x128 : S128.ShapeCasts S1x128
  shapeCasts_S1x128_S1x128 : S1x128.ShapeCasts S1x128
  inb_S2x128_S1x128_1_0 : ∀ a, (![1, 0] : Fin 2 → Nat) a + S1x128.size a ≤ S2x128.size a
  shapeCasts_S1x128_S1x1x128 : S1x128.ShapeCasts S1x1x128
  reduces_S1x1x128_S1 : S1x1x128.Reduces [1, 2] S1
  shapeCasts_S1_S1x1x1 : S1.ShapeCasts S1x1x1
  inpos_S1x1x1_p0_0_0 : ∀ a, (![0, 0, 0] : Fin 3 → Nat) a < S1x1x1.size a
  inb_S1_S1_0 : ∀ a, (![0] : Fin 1 → Nat) a + S1.size a ≤ S1.size a
  numel1_S1 : S1.numel = 1
  shapeCasts_S32x32_S32x2x16 : S32x32.ShapeCasts S32x2x16
  reducesTo_S32x2x16_S2_d0_2 : S32x2x16.ReducesTo [0, 2] S2
  h_S_ : 0 < S_.numel
  slices_S2_S1_0 : S2.Slices ![0] S1
  shapeCasts_S1_S_ : S1.ShapeCasts S_
  slices_S2_S1_1 : S2.Slices ![1] S1
  hcc0_scratch4 : 0 + S_.numel ≤ 11
  hcc0_scratch5 : 1 + S_.numel ≤ 11
  hcc0_scoped0 : 2 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 3), ∀ a, (k0_off1 i (BitVec.ofNat 32 (16384 * r.val))) a + S16384.size a ≤ S8388608.size a
  k0_t1_ok : k0_t1_loop.OK
  k0_off2_inb : ∀ k0_t1 : Fin k0_t1_loop.trips, ∀ a, (k0_off2 k0_t1) a + S1x16.size a ≤ S2x16384.size a
  k0_t2_ok : k0_t2_loop.OK
  k0_off3_inb : ∀ k0_t2 : Fin k0_t2_loop.trips, ∀ a, (k0_off3 k0_t2) a + S1x16.size a ≤ S2x16384.size a
  k0_t3_ok : k0_t3_loop.OK
  k0_off4_inb : ∀ k0_t3 : Fin k0_t3_loop.trips, ∀ a, (k0_off4 k0_t3) a + S1x16.size a ≤ S2x16384.size a
  k0_off5_inb : ∀ i : grid0.Coords, ∀ a, (k0_off5 i) a + S1x32.size a ≤ S32x32.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S65536x128.size a
  hwx1_1 : ∀ i : grid1.Coords, EltTy.bits .f32 = 32 ∨ (Rect.block (s := S65536x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S65536x128.size a
  hwx1_2 : ∀ i : grid1.Coords, EltTy.bits .i32 = 32 ∨ (Rect.block (s := S65536x128) S2048x128.size (cc1_transform_2 i) (hinb1_2 i)).WholeWords (EltTy.packing .i32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1.size a ≤ S1.size a
  hwx1_3 : ∀ i : grid1.Coords, EltTy.bits .f32 = 32 ∨ (Rect.block (s := S1) S1.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0

abbrev win1_0 : Pipeline.Window sig grid1 :=
  Pipeline.Window.ofSpec (Memref.whole main_v4) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S1.size cc1_transform_3 reads1_3 true false 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S1.size cc1_transform_4 reads1_4 true false 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x1x128x128x128 : Shape := ⟨5, ![4, 1, 128, 128, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x1x128x128x128, .f32⟩
  | .hbm, ⟨1, _⟩ => ⟨S4x1x128x128x128, .f32⟩
  | .hbm, ⟨2, _⟩ => ⟨S4x1x128x128x128, .i32⟩
  | .hbm, ⟨3, _⟩ => ⟨S_, .i32⟩
  | .hbm, ⟨4, _⟩ => ⟨S4x1x128x128x128, .i32⟩
  | .hbm, ⟨5, _⟩ => ⟨S4x1x128x128x128, .i1⟩
  | .hbm, ⟨6, _⟩ => ⟨S4x1x128x128x128, .f32⟩
  | .hbm, ⟨7, _⟩ => ⟨S4x1x128x128x128, .f32⟩
  | .hbm, ⟨8, _⟩ => ⟨S4x1x128x128x128, .f32⟩
  | .hbm, ⟨9, _⟩ => ⟨S4x1x128x128x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S4x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S4x1x128x128x128 : S_.BroadcastsInDim S4x1x128x128x128 (![] : Fin 0 → Fin S4x1x128x128x128.rank)
  reducesTo_S4x1x128x128x128_S_d0_1_2_3_4 : S4x1x128x128x128.ReducesTo [0, 1, 2, 3, 4] S_
  h_S_ : 0 < S_.numel

variable [Facts₀]

class Facts : Prop extends Facts₀ where

variable [Facts]
-- ==== Proof.K.Common.lean ====
/-
  The program as the SparseCore launch theorem sees it, and the ghost state every part of the proof shares.

  The device runs 35 threads: the TensorCore (which runs the host operations, starts the one SparseCore call and later
  enters the one TensorCore region), two sequencers and thirty-two vector subcores. The ghost state has three factors:
  the rounds of the four launch handshakes, the rounds of the TensorCore region's staging cells, and the exclusive
  counters under which a subcore's own local copies are issued and waited for (no schedule is needed for those: a
  subcore only ever waits for copies it issued itself).
-/
import proofs.«210416_g85048942395886_cont_9to1c4b_614_23_alg».proof.Kernel
import proofs.«210416_g85048942395886_cont_9to1c4b_614_23_alg».proof.Proof.Gen.Kernel
import proofs.«210416_g85048942395886_cont_9to1c4b_614_23_alg».proof.Proof.Gen.Kernel.Skeleton
import proofs.«210416_g85048942395886_cont_9to1c4b_614_23_alg».proof.Proof.Gen.Kernel.Launch
import proofs.«210416_g85048942395886_cont_9to1c4b_614_23_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic

noncomputable section

namespace Cert.Kernel.Common

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, staging-cell rounds, exclusive counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The staging cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.Kernel.Common

end
-- ==== Proof.K.Spec.lean ====
/-
  What the kernel computes, as pure functions of the argument arrays, at any float instance.

  The flat array of 8388608 elements is split in two. Positions below 1572864 go to thirty-two subcore tasks: task
  `w` owns positions `49152 w .. 49152 w + 49151` and walks them sixteen lanes at a time, 3072 steps, keeping per lane a
  running sum of `|p − g|` over the positions whose mask word is positive and a running count of those positions. The
  remaining positions, rows `12288 ..` of the array seen as 65536 rows of 128, go to the TensorCore in 26 blocks of 2048
  rows: per column a running sum and a running count over the blocks, summed over the columns at the last block. The
  host adds the two sums, the two counts, and divides the sum by the larger of the count and one.
-/
import proofs.«210416_g85048942395886_cont_9to1c4b_614_23_alg».proof.Proof.Gen.Kernel.Skeleton
import Idealize.ShloMosaic.Lib.ValueIdx

noncomputable section

namespace Cert.Kernel.Spec

open Cert.Kernel Cert.Kernel.Gen
open Idealize.ShloMosaic Idealize.ShloMosaic.ValueIdx

variable {F : FTy → Type} [FloatOps F]

/-! ## The subcore tasks -/

/-- Position `n` of the flat array (past the end the position wraps; no such position is ever read). -/
def flat (n : ℕ) : S8388608.Idx := ix1 (⟨n % 8388608, Nat.mod_lt _ (by decide)⟩ : Fin 8388608)

/-- The sixteen lanes at positions `base .. base + 15` of a flat array, as a one-row vector. -/
def lanes16 {α : Type} (a : S8388608.Idx → α) (base : ℕ) : S1x16.Idx → α := fun y => a (flat (base + (y 1).val))

/-- Task `w` after `n` of its 3072 steps: the per-lane running sum and running count. Step `n` reads the sixteen
    positions from `49152 w + 16 n`. -/
def tileAcc (p g : FVec F S8388608 .f32) (m : IVec S8388608 32) (w : ℕ) : ℕ → FVec F S16 .f32 × FVec F S16 .f32
  | 0 => (k0_pay1, k0_pay2)
  | n + 1 =>
    let a := tileAcc p g m w n
    (k0_pay4 a.1 (lanes16 p (49152 * w + 16 * n)) (lanes16 g (49152 * w + 16 * n)) (lanes16 m (49152 * w + 16 * n)),
      k0_pay5 a.2 (lanes16 m (49152 * w + 16 * n)))

/-- The thirty-two tasks' partial results as one 32 × 32 array: row `w` holds task `w`'s sixteen sums, then its
    sixteen counts. -/
def partials (p g : FVec F S8388608 .f32) (m : IVec S8388608 32) : FVec F S32x32 .f32 := fun i =>
  if h : (i 1).val < 16 then k0_pay12 (tileAcc p g m (i 0).val 3072).1 (ix1 (⟨(i 1).val, h⟩ : Fin 16))
  else k0_pay13 (tileAcc p g m (i 0).val 3072).2 (ix1 (⟨(i 1).val % 16, Nat.mod_lt _ (by decide)⟩ : Fin 16))

/-! ## The TensorCore region -/

/-- Block `t` (of 26) of an array of 65536 rows of 128: rows `2048 (t + 6) ..`, 2048 of them. -/
def blk {α : Type} (a : S65536x128.Idx → α) (t : ℕ) : S2048x128.Idx → α := fun y =>
  a (ix2 (⟨(2048 * (t + 6) + (y 0).val) % 65536, Nat.mod_lt _ (by decide)⟩ : Fin 65536) (y 1))

/-- The two accumulator rows after `t` blocks: per column the running sum and the running count. -/
def tcRows (p g : FVec F S65536x128 .f32) (m : IVec S65536x128 32) : ℕ → FVec F S1x128 .f32 × FVec F S1x128 .f32
  | 0 => (fun y => (k1_pay3 (F := F)) (ix2 (0 : Fin 2) (y 1)), fun y => (k1_pay3 (F := F)) (ix2 (1 : Fin 2) (y 1)))
  | t + 1 =>
    let a := tcRows p g m t
    (k1_pay5 (blk m t) (blk p t) (blk g t) a.1, k1_pay6 (blk m t) a.2)

/-- The region's two results: the sum, and the count, over all 26 blocks and all 128 columns. -/
def tcSum (p g : FVec F S65536x128 .f32) (m : IVec S65536x128 32) : FVec F S1 .f32 := fun _ => k1_pay1 (tcRows p g m 26).1
def tcCnt (p g : FVec F S65536x128 .f32) (m : IVec S65536x128 32) : FVec F S1 .f32 := fun _ => k1_pay2 (tcRows p g m 26).2

/-! ## The host's last operations, and the whole result -/

/-- From the tasks' partials and the region's two results: both sums added, both counts added, the quotient by the
    larger of the count and one. -/
def hostTail (o : FVec F S32x32 .f32) (s c : FVec F S1 .f32) : FVec F S_ .f32 :=
  let v8 : FVec F S32x2x16 .f32 := shapeCast S32x2x16 o shapeCasts_S32x32_S32x2x16
  let v9 : FVec F S2 .f32 := Host.reduceAdd v8 (constant S_ .f32 0x00000000#32) reducesTo_S32x2x16_S2_d0_2 h_S_
  let v11 : FVec F S_ .f32 := shapeCast S_ (extractStridedSlice S1 ![0] v9 slices_S2_S1_0) shapeCasts_S1_S_
  let v12 : FVec F S_ .f32 := shapeCast S_ s shapeCasts_S1_S_
  let v13 : FVec F S_ .f32 := addf v11 v12
  let v15 : FVec F S_ .f32 := shapeCast S_ (extractStridedSlice S1 ![1] v9 slices_S2_S1_1) shapeCasts_S1_S_
  let v16 : FVec F S_ .f32 := shapeCast S_ c shapeCasts_S1_S_
  let v17 : FVec F S_ .f32 := addf v15 v16
  let v18 : FVec F S_ .f32 := maximumf v17 (constant S_ .f32 0x3F800000#32)
  Host.divf v13 v18

/-- The program's result as a function of its three argument arrays. -/
def result (P G : FVec F S4x1x128x128x128 .f32) (M : IVec S4x1x128x128x128 32) : FVec F S_ .f32 :=
  let p : FVec F S8388608 .f32 := shapeCast S8388608 P shapeCasts_S4x1x128x128x128_S8388608
  let g : FVec F S8388608 .f32 := shapeCast S8388608 G shapeCasts_S4x1x128x128x128_S8388608
  let m : IVec S8388608 32 := shapeCast S8388608 M shapeCasts_S4x1x128x128x128_S8388608
  hostTail (partials p g m)
    (tcSum (shapeCast S65536x128 p shapeCasts_S8388608_S65536x128) (shapeCast S65536x128 g shapeCasts_S8388608_S65536x128)
      (shapeCast S65536x128 m shapeCasts_S8388608_S65536x128))
    (tcCnt (shapeCast S65536x128 p shapeCasts_S8388608_S65536x128) (shapeCast S65536x128 g shapeCasts_S8388608_S65536x128)
      (shapeCast S65536x128 m shapeCasts_S8388608_S65536x128))

end Cert.Kernel.Spec

end
-- ==== Proof.K.Hand.lean ====
/-
  What the launch handshakes carry. The one SparseCore call hands every subcore task a read share of each of the three
  flat input arrays (whole: a task copies three stretches of each, two of them at once) and, outright, its own row of
  the 32 × 32 partials array; the task hands the shares back with its row filled: sixteen lane sums, sixteen lane
  counts, as the specification's `partials` has them. Task `(c, s)` — SparseCore `c`, subcore `s` — is worker
  `2 s + c`.
-/
import proofs.«210416_g85048942395886_cont_9to1c4b_614_23_alg».proof.Proof.K.Common
import proofs.«210416_g85048942395886_cont_9to1c4b_614_23_alg».proof.Proof.K.Spec

noncomputable section

namespace Cert.Kernel.Hand

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The three flat inputs and the partials array, as locations of device `d`. -/
abbrev pLoc (d : Dev nD) : Loc nD τ sig := (SparseCore.T d).loc main_v0
abbrev gLoc (d : Dev nD) : Loc nD τ sig := (SparseCore.T d).loc main_v1
abbrev mLoc (d : Dev nD) : Loc nD τ sig := (SparseCore.T d).loc main_v2
abbrev oLoc (d : Dev nD) : Loc nD τ sig := (SparseCore.T d).loc main_v3

variable [FloatOps F]

/-- The flat inputs' contents when the call is made: the arguments, flattened. -/
def pC (d : Dev nD) : Buf (Elt F) (pLoc d) :=
  shapeCast S8388608 (m ((SparseCore.T d).loc main_arg0)) shapeCasts_S4x1x128x128x128_S8388608
def gC (d : Dev nD) : Buf (Elt F) (gLoc d) :=
  shapeCast S8388608 (m ((SparseCore.T d).loc main_arg1)) shapeCasts_S4x1x128x128x128_S8388608
def mC (d : Dev nD) : Buf (Elt F) (mLoc d) :=
  shapeCast S8388608 (m ((SparseCore.T d).loc main_arg2)) shapeCasts_S4x1x128x128x128_S8388608

/-- The partials array as the tasks leave it. -/
def oC (d : Dev nD) : Buf (Elt F) (oLoc d) := Spec.partials (pC m d) (gC m d) (mC m d)

omit [FloatOps F] in
theorem hdiv : 32 ∣ S32x32.size 0 := ⟨1, rfl⟩
/-- Row `w` of the partials array. -/
abbrev oRow (w : Fin 32) : Rect S32x32 := Rect.part (s := S32x32) (a₀ := 0) hdiv w
abbrev oRowSet (w : Fin 32) : Finset S32x32.Idx :=
  ((Memref.whole main_v3_scv : Memref sig .scVector .hbm S32x32 .f32).view.slice (oRow w)).set

/-- The worker number of task `(c, s)`. -/
def wid (c : Fin 2) (s : Fin 16) : Fin 32 := ⟨2 * s.val + c.val, by have := c.isLt; have := s.isLt; omega⟩

/-- Worker `w`'s read share of an input array. -/
abbrev rdShare (w : Fin 32) : PosShare TreeShare := Transfers.shareTok fullShare 32 w

/-- The three inputs, read-shared to worker `w`. -/
def inputs (d : Dev nD) (w : Fin 32) : sProp 𝕄 :=
  iprop((pLoc d ↦{rdShare w} pC m d) ∗ (gLoc d ↦{rdShare w} gC m d) ∗ (mLoc d ↦{rdShare w} mC m d))

/-- What worker `w`'s task is handed, and what it hands back. -/
def taskIn (d : Dev nD) (w : Fin 32) : sProp 𝕄 := iprop(inputs m d w ∗ ∃ f, oLoc d ↦[oRowSet w]{fullShare} f)
def taskOut (d : Dev nD) (w : Fin 32) : sProp 𝕄 := iprop(inputs m d w ∗ oLoc d ↦[oRowSet w]{fullShare} oC m d)

instance taskIn_storable (d : Dev nD) (w : Fin 32) : BI.Storable (upEmb : UEmb _ 𝕄) (taskIn m d w) := by
  unfold taskIn inputs; infer_instance
instance taskOut_storable (d : Dev nD) (w : Fin 32) : BI.Storable (upEmb : UEmb _ 𝕄) (taskOut m d w) := by
  unfold taskOut inputs; infer_instance

/-- The call's payloads: a SparseCore is handed its sixteen tasks' shares together. -/
def P : (K (F := F)).Pay (nD := nD) (Val := Elt F) (Name := ℕ) (U := UU) where
  st := fun q d c => match q with
    | 0 => bigSep Finset.univ fun s : Fin 16 => taskIn m d (wid (Fin.cast nCore_zero c) s)
  dn := fun q d c => match q with
    | 0 => bigSep Finset.univ fun s : Fin 16 => taskOut m d (wid (Fin.cast nCore_zero c) s)
  go := fun q d c i => match q with
    | 0 => taskIn m d (wid (Fin.cast nCore_zero c) (Fin.cast nSub_zero i))
  td := fun q d c i => match q with
    | 0 => taskOut m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => taskIn m d (wid (Fin.cast nCore_zero c) s)))
  dn q d c := match q with
    | 0 => (inferInstance : BI.Storable (upEmb : UEmb _ 𝕄) (bigSep Finset.univ fun s : Fin 16 => taskOut m d (wid (Fin.cast nCore_zero c) s)))
  go q d c i := match q with
    | 0 => (inferInstance : BI.Storable (upEmb : UEmb _ 𝕄) (taskIn m d (wid (Fin.cast nCore_zero c) (Fin.cast nSub_zero i))))
  td q d c i := match q with
    | 0 => (inferInstance : BI.Storable (upEmb : UEmb _ 𝕄) (taskOut m d (wid (Fin.cast nCore_zero c) (Fin.cast nSub_zero i))))

/-- What @main leaves for the claim: the three arguments as launched, the result at the specification's value. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v19 ↦{fullShare}
        (Spec.result (m ((SparseCore.T d).loc main_arg0)) (m ((SparseCore.T d).loc main_arg1)) (m ((SparseCore.T d).loc main_arg2))
          : Buf (Elt F) ((SparseCore.T d).loc main_v19))))

end Cert.Kernel.Hand

end
-- ==== Proof.K.TcGhost.lean ====
/-
  What the launch must fund for the TensorCore region: the rounds ghost state of the region's staging cells.

  The region stages its five windows through eight buffers (two each for the three operand windows, one each for the
  two results), each completing on its own semaphore: a staging cell. The launch element of the rounds library, taken
  at those cells and at the duty tokens of every transfer the region's loop issues, yields per device the cells' launch
  state and the tokens; the region's entry allocates the cells' invariants from them.
-/
import proofs.«210416_g85048942395886_cont_9to1c4b_614_23_alg».proof.Proof.K.Common

noncomputable section

namespace Cert.Kernel.TcGhost

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- No pipeline prefetches a table: the one admissible contents. -/
abbrev adm : (p : Fin 1) → (pcfgs (F := F) p).Adm := fun p => (cfgs p).toPCfg_adm

/-- The region's staging cells are pairwise distinct, also when the pipelines are read at the admissible tables. -/
theorem phinj : Function.Injective (Pipeline.cellOf (nD := nD) (τ := τ) (Pipeline.pin (pcfgs (F := F)) adm)) := Gen.cellOf_inj

/-- The staging cells of the region on every device. -/
def tcCells : Finset (GSem nD τ sig) := Pipeline.cells cfgs Gen.cellOf_inj

/-- The (cell, round, duty) triples of every transfer the region's loop issues on every device. -/
def tcToks : Finset (GSem nD τ sig × ℕ × Unit) := Pipeline.launchToks cfgs Gen.cellOf_inj

/-- The region's share of the rounds ghost state on device `d`: its cells' launch state and its duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The launch element at the region's cells and tokens funds every device's share. -/
theorem fundG : (BI.own (EP (initOf tcCells tcToks)) : sProp 𝕄) ⊢ iprop(|==> bigSep Finset.univ fun d : Dev nD => G d) := by
  have h1 : ∀ Φ : Fin 1 → sProp 𝕄, bigSep Finset.univ Φ = Φ 0 := fun Φ => by
    rw [show (Finset.univ : Finset (Fin 1)) = {0} from by decide, bigSep_singleton]
  refine (Pipeline.fund_ghost (Pipeline.pin (pcfgs (F := F)) adm) EP phinj).trans (bupd_mono ?_)
  unfold G
  simp only [h1]
  exact BI.Entails.refl _

end Cert.Kernel.TcGhost

end
-- ==== Proof.K.LaunchElem.lean ====
/-
  The launch element of the ghost state, and how the final assertion reads the final memory.

  The element has the launch handshakes' rounds at their cells and tokens, the TensorCore region's staging cells'
  rounds at theirs, and the unit of the exclusive counters (a subcore allocates the counter of a copy when it issues
  it). It splits into the three; the staging cells' part funds every device's share of the region's ghost state; no
  kernel consumes anything else of the launch's.
-/
import proofs.«210416_g85048942395886_cont_9to1c4b_614_23_alg».proof.Proof.K.Hand
import proofs.«210416_g85048942395886_cont_9to1c4b_614_23_alg».proof.Proof.K.TcGhost

noncomputable section

namespace Cert.Kernel.LaunchElem

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The launch element: handshake rounds, staging-cell rounds, the counters' unit. -/
def u₀ : UU := (initOf (K (F := F)).hsCells (K (F := F)).hsToks, (initOf TcGhost.tcCells TcGhost.tcToks, 1))

theorem bigSep_emp' {I : Type} (s : Finset I) : (bigSep s fun _ => iprop(emp)) = (iprop(emp) : sProp 𝕄) := bigSep_emp_const s

variable [FloatOps F]

/-- From the launch element: the handshakes' rounds, every device's share of the region's ghost state, and (nothing)
    for the kernels' own proofs. -/
theorem hu₀ : (ownU (u₀ (F := F)) : sProp 𝕄)
    ⊢ |={Set.univ}=> iprop(BI.own (EH (initOf (K (F := F)).hsCells (K (F := F)).hsToks)) ∗ (bigSep Finset.univ fun d : Dev nD => TcGhost.G (F := F) d)
        ∗ bigSep Finset.univ fun thr : Thread nD τ => bigSep Finset.univ fun q : Fin 1 => (Hand.P m).x q thr) := by
  unfold u₀
  iintro Hu
  ihave H := (ownU_pair _ _) $$ Hu
  icases H with ⟨HH, HR⟩
  ihave HR' := (own_pair_emb (embR : Emb (UP × Counters) 𝕄) (initOf TcGhost.tcCells TcGhost.tcToks) (1 : Counters)) $$ HR
  icases HR' with ⟨HP, -⟩
  ihave HP' := (Entails.of_eq (show (BI.own (((Emb.inl : Emb UP (UP × Counters)).trans (embR : Emb (UP × Counters) 𝕄)) (initOf TcGhost.tcCells TcGhost.tcToks)) : sProp 𝕄)
      = BI.own ((EP : Emb UP 𝕄) (initOf TcGhost.tcCells TcGhost.tcToks)) from rfl)) $$ HP
  imod (TcGhost.fundG (F := F)) $$ HP' with HG
  imodintro
  isplitl [HH]; · iexact HH
  isplitl [HG]; · iexact HG
  unfold Hand.P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

/-- What the claim reads off device `d`'s final memory: the arguments as launched, the result the specification's. -/
def fq (d : Dev nD) (s' : Phys nD τ sig (Elt F)) : Prop :=
  s'.mem.mem ((SparseCore.T d).loc main_v19)
      = (Spec.result (m ((SparseCore.T d).loc main_arg0)) (m ((SparseCore.T d).loc main_arg1)) (m ((SparseCore.T d).loc main_arg2))
          : Buf (Elt F) ((SparseCore.T d).loc main_v19))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

theorem hfin (d : Dev nD) (s' : Phys nD τ sig (Elt F)) : iprop(Hand.FIN m d ∗ SI s') ⊢ (⌜fq m d s'⌝ : sProp 𝕄) := by
  have one (ℓ : Loc nD τ sig) (f : Buf (Elt F) ℓ) : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  have e19 : iprop(Hand.FIN m d ∗ SI s') ⊢ (⌜s'.mem.mem ((SparseCore.T d).loc main_v19)
      = (Spec.result (m ((SparseCore.T d).loc main_arg0)) (m ((SparseCore.T d).loc main_arg1)) (m ((SparseCore.T d).loc main_arg2))
          : Buf (Elt F) ((SparseCore.T d).loc main_v19))⌝ : sProp 𝕄) := by
    unfold Hand.FIN
    iintro ⟨⟨-, -, -, H⟩, HSI⟩
    iapply (one _ _); isplitl [H] <;> iassumption
  have e0 : iprop(Hand.FIN m d ∗ SI s') ⊢ (⌜s'.mem.mem ((SparseCore.T d).loc main_arg0) = m ((SparseCore.T d).loc main_arg0)⌝ : sProp 𝕄) := by
    unfold Hand.FIN
    iintro ⟨⟨H, -, -, -⟩, HSI⟩
    iapply (one _ _); isplitl [H] <;> iassumption
  have e1 : iprop(Hand.FIN m d ∗ SI s') ⊢ (⌜s'.mem.mem ((SparseCore.T d).loc main_arg1) = m ((SparseCore.T d).loc main_arg1)⌝ : sProp 𝕄) := by
    unfold Hand.FIN
    iintro ⟨⟨-, H, -, -⟩, HSI⟩
    iapply (one _ _); isplitl [H] <;> iassumption
  have e2 : iprop(Hand.FIN m d ∗ SI s') ⊢ (⌜s'.mem.mem ((SparseCore.T d).loc main_arg2) = m ((SparseCore.T d).loc main_arg2)⌝ : sProp 𝕄) := by
    unfold Hand.FIN
    iintro ⟨⟨-, -, H, -⟩, HSI⟩
    iapply (one _ _); isplitl [H] <;> iassumption
  unfold fq
  exact (BIClass.and_intro e19 ((BIClass.and_intro e0 ((BIClass.and_intro e1 e2).trans pure_and.1)).trans pure_and.1)).trans pure_and.1

end Cert.Kernel.LaunchElem

end
-- ==== Proof.K.TileDefs.lean ====
/-
  One subcore task: the memrefs its body slices, spelt as the body spells them; that each trip's sixteen lanes lie
  in the scratch row its chunk landed in; the running pair of a chunk's loop as a function of the rows' contents.

  A task copies its 49152 positions of each flat input in three stretches of 16384 into a two-row scratch, the
  stretches alternating between the rows; the loop over a stretch reads row by row sixteen lanes at a time.
-/
import proofs.«210416_g85048942395886_cont_9to1c4b_614_23_alg».proof.Proof.K.Hand
import Idealize.ShloMosaic.Lib.SparseCore.Ops

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task's memrefs, spelt as the body slices them -/

abbrev pV : Memref sig .scVector .hbm S8388608 .f32 := Memref.whole main_v0_scv
abbrev gV : Memref sig .scVector .hbm S8388608 .f32 := Memref.whole main_v1_scv
abbrev mV : Memref sig .scVector .hbm S8388608 .i32 := Memref.whole main_v2_scv
abbrev oV : Memref sig .scVector .hbm S32x32 .f32 := Memref.whole main_v3_scv
abbrev sP : Memref sig .scVector .vmem S2x16384 .f32 := Memref.whole cc0_scratch0
abbrev sG : Memref sig .scVector .vmem S2x16384 .f32 := Memref.whole cc0_scratch1
abbrev sM : Memref sig .scVector .vmem S2x16384 .i32 := Memref.whole cc0_scratch2
abbrev sO : Memref sig .scVector .vmem S32 .f32 := Memref.whole cc0_scratch3

/-- Row 0 / row 1 of a two-row scratch, as a vector of 16384. -/
abbrev row0 {e : EltTy} (M : Memref sig .scVector .vmem S2x16384 e) : Memref sig .scVector .vmem S16384 e :=
  (M.slice (Rect.unit (s := S2x16384) ![0, 0] S1x16384.size inb_S2x16384_S1x16384_0_0) (fun _ => rfl)).squeeze S16384 squeezes_S1x16384_S16384
abbrev row1 {e : EltTy} (M : Memref sig .scVector .vmem S2x16384 e) : Memref sig .scVector .vmem S16384 e :=
  (M.slice (Rect.unit (s := S2x16384) ![1, 0] S1x16384.size inb_S2x16384_S1x16384_1_0) (fun _ => rfl)).squeeze S16384 squeezes_S1x16384_S16384

/-- The three stretches of 16384 a task copies out of a flat input. -/
abbrev src0 {e : EltTy} (A : Memref sig .scVector .hbm S8388608 e) (L : grid0.Coords) : Memref sig .scVector .hbm S16384 e :=
  A.slice (Rect.unit (s := S8388608) (k0_off1 L 0#32) S16384.size (k0_off1_inb L 0)) (fun _ => rfl)
abbrev src1 {e : EltTy} (A : Memref sig .scVector .hbm S8388608 e) (L : grid0.Coords) : Memref sig .scVector .hbm S16384 e :=
  A.slice (Rect.unit (s := S8388608) (k0_off1 L 16384#32) S16384.size (k0_off1_inb L 1)) (fun _ => rfl)
abbrev src2 {e : EltTy} (A : Memref sig .scVector .hbm S8388608 e) (L : grid0.Coords) : Memref sig .scVector .hbm S16384 e :=
  A.slice (Rect.unit (s := S8388608) (k0_off1 L 32768#32) S16384.size (k0_off1_inb L 2)) (fun _ => rfl)

/-- The task's row of the partials array. -/
abbrev oRowK (L : grid0.Coords) : Memref sig .scVector .hbm S32 .f32 :=
  (oV.slice (Rect.unit (s := S32x32) (k0_off5 L) S1x32.size (k0_off5_inb L)) (fun _ => rfl)).squeeze S32 squeezes_S1x32_S32

/-! ## A trip's sixteen lanes lie in the row the chunk landed in -/

theorem box_row0_t1 {e : EltTy} (M : Memref sig .scVector .vmem S2x16384 e) (k : Fin k0_t1_loop.trips) :
    M.view.setOn (Rect.unit (s := S2x16384) (k0_off2 k) S1x16.size (k0_off2_inb k)).set ⊆ (row0 M).view.set := by
  have hk : k.val < 1024 := lt_of_lt_of_le k.isLt k0_t1_abs.2.1
  rw [Memref.set_view_squeeze]
  refine Memref.setOn_subset_slice_of_within M _ _ (Rect.unit (s := S2x16384) (k0_off2 k) S1x16.size (k0_off2_inb k)).toLoadRect
    (LoadRect.within_of_withinP (LoadRect.withinP_of_forms ![0, 0] ![1, 16384] (fun _ => 1) ![0, 16 * k.val] ![1, 16] (fun _ => 1)
      rfl rfl rfl (k0_off2_eq k) rfl rfl ?_))
  intro a; fin_cases a <;> simp <;> omega

theorem box_row1_t2 {e : EltTy} (M : Memref sig .scVector .vmem S2x16384 e) (k : Fin k0_t2_loop.trips) :
    M.view.setOn (Rect.unit (s := S2x16384) (k0_off3 k) S1x16.size (k0_off3_inb k)).set ⊆ (row1 M).view.set := by
  have hk : k.val < 1024 := lt_of_lt_of_le k.isLt k0_t2_abs.2.1
  rw [Memref.set_view_squeeze]
  refine Memref.setOn_subset_slice_of_within M _ _ (Rect.unit (s := S2x16384) (k0_off3 k) S1x16.size (k0_off3_inb k)).toLoadRect
    (LoadRect.within_of_withinP (LoadRect.withinP_of_forms ![1, 0] ![1, 16384] (fun _ => 1) ![1, 16 * k.val] ![1, 16] (fun _ => 1)
      rfl rfl rfl (k0_off3_eq k) rfl rfl ?_))
  intro a; fin_cases a <;> simp <;> omega

theorem box_row0_t3 {e : EltTy} (M : Memref sig .scVector .vmem S2x16384 e) (k : Fin k0_t3_loop.trips) :
    M.view.setOn (Rect.unit (s := S2x16384) (k0_off4 k) S1x16.size (k0_off4_inb k)).set ⊆ (row0 M).view.set := by
  have hk : k.val < 1024 := lt_of_lt_of_le k.isLt k0_t3_abs.2.1
  rw [Memref.set_view_squeeze]
  refine Memref.setOn_subset_slice_of_within M _ _ (Rect.unit (s := S2x16384) (k0_off4 k) S1x16.size (k0_off4_inb k)).toLoadRect
    (LoadRect.within_of_withinP (LoadRect.withinP_of_forms ![0, 0] ![1, 16384] (fun _ => 1) ![0, 16 * k.val] ![1, 16] (fun _ => 1)
      rfl rfl rfl (k0_off4_eq k) rfl rfl ?_))
  intro a; fin_cases a <;> simp <;> omega

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev sem0 (d : Dev nD) (L : grid0.Coords) : GSem nD τ sig := (thr d L, .dma cc0_scratch4.sem)
abbrev sem1 (d : Dev nD) (L : grid0.Coords) : GSem nD τ sig := (thr d L, .dma cc0_scratch5.sem)
abbrev sem2 (d : Dev nD) (L : grid0.Coords) : GSem nD τ sig := (thr d L, .dma cc0_scoped0.sem)

/-- A scratch row held by exactly its own elements. -/
abbrev own {S : Shape} {e : EltTy} (M : Memref sig .scVector .vmem S e) (f : Buf (Elt F) (M.view.loc (thr d L))) : sProp 𝕄 :=
  M.view.loc (thr d L) ↦[M.view.set]{fullShare} f

variable [FloatOps F] [∀ e, Nonempty (Elt F e)]

/-! ## The three chunk loops: what a trip reads, and the running pair after `k` trips -/

/-- Trip `k` of the first / second / third loop reads these sixteen lanes of a two-row scratch held at `X`. -/
abbrev rd1 {e : EltTy} (M : Memref sig .scVector .vmem S2x16384 e) (X : Buf (Elt F) ((row0 M).view.loc (thr d L))) (k : Fin k0_t1_loop.trips) :=
  View.readAt (Elt F) M.view (Rect.unit (s := S2x16384) (k0_off2 k) S1x16.size (k0_off2_inb k)).toLoadRect X
abbrev rd2 {e : EltTy} (M : Memref sig .scVector .vmem S2x16384 e) (X : Buf (Elt F) ((row1 M).view.loc (thr d L))) (k : Fin k0_t2_loop.trips) :=
  View.readAt (Elt F) M.view (Rect.unit (s := S2x16384) (k0_off3 k) S1x16.size (k0_off3_inb k)).toLoadRect X
abbrev rd3 {e : EltTy} (M : Memref sig .scVector .vmem S2x16384 e) (X : Buf (Elt F) ((row0 M).view.loc (thr d L))) (k : Fin k0_t3_loop.trips) :=
  View.readAt (Elt F) M.view (Rect.unit (s := S2x16384) (k0_off4 k) S1x16.size (k0_off4_inb k)).toLoadRect X

/-- The running sum and count after `k` trips of a chunk's loop, from the pair `a`, the chunk's rows at `A B C`. -/
def fold1 (A : Buf (Elt F) ((row0 sP).view.loc (thr d L))) (B : Buf (Elt F) ((row0 sG).view.loc (thr d L)))
    (C : Buf (Elt F) ((row0 sM).view.loc (thr d L))) (a : FVec F S16 .f32 × FVec F S16 .f32) : ℕ → FVec F S16 .f32 × FVec F S16 .f32
  | 0 => a
  | k + 1 => if h : k < k0_t1_loop.trips then
      (k0_pay4 (fold1 A B C a k).1 (rd1 d L sP A ⟨k, h⟩) (rd1 d L sG B ⟨k, h⟩) (rd1 d L sM C ⟨k, h⟩), k0_pay5 (fold1 A B C a k).2 (rd1 d L sM C ⟨k, h⟩))
    else fold1 A B C a k
def fold2 (A : Buf (Elt F) ((row1 sP).view.loc (thr d L))) (B : Buf (Elt F) ((row1 sG).view.loc (thr d L)))
    (C : Buf (Elt F) ((row1 sM).view.loc (thr d L))) (a : FVec F S16 .f32 × FVec F S16 .f32) : ℕ → FVec F S16 .f32 × FVec F S16 .f32
  | 0 => a
  | k + 1 => if h : k < k0_t2_loop.trips then
      (k0_pay7 (fold2 A B C a k).1 (rd2 d L sP A ⟨k, h⟩) (rd2 d L sG B ⟨k, h⟩) (rd2 d L sM C ⟨k, h⟩), k0_pay8 (fold2 A B C a k).2 (rd2 d L sM C ⟨k, h⟩))
    else fold2 A B C a k
def fold3 (A : Buf (Elt F) ((row0 sP).view.loc (thr d L))) (B : Buf (Elt F) ((row0 sG).view.loc (thr d L)))
    (C : Buf (Elt F) ((row0 sM).view.loc (thr d L))) (a : FVec F S16 .f32 × FVec F S16 .f32) : ℕ → FVec F S16 .f32 × FVec F S16 .f32
  | 0 => a
  | k + 1 => if h : k < k0_t3_loop.trips then
      (k0_pay10 (fold3 A B C a k).1 (rd3 d L sP A ⟨k, h⟩) (rd3 d L sG B ⟨k, h⟩) (rd3 d L sM C ⟨k, h⟩), k0_pay11 (fold3 A B C a k).2 (rd3 d L sM C ⟨k, h⟩))
    else fold3 A B C a k

/-- A loop's invariant: the chunk's three rows as they landed, the carried pair the running pair. -/
def inv1 (A : Buf (Elt F) ((row0 sP).view.loc (thr d L))) (B : Buf (Elt F) ((row0 sG).view.loc (thr d L)))
    (C : Buf (Elt F) ((row0 sM).view.loc (thr d L))) (a : FVec F S16 .f32 × FVec F S16 .f32) (k : ℕ) (acc : FVec F S16 .f32 × FVec F S16 .f32) : sProp 𝕄 :=
  iprop(own d L (row0 sP) A ∗ own d L (row0 sG) B ∗ own d L (row0 sM) C ∗ ⌜acc = fold1 d L A B C a k⌝)
def inv2 (A : Buf (Elt F) ((row1 sP).view.loc (thr d L))) (B : Buf (Elt F) ((row1 sG).view.loc (thr d L)))
    (C : Buf (Elt F) ((row1 sM).view.loc (thr d L))) (a : FVec F S16 .f32 × FVec F S16 .f32) (k : ℕ) (acc : FVec F S16 .f32 × FVec F S16 .f32) : sProp 𝕄 :=
  iprop(own d L (row1 sP) A ∗ own d L (row1 sG) B ∗ own d L (row1 sM) C ∗ ⌜acc = fold2 d L A B C a k⌝)
def inv3 (A : Buf (Elt F) ((row0 sP).view.loc (thr d L))) (B : Buf (Elt F) ((row0 sG).view.loc (thr d L)))
    (C : Buf (Elt F) ((row0 sM).view.loc (thr d L))) (a : FVec F S16 .f32 × FVec F S16 .f32) (k : ℕ) (acc : FVec F S16 .f32 × FVec F S16 .f32) : sProp 𝕄 :=
  iprop(own d L (row0 sP) A ∗ own d L (row0 sG) B ∗ own d L (row0 sM) C ∗ ⌜acc = fold3 d L A B C a k⌝)

/-- The three flat inputs' contents at the subcore's location, as the plain vectors they are. -/
def asP (f : Buf (Elt F) (pV.view.loc (thr d L))) : FVec F S8388608 .f32 := f
def asG (f : Buf (Elt F) (gV.view.loc (thr d L))) : FVec F S8388608 .f32 := f
def asM (f : Buf (Elt F) (mV.view.loc (thr d L))) : IVec S8388608 32 := f
/-- The partials array's contents at the subcore's location, as the plain array they are. -/
def asOut (f : Buf (Elt F) ((oRowK L).view.loc (thr d L))) : FVec F S32x32 .f32 := f
/-- The task's row of the partials array, as a set of plain indices. -/
def oRowIdx : Finset S32x32.Idx := (oRowK L).view.set

/-- What the task's run starts from: read shares of the three flat inputs, its row of the partials array, the six
    scratch rows and the output scratch, the three DMA counters at zero, what the subcore owes. -/
def corePre (q q' : PosShare TreeShare) (O : CellTallies nD τ sig (HIx 1)) (W : Waits sig (HIx 1))
    (fp : Buf (Elt F) (pV.view.loc (thr d L))) (fg : Buf (Elt F) (gV.view.loc (thr d L))) (fm : Buf (Elt F) (mV.view.loc (thr d L)))
    (fo : Buf (Elt F) ((oRowK L).view.loc (thr d L)))
    (a0 : Buf (Elt F) ((row0 sP).view.loc (thr d L))) (a1 : Buf (Elt F) ((row1 sP).view.loc (thr d L)))
    (b0 : Buf (Elt F) ((row0 sG).view.loc (thr d L))) (b1 : Buf (Elt F) ((row1 sG).view.loc (thr d L)))
    (c0 : Buf (Elt F) ((row0 sM).view.loc (thr d L))) (c1 : Buf (Elt F) ((row1 sM).view.loc (thr d L)))
    (fs : Buf (Elt F) (sO.view.loc (thr d L))) : sProp 𝕄 :=
  iprop(levAts (K (F := F)).L (K (F := F)).lev
        ∗ (pV.view.loc (thr d L) ↦{q} fp) ∗ (gV.view.loc (thr d L) ↦{q} fg) ∗ (mV.view.loc (thr d L) ↦{q} fm)
        ∗ (pV.view.loc (thr d L) ↦{q'} fp) ∗ (gV.view.loc (thr d L) ↦{q'} fg) ∗ (mV.view.loc (thr d L) ↦{q'} fm)
        ∗ ((oRowK L).view.loc (thr d L) ↦[(oRowK L).view.set]{fullShare} fo)
        ∗ own d L (row0 sP) a0 ∗ own d L (row1 sP) a1 ∗ own d L (row0 sG) b0 ∗ own d L (row1 sG) b1
        ∗ own d L (row0 sM) c0 ∗ own d L (row1 sM) c1 ∗ (sO.view.loc (thr d L) ↦{fullShare} fs)
        ∗ semVal (sem0 d L) 0 ∗ semVal (sem1 d L) 0 ∗ semVal (sem2 d L) 0
        ∗ owes (thr d L) O W)

end Tile

end Cert.Kernel.Tile

end
-- ==== Proof.K.TileValue.lean ====
/-
  One subcore task's value. The task copies its 49152 positions of each flat input in three stretches of 16384 into a
  two-row scratch — the first into row 0, the second into row 1, the third into row 0 again — and after each copy a loop
  of 1024 trips reads the row sixteen lanes at a time, carrying a running sum and a running count per lane. Trip `k` of
  the loop over stretch `j` therefore reads positions `49152 w + 16 (1024 j + k) ..` of the inputs, `w` the task's
  number: the lanes of the specification's step `1024 j + k`. So the pair carried out of the third loop is the
  specification's pair after all 3072 steps, and the task's row of the partial results — written whole from an output
  scratch that holds the sums in entries 0 .. 15 and the counts in entries 16 .. 31 — is the specification's row.
-/
import proofs.«210416_g85048942395886_cont_9to1c4b_614_23_alg».proof.Proof.K.TileDefs
import Idealize.ShloMosaic.Lib.ValueIdx
import Idealize.ShloMosaic.Lib.Pipeline.Value
import Idealize.ShloMosaic.Lib.Exec

noncomputable section

namespace Cert.Kernel.Tile

open Cert.Kernel Cert.Kernel.Gen Cert.Kernel.Common
open Idealize.ShloMosaic Idealize.ShloMosaic.ValueIdx
open Idealize.ShloMosaic.SparseCore (S V T)
open Idealize.SL.Sem

variable {F : FTy → Type}

/-! ## Reading a row of a two-row scratch, and sixteen lanes of it -/

section Rows
variable {e : EltTy} {Val : EltTy → Type}

/-- Entry `j` of row 0 of a two-row scratch is entry `(0, j)` of the scratch. -/
theorem read_row0 (M : Memref sig .scVector .vmem S2x16384 e) (X : M.view.ty.Contents Val) (j : Fin 16384) :
    (row0 M).view.read Val X (ix1 j) = M.view.read Val X (ix2 (0 : Fin 2) j) := by
  have h := congrFun (Memref.read_squeeze_slice (Val := Val) M (Rect.unit (s := S2x16384) ![0, 0] S1x16384.size inb_S2x16384_S1x16384_0_0)
    (fun _ => rfl) squeezes_S1x16384_S16384 (by decide) X) (ix1 j)
  refine h.trans ((shapeCast_apply _ _ (ix1 j) (ix2 (0 : Fin 1) j) (by
    rw [Shape.rowMajor_val_two, Shape.rowMajor_val_one]; show 0 * 16384 + j.val = j.val; omega)).trans ?_)
  rw [View.readAt_apply]
  refine congrArg (M.view.read Val X) (funext fun a => Fin.ext ?_)
  match a with
  | ⟨0, _⟩ => rfl
  | ⟨1, _⟩ => show 0 + 1 * j.val = j.val; omega

/-- Entry `j` of row 1 of a two-row scratch is entry `(1, j)` of the scratch. -/
theorem read_row1 (M : Memref sig .scVector .vmem S2x16384 e) (X : M.view.ty.Contents Val) (j : Fin 16384) :
    (row1 M).view.read Val X (ix1 j) = M.view.read Val X (ix2 (1 : Fin 2) j) := by
  have h := congrFun (Memref.read_squeeze_slice (Val := Val) M (Rect.unit (s := S2x16384) ![1, 0] S1x16384.size inb_S2x16384_S1x16384_1_0)
    (fun _ => rfl) squeezes_S1x16384_S16384 (by decide) X) (ix1 j)
  refine h.trans ((shapeCast_apply _ _ (ix1 j) (ix2 (0 : Fin 1) j) (by
    rw [Shape.rowMajor_val_two, Shape.rowMajor_val_one]; show 0 * 16384 + j.val = j.val; omega)).trans ?_)
  rw [View.readAt_apply]
  refine congrArg (M.view.read Val X) (funext fun a => Fin.ext ?_)
  match a with
  | ⟨0, _⟩ => rfl
  | ⟨1, _⟩ => show 0 + 1 * j.val = j.val; omega

/-- Sixteen lanes read through the whole scratch at row `b`, columns `16 k ..`: lane `y` is entry `(b, 16 k + y)`. -/
theorem read_box (M : Memref sig .scVector .vmem S2x16384 e) (X : M.view.ty.Contents Val) (off : Fin 2 → ℕ)
    (inb : ∀ a, off a + S1x16.size a ≤ S2x16384.size a) (b : Fin 2) (k : ℕ) (hk : k < 1024) (hoff : off = ![b.val, 16 * k])
    (y : S1x16.Idx) :
    M.view.readAt Val (Rect.unit (s := S2x16384) off S1x16.size inb).toLoadRect X y
      = M.view.read Val X (ix2 b (⟨16 * k + (y 1).val, by have h1 : (y 1).val < 16 := (y 1).isLt; omega⟩ : Fin 16384)) := by
  have h0 : (y 0).val < 1 := (y 0).isLt
  rw [View.readAt_apply]
  refine congrArg (M.view.read Val X) (funext fun a => Fin.ext ?_)
  match a with
  | ⟨0, _⟩ =>
    show off 0 + 1 * (y 0).val = b.val
    rw [hoff]; show b.val + 1 * (y 0).val = b.val; omega
  | ⟨1, _⟩ =>
    show off 1 + 1 * (y 1).val = 16 * k + (y 1).val
    rw [hoff]; show 16 * k + 1 * (y 1).val = 16 * k + (y 1).val; omega

end Rows

/-! ## A stretch of a flat input, and what a trip reads after the stretch landed in a scratch row -/

section Stretch
variable {e : EltTy} {Val : EltTy → Type}

/-- A stretch of 16384 positions of a flat array from position `base`: entry `z` is position `base + z`. -/
theorem read_stretch (A : Memref sig .scVector .hbm S8388608 e) (f : A.view.ty.Contents Val) (off : Fin 1 → ℕ)
    (inb : ∀ a, off a + S16384.size a ≤ S8388608.size a) (base : ℕ) (hoff : off = ![base]) (hb : base + 16384 ≤ 8388608) (j : Fin 16384) :
    (A.slice (Rect.unit (s := S8388608) off S16384.size inb) (fun _ => rfl)).view.read Val f (ix1 j)
      = A.view.read Val f (ix1 (⟨base + j.val, by omega⟩ : Fin 8388608)) := by
  show A.view.read Val f ((Rect.unit (s := S8388608) off S16384.size inb).emb (ix1 j)) = _
  refine congrArg (A.view.read Val f) (funext fun a => Fin.ext ?_)
  match a with
  | ⟨0, _⟩ =>
    show off 0 + 1 * j.val = base + j.val
    rw [hoff]; show base + 1 * j.val = base + j.val; omega

end Stretch

section Trips
variable (d : Dev nD) (L : grid0.Coords) [FloatOps F] [∀ e, Nonempty (Elt F e)] {e : EltTy}

/-- The task's number is below thirty-two. -/
theorem task_lt : 2 * (L 1).val + (L 0).val < 32 := by
  have h0 : (L 0).val < 2 := (L 0).isLt
  have h1 : (L 1).val < 16 := (L 1).isLt
  omega

/-- Trip `k` of the first loop, the first stretch landed in row 0: lane `y` is position
    `49152 w + 16 k + y` of the flat input. -/
theorem trip1 (A : Memref sig .scVector .hbm S8388608 e) (Sc : Memref sig .scVector .vmem S2x16384 e)
    (f : Buf (Elt F) (A.view.loc (thr d L))) (x0 : Buf (Elt F) ((row0 Sc).view.loc (thr d L))) (k : Fin k0_t1_loop.trips) :
    rd1 d L Sc ((row0 Sc).view.writes (Elt F) x0 [⟨Rect.whole S16384, ReadAs.same.apply (View.read (Elt F) (src0 A L).view f)⟩]) k
      = fun y => A.view.read (Elt F) f (Spec.flat (49152 * (2 * (L 1).val + (L 0).val) + 16 * k.val + (y 1).val)) := by
  have hk : k.val < 1024 := lt_of_lt_of_le k.isLt k0_t1_abs.2.1
  have hw := task_lt L
  funext y
  have h1 : (y 1).val < 16 := (y 1).isLt
  refine (read_box Sc _ (k0_off2 k) (k0_off2_inb k) 0 k.val hk (k0_off2_eq k) y).trans ?_
  refine (read_row0 Sc _ _).symm.trans ?_
  rw [View.read_writes_whole]
  refine (read_stretch A f (k0_off1 L 0#32) (k0_off1_inb L 0) (98304 * (L 1).val + 49152 * (L 0).val + 16384 * 0)
    (k0_off1_eq L 0) (by omega) _).trans ?_
  exact congrArg (A.view.read (Elt F) f) (congrArg ix1 (Fin.ext (by
    show 98304 * (L 1).val + 49152 * (L 0).val + 16384 * 0 + (16 * k.val + (y 1).val)
      = (49152 * (2 * (L 1).val + (L 0).val) + 16 * k.val + (y 1).val) % 8388608
    omega)))

/-- Trip `k` of the second loop, the second stretch landed in row 1: position `49152 w + 16 (1024 + k) + y`. -/
theorem trip2 (A : Memref sig .scVector .hbm S8388608 e) (Sc : Memref sig .scVector .vmem S2x16384 e)
    (f : Buf (Elt F) (A.view.loc (thr d L))) (x1 : Buf (Elt F) ((row1 Sc).view.loc (thr d L))) (k : Fin k0_t2_loop.trips) :
    rd2 d L Sc ((row1 Sc).view.writes (Elt F) x1 [⟨Rect.whole S16384, ReadAs.same.apply (View.read (Elt F) (src1 A L).view f)⟩]) k
      = fun y => A.view.read (Elt F) f (Spec.flat (49152 * (2 * (L 1).val + (L 0).val) + 16 * (1024 + k.val) + (y 1).val)) := by
  have hk : k.val < 1024 := lt_of_lt_of_le k.isLt k0_t2_abs.2.1
  have hw := task_lt L
  funext y
  have h1 : (y 1).val < 16 := (y 1).isLt
  refine (read_box Sc _ (k0_off3 k) (k0_off3_inb k) 1 k.val hk (k0_off3_eq k) y).trans ?_
  refine (read_row1 Sc _ _).symm.trans ?_
  rw [View.read_writes_whole]
  refine (read_stretch A f (k0_off1 L 16384#32) (k0_off1_inb L 1) (98304 * (L 1).val + 49152 * (L 0).val + 16384 * 1)
    (k0_off1_eq L 1) (by omega) _).trans ?_
  exact congrArg (A.view.read (Elt F) f) (congrArg ix1 (Fin.ext (by
    show 98304 * (L 1).val + 49152 * (L 0).val + 16384 * 1 + (16 * k.val + (y 1).val)
      = (49152 * (2 * (L 1).val + (L 0).val) + 16 * (1024 + k.val) + (y 1).val) % 8388608
    omega)))

/-- Trip `k` of the third loop, the third stretch landed in row 0 over the first: position
    `49152 w + 16 (2048 + k) + y`. -/
theorem trip3 (A : Memref sig .scVector .hbm S8388608 e) (Sc : Memref sig .scVector .vmem S2x16384 e)
    (f : Buf (Elt F) (A.view.loc (thr d L))) (x0 : Buf (Elt F) ((row0 Sc).view.loc (thr d L))) (k : Fin k0_t3_loop.trips) :
    rd3 d L Sc ((row0 Sc).view.writes (Elt F) x0 [⟨Rect.whole S16384, ReadAs.same.apply (View.read (Elt F) (src2 A L).view f)⟩]) k
      = fun y => A.view.read (Elt F) f (Spec.flat (49152 * (2 * (L 1).val + (L 0).val) + 16 * (2048 + k.val) + (y 1).val)) := by
  have hk : k.val < 1024 := lt_of_lt_of_le k.isLt k0_t3_abs.2.1
  have hw := task_lt L
  funext y
  have h1 : (y 1).val < 16 := (y 1).isLt
  refine (read_box Sc _ (k0_off4 k) (k0_off4_inb k) 0 k.val hk (k0_off4_eq k) y).trans ?_
  refine (read_row0 Sc _ _).symm.trans ?_
  rw [View.read_writes_whole]
  refine (read_stretch A f (k0_off1 L 32768#32) (k0_off1_inb L 2) (98304 * (L 1).val + 49152 * (L 0).val + 16384 * 2)
    (k0_off1_eq L 2) (by omega) _).trans ?_
  exact congrArg (A.view.read (Elt F) f) (congrArg ix1 (Fin.ext (by
    show 98304 * (L 1).val + 49152 * (L 0).val + 16384 * 2 + (16 * k.val + (y 1).val)
      = (49152 * (2 * (L 1).val + (L 0).val) + 16 * (2048 + k.val) + (y 1).val) % 8388608
    omega)))

end Trips

/-! ## The three loops' running pairs are the specification's -/

section Folds
variable (d : Dev nD) (L : grid0.Coords) [FloatOps F] [∀ e, Nonempty (Elt F e)]

/-- Each loop makes 1024 trips. -/
theorem trips1 : Scf.trips k0_t1_loop.lb k0_t1_loop.ub k0_t1_loop.st = 1024 := by decide
theorem trips2 : Scf.trips k0_t2_loop.lb k0_t2_loop.ub k0_t2_loop.st = 1024 := by decide
theorem trips3 : Scf.trips k0_t3_loop.lb k0_t3_loop.ub k0_t3_loop.st = 1024 := by decide

/-- If trip `k` of the first loop reads the sixteen lanes of step `base + k`, the running pair from the
    specification's pair after `base` steps is, after `n` trips, the specification's after `base + n` steps. -/
theorem fold1_eq (A : Buf (Elt F) ((row0 sP).view.loc (thr d L))) (B : Buf (Elt F) ((row0 sG).view.loc (thr d L)))
    (C : Buf (Elt F) ((row0 sM).view.loc (thr d L))) (P G : FVec F S8388608 .f32) (M : IVec S8388608 32) (w base : ℕ)
    (hA : ∀ k, rd1 d L sP A k = Spec.lanes16 P (49152 * w + 16 * (base + k.val)))
    (hB : ∀ k, rd1 d L sG B k = Spec.lanes16 G (49152 * w + 16 * (base + k.val)))
    (hC : ∀ k, rd1 d L sM C k = Spec.lanes16 M (49152 * w + 16 * (base + k.val)))
    (n : ℕ) (hn : n ≤ k0_t1_loop.trips) :
    fold1 d L A B C (Spec.tileAcc P G M w base) n = Spec.tileAcc P G M w (base + n) := by
  induction n with
  | zero => rfl
  | succ n ih =>
    have h : n < k0_t1_loop.trips := hn
    rw [fold1, dif_pos h, ih (le_of_lt h), hA, hB, hC]
    rfl
theorem fold2_eq (A : Buf (Elt F) ((row1 sP).view.loc (thr d L))) (B : Buf (Elt F) ((row1 sG).view.loc (thr d L)))
    (C : Buf (Elt F) ((row1 sM).view.loc (thr d L))) (P G : FVec F S8388608 .f32) (M : IVec S8388608 32) (w base : ℕ)
    (hA : ∀ k, rd2 d L sP A k = Spec.lanes16 P (49152 * w + 16 * (base + k.val)))
    (hB : ∀ k, rd2 d L sG B k = Spec.lanes16 G (49152 * w + 16 * (base + k.val)))
    (hC : ∀ k, rd2 d L sM C k = Spec.lanes16 M (49152 * w + 16 * (base + k.val)))
    (n : ℕ) (hn : n ≤ k0_t2_loop.trips) :
    fold2 d L A B C (Spec.tileAcc P G M w base) n = Spec.tileAcc P G M w (base + n) := by
  induction n with
  | zero => rfl
  | succ n ih =>
    have h : n < k0_t2_loop.trips := hn
    rw [fold2, dif_pos h, ih (le_of_lt h), hA, hB, hC]
    rfl
theorem fold3_eq (A : Buf (Elt F) ((row0 sP).view.loc (thr d L))) (B : Buf (Elt F) ((row0 sG).view.loc (thr d L)))
    (C : Buf (Elt F) ((row0 sM).view.loc (thr d L))) (P G : FVec F S8388608 .f32) (M : IVec S8388608 32) (w base : ℕ)
    (hA : ∀ k, rd3 d L sP A k = Spec.lanes16 P (49152 * w + 16 * (base + k.val)))
    (hB : ∀ k, rd3 d L sG B k = Spec.lanes16 G (49152 * w + 16 * (base + k.val)))
    (hC : ∀ k, rd3 d L sM C k = Spec.lanes16 M (49152 * w + 16 * (base + k.val)))
    (n : ℕ) (hn : n ≤ k0_t3_loop.trips) :
    fold3 d L A B C (Spec.tileAcc P G M w base) n = Spec.tileAcc P G M w (base + n) := by
  induction n with
  | zero => rfl
  | succ n ih =>
    have h : n < k0_t3_loop.trips := hn
    rw [fold3, dif_pos h, ih (le_of_lt h), hA, hB, hC]
    rfl

end Folds

/-! ## The output scratch and the task's row of the partial results -/

section Output
variable (d : Dev nD) (L : grid0.Coords) [FloatOps F] [∀ e, Nonempty (Elt F e)]

/-- The output scratch after the two sixteen-lane stores: entry `j` below sixteen is lane `j` of the first, entry
    `j` from sixteen on is lane `j − 16` of the second. -/
theorem scratch_read (fs : Buf (Elt F) (sO.view.loc (thr d L))) (r : FVec F S16 .f32 × FVec F S16 .f32) (j : Fin 32) :
    sO.view.read (Elt F) (sO.view.writes (Elt F) fs
        [⟨Rect.unit ![16] ![16] inb_S32_S16_16, k0_pay13 r.2⟩, ⟨Rect.unit ![0] ![16] inb_S32_S16_0, k0_pay12 r.1⟩]) (ix1 j)
      = if h : j.val < 16 then k0_pay12 r.1 (ix1 (⟨j.val, h⟩ : Fin 16))
        else k0_pay13 r.2 (ix1 (⟨j.val % 16, Nat.mod_lt _ (by decide)⟩ : Fin 16)) := by
  by_cases h : j.val < 16
  · rw [dif_pos h]
    have e : (ix1 j : S32.Idx) = (Rect.unit (s := S32) ![0] ![16] inb_S32_S16_0).emb (ix1 (⟨j.val, h⟩ : Fin 16)) :=
      funext fun a => Fin.ext (by match a with | ⟨0, _⟩ => show j.val = 0 + 1 * j.val; omega)
    have hn : (ix1 j : S32.Idx) ∉ Finset.univ.map (Rect.unit (s := S32) ![16] ![16] inb_S32_S16_16).emb := by
      rw [Rect.map_emb_univ, Rect.mem_set_unit]
      intro hm
      have := (hm 0).1
      have h' : 16 ≤ j.val := this
      omega
    rw [View.writes_cons, View.read_slice_write_of_not_mem _ _ _ _ hn, e]
    exact View.read_writes_cons_emb _ _ _ _ [] _
  · rw [dif_neg h]
    have hj : j.val < 32 := j.isLt
    have e : (ix1 j : S32.Idx) = (Rect.unit (s := S32) ![16] ![16] inb_S32_S16_16).emb (ix1 (⟨j.val % 16, Nat.mod_lt _ (by decide)⟩ : Fin 16)) :=
      funext fun a => Fin.ext (by match a with | ⟨0, _⟩ => show j.val = 16 + 1 * (j.val % 16); omega)
    rw [e]
    exact View.read_writes_cons_emb _ _ _ _ _ _

/-- Entry `z` of the task's row of the partial results is entry `(w, z)` of the array. -/
theorem oRow_emb (j : Fin 32) :
    ((oRowK L).view.emb (ix1 j) : S32x32.Idx) = ix2 (⟨2 * (L 1).val + (L 0).val, task_lt L⟩ : Fin 32) j := by
  show (Rect.unit (s := S32x32) (k0_off5 L) S1x32.size (k0_off5_inb L)).emb (Shape.reshapeEquiv _ (ix1 j)) = _
  refine (congrArg _ (Shape.reshapeEquiv_eq_of_rowMajor _ (y := ix2 (0 : Fin 1) j) (by
    rw [Shape.rowMajor_val_two, Shape.rowMajor_val_one]; show 0 * 32 + j.val = j.val; omega))).trans ?_
  funext a
  refine Fin.ext ?_
  match a with
  | ⟨0, _⟩ =>
    show (k0_off5 L) 0 + 1 * 0 = 2 * (L 1).val + (L 0).val
    rw [k0_off5_eq]; rfl
  | ⟨1, _⟩ =>
    show (k0_off5 L) 1 + 1 * j.val = j.val
    rw [k0_off5_eq]; show 0 + 1 * j.val = j.val; omega

/-- THE TASK'S VALUE: after the three stretches have landed and the three loops have run, the task's row of the partial
    results, written whole from the output scratch, is the specification's row. -/
theorem tile_value
    (fp : Buf (Elt F) (pV.view.loc (thr d L))) (fg : Buf (Elt F) (gV.view.loc (thr d L))) (fm : Buf (Elt F) (mV.view.loc (thr d L)))
    (fo : Buf (Elt F) ((oRowK L).view.loc (thr d L))) (fs : Buf (Elt F) (sO.view.loc (thr d L)))
    (a0 : Buf (Elt F) ((row0 sP).view.loc (thr d L))) (a1 : Buf (Elt F) ((row1 sP).view.loc (thr d L)))
    (b0 : Buf (Elt F) ((row0 sG).view.loc (thr d L))) (b1 : Buf (Elt F) ((row1 sG).view.loc (thr d L)))
    (c0 : Buf (Elt F) ((row0 sM).view.loc (thr d L))) (c1 : Buf (Elt F) ((row1 sM).view.loc (thr d L)))
    (A1 : BufTy.Contents (Elt F) (row0 sP).view.ty) (B1 : BufTy.Contents (Elt F) (row0 sG).view.ty) (C1 : BufTy.Contents (Elt F) (row0 sM).view.ty)
    (A2 : BufTy.Contents (Elt F) (row1 sP).view.ty) (B2 : BufTy.Contents (Elt F) (row1 sG).view.ty) (C2 : BufTy.Contents (Elt F) (row1 sM).view.ty)
    (A3 : BufTy.Contents (Elt F) (row0 sP).view.ty) (B3 : BufTy.Contents (Elt F) (row0 sG).view.ty) (C3 : BufTy.Contents (Elt F) (row0 sM).view.ty)
    (r1 r2 r3 : FVec F S16 .f32 × FVec F S16 .f32)
    (hA1 : (row0 sP).view.writes (Elt F) a0 [⟨Rect.whole S16384, ReadAs.same.apply (View.read (Elt F) (src0 pV L).view fp)⟩] = A1)
    (hB1 : (row0 sG).view.writes (Elt F) b0 [⟨Rect.whole S16384, ReadAs.same.apply (View.read (Elt F) (src0 gV L).view fg)⟩] = B1)
    (hC1 : (row0 sM).view.writes (Elt F) c0 [⟨Rect.whole S16384, ReadAs.same.apply (View.read (Elt F) (src0 mV L).view fm)⟩] = C1)
    (hr1 : r1 = fold1 d L A1 B1 C1 (k0_pay1, k0_pay2) (Scf.trips k0_t1_loop.lb k0_t1_loop.ub k0_t1_loop.st))
    (hA2 : (row1 sP).view.writes (Elt F) a1 [⟨Rect.whole S16384, ReadAs.same.apply (View.read (Elt F) (src1 pV L).view fp)⟩] = A2)
    (hB2 : (row1 sG).view.writes (Elt F) b1 [⟨Rect.whole S16384, ReadAs.same.apply (View.read (Elt F) (src1 gV L).view fg)⟩] = B2)
    (hC2 : (row1 sM).view.writes (Elt F) c1 [⟨Rect.whole S16384, ReadAs.same.apply (View.read (Elt F) (src1 mV L).view fm)⟩] = C2)
    (hr2 : r2 = fold2 d L A2 B2 C2 r1 (Scf.trips k0_t2_loop.lb k0_t2_loop.ub k0_t2_loop.st))
    (hA3 : (row0 sP).view.writes (Elt F) A1 [⟨Rect.whole S16384, ReadAs.same.apply (View.read (Elt F) (src2 pV L).view fp)⟩] = A3)
    (hB3 : (row0 sG).view.writes (Elt F) B1 [⟨Rect.whole S16384, ReadAs.same.apply (View.read (Elt F) (src2 gV L).view fg)⟩] = B3)
    (hC3 : (row0 sM).view.writes (Elt F) C1 [⟨Rect.whole S16384, ReadAs.same.apply (View.read (Elt F) (src2 mV L).view fm)⟩] = C3)
    (hr3 : r3 = fold3 d L A3 B3 C3 r2 (Scf.trips k0_t3_loop.lb k0_t3_loop.ub k0_t3_loop.st)) :
    ∀ i ∈ oRowIdx L,
      asOut d L ((oRowK L).view.writes (Elt F) fo
        [⟨Rect.whole S32, ReadAs.same.apply (View.read (Elt F) sO.view (sO.view.writes (Elt F) fs
          [⟨Rect.unit ![16] ![16] inb_S32_S16_16, k0_pay13 r3.2⟩, ⟨Rect.unit ![0] ![16] inb_S32_S16_0, k0_pay12 r3.1⟩]))⟩]) i
        = Spec.partials (asP d L fp) (asG d L fg) (asM d L fm) i := by
  -- the three loops' pairs
  have e1 : r1 = Spec.tileAcc (asP d L fp) (asG d L fg) (asM d L fm) (2 * (L 1).val + (L 0).val) (0 + 1024) := by
    rw [hr1, trips1, ← hA1, ← hB1, ← hC1]
    exact fold1_eq d L _ _ _ (asP d L fp) (asG d L fg) (asM d L fm) _ 0
      (fun k => (trip1 d L pV sP fp a0 k).trans (by rw [Nat.zero_add]; rfl))
      (fun k => (trip1 d L gV sG fg b0 k).trans (by rw [Nat.zero_add]; rfl))
      (fun k => (trip1 d L mV sM fm c0 k).trans (by rw [Nat.zero_add]; rfl)) 1024 (le_of_eq trips1.symm)
  have e2 : r2 = Spec.tileAcc (asP d L fp) (asG d L fg) (asM d L fm) (2 * (L 1).val + (L 0).val) (1024 + 1024) := by
    rw [hr2, trips2, ← hA2, ← hB2, ← hC2, e1, Nat.zero_add]
    exact fold2_eq d L _ _ _ (asP d L fp) (asG d L fg) (asM d L fm) _ 1024
      (fun k => (trip2 d L pV sP fp a1 k).trans rfl) (fun k => (trip2 d L gV sG fg b1 k).trans rfl)
      (fun k => (trip2 d L mV sM fm c1 k).trans rfl) 1024 (le_of_eq trips2.symm)
  have e3 : r3 = Spec.tileAcc (asP d L fp) (asG d L fg) (asM d L fm) (2 * (L 1).val + (L 0).val) 3072 := by
    rw [hr3, trips3, ← hA3, ← hB3, ← hC3, e2, show 1024 + 1024 = 2048 from rfl]
    exact fold3_eq d L _ _ _ (asP d L fp) (asG d L fg) (asM d L fm) _ 2048
      (fun k => (trip3 d L pV sP fp A1 k).trans rfl) (fun k => (trip3 d L gV sG fg B1 k).trans rfl)
      (fun k => (trip3 d L mV sM fm C1 k).trans rfl) 1024 (le_of_eq trips3.symm)
  -- the task's row
  intro i hi
  obtain ⟨z, -, rfl⟩ := Finset.mem_map.mp (show i ∈ Finset.univ.map (oRowK L).view.emb from hi)
  obtain ⟨j, rfl⟩ : ∃ j : Fin 32, z = ix1 j := ⟨z 0, eq_ix1 z⟩
  refine (show asOut d L _ ((oRowK L).view.emb (ix1 j)) = (oRowK L).view.read (Elt F) _ (ix1 j) from rfl).trans ?_
  rw [View.read_writes_whole, oRow_emb]
  refine (scratch_read d L fs r3 j).trans ?_
  rw [e3]
  rfl

end Output

end Cert.Kernel.Tile

end
-- ==== Proof.K.TileRun.lean ====
/-
  One subcore task's body, run symbolically from the task's holdings to the task's results.

  The task issues the first two stretches' copies (three copies per stretch — the two float inputs and the mask — each
  stretch on its own DMA semaphore: the three copies of a stretch are started together and all three waited for before
  the row they fill is read, so a wait that passes early does no harm), waits for the first stretch, folds its 1024
  sixteen-lane groups into the running pair, reissues that row for the third stretch, waits for the second, folds it,
  waits for the third, folds it, stores the pair into the output scratch and copies the scratch to its row of the
  partials array. Each input is held as two read shares, since two stretches of one input are in flight at once.
  The loops are passed by their invariant (the rows as they landed, the carried pair the fold so far). What the row
  of the partials array holds at the end is the specification's `partials` there: the value lemma of the module before.
-/
import proofs.«210416_g85048942395886_cont_9to1c4b_614_23_alg».proof.Proof.K.TileDefs
import proofs.«210416_g85048942395886_cont_9to1c4b_614_23_alg».proof.Proof.K.TileValue

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)
variable [FloatOps F] [∀ e, Nonempty (Elt F e)]

set_option maxHeartbeats 4000000 in
/-- The task's run: from read shares of the inputs, its row of the partials array, its scratch rows and its three DMA
    counters at zero, to the same with the row at the specification's values, every wait it recorded at the kernels'
    own index. -/
theorem tile_core (q q' : PosShare TreeShare) (O : CellTallies nD τ sig (HIx 1)) (W : Waits sig (HIx 1)) (hO : ∀ g, O g none = 0)
    (fp : Buf (Elt F) (pV.view.loc (thr d L))) (fg : Buf (Elt F) (gV.view.loc (thr d L))) (fm : Buf (Elt F) (mV.view.loc (thr d L)))
    (fo : Buf (Elt F) ((oRowK L).view.loc (thr d L)))
    (a0 : Buf (Elt F) ((row0 sP).view.loc (thr d L))) (a1 : Buf (Elt F) ((row1 sP).view.loc (thr d L)))
    (b0 : Buf (Elt F) ((row0 sG).view.loc (thr d L))) (b1 : Buf (Elt F) ((row1 sG).view.loc (thr d L)))
    (c0 : Buf (Elt F) ((row0 sM).view.loc (thr d L))) (c1 : Buf (Elt F) ((row1 sM).view.loc (thr d L)))
    (fs : Buf (Elt F) (sO.view.loc (thr d L))) :
    corePre d L q q' O W fp fg fm fo a0 a1 b0 b1 c0 c1 fs
      ⊢ wp frame (wpE (defs₀ (F := F)) 𝒱₀ (thr d L) none) Set.univ
          (cc0_k L pV (Memref.isWhole_whole _) gV (Memref.isWhole_whole _) mV (Memref.isWhole_whole _) oV (Memref.isWhole_whole _)
            sP (Memref.isWhole_whole _) sG (Memref.isWhole_whole _) sM (Memref.isWhole_whole _) sO (Memref.isWhole_whole _)
            cc0_scratch4 cc0_scratch5 cc0_scoped0)
          fun _ => iprop((pV.view.loc (thr d L) ↦{q} fp) ∗ (gV.view.loc (thr d L) ↦{q} fg) ∗ (mV.view.loc (thr d L) ↦{q} fm)
            ∗ (pV.view.loc (thr d L) ↦{q'} fp) ∗ (gV.view.loc (thr d L) ↦{q'} fg) ∗ (mV.view.loc (thr d L) ↦{q'} fm)
            ∗ (∃ fo', ((oRowK L).view.loc (thr d L) ↦[(oRowK L).view.set]{fullShare} fo')
                ∗ ⌜∀ i ∈ oRowIdx L, asOut d L fo' i = Spec.partials (asP d L fp) (asG d L fg) (asM d L fm) i⌝)
            ∗ (∃ f, own d L (row0 sP) f) ∗ (∃ f, own d L (row1 sP) f) ∗ (∃ f, own d L (row0 sG) f) ∗ (∃ f, own d L (row1 sG) f)
            ∗ (∃ f, own d L (row0 sM) f) ∗ (∃ f, own d L (row1 sM) f) ∗ (∃ f, sO.view.loc (thr d L) ↦{fullShare} f)
            ∗ semVal (sem0 d L) 0 ∗ semVal (sem1 d L) 0 ∗ semVal (sem2 d L) 0
            ∗ ∃ W', ⌜∀ p ∈ W', p ∈ W ∨ p.2 = none⌝ ∗ owes (thr d L) O W') := by
  simp only [cc0_k_eq_skeleton]; unfold cc0_k_skel
  simp only [k0_part4_eq_skeleton]; unfold k0_part4_skel
  simp only [k0_part1_eq_skeleton, k0_part2_eq_skeleton, k0_part3_eq_skeleton]; unfold k0_part1_skel k0_part2_skel k0_part3_skel
  unfold corePre
  iintro ⟨#Hlv, Hp, Hg, Hm, Hp', Hg', Hm', Ho, HP0, HP1, HG0, HG1, HM0, HM1, HsO, Hs0, Hs1, Hs2, HO⟩
  ihave Hmw := ((K (F := F)).mayWaits_none (thr := thr d L) hO) $$ Hlv
  have hB0 : Transfers.BatchOf (thr d L) (SemLoc.dma cc0_scratch4.sem) 3 := trivial
  have hB1 : Transfers.BatchOf (thr d L) (SemLoc.dma cc0_scratch5.sem) 3 := trivial
  sl_exec
  repeat sl_rw [bind_assoc]
  generalize hA1 : (row0 sP).view.writes (Elt F) a0 _ = A1
  generalize hB1 : (row0 sG).view.writes (Elt F) b0 _ = B1
  generalize hC1 : (row0 sM).view.writes (Elt F) c0 _ = C1
  sl_for (inv1 d L A1 B1 C1 (k0_pay1, k0_pay2)) $$ [HP0 HG0 HM0]
  case region =>
    intro k acc
    unfold inv1
    iintro ⟨HA, HB, HC, %hacc⟩
    have h1 := box_row0_t1 sP k
    have h2 := box_row0_t1 sG k
    have h3 := box_row0_t1 sM k
    sl_exec
    sl_step
    isplitl [HA]; · iexact HA
    isplitl [HB]; · iexact HB
    isplitl [HC]; · iexact HC
    ipureintro
    rw [fold1, dif_pos k.isLt, ← hacc]
    rfl
  · unfold inv1
    isplitl [HP0]; · iexact HP0
    isplitl [HG0]; · iexact HG0
    isplitl [HM0]; · iexact HM0
    ipureintro; rfl
  iintro %r1 HI
  unfold inv1
  icases HI with ⟨HP0, HG0, HM0, %hr1⟩
  sl_exec
  repeat sl_rw [bind_assoc]
  generalize hA2 : (row1 sP).view.writes (Elt F) a1 _ = A2
  generalize hB2 : (row1 sG).view.writes (Elt F) b1 _ = B2
  generalize hC2 : (row1 sM).view.writes (Elt F) c1 _ = C2
  sl_for (inv2 d L A2 B2 C2 r1) $$ [HP1 HG1 HM1]
  case region =>
    intro k acc
    unfold inv2
    iintro ⟨HA, HB, HC, %hacc⟩
    have h1 := box_row1_t2 sP k
    have h2 := box_row1_t2 sG k
    have h3 := box_row1_t2 sM k
    sl_exec
    sl_step
    isplitl [HA]; · iexact HA
    isplitl [HB]; · iexact HB
    isplitl [HC]; · iexact HC
    ipureintro
    rw [fold2, dif_pos k.isLt, ← hacc]
    rfl
  · unfold inv2
    isplitl [HP1]; · iexact HP1
    isplitl [HG1]; · iexact HG1
    isplitl [HM1]; · iexact HM1
    ipureintro; rfl
  iintro %r2 HI
  unfold inv2
  icases HI with ⟨HP1, HG1, HM1, %hr2⟩
  sl_exec
  repeat sl_rw [bind_assoc]
  generalize hA3 : (row0 sP).view.writes (Elt F) A1 _ = A3
  generalize hB3 : (row0 sG).view.writes (Elt F) B1 _ = B3
  generalize hC3 : (row0 sM).view.writes (Elt F) C1 _ = C3
  sl_for (inv3 d L A3 B3 C3 r2) $$ [HP0 HG0 HM0]
  case region =>
    intro k acc
    unfold inv3
    iintro ⟨HA, HB, HC, %hacc⟩
    have h1 := box_row0_t3 sP k
    have h2 := box_row0_t3 sG k
    have h3 := box_row0_t3 sM k
    sl_exec
    sl_step
    isplitl [HA]; · iexact HA
    isplitl [HB]; · iexact HB
    isplitl [HC]; · iexact HC
    ipureintro
    rw [fold3, dif_pos k.isLt, ← hacc]
    rfl
  · unfold inv3
    isplitl [HP0]; · iexact HP0
    isplitl [HG0]; · iexact HG0
    isplitl [HM0]; · iexact HM0
    ipureintro; rfl
  iintro %r3 HI
  unfold inv3
  icases HI with ⟨HP0, HG0, HM0, %hr3⟩
  sl_exec
  sl_step
  isplitl [Hp]; · iexact Hp
  isplitl [Hg]; · iexact Hg
  isplitl [Hm]; · iexact Hm
  isplitl [Hp']; · iexact Hp'
  isplitl [Hg']; · iexact Hg'
  isplitl [Hm']; · iexact Hm'
  isplitl [Ho]
  · iexists _; isplitl [Ho]; · iexact Ho
    ipureintro
    revert hA1 hB1 hC1 hA2 hB2 hC2 hA3 hB3 hC3
    sl_unfold_run_names
    intro hA1 hB1 hC1 hA2 hB2 hC2 hA3 hB3 hC3
    exact tile_value d L fp fg fm fo fs a0 a1 b0 b1 c0 c1 A1 B1 C1 A2 B2 C2 A3 B3 C3 r1 r2 r3 hA1 hB1 hC1 hr1 hA2 hB2 hC2 hr2 hA3 hB3 hC3 hr3
  isplitl [HP0]; · iexists _; iexact HP0
  isplitl [HP1]; · iexists _; iexact HP1
  isplitl [HG0]; · iexists _; iexact HG0
  isplitl [HG1]; · iexists _; iexact HG1
  isplitl [HM0]; · iexists _; iexact HM0
  isplitl [HM1]; · iexists _; iexact HM1
  isplitl [HsO]; · iexists _; iexact HsO
  isplitl [Hs0]; · iexact Hs0
  isplitl [Hs1]; · iexact Hs1
  isplitl [Hs2]; · iexact Hs2
  iexists _; isplitr
  pick_goal 2
  · iexact HO
  · ipureintro; intro p hp
    simp only [Finset.mem_insert] at hp
    rcases hp with rfl | rfl | rfl | rfl | rfl | rfl | rfl | rfl | rfl | rfl | hp
    all_goals first | exact .inr rfl | exact .inl hp

end Tile

end Cert.Kernel.Tile

end
-- ==== Proof.K.TileOblCore.lean ====
/-
  A subcore task against the launch theorem: from its read shares of the three flat inputs and its row of the partials
  array, together with the subcore's scoped buffers and semaphores, the task's body leaves the row at the
  specification's partials and everything else as it found it.

  The subcore's scoped storage is four scratch buffers and three DMA counters (and a rest that is not touched). Each
  two-row scratch, held whole, is its two rows held by their own elements; a read share of an input is two half shares;
  the task's row of the partials array, as the body slices it, is the row the launch handed over. With these the body's
  own theorem applies, and its conclusion folds back the same way.
-/
import proofs.«210416_g85048942395886_cont_9to1c4b_614_23_alg».proof.Proof.K.Hand
import proofs.«210416_g85048942395886_cont_9to1c4b_614_23_alg».proof.Proof.K.TileDefs

noncomputable section

namespace Cert.Kernel.TileObl

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The task's worker number and its row of the partials array -/

/-- The worker number of the task at grid coordinates `L`: SparseCore `L 0`, subcore `L 1`. -/
def wL (L : grid0.Coords) : Fin 32 := Hand.wid ⟨(L 0).val, (L 0).isLt⟩ ⟨(L 1).val, (L 1).isLt⟩

theorem wL_val (L : grid0.Coords) : (wL L).val = 2 * (L 1).val + (L 0).val := rfl

/-- The row the body slices out of the partials array is the worker's row. -/
theorem oRow_eq (L : grid0.Coords) :
    Rect.unit (s := S32x32) (k0_off5 L) S1x32.size (k0_off5_inb L) = Hand.oRow (wL L) := by
  unfold Hand.oRow Rect.part Rect.block
  congr 1 <;> funext a
  · rw [k0_off5_eq]
    match a with
    | 0 => simp [Shape.partIx, Shape.partSize, wL_val]
    | 1 => simp [Shape.partIx, Shape.partSize]
  · match a with
    | 0 => simp [Shape.partSize]
    | 1 => simp [Shape.partSize]

theorem set_oRowK (L : grid0.Coords) : (Tile.oRowK L).view.set = Hand.oRowSet (wL L) := by
  show (((Tile.oV : Memref sig .scVector .hbm S32x32 .f32).view.slice (Rect.unit (s := S32x32) (k0_off5 L) S1x32.size (k0_off5_inb L))).reshape S32 squeezes_S1x32_S32.numel_eq).set
    = ((Tile.oV : Memref sig .scVector .hbm S32x32 .f32).view.slice (Hand.oRow (wL L))).set
  rw [View.set_reshape]
  exact oRow_eq L ▸ rfl

/-- The worker's row as the launch hands it over is the row as the body holds it. -/
theorem pts_oRowK (d : Dev nD) (L : grid0.Coords) (f : Buf (Elt F) (Hand.oLoc d)) :
    ((Tile.oRowK L).view.loc (Tile.thr d L) ↦[(Tile.oRowK L).view.set]{fullShare} f : sProp 𝕄) = Hand.oLoc d ↦[Hand.oRowSet (wL L)]{fullShare} f := by
  rw [set_oRowK]

/-! ## A two-row scratch is its two rows -/

theorem hdiv2 : 2 ∣ S2x16384.size 0 := ⟨1, rfl⟩
abbrev rowSet2 (j : Fin 2) : Finset S2x16384.Idx := (Rect.part (s := S2x16384) (a₀ := 0) hdiv2 j).set

theorem r0_eq : Rect.unit (s := S2x16384) ![0, 0] S1x16384.size inb_S2x16384_S1x16384_0_0 = Rect.part (s := S2x16384) (a₀ := 0) hdiv2 (0 : Fin 2) := by
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem r1_eq : Rect.unit (s := S2x16384) ![1, 0] S1x16384.size inb_S2x16384_S1x16384_1_0 = Rect.part (s := S2x16384) (a₀ := 0) hdiv2 (1 : Fin 2) := by
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem rows2_disjoint : ∀ i ∈ (Finset.univ : Finset (Fin 2)), ∀ j ∈ (Finset.univ : Finset (Fin 2)), i ≠ j → Disjoint (rowSet2 i) (rowSet2 j) :=
  fun _ _ _ _ h => Rect.part_disjoint hdiv2 h
theorem rows2_cover : (Finset.univ : Finset (Fin 2)).biUnion rowSet2 = Finset.univ := Rect.biUnion_part hdiv2

theorem set_row0_sP : (Tile.row0 Tile.sP).view.set = rowSet2 0 := by
  rw [Memref.set_view_squeeze]
  show ((View.whole (cc0_scratch0 : Ref sig .scVector)).slice _).set = _
  rw [View.set_slice_whole, r0_eq]
theorem set_row1_sP : (Tile.row1 Tile.sP).view.set = rowSet2 1 := by
  rw [Memref.set_view_squeeze]
  show ((View.whole (cc0_scratch0 : Ref sig .scVector)).slice _).set = _
  rw [View.set_slice_whole, r1_eq]

/-- The scratch held whole is its two rows, each held by its own elements; -/
theorem sP_rows (d : Dev nD) (L : grid0.Coords) (f : Buf (Elt F) ((Tile.thr d L).loc cc0_scratch0)) :
    ((Tile.thr d L).loc cc0_scratch0 ↦{fullShare} f : sProp 𝕄) = iprop(Tile.own d L (Tile.row0 Tile.sP) f ∗ Tile.own d L (Tile.row1 Tile.sP) f) := by
  unfold Tile.own
  rw [set_row0_sP, set_row1_sP, ← bigSep_univ_two (fun j : Fin 2 => ((Tile.thr d L).loc cc0_scratch0 ↦[rowSet2 j]{fullShare} f : sProp 𝕄)),
    ← pointsTo_biUnion Finset.univ (ℓ := (Tile.thr d L).loc cc0_scratch0) rowSet2 rows2_disjoint, rows2_cover]; try rfl

/-- and two rows at any contents are the scratch whole at some contents. -/
theorem sP_join (d : Dev nD) (L : grid0.Coords) :
    iprop((∃ f, Tile.own d L (Tile.row0 Tile.sP) f) ∗ (∃ f, Tile.own d L (Tile.row1 Tile.sP) f))
      ⊢ (iprop(∃ f, (Tile.thr d L).loc cc0_scratch0 ↦{fullShare} f) : sProp 𝕄) := by
  unfold Tile.own
  rw [set_row0_sP, set_row1_sP]
  iintro ⟨⟨%f0, H0⟩, ⟨%f1, H1⟩⟩
  ihave H := (pointsTo_biUnion_join (Finset.univ : Finset (Fin 2)) (ℓ := (Tile.thr d L).loc cc0_scratch0) rowSet2 (fun j => if j = 0 then f0 else f1) f0 rows2_disjoint) $$ [H0 H1]
  · rw [bigSep_univ_two]
    isplitl [H0]; · iexact H0
    iexact H1
  icases H with ⟨%g, -, Hg⟩
  rw [rows2_cover]
  iexists g; iexact Hg

theorem set_row0_sG : (Tile.row0 Tile.sG).view.set = rowSet2 0 := by
  rw [Memref.set_view_squeeze]
  show ((View.whole (cc0_scratch1 : Ref sig .scVector)).slice _).set = _
  rw [View.set_slice_whole, r0_eq]
theorem set_row1_sG : (Tile.row1 Tile.sG).view.set = rowSet2 1 := by
  rw [Memref.set_view_squeeze]
  show ((View.whole (cc0_scratch1 : Ref sig .scVector)).slice _).set = _
  rw [View.set_slice_whole, r1_eq]

/-- The scratch held whole is its two rows, each held by its own elements; -/
theorem sG_rows (d : Dev nD) (L : grid0.Coords) (f : Buf (Elt F) ((Tile.thr d L).loc cc0_scratch1)) :
    ((Tile.thr d L).loc cc0_scratch1 ↦{fullShare} f : sProp 𝕄) = iprop(Tile.own d L (Tile.row0 Tile.sG) f ∗ Tile.own d L (Tile.row1 Tile.sG) f) := by
  unfold Tile.own
  rw [set_row0_sG, set_row1_sG, ← bigSep_univ_two (fun j : Fin 2 => ((Tile.thr d L).loc cc0_scratch1 ↦[rowSet2 j]{fullShare} f : sProp 𝕄)),
    ← pointsTo_biUnion Finset.univ (ℓ := (Tile.thr d L).loc cc0_scratch1) rowSet2 rows2_disjoint, rows2_cover]; try rfl

/-- and two rows at any contents are the scratch whole at some contents. -/
theorem sG_join (d : Dev nD) (L : grid0.Coords) :
    iprop((∃ f, Tile.own d L (Tile.row0 Tile.sG) f) ∗ (∃ f, Tile.own d L (Tile.row1 Tile.sG) f))
      ⊢ (iprop(∃ f, (Tile.thr d L).loc cc0_scratch1 ↦{fullShare} f) : sProp 𝕄) := by
  unfold Tile.own
  rw [set_row0_sG, set_row1_sG]
  iintro ⟨⟨%f0, H0⟩, ⟨%f1, H1⟩⟩
  ihave H := (pointsTo_biUnion_join (Finset.univ : Finset (Fin 2)) (ℓ := (Tile.thr d L).loc cc0_scratch1) rowSet2 (fun j => if j = 0 then f0 else f1) f0 rows2_disjoint) $$ [H0 H1]
  · rw [bigSep_univ_two]
    isplitl [H0]; · iexact H0
    iexact H1
  icases H with ⟨%g, -, Hg⟩
  rw [rows2_cover]
  iexists g; iexact Hg

theorem set_row0_sM : (Tile.row0 Tile.sM).view.set = rowSet2 0 := by
  rw [Memref.set_view_squeeze]
  show ((View.whole (cc0_scratch2 : Ref sig .scVector)).slice _).set = _
  rw [View.set_slice_whole, r0_eq]
theorem set_row1_sM : (Tile.row1 Tile.sM).view.set = rowSet2 1 := by
  rw [Memref.set_view_squeeze]
  show ((View.whole (cc0_scratch2 : Ref sig .scVector)).slice _).set = _
  rw [View.set_slice_whole, r1_eq]

/-- The scratch held whole is its two rows, each held by its own elements; -/
theorem sM_rows (d : Dev nD) (L : grid0.Coords) (f : Buf (Elt F) ((Tile.thr d L).loc cc0_scratch2)) :
    ((Tile.thr d L).loc cc0_scratch2 ↦{fullShare} f : sProp 𝕄) = iprop(Tile.own d L (Tile.row0 Tile.sM) f ∗ Tile.own d L (Tile.row1 Tile.sM) f) := by
  unfold Tile.own
  rw [set_row0_sM, set_row1_sM, ← bigSep_univ_two (fun j : Fin 2 => ((Tile.thr d L).loc cc0_scratch2 ↦[rowSet2 j]{fullShare} f : sProp 𝕄)),
    ← pointsTo_biUnion Finset.univ (ℓ := (Tile.thr d L).loc cc0_scratch2) rowSet2 rows2_disjoint, rows2_cover]; try rfl

/-- and two rows at any contents are the scratch whole at some contents. -/
theorem sM_join (d : Dev nD) (L : grid0.Coords) :
    iprop((∃ f, Tile.own d L (Tile.row0 Tile.sM) f) ∗ (∃ f, Tile.own d L (Tile.row1 Tile.sM) f))
      ⊢ (iprop(∃ f, (Tile.thr d L).loc cc0_scratch2 ↦{fullShare} f) : sProp 𝕄) := by
  unfold Tile.own
  rw [set_row0_sM, set_row1_sM]
  iintro ⟨⟨%f0, H0⟩, ⟨%f1, H1⟩⟩
  ihave H := (pointsTo_biUnion_join (Finset.univ : Finset (Fin 2)) (ℓ := (Tile.thr d L).loc cc0_scratch2) rowSet2 (fun j => if j = 0 then f0 else f1) f0 rows2_disjoint) $$ [H0 H1]
  · rw [bigSep_univ_two]
    isplitl [H0]; · iexact H0
    iexact H1
  icases H with ⟨%g, -, Hg⟩
  rw [rows2_cover]
  iexists g; iexact Hg

/-! ## A read share is two half shares -/

theorem half_split {ℓ : Loc nD τ sig} (q : PosShare TreeShare) (f : Buf (Elt F) ℓ) :
    (ℓ ↦{q} f : sProp 𝕄) ⊢ iprop((ℓ ↦{q.left} f) ∗ ℓ ↦{q.right} f) := (pointsTo_share (PosShare.mem_left_op_right q)).1
theorem half_join {ℓ : Loc nD τ sig} (q : PosShare TreeShare) (f : Buf (Elt F) ℓ) :
    iprop((ℓ ↦{q.left} f) ∗ ℓ ↦{q.right} f) ⊢ (ℓ ↦{q} f : sProp 𝕄) := (pointsTo_share (PosShare.mem_left_op_right q)).2

/-! ## The subcore's scoped storage: three DMA counters and four scratch buffers, and a rest -/

theorem ownSems0_V (d : Dev nD) (L : grid0.Coords) :
    (ownSems0 (Tile.thr d L) : sProp 𝕄)
      = iprop(semVal (Tile.sem0 d L) 0 ∗ semVal (Tile.sem1 d L) 0 ∗ semVal (Tile.sem2 d L) 0
          ∗ bigSep ((((ownCells (Tile.thr d L)).erase (Tile.sem0 d L)).erase (Tile.sem1 d L)).erase (Tile.sem2 d L)) fun g => semVal g 0) := by
  unfold SparseCore.Cfg.ownSems0
  rw [SparseCore.bigSep_erase' ((mem_ownCells (g := Tile.sem0 d L)).mpr ⟨rfl, by
      show (SemLoc.dma cc0_scratch4.sem : SemLoc sig).isScoped .scVector = true; decide⟩),
    SparseCore.bigSep_erase' (Finset.mem_erase.mpr ⟨fun e => absurd (congrArg Prod.snd e) (show (SemLoc.dma cc0_scratch5.sem : SemLoc sig) ≠ .dma cc0_scratch4.sem by decide),
      (mem_ownCells (g := Tile.sem1 d L)).mpr ⟨rfl, by show (SemLoc.dma cc0_scratch5.sem : SemLoc sig).isScoped .scVector = true; decide⟩⟩),
    SparseCore.bigSep_erase' (Finset.mem_erase.mpr ⟨fun e => absurd (congrArg Prod.snd e) (show (SemLoc.dma cc0_scoped0.sem : SemLoc sig) ≠ .dma cc0_scratch5.sem by decide),
      Finset.mem_erase.mpr ⟨fun e => absurd (congrArg Prod.snd e) (show (SemLoc.dma cc0_scoped0.sem : SemLoc sig) ≠ .dma cc0_scratch4.sem by decide),
      (mem_ownCells (g := Tile.sem2 d L)).mpr ⟨rfl, by show (SemLoc.dma cc0_scoped0.sem : SemLoc sig).isScoped .scVector = true; decide⟩⟩⟩)]

theorem ownBufs_V (d : Dev nD) (L : grid0.Coords) :
    (ownBufs (Tile.thr d L) : sProp 𝕄)
      = iprop((∃ f, (Tile.thr d L).loc cc0_scratch0 ↦{fullShare} f) ∗ (∃ f, (Tile.thr d L).loc cc0_scratch1 ↦{fullShare} f)
          ∗ (∃ f, (Tile.thr d L).loc cc0_scratch2 ↦{fullShare} f) ∗ (∃ f, (Tile.thr d L).loc cc0_scratch3 ↦{fullShare} f)
          ∗ bigSep (((((ownRefs (τ := τ) (.scVector (Tile.cV L) (Tile.jV L))).erase ((Proc.scVector (Tile.cV L) (Tile.jV L)).devRef cc0_scratch0)).erase
              ((Proc.scVector (Tile.cV L) (Tile.jV L)).devRef cc0_scratch1)).erase ((Proc.scVector (Tile.cV L) (Tile.jV L)).devRef cc0_scratch2)).erase ((Proc.scVector (Tile.cV L) (Tile.jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := (Proc.scVector (Tile.cV L) (Tile.jV L)))
    (b := (Proc.scVector (Tile.cV L) (Tile.jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (Proc.scVector (Tile.cV L) (Tile.jV L))) (b := (Proc.scVector (Tile.cV L) (Tile.jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := (Proc.scVector (Tile.cV L) (Tile.jV L))) (b := (Proc.scVector (Tile.cV L) (Tile.jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := (Proc.scVector (Tile.cV L) (Tile.jV L))) (b := (Proc.scVector (Tile.cV L) (Tile.jV L)).devRef cc0_scratch3) rfl⟩⟩⟩)]

variable [FloatOps F] [∀ e, Nonempty (Elt F e)]

/-- The row as the body leaves it, equal to the specification's partials on the row's indices, is the row at the
    specification's partials. -/
theorem row_out (m : (ℓ : Loc nD τ sig) → Buf (Elt F) ℓ) (d : Dev nD) (L : grid0.Coords)
    (fo' : Buf (Elt F) ((Tile.oRowK L).view.loc (Tile.thr d L)))
    (h : ∀ i ∈ Tile.oRowIdx L, Tile.asOut d L fo' i = Spec.partials (Tile.asP d L (Hand.pC m d)) (Tile.asG d L (Hand.gC m d)) (Tile.asM d L (Hand.mC m d)) i) :
    ((Tile.oRowK L).view.loc (Tile.thr d L) ↦[(Tile.oRowK L).view.set]{fullShare} fo' : sProp 𝕄)
      = Hand.oLoc d ↦[Hand.oRowSet (wL L)]{fullShare} Hand.oC m d := by
  rw [pts_oRowK]
  exact pointsTo_congr fun i hi => h i (by unfold Tile.oRowIdx; rw [set_oRowK]; exact hi)

/-- One subcore task: from the worker's operands and the subcore's scoped storage to the worker's results, the scoped
    storage as it was. -/
theorem tile_body_of
    (htc : ∀ (d : Dev nD) (L : grid0.Coords) (q q' : PosShare TreeShare) (O : CellTallies nD τ sig (HIx 1)) (W : Waits sig (HIx 1)) (hO : ∀ g, O g none = 0)
    (fp : Buf (Elt F) (Tile.pV.view.loc (Tile.thr d L))) (fg : Buf (Elt F) (Tile.gV.view.loc (Tile.thr d L))) (fm : Buf (Elt F) (Tile.mV.view.loc (Tile.thr d L)))
    (fo : Buf (Elt F) ((Tile.oRowK L).view.loc (Tile.thr d L)))
    (a0 : Buf (Elt F) ((Tile.row0 Tile.sP).view.loc (Tile.thr d L))) (a1 : Buf (Elt F) ((Tile.row1 Tile.sP).view.loc (Tile.thr d L)))
    (b0 : Buf (Elt F) ((Tile.row0 Tile.sG).view.loc (Tile.thr d L))) (b1 : Buf (Elt F) ((Tile.row1 Tile.sG).view.loc (Tile.thr d L)))
    (c0 : Buf (Elt F) ((Tile.row0 Tile.sM).view.loc (Tile.thr d L))) (c1 : Buf (Elt F) ((Tile.row1 Tile.sM).view.loc (Tile.thr d L)))
    (fs : Buf (Elt F) (Tile.sO.view.loc (Tile.thr d L))),
    Tile.corePre d L q q' O W fp fg fm fo a0 a1 b0 b1 c0 c1 fs
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop((Tile.pV.view.loc (Tile.thr d L) ↦{q} fp) ∗ (Tile.gV.view.loc (Tile.thr d L) ↦{q} fg) ∗ (Tile.mV.view.loc (Tile.thr d L) ↦{q} fm)
            ∗ (Tile.pV.view.loc (Tile.thr d L) ↦{q'} fp) ∗ (Tile.gV.view.loc (Tile.thr d L) ↦{q'} fg) ∗ (Tile.mV.view.loc (Tile.thr d L) ↦{q'} fm)
            ∗ (∃ fo', ((Tile.oRowK L).view.loc (Tile.thr d L) ↦[(Tile.oRowK L).view.set]{fullShare} fo')
                ∗ ⌜∀ i ∈ Tile.oRowIdx L, Tile.asOut d L fo' i = Spec.partials (Tile.asP d L fp) (Tile.asG d L fg) (Tile.asM d L fm) i⌝)
            ∗ (∃ f, Tile.own d L (Tile.row0 Tile.sP) f) ∗ (∃ f, Tile.own d L (Tile.row1 Tile.sP) f) ∗ (∃ f, Tile.own d L (Tile.row0 Tile.sG) f) ∗ (∃ f, Tile.own d L (Tile.row1 Tile.sG) f)
            ∗ (∃ f, Tile.own d L (Tile.row0 Tile.sM) f) ∗ (∃ f, Tile.own d L (Tile.row1 Tile.sM) f) ∗ (∃ f, Tile.sO.view.loc (Tile.thr d L) ↦{fullShare} f)
            ∗ semVal (Tile.sem0 d L) 0 ∗ semVal (Tile.sem1 d L) 0 ∗ semVal (Tile.sem2 d L) 0
            ∗ ∃ W', ⌜∀ p ∈ W', p ∈ W ∨ p.2 = none⌝ ∗ owes (Tile.thr d L) O W'))
    (m : (ℓ : Loc nD τ sig) → Buf (Elt F) ℓ) (d : Dev nD) (L : grid0.Coords) (hF : (K (F := F)).Facts)
    (O : CellTallies nD τ sig (HIx 1)) (W : Waits sig (HIx 1)) (hO : ∀ g, O g none = 0) :
    iprop(levAts (K (F := F)).L (K (F := F)).lev ∗ emp ∗ Hand.taskIn m d (wL L) ∗ scopedBufs (Tile.thr d L) ∗ scopedSems0 (Tile.thr d L) ∗ owes (Tile.thr d L) O W)
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop(Hand.taskOut m d (wL L) ∗ scopedBufs (Tile.thr d L) ∗ scopedSems0 (Tile.thr d L) ∗ ∃ W', ⌜∀ p ∈ W', p ∈ W ∨ p.2 = none⌝ ∗ owes (Tile.thr d L) O W') := by
  rw [(K (F := F)).scopedBufs_V hF d (Tile.cV L) (Tile.jV L), SparseCore.Cfg.scopedSems0_V (Val := Elt F) d (Tile.cV L) (Tile.jV L), ownSems0_V, ownBufs_V]
  unfold Hand.taskIn Hand.taskOut Hand.inputs
  iintro ⟨#Hlv, -, ⟨⟨Hp, Hg, Hm⟩, %fo, Ho⟩, ⟨⟨%f0, H0⟩, ⟨%f1, H1⟩, ⟨%f2, H2⟩, ⟨%f3, H3⟩, Hbufs⟩, ⟨Hs0, Hs1, Hs2, Hsems⟩, HO⟩
  ihave Hp' := (half_split (Hand.rdShare (wL L)) (Hand.pC m d)) $$ Hp
  ihave Hg' := (half_split (Hand.rdShare (wL L)) (Hand.gC m d)) $$ Hg
  ihave Hm' := (half_split (Hand.rdShare (wL L)) (Hand.mC m d)) $$ Hm
  icases Hp' with ⟨Hp1, Hp2⟩
  icases Hg' with ⟨Hg1, Hg2⟩
  icases Hm' with ⟨Hm1, Hm2⟩
  ihave Ho' := (Entails.of_eq (pts_oRowK d L fo).symm) $$ Ho
  ihave H0' := (Entails.of_eq (sP_rows d L f0)) $$ H0
  ihave H1' := (Entails.of_eq (sG_rows d L f1)) $$ H1
  ihave H2' := (Entails.of_eq (sM_rows d L f2)) $$ H2
  icases H0' with ⟨A0, A1⟩
  icases H1' with ⟨B0, B1⟩
  icases H2' with ⟨C0, C1⟩
  iapply (wp_wand_r frame _ _)
  isplitl [Hp1 Hp2 Hg1 Hg2 Hm1 Hm2 Ho' A0 A1 B0 B1 C0 C1 H3 Hs0 Hs1 Hs2 HO]
  · iapply (htc d L (Hand.rdShare (wL L)).left (Hand.rdShare (wL L)).right O W hO (Hand.pC m d) (Hand.gC m d) (Hand.mC m d) fo f0 f0 f1 f1 f2 f2 f3)
    unfold Tile.corePre
    isplitr; · iexact Hlv
    isplitl [Hp1]; · iexact Hp1
    isplitl [Hg1]; · iexact Hg1
    isplitl [Hm1]; · iexact Hm1
    isplitl [Hp2]; · iexact Hp2
    isplitl [Hg2]; · iexact Hg2
    isplitl [Hm2]; · iexact Hm2
    isplitl [Ho']; · iexact Ho'
    isplitl [A0]; · iexact A0
    isplitl [A1]; · iexact A1
    isplitl [B0]; · iexact B0
    isplitl [B1]; · iexact B1
    isplitl [C0]; · iexact C0
    isplitl [C1]; · iexact C1
    isplitl [H3]; · iexact H3
    isplitl [Hs0]; · iexact Hs0
    isplitl [Hs1]; · iexact Hs1
    isplitl [Hs2]; · iexact Hs2
    iexact HO
  iintro %_ ⟨Hp1, Hg1, Hm1, Hp2, Hg2, Hm2, ⟨%fo', Ho, %hfo⟩, A0, A1, B0, B1, C0, C1, H3, Hs0, Hs1, Hs2, HW⟩
  isplitl [Hp1 Hg1 Hm1 Hp2 Hg2 Hm2 Ho]
  · isplitl [Hp1 Hg1 Hm1 Hp2 Hg2 Hm2]
    · isplitl [Hp1 Hp2]
      · iapply (half_join (Hand.rdShare (wL L)) (Hand.pC m d))
        isplitl [Hp1]; · iexact Hp1
        iexact Hp2
      isplitl [Hg1 Hg2]
      · iapply (half_join (Hand.rdShare (wL L)) (Hand.gC m d))
        isplitl [Hg1]; · iexact Hg1
        iexact Hg2
      iapply (half_join (Hand.rdShare (wL L)) (Hand.mC m d))
      isplitl [Hm1]; · iexact Hm1
      iexact Hm2
    iapply (Entails.of_eq (row_out m d L fo' hfo))
    iexact Ho
  isplitl [A0 A1 B0 B1 C0 C1 H3 Hbufs]
  · isplitl [A0 A1]
    · iapply (sP_join d L)
      isplitl [A0]; · iexact A0
      iexact A1
    isplitl [B0 B1]
    · iapply (sG_join d L)
      isplitl [B0]; · iexact B0
      iexact B1
    isplitl [C0 C1]
    · iapply (sM_join d L)
      isplitl [C0]; · iexact C0
      iexact C1
    isplitl [H3]; · iexact H3
    iexact Hbufs
  isplitl [Hs0 Hs1 Hs2 Hsems]
  · isplitl [Hs0]; · iexact Hs0
    isplitl [Hs1]; · iexact Hs1
    isplitl [Hs2]; · iexact Hs2
    iexact Hsems
  iexact HW

/-! ## The launch theorem's obligations for the vector subcores -/

/-- Grid coordinates from a SparseCore and a subcore of the grid. -/
def coordsV (c : Fin (grid0.bound 0)) (s : Fin (grid0.bound 1)) : grid0.Coords :=
  fun | 0 => c | 1 => s | ⟨_ + 2, h⟩ => absurd h (Nat.not_lt.2 (Nat.le_add_left _ _))

/-- On a vector subcore of the grid the kernel's label runs the body at the subcore's coordinates. -/
theorem defs₀_vector (c : Fin τ.nSC) (s : Fin τ.nSub) :
    defs₀ (F := F) (.scVector c s) 0 ()
      = SparseCore.onTile hcore0 hsub0 (fun c s => cc0_k (coordsV c s)
          Tile.pV (Memref.isWhole_whole _) Tile.gV (Memref.isWhole_whole _) Tile.mV (Memref.isWhole_whole _) Tile.oV (Memref.isWhole_whole _)
          Tile.sP (Memref.isWhole_whole _) Tile.sG (Memref.isWhole_whole _) Tile.sM (Memref.isWhole_whole _) Tile.sO (Memref.isWhole_whole _)
          cc0_scratch4 cc0_scratch5 cc0_scoped0) ⟨⟩ c s := rfl

omit [FloatOps F] [∀ e, Nonempty (Elt F e)] in
/-- A wait recorded at no index is among those the launch theorem allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets the launch theorem's obligation. -/
theorem tileObl_of
    (htc : ∀ (d : Dev nD) (L : grid0.Coords) (q q' : PosShare TreeShare) (O : CellTallies nD τ sig (HIx 1)) (W : Waits sig (HIx 1)) (hO : ∀ g, O g none = 0)
    (fp : Buf (Elt F) (Tile.pV.view.loc (Tile.thr d L))) (fg : Buf (Elt F) (Tile.gV.view.loc (Tile.thr d L))) (fm : Buf (Elt F) (Tile.mV.view.loc (Tile.thr d L)))
    (fo : Buf (Elt F) ((Tile.oRowK L).view.loc (Tile.thr d L)))
    (a0 : Buf (Elt F) ((Tile.row0 Tile.sP).view.loc (Tile.thr d L))) (a1 : Buf (Elt F) ((Tile.row1 Tile.sP).view.loc (Tile.thr d L)))
    (b0 : Buf (Elt F) ((Tile.row0 Tile.sG).view.loc (Tile.thr d L))) (b1 : Buf (Elt F) ((Tile.row1 Tile.sG).view.loc (Tile.thr d L)))
    (c0 : Buf (Elt F) ((Tile.row0 Tile.sM).view.loc (Tile.thr d L))) (c1 : Buf (Elt F) ((Tile.row1 Tile.sM).view.loc (Tile.thr d L)))
    (fs : Buf (Elt F) (Tile.sO.view.loc (Tile.thr d L))),
    Tile.corePre d L q q' O W fp fg fm fo a0 a1 b0 b1 c0 c1 fs
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop((Tile.pV.view.loc (Tile.thr d L) ↦{q} fp) ∗ (Tile.gV.view.loc (Tile.thr d L) ↦{q} fg) ∗ (Tile.mV.view.loc (Tile.thr d L) ↦{q} fm)
            ∗ (Tile.pV.view.loc (Tile.thr d L) ↦{q'} fp) ∗ (Tile.gV.view.loc (Tile.thr d L) ↦{q'} fg) ∗ (Tile.mV.view.loc (Tile.thr d L) ↦{q'} fm)
            ∗ (∃ fo', ((Tile.oRowK L).view.loc (Tile.thr d L) ↦[(Tile.oRowK L).view.set]{fullShare} fo')
                ∗ ⌜∀ i ∈ Tile.oRowIdx L, Tile.asOut d L fo' i = Spec.partials (Tile.asP d L fp) (Tile.asG d L fg) (Tile.asM d L fm) i⌝)
            ∗ (∃ f, Tile.own d L (Tile.row0 Tile.sP) f) ∗ (∃ f, Tile.own d L (Tile.row1 Tile.sP) f) ∗ (∃ f, Tile.own d L (Tile.row0 Tile.sG) f) ∗ (∃ f, Tile.own d L (Tile.row1 Tile.sG) f)
            ∗ (∃ f, Tile.own d L (Tile.row0 Tile.sM) f) ∗ (∃ f, Tile.own d L (Tile.row1 Tile.sM) f) ∗ (∃ f, Tile.sO.view.loc (Tile.thr d L) ↦{fullShare} f)
            ∗ semVal (Tile.sem0 d L) 0 ∗ semVal (Tile.sem1 d L) 0 ∗ semVal (Tile.sem2 d L) 0
            ∗ ∃ W', ⌜∀ p ∈ W', p ∈ W ∨ p.2 = none⌝ ∗ owes (Tile.thr d L) O W'))
    (m : (ℓ : Loc nD τ sig) → Buf (Elt F) ℓ) (hF : (K (F := F)).Facts) : (K (F := F)).TileObl (D (F := F)) 𝒱 (Hand.P m) v₀ 0 := by
  intro d c i O W hO _ _
  -- the kernel owes nothing for a protocol of its own
  simp only [show (Hand.P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body_of htc m d (coordsV ⟨_, hc.1⟩ ⟨_, hc.2⟩) hF O W hO).trans (wp_mono frame _ _ fun _ => obl_post)

omit [FloatOps F] [∀ e, Nonempty (Elt F e)] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [∀ e, Nonempty (Elt F e)] in
/-- A SparseCore's operands are its sixteen tasks' operands, and its results theirs. -/
theorem vecSplit (m : (ℓ : Loc nD τ sig) → Buf (Elt F) ℓ) : (K (F := F)).VecSplit' (Hand.P m) 0 := by
  intro d c
  show (bigSep Finset.univ fun s : Fin 16 => Hand.taskIn m d (Hand.wid (Fin.cast nCore_zero c) s)) ⊢ |={Set.univ}=> iprop(
      (bigSep Finset.univ fun i : Fin ((K (F := F)).nSub 0) => Hand.taskIn m d (Hand.wid (Fin.cast nCore_zero c) (Fin.cast nSub_zero i)))
      ∗ ((bigSep Finset.univ fun i : Fin ((K (F := F)).nSub 0) => Hand.taskOut m d (Hand.wid (Fin.cast nCore_zero c) (Fin.cast nSub_zero i)))
          -∗ (bigSep Finset.univ fun s : Fin 16 => Hand.taskOut m d (Hand.wid (Fin.cast nCore_zero c) s))))
  rw [bigSep_tasks (F := F) (fun s => Hand.taskIn m d (Hand.wid (Fin.cast nCore_zero c) s)),
    bigSep_tasks (F := F) (fun s => Hand.taskOut m d (Hand.wid (Fin.cast nCore_zero c) s))]
  iintro H; imodintro
  isplitl [H]; · iexact H
  iintro H; iexact H

end Cert.Kernel.TileObl

end
-- ==== Proof.K.TileObl.lean ====
/-
  The vector subcores' obligations of the launch theorem, from the task body's own theorem: one task from its operands
  to its results, every task of the call, and a SparseCore's operands as its tasks'.
-/
import proofs.«210416_g85048942395886_cont_9to1c4b_614_23_alg».proof.Proof.K.Hand
import proofs.«210416_g85048942395886_cont_9to1c4b_614_23_alg».proof.Proof.K.TileDefs
import proofs.«210416_g85048942395886_cont_9to1c4b_614_23_alg».proof.Proof.K.TileRun
import proofs.«210416_g85048942395886_cont_9to1c4b_614_23_alg».proof.Proof.K.TileOblCore

noncomputable section

namespace Cert.Kernel.TileObl

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] [∀ e, Nonempty (Elt F e)]

/-- One subcore task: from the worker's operands and the subcore's scoped storage to the worker's results, the scoped
    storage as it was. -/
theorem tile_body (m : (ℓ : Loc nD τ sig) → Buf (Elt F) ℓ) (d : Dev nD) (L : grid0.Coords) (hF : (K (F := F)).Facts)
    (O : CellTallies nD τ sig (HIx 1)) (W : Waits sig (HIx 1)) (hO : ∀ g, O g none = 0) :
    iprop(levAts (K (F := F)).L (K (F := F)).lev ∗ emp ∗ Hand.taskIn m d (wL L) ∗ scopedBufs (Tile.thr d L) ∗ scopedSems0 (Tile.thr d L) ∗ owes (Tile.thr d L) O W)
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop(Hand.taskOut m d (wL L) ∗ scopedBufs (Tile.thr d L) ∗ scopedSems0 (Tile.thr d L) ∗ ∃ W', ⌜∀ p ∈ W', p ∈ W ∨ p.2 = none⌝ ∗ owes (Tile.thr d L) O W') :=
  tile_body_of (fun d L q q' O W hO fp fg fm fo a0 a1 b0 b1 c0 c1 fs => Tile.tile_core d L q q' O W hO fp fg fm fo a0 a1 b0 b1 c0 c1 fs) m d L hF O W hO

/-- Every task of the call meets the launch theorem's obligation. -/
theorem tileObl (m : (ℓ : Loc nD τ sig) → Buf (Elt F) ℓ) (hF : (K (F := F)).Facts) : (K (F := F)).TileObl (D (F := F)) 𝒱 (Hand.P m) v₀ 0 :=
  tileObl_of (fun d L q q' O W hO fp fg fm fo a0 a1 b0 b1 c0 c1 fs => Tile.tile_core d L q q' O W hO fp fg fm fo a0 a1 b0 b1 c0 c1 fs) m hF

end Cert.Kernel.TileObl

end
-- ==== Proof.K.TcData.lean ====
/-
  The proof data of the TensorCore region: what every buffer the region touches holds between grid points.

  The region walks 26 blocks of 2048 rows. The three operand windows are only read: after the body at point `t` each
  staging buffer still holds block `t` of its array. The two accumulator rows live in a scratch buffer carried from point
  to point: after `t` points it holds the specification's running rows. The two one-word results are written at the
  last point only, with the sums of the rows over the columns; before that point their staging words are left as found.
  The TensorCore owes nothing during the region, and every wait it has recorded sits at a level not above 8.
-/
import proofs.«210416_g85048942395886_cont_9to1c4b_614_23_alg».proof.Proof.K.TcGhost
import proofs.«210416_g85048942395886_cont_9to1c4b_614_23_alg».proof.Proof.K.Spec
import Idealize.ShloMosaic.Lib.Pipeline.FrameBody
import Idealize.ShloMosaic.Lib.Pipeline.Frame
import Idealize.ShloMosaic.Lib.Pipeline.Value

noncomputable section

namespace Cert.Kernel.TcData

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)
open Cert.Kernel.TcGhost
open Idealize.ShloMosaic.ValueIdx

/-! ## Where a block's element sits in its array -/

/-- Element `y` of the block at point `t` of an operand window is the array's element at row `2048 (t + 6) + y₀`,
    column `y₁`: the specification's block. The three operand windows have the same index map. -/
theorem blk_eq0 {α : Type} (a : S65536x128.Idx → α) (t : Fin cfg1.N) (y : S2048x128.Idx) :
    a (((cfg1.win 0).blk t).view.emb y) = Spec.blk a t.val y := by
  unfold Spec.blk
  refine congrArg a ?_
  funext ax
  have hN : t.val < 26 := lt_of_lt_of_eq t.isLt (show cfg1.N = 26 from N_1)
  have hemb : ((cfg1.win 0).blk t).view.emb y = ((cfg1.win 0).rect t).emb y := rfl
  have hidx : ∀ t : Fin cfg1.N, (cfg1.win 0).index t = ![t.val + 6, 0] :=
    (by decide +kernel : ∀ t : Fin grid1.N, win1_0.index t = ![t.val + 6, 0])
  rw [hemb]
  apply Fin.ext
  rw [(cfg1.win 0).rect_emb_val t y ax, hidx t]
  have hy0 : (y 0).val < 2048 := (y 0).isLt
  match ax with
  | ⟨0, _⟩ =>
    show (t.val + 6) * 2048 + (y 0).val = (2048 * (t.val + 6) + (y 0).val) % 65536
    omega
  | ⟨1, _⟩ =>
    show 0 * 128 + (y 1).val = (y 1).val
    omega

theorem blk_eq1 {α : Type} (a : S65536x128.Idx → α) (t : Fin cfg1.N) (y : S2048x128.Idx) :
    a (((cfg1.win 1).blk t).view.emb y) = Spec.blk a t.val y := by
  unfold Spec.blk
  refine congrArg a ?_
  funext ax
  have hN : t.val < 26 := lt_of_lt_of_eq t.isLt (show cfg1.N = 26 from N_1)
  have hemb : ((cfg1.win 1).blk t).view.emb y = ((cfg1.win 1).rect t).emb y := rfl
  have hidx : ∀ t : Fin cfg1.N, (cfg1.win 1).index t = ![t.val + 6, 0] :=
    (by decide +kernel : ∀ t : Fin grid1.N, win1_1.index t = ![t.val + 6, 0])
  rw [hemb]
  apply Fin.ext
  rw [(cfg1.win 1).rect_emb_val t y ax, hidx t]
  have hy0 : (y 0).val < 2048 := (y 0).isLt
  match ax with
  | ⟨0, _⟩ =>
    show (t.val + 6) * 2048 + (y 0).val = (2048 * (t.val + 6) + (y 0).val) % 65536
    omega
  | ⟨1, _⟩ =>
    show 0 * 128 + (y 1).val = (y 1).val
    omega

theorem blk_eq2 {α : Type} (a : S65536x128.Idx → α) (t : Fin cfg1.N) (y : S2048x128.Idx) :
    a (((cfg1.win 2).blk t).view.emb y) = Spec.blk a t.val y := by
  unfold Spec.blk
  refine congrArg a ?_
  funext ax
  have hN : t.val < 26 := lt_of_lt_of_eq t.isLt (show cfg1.N = 26 from N_1)
  have hemb : ((cfg1.win 2).blk t).view.emb y = ((cfg1.win 2).rect t).emb y := rfl
  have hidx : ∀ t : Fin cfg1.N, (cfg1.win 2).index t = ![t.val + 6, 0] :=
    (by decide +kernel : ∀ t : Fin grid1.N, win1_2.index t = ![t.val + 6, 0])
  rw [hemb]
  apply Fin.ext
  rw [(cfg1.win 2).rect_emb_val t y ax, hidx t]
  have hy0 : (y 0).val < 2048 := (y 0).isLt
  match ax with
  | ⟨0, _⟩ =>
    show (t.val + 6) * 2048 + (y 0).val = (2048 * (t.val + 6) + (y 0).val) % 65536
    omega
  | ⟨1, _⟩ =>
    show 0 * 128 + (y 1).val = (y 1).val
    omega

/-! ## The accumulator -/

/-- The two running rows laid out as the 2 × 128 scratch buffer: row 0 the sums, row 1 the counts. -/
def acc (r : FVec F S1x128 .f32 × FVec F S1x128 .f32) : FVec F S2x128 .f32 :=
  fun y => if (y 0).val = 0 then r.1 (ix2 (0 : Fin 1) (y 1)) else r.2 (ix2 (0 : Fin 1) (y 1))

variable (p4 g4 : FVec F S65536x128 .f32) (m4 : IVec S65536x128 32) (f3 f4 : FVec F S1 .f32)

/-- The region's proof data on device `d`. -/
def dat (d : Dev nD) : Dat τ (Elt F) (HIx 1) ℕ UU ℕ cfg1 d where
  A w := match w with
    | ⟨0, _⟩ => p4
    | ⟨1, _⟩ => g4
    | ⟨2, _⟩ => m4
    | ⟨3, _⟩ => f3
    | ⟨4, _⟩ => f4
    | ⟨_ + 5, h⟩ => absurd h (Nat.not_lt.2 (Nat.le_add_left _ _))
  after w t := match w with
    | ⟨0, _⟩ => Spec.blk p4 t.val
    | ⟨1, _⟩ => Spec.blk g4 t.val
    | ⟨2, _⟩ => Spec.blk m4 t.val
    | ⟨3, _⟩ => Spec.tcSum p4 g4 m4
    | ⟨4, _⟩ => Spec.tcCnt p4 g4 m4
    | ⟨_ + 5, h⟩ => absurd h (Nat.not_lt.2 (Nat.le_add_left _ _))
  Φ t := iprop(∃ f : FVec F S2x128 .f32, ⌜t.val ≠ 0 → f = acc (Spec.tcRows p4 g4 m4 t.val)⌝
    ∗ (((d.tc : Thread nD τ).loc cc1_scratch0) ↦{fullShare} f))
  q _ := fullShare
  owed _ := 0
  recorded _ := {p | (K (F := F)).lev ((d.tc : Thread nD τ), p.1) p.2 ≤ 8}

/-- The proof data as the region theorem indexes it: by pipeline (there is one) and device. -/
def pdats : (p : Fin 1) → (d : Dev nD) → Dat τ (Elt F) (HIx 1) ℕ UU ℕ (Pipeline.pin (pcfgs (F := F)) adm p) d :=
  fun _ d => dat p4 g4 m4 f3 f4 d

/-! ## The operand windows hold their blocks at every point -/

theorem N26 (t : Fin cfg1.N) : t.val < 26 := lt_of_lt_of_eq t.isLt (show cfg1.N = 26 from N_1)

theorem read_blk0 (t : Fin cfg1.N) : ((cfg1.win 0).blk t).view.read (Elt F) p4 = Spec.blk p4 t.val :=
  funext fun y => blk_eq0 p4 t y
theorem read_blk1 (t : Fin cfg1.N) : ((cfg1.win 1).blk t).view.read (Elt F) g4 = Spec.blk g4 t.val :=
  funext fun y => blk_eq1 g4 t y
theorem read_blk2 (t : Fin cfg1.N) : ((cfg1.win 2).blk t).view.read (Elt F) m4 = Spec.blk m4 t.val :=
  funext fun y => blk_eq2 m4 t y

/-- An operand's current staging buffer holds its block at every point, fetched there or not: unfetched, the block
    index has not moved and the body left the block in place. -/
theorem before0 (d : Dev nD) (t : Fin cfg1.N) (x) : (dat p4 g4 m4 f3 f4 d).before 0 t x = Spec.blk p4 t.val :=
  ((dat p4 g4 m4 f3 f4 d).before_in_eq_fetched 0 rfl (fun _ => rfl) (fun _ _ _ => rfl)
    (fun t => (read_blk0 p4 t).symm) t x).trans (read_blk0 p4 t)
theorem before1 (d : Dev nD) (t : Fin cfg1.N) (x) : (dat p4 g4 m4 f3 f4 d).before 1 t x = Spec.blk g4 t.val :=
  ((dat p4 g4 m4 f3 f4 d).before_in_eq_fetched 1 rfl (fun _ => rfl) (fun _ _ _ => rfl)
    (fun t => (read_blk1 g4 t).symm) t x).trans (read_blk1 g4 t)
theorem before2 (d : Dev nD) (t : Fin cfg1.N) (x) : (dat p4 g4 m4 f3 f4 d).before 2 t x = Spec.blk m4 t.val :=
  ((dat p4 g4 m4 f3 f4 d).before_in_eq_fetched 2 rfl (fun _ => rfl) (fun _ _ _ => rfl)
    (fun t => (read_blk2 (F := F) m4 t).symm) t x).trans (read_blk2 (F := F) m4 t)

end Cert.Kernel.TcData

end
-- ==== Proof.K.TcBody.lean ====
/-
  The TensorCore region's body, point by point.

  At every grid point the body adds to two running rows of 128 lanes, kept in a scratch buffer: row 0 the per-column sums of
  `|p − g|` over the block's positions whose mask word is positive, row 1 the per-column counts of those positions. At
  the first point it zeroes the buffer first; at the last it also sums each row over its columns into the two one-word
  results. The proof runs the body once for each of the three cases, on any whole buffers, and then reads what the
  scratch buffer and the result words hold as the specification's functions of the three blocks.
-/
import proofs.«210416_g85048942395886_cont_9to1c4b_614_23_alg».proof.Proof.K.TcData
import proofs.«210416_g85048942395886_cont_9to1c4b_614_23_alg».proof.Proof.Gen.Kernel.Skeleton
import proofs.«210416_g85048942395886_cont_9to1c4b_614_23_alg».proof.Proof.Gen.Kernel.Points
import Idealize.ShloMosaic.Lib.Tactic
import Idealize.ShloMosaic.Lib.WholeRead
import Idealize.ShloMosaic.Lib.Ring

set_option maxRecDepth 16384

noncomputable section

namespace Cert.Kernel.TcBody

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)
open Idealize.ShloMosaic.TcCoe Idealize.ShloMosaic.Tactic
open Cert.Kernel.TcGhost Cert.Kernel.TcData
open Idealize.ShloMosaic.ValueIdx

/-! ## The body's two branch conditions, in closed form over the grid -/

/-- The first `scf.if`'s condition as the kernel computes it from the grid coordinate: "this is point 0". -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)
/-- The second holds at the last point only. -/
theorem hcond2 : ∀ t : Fin cfg1.N, k1_cond2 (grid1.coords t) = 1#1 ↔ t.val = 25 :=
  (by decide +kernel : ∀ t : Fin grid1.N, k1_cond2 (grid1.coords t) = 1#1 ↔ t.val = 25)

/-! ## Reading rows of the accumulator -/

abbrev r0 : Rect S2x128 := Rect.unit (s := S2x128) ![0, 0] S1x128.size inb_S2x128_S1x128_0_0
abbrev r1 : Rect S2x128 := Rect.unit (s := S2x128) ![1, 0] S1x128.size inb_S2x128_S1x128_1_0

omit [FloatOps F] in
theorem emb_r0 (x : S1x128.Idx) : r0.emb x = ix2 (0 : Fin 2) (x 1) := by
  funext a
  apply Fin.ext
  rw [Rect.emb_apply]
  match a with
  | ⟨0, _⟩ => have : (x 0).val < 1 := (x 0).isLt; show 0 + 1 * (x 0).val = 0; omega
  | ⟨1, _⟩ => show 0 + 1 * (x 1).val = (x 1).val; omega

omit [FloatOps F] in
theorem emb_r1 (x : S1x128.Idx) : r1.emb x = ix2 (1 : Fin 2) (x 1) := by
  funext a
  apply Fin.ext
  rw [Rect.emb_apply]
  match a with
  | ⟨0, _⟩ => have : (x 0).val < 1 := (x 0).isLt; show 1 + 1 * (x 0).val = 1; omega
  | ⟨1, _⟩ => show 0 + 1 * (x 1).val = (x 1).val; omega

omit [FloatOps F] in
theorem ix2_self (x : S1x128.Idx) : ix2 (0 : Fin 1) (x 1) = x := by
  funext a
  match a with
  | ⟨0, _⟩ => exact Fin.ext (by have : (x 0).val < 1 := (x 0).isLt; show 0 = (x 0).val; omega)
  | ⟨1, _⟩ => rfl

theorem acc_row0 (r : FVec F S1x128 .f32 × FVec F S1x128 .f32) (x : S1x128.Idx) : acc r (r0.emb x) = r.1 x := by
  rw [emb_r0]
  show (if (0 : ℕ) = 0 then r.1 (ix2 (0 : Fin 1) (x 1)) else r.2 (ix2 (0 : Fin 1) (x 1))) = r.1 x
  rw [if_pos rfl]; exact congrArg r.1 (ix2_self x)
theorem acc_row1 (r : FVec F S1x128 .f32 × FVec F S1x128 .f32) (x : S1x128.Idx) : acc r (r1.emb x) = r.2 x := by
  rw [emb_r1]
  show (if (1 : ℕ) = 0 then r.1 (ix2 (0 : Fin 1) (x 1)) else r.2 (ix2 (0 : Fin 1) (x 1))) = r.2 x
  rw [if_neg (by decide)]; exact congrArg r.2 (ix2_self x)

/-! ## What loads through whole memrefs read -/

theorem readAt_whole_f (m : Memref sig .tc .vmem S2048x128 .f32) (h : m.IsWhole) (X : Vec F S2048x128 .f32) :
    View.readAt (Elt F) m.view (Rect.unit (s := S2048x128) ![0, 0] S2048x128.size inb_S2048x128_S2048x128_0_0).toLoadRect (h.unread X) = X :=
  funext fun x => (Memref.IsWhole.readAt_unread h X _ x).trans (congrFun (View.ld_unit_zero (by funext a; fin_cases a <;> rfl) inb_S2048x128_S2048x128_0_0 X) x)

theorem readAt_whole_i (m : Memref sig .tc .vmem S2048x128 .i32) (h : m.IsWhole) (X : Vec F S2048x128 .i32) :
    View.readAt (Elt F) m.view (Rect.unit (s := S2048x128) ![0, 0] S2048x128.size inb_S2048x128_S2048x128_0_0).toLoadRect (h.unread X) = X :=
  funext fun x => (Memref.IsWhole.readAt_unread h X _ x).trans (congrFun (View.ld_unit_zero (by funext a; fin_cases a <;> rfl) inb_S2048x128_S2048x128_0_0 X) x)

theorem readAt_row0 (m : Memref sig .tc .vmem S2x128 .f32) (h : m.IsWhole) (r : FVec F S1x128 .f32 × FVec F S1x128 .f32) :
    View.readAt (Elt F) m.view r0.toLoadRect (h.unread (acc r)) = r.1 :=
  funext fun x => (Memref.IsWhole.readAt_unread (Val := Elt F) (e := .f32) h (acc r) r0.toLoadRect x).trans (acc_row0 r x)
theorem readAt_row1 (m : Memref sig .tc .vmem S2x128 .f32) (h : m.IsWhole) (r : FVec F S1x128 .f32 × FVec F S1x128 .f32) :
    View.readAt (Elt F) m.view r1.toLoadRect (h.unread (acc r)) = r.2 :=
  funext fun x => (Memref.IsWhole.readAt_unread (Val := Elt F) (e := .f32) h (acc r) r1.toLoadRect x).trans (acc_row1 r x)

/-! ## The body, case by case -/

/-- One accumulation step on the rows `a`, from the three blocks. -/
abbrev stepRows (x1 x2 : Vec F S2048x128 .f32) (x3 : Vec F S2048x128 .i32) (a : FVec F S1x128 .f32 × FVec F S1x128 .f32) :
    FVec F S1x128 .f32 × FVec F S1x128 .f32 := (k1_pay5 x3 x1 x2 a.1, k1_pay6 x3 a.2)

/-- Two row stores whose payloads are the rows of `G` leave `G`. -/
theorem read_rows (v : View sig .tc .vmem S2x128 .f32) (f : v.ty.Contents (Elt F)) (n : FVec F S1x128 .f32 × FVec F S1x128 .f32) :
    v.read (Elt F) (v.writes (Elt F) f [⟨r1, n.2⟩, ⟨r0, n.1⟩]) = acc n := by
  funext y
  refine View.read_writes_apply_of_pieces v f (acc n) _ (fun p hp x => ?_) y
    (View.cover_of_tiledL [(⟨r1, n.2⟩ : View.Piece (Elt F) S2x128 .f32), ⟨r0, n.1⟩] S1x128.size (by sl_kernel_rfl) y)
  rcases List.mem_cons.mp hp with rfl | hp
  · exact (acc_row1 n x).symm
  rcases List.mem_cons.mp hp with rfl | hp
  · exact (acc_row0 n x).symm
  · exact absurd hp List.not_mem_nil

set_option maxHeartbeats 1000000 in
/-- A middle point: neither branch taken. The rows advance one step; the result words are not touched. -/
theorem run_mid (c : Dev nD) (i : grid1.Coords) (hc1 : ¬cond1 i) (hc2 : ¬k1_cond2 i = 1#1)
    (arg1 : Memref sig .tc .vmem S2048x128 .f32) (harg1 : arg1.IsWhole) (arg2 : Memref sig .tc .vmem S2048x128 .f32) (harg2 : arg2.IsWhole)
    (arg3 : Memref sig .tc .vmem S2048x128 .i32) (harg3 : arg3.IsWhole) (arg4 : Memref sig .tc .smem S1 .f32) (harg4 : arg4.IsWhole)
    (arg5 : Memref sig .tc .smem S1 .f32) (harg5 : arg5.IsWhole) (arg6 : Memref sig .tc .vmem S2x128 .f32) (harg6 : arg6.IsWhole)
    (x1 x2 : Vec F S2048x128 .f32) (x3 : Vec F S2048x128 .i32) (a : FVec F S1x128 .f32 × FVec F S1x128 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg6 fullShare (acc a)
        ∗ (iprop(owns (c : Thread nD τ) arg1 fullShare x1 ∗ owns (c : Thread nD τ) arg2 fullShare x2 ∗ owns (c : Thread nD τ) arg3 fullShare x3
            ∗ owns (c : Thread nD τ) arg6 fullShare (acc (stepRows x1 x2 x3 a))) -∗ Kk ⟨⟩))
      ⊢ wp frame (wpE (defs₀ (F := F)) Variants.none c none) E
          (cc1__tc_body i arg1 harg1 arg2 harg2 arg3 harg3 arg4 harg4 arg5 harg5 arg6 harg6) Kk := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f6, %hf6, H6⟩, Hk⟩
  obtain rfl := harg1.eq_unread hf1; obtain rfl := harg2.eq_unread hf2; obtain rfl := harg3.eq_unread hf3; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  sl_unfold_run_names
  rw [readAt_whole_i, readAt_whole_f, readAt_whole_f, readAt_row0, readAt_row1]
  exact read_rows arg6.view _ (stepRows x1 x2 x3 a)

/-- The rows before the first point: the two rows of the zero fill. -/
def rows0 : FVec F S1x128 .f32 × FVec F S1x128 .f32 :=
  (fun y => (k1_pay3 (F := F)) (ix2 (0 : Fin 2) (y 1)), fun y => (k1_pay3 (F := F)) (ix2 (1 : Fin 2) (y 1)))

abbrev rw2 : Rect S2x128 := Rect.unit (s := S2x128) ![0, 0] S2x128.size inb_S2x128_S2x128_0_0

omit [FloatOps F] in
theorem r1_not_mem_r0 (x : S1x128.Idx) : r1.emb x ∉ r0.set := by
  intro h
  have e : ((r1.emb x) 0).val = 1 := congrArg (fun y : S2x128.Idx => (y 0).val) (emb_r1 x)
  have h0 : ((r1.emb x) 0).val < 0 + 1 := (Rect.mem_set_unit.mp h 0).2
  omega

/-- After the zero fill, a load of row 0 reads the fill's row 0, -/
theorem readCov_fill_r0 [∀ e, Nonempty (Elt F e)] (v : View sig .tc .vmem S2x128 .f32) :
    v.readCov [(⟨rw2, k1_pay3 (F := F)⟩ : View.Piece (Elt F) S2x128 .f32)] r0.toLoadRect = (rows0 (F := F)).1 := by
  rw [View.readCov_eq_canon']
  funext j
  show View.canon [(⟨rw2, k1_pay3 (F := F)⟩ : View.Piece (Elt F) S2x128 .f32)] (r0.emb j) = _
  rw [View.canon_unit_zero (by funext a; fin_cases a <;> rfl), emb_r0]
  rfl

/-- and after the store of row 0 a load of row 1 still reads the fill's row 1. -/
theorem readCov_fill_r1 [∀ e, Nonempty (Elt F e)] (v : View sig .tc .vmem S2x128 .f32) (w : FVec F S1x128 .f32) :
    v.readCov [(⟨r0, w⟩ : View.Piece (Elt F) S2x128 .f32), ⟨rw2, k1_pay3 (F := F)⟩] r1.toLoadRect = (rows0 (F := F)).2 := by
  rw [View.readCov_eq_canon']
  funext j
  show View.canon [(⟨r0, w⟩ : View.Piece (Elt F) S2x128 .f32), ⟨rw2, k1_pay3 (F := F)⟩] (r1.emb j) = _
  rw [View.canon_cons_of_not_mem _ _ (r1_not_mem_r0 j), View.canon_unit_zero (by funext a; fin_cases a <;> rfl), emb_r1]
  rfl

/-- Two row stores over anything leave the two rows. -/
theorem read_rows_tail (v : View sig .tc .vmem S2x128 .f32) (f : v.ty.Contents (Elt F)) (n : FVec F S1x128 .f32 × FVec F S1x128 .f32)
    (Lt : List (View.Piece (Elt F) S2x128 .f32)) :
    v.read (Elt F) (v.writes (Elt F) f ((⟨r1, n.2⟩ : View.Piece (Elt F) S2x128 .f32) :: ⟨r0, n.1⟩ :: Lt)) = acc n := by
  rw [show ((⟨r1, n.2⟩ : View.Piece (Elt F) S2x128 .f32) :: ⟨r0, n.1⟩ :: Lt) = [⟨r1, n.2⟩, ⟨r0, n.1⟩] ++ Lt from rfl, View.writes_append]
  exact read_rows v _ n

set_option maxHeartbeats 1000000 in
theorem run_first [∀ e, Nonempty (Elt F e)] (c : Dev nD) (i : grid1.Coords) (hc1 : cond1 i) (hc2 : ¬k1_cond2 i = 1#1)
    (arg1 : Memref sig .tc .vmem S2048x128 .f32) (harg1 : arg1.IsWhole) (arg2 : Memref sig .tc .vmem S2048x128 .f32) (harg2 : arg2.IsWhole)
    (arg3 : Memref sig .tc .vmem S2048x128 .i32) (harg3 : arg3.IsWhole) (arg4 : Memref sig .tc .smem S1 .f32) (harg4 : arg4.IsWhole)
    (arg5 : Memref sig .tc .smem S1 .f32) (harg5 : arg5.IsWhole) (arg6 : Memref sig .tc .vmem S2x128 .f32) (harg6 : arg6.IsWhole)
    (x1 x2 : Vec F S2048x128 .f32) (x3 : Vec F S2048x128 .i32) (f : FVec F S2x128 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg6 fullShare f
        ∗ (iprop(owns (c : Thread nD τ) arg1 fullShare x1 ∗ owns (c : Thread nD τ) arg2 fullShare x2 ∗ owns (c : Thread nD τ) arg3 fullShare x3
            ∗ owns (c : Thread nD τ) arg6 fullShare (acc (stepRows x1 x2 x3 rows0))) -∗ Kk ⟨⟩))
      ⊢ wp frame (wpE (defs₀ (F := F)) Variants.none c none) E
          (cc1__tc_body i arg1 harg1 arg2 harg2 arg3 harg3 arg4 harg4 arg5 harg5 arg6 harg6) Kk := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f6, %hf6, H6⟩, Hk⟩
  obtain rfl := harg1.eq_unread hf1; obtain rfl := harg2.eq_unread hf2; obtain rfl := harg3.eq_unread hf3; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  sl_unfold_run_names
  rw [readAt_whole_i, readAt_whole_f, readAt_whole_f, readCov_fill_r0, readCov_fill_r1]
  exact read_rows_tail arg6.view _ (stepRows x1 x2 x3 rows0) _

theorem pieces_rows (n : FVec F S1x128 .f32 × FVec F S1x128 .f32) :
    ∀ p ∈ [(⟨r1, n.2⟩ : View.Piece (Elt F) S2x128 .f32), ⟨r0, n.1⟩], ∀ x : p.1.shape.Idx, p.2 x = acc n (p.1.emb x) := by
  intro p hp x
  rcases List.mem_cons.mp hp with rfl | hp
  · exact (acc_row1 n x).symm
  rcases List.mem_cons.mp hp with rfl | hp
  · exact (acc_row0 n x).symm
  · exact absurd hp List.not_mem_nil

theorem cover_rows (n : FVec F S1x128 .f32 × FVec F S1x128 .f32) (y : S2x128.Idx) :
    ∃ p ∈ [(⟨r1, n.2⟩ : View.Piece (Elt F) S2x128 .f32), ⟨r0, n.1⟩], y ∈ p.1.set :=
  View.cover_of_tiledL [(⟨r1, n.2⟩ : View.Piece (Elt F) S2x128 .f32), ⟨r0, n.1⟩] S1x128.size (by sl_kernel_rfl) y

/-- After the two row stores a load of a row reads that row. -/
theorem readCov_rows_r0 [∀ e, Nonempty (Elt F e)] (v : View sig .tc .vmem S2x128 .f32) (n : FVec F S1x128 .f32 × FVec F S1x128 .f32) :
    v.readCov [(⟨r1, n.2⟩ : View.Piece (Elt F) S2x128 .f32), ⟨r0, n.1⟩] r0.toLoadRect = n.1 := by
  rw [View.readCov_eq_canon']
  funext j
  show View.canon [(⟨r1, n.2⟩ : View.Piece (Elt F) S2x128 .f32), ⟨r0, n.1⟩] (r0.emb j) = _
  rw [View.canon_apply_of_pieces (acc n) _ (pieces_rows n) _ (cover_rows n _), acc_row0]
theorem readCov_rows_r1 [∀ e, Nonempty (Elt F e)] (v : View sig .tc .vmem S2x128 .f32) (n : FVec F S1x128 .f32 × FVec F S1x128 .f32) :
    v.readCov [(⟨r1, n.2⟩ : View.Piece (Elt F) S2x128 .f32), ⟨r0, n.1⟩] r1.toLoadRect = n.2 := by
  rw [View.readCov_eq_canon']
  funext j
  show View.canon [(⟨r1, n.2⟩ : View.Piece (Elt F) S2x128 .f32), ⟨r0, n.1⟩] (r1.emb j) = _
  rw [View.canon_apply_of_pieces (acc n) _ (pieces_rows n) _ (cover_rows n _), acc_row1]

/-- One store of a word leaves the word. -/
theorem read_word (v : View sig .tc .smem S1 .f32) (f : v.ty.Contents (Elt F)) (z : F .f32) :
    v.read (Elt F) (v.writes (Elt F) f [(⟨Rect.unit (s := S1) ![0] ![1] inb_S1_S1_0, fun _ => z⟩ : View.Piece (Elt F) S1 .f32)]) = fun _ => z := by
  funext y
  refine View.read_writes_apply_of_pieces v f (fun _ => z) _ (fun p hp x => ?_) y
    (View.cover_of_tiledL [(⟨Rect.unit (s := S1) ![0] ![1] inb_S1_S1_0, fun _ => z⟩ : View.Piece (Elt F) S1 .f32)] S1.size (by sl_kernel_rfl) y)
  rcases List.mem_cons.mp hp with rfl | hp
  · rfl
  · exact absurd hp List.not_mem_nil

set_option maxHeartbeats 1000000 in
theorem run_last [∀ e, Nonempty (Elt F e)] (c : Dev nD) (i : grid1.Coords) (hc1 : ¬cond1 i) (hc2 : k1_cond2 i = 1#1)
    (arg1 : Memref sig .tc .vmem S2048x128 .f32) (harg1 : arg1.IsWhole) (arg2 : Memref sig .tc .vmem S2048x128 .f32) (harg2 : arg2.IsWhole)
    (arg3 : Memref sig .tc .vmem S2048x128 .i32) (harg3 : arg3.IsWhole) (arg4 : Memref sig .tc .smem S1 .f32) (harg4 : arg4.IsWhole)
    (arg5 : Memref sig .tc .smem S1 .f32) (harg5 : arg5.IsWhole) (arg6 : Memref sig .tc .vmem S2x128 .f32) (harg6 : arg6.IsWhole)
    (x1 x2 : Vec F S2048x128 .f32) (x3 : Vec F S2048x128 .i32) (a : FVec F S1x128 .f32 × FVec F S1x128 .f32)
    (x4 x5 : Vec F S1 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare (acc a)
        ∗ (iprop(owns (c : Thread nD τ) arg1 fullShare x1 ∗ owns (c : Thread nD τ) arg2 fullShare x2 ∗ owns (c : Thread nD τ) arg3 fullShare x3
            ∗ owns (c : Thread nD τ) arg4 fullShare (fun _ => k1_pay1 (stepRows x1 x2 x3 a).1)
            ∗ owns (c : Thread nD τ) arg5 fullShare (fun _ => k1_pay2 (stepRows x1 x2 x3 a).2)
            ∗ owns (c : Thread nD τ) arg6 fullShare (acc (stepRows x1 x2 x3 a))) -∗ Kk ⟨⟩))
      ⊢ wp frame (wpE (defs₀ (F := F)) Variants.none c none) E
          (cc1__tc_body i arg1 harg1 arg2 harg2 arg3 harg3 arg4 harg4 arg5 harg5 arg6 harg6) Kk := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [readAt_whole_i, readAt_whole_f, readAt_whole_f, readAt_row0, readAt_row1, readCov_rows_r0 arg6.view (stepRows x1 x2 x3 a)]
    exact read_word arg4.view _ _
  isplitl [H5]
  · iexists _; isplitr
    swap; · iexact H5
    ipureintro
    sl_unfold_run_names
    rw [readAt_whole_i, readAt_whole_f, readAt_whole_f, readAt_row0, readAt_row1, readCov_rows_r1 arg6.view (stepRows x1 x2 x3 a)]
    exact read_word arg5.view _ _
  iexists _; isplitr
  swap; · iexact H6
  ipureintro
  sl_unfold_run_names
  rw [readAt_whole_i, readAt_whole_f, readAt_whole_f, readAt_row0, readAt_row1]
  exact read_rows arg6.view _ (stepRows x1 x2 x3 a)

/-! ## The body obligation -/

variable (p4 g4 : FVec F S65536x128 .f32) (m4 : IVec S65536x128 32) (f3 f4 : FVec F S1 .f32)

theorem rows_succ (n : ℕ) : Spec.tcRows p4 g4 m4 (n + 1)
    = stepRows (Spec.blk p4 n) (Spec.blk g4 n) (Spec.blk m4 n) (Spec.tcRows p4 g4 m4 n) := rfl
theorem rows_zero : Spec.tcRows p4 g4 m4 0 = rows0 := rfl

theorem tcSum_eq : Spec.tcSum p4 g4 m4
    = fun _ => k1_pay1 (stepRows (Spec.blk p4 25) (Spec.blk g4 25) (Spec.blk m4 25) (Spec.tcRows p4 g4 m4 25)).1 := by
  unfold Spec.tcSum; rw [show (26 : ℕ) = 25 + 1 from rfl, rows_succ]
theorem tcCnt_eq : Spec.tcCnt p4 g4 m4
    = fun _ => k1_pay2 (stepRows (Spec.blk p4 25) (Spec.blk g4 25) (Spec.blk m4 25) (Spec.tcRows p4 g4 m4 25)).2 := by
  unfold Spec.tcCnt; rw [show (26 : ℕ) = 25 + 1 from rfl, rows_succ]

/-- Where the result windows are idle, live, written back: decided over the grid. -/
theorem idle3 : ∀ t : Fin cfg1.N, ¬k1_cond2 (grid1.coords t) = 1#1 → cfg1.idle 3 (grid1.coords t) = true := by decide +kernel
theorem idle4 : ∀ t : Fin cfg1.N, ¬k1_cond2 (grid1.coords t) = 1#1 → cfg1.idle 4 (grid1.coords t) = true := by decide +kernel
theorem noFlush3 : ∀ t : Fin cfg1.N, ¬k1_cond2 (grid1.coords t) = 1#1 → (cfg1.win 3).flush t = false := by decide +kernel
theorem noFlush4 : ∀ t : Fin cfg1.N, ¬k1_cond2 (grid1.coords t) = 1#1 → (cfg1.win 4).flush t = false := by decide +kernel
theorem live3 : ∀ t : Fin cfg1.N, k1_cond2 (grid1.coords t) = 1#1 → cfg1.idle 3 (grid1.coords t) = false := by decide +kernel
theorem live4 : ∀ t : Fin cfg1.N, k1_cond2 (grid1.coords t) = 1#1 → cfg1.idle 4 (grid1.coords t) = false := by decide +kernel

theorem Φ_castSucc (d : Dev nD) (t : Fin cfg1.N) : (dat p4 g4 m4 f3 f4 d).Φ t.castSucc
    = iprop(∃ f : FVec F S2x128 .f32, ⌜t.val ≠ 0 → f = acc (Spec.tcRows p4 g4 m4 t.val)⌝ ∗ (((d.tc : Thread nD τ).loc cc1_scratch0) ↦{fullShare} f)) := rfl
theorem Φ_succ (d : Dev nD) (t : Fin cfg1.N) : (dat p4 g4 m4 f3 f4 d).Φ t.succ
    = iprop(∃ f : FVec F S2x128 .f32, ⌜t.val + 1 ≠ 0 → f = acc (Spec.tcRows p4 g4 m4 (t.val + 1))⌝ ∗ (((d.tc : Thread nD τ).loc cc1_scratch0) ↦{fullShare} f)) := rfl

omit [FloatOps F] in
/-- The scratch buffer, whole: as the invariant holds it and as the runs hold it. -/
theorem scratch_pre (d : Dev nD) (X : FVec F S2x128 .f32) :
    (((d.tc : Thread nD τ).loc cc1_scratch0) ↦{fullShare} X : sProp 𝕄) ⊢ owns (d : Thread nD τ) (Memref.whole cc1_scratch0) fullShare X := by
  rw [owns_whole_eq]; iintro HS; iexists X; isplitr; · ipureintro; rfl
  iexact HS
omit [FloatOps F] in
theorem scratch_post (d : Dev nD) (X : FVec F S2x128 .f32) (C : Prop) :
    (owns (d : Thread nD τ) (Memref.whole cc1_scratch0) fullShare X : sProp 𝕄)
      ⊢ iprop(∃ f : FVec F S2x128 .f32, ⌜C → f = X⌝ ∗ (((d.tc : Thread nD τ).loc cc1_scratch0) ↦{fullShare} f)) := by
  rw [owns_whole_eq]; iintro ⟨%f', %hf', HS⟩
  iexists f'; isplitr; · ipureintro; intro _; exact hf'
  iexact HS

/-- What the body is called with at point `t`, the windows one by one, -/
def bodyPre (d : Dev nD) (t : Fin cfg1.N) : sProp 𝕄 :=
  iprop((dat p4 g4 m4 f3 f4 d).Φ t.castSucc ∗ (dat p4 g4 m4 f3 f4 d).owesAt none t.castSucc
    ∗ (∃ x, owns (d : Thread nD τ) (st1_0 t) fullShare ((dat p4 g4 m4 f3 f4 d).before 0 t x))
    ∗ (∃ x, owns (d : Thread nD τ) (st1_1 t) fullShare ((dat p4 g4 m4 f3 f4 d).before 1 t x))
    ∗ (∃ x, owns (d : Thread nD τ) (st1_2 t) fullShare ((dat p4 g4 m4 f3 f4 d).before 2 t x))
    ∗ (∃ x, owns (d : Thread nD τ) (st1_3 t) fullShare ((dat p4 g4 m4 f3 f4 d).before 3 t x))
    ∗ (∃ x, owns (d : Thread nD τ) (st1_4 t) fullShare ((dat p4 g4 m4 f3 f4 d).before 4 t x)))

/-- and what it returns. -/
def bodyPost (d : Dev nD) (t : Fin cfg1.N) : sProp 𝕄 :=
  iprop((dat p4 g4 m4 f3 f4 d).Φ t.succ ∗ (dat p4 g4 m4 f3 f4 d).owesAt none t.succ
    ∗ (dat p4 g4 m4 f3 f4 d).leavesExact 0 t ∗ (dat p4 g4 m4 f3 f4 d).leavesExact 1 t ∗ (dat p4 g4 m4 f3 f4 d).leavesExact 2 t
    ∗ (dat p4 g4 m4 f3 f4 d).leavesExact 3 t ∗ (dat p4 g4 m4 f3 f4 d).leavesExact 4 t)

set_option maxHeartbeats 4000000 in
/-- The body at any point. The operand buffers hold their blocks; the grid coordinate says which of the three cases the
    point is in; the scratch holds the running rows (anything at the first point, where the body zeroes it); the result
    words are left as found except at the last point, where they receive the rows' sums over the columns. -/
theorem sound_body [∀ e, Nonempty (Elt F e)] (d : Dev nD) (t : Fin cfg1.N) :
    bodyPre p4 g4 m4 f3 f4 d t ⊢ wp frame (wpE (defs₀ (F := F)) 𝒱₀ d none) Set.univ (bodyAt1 t) (fun _ => bodyPost p4 g4 m4 f3 f4 d t) := by
  unfold bodyPre bodyPost bodyAt1
  simp only [before0, before1, before2]
  rw [show (dat p4 g4 m4 f3 f4 d).owesAt none t.succ = (dat p4 g4 m4 f3 f4 d).owesAt none t.castSucc from rfl,
    Φ_castSucc, Φ_succ, rows_succ,
    show (dat p4 g4 m4 f3 f4 d).leavesExact 0 t = owns (d : Thread nD τ) (st1_0 t) fullShare (Spec.blk p4 t.val) from rfl,
    show (dat p4 g4 m4 f3 f4 d).leavesExact 1 t = owns (d : Thread nD τ) (st1_1 t) fullShare (Spec.blk g4 t.val) from rfl,
    show (dat p4 g4 m4 f3 f4 d).leavesExact 2 t = owns (d : Thread nD τ) (st1_2 t) fullShare (Spec.blk m4 t.val) from rfl]
  have hN : t.val < 26 := N26 t
  by_cases h25 : t.val = 25
  · -- the last point
    have hc2 : k1_cond2 (grid1.coords t) = 1#1 := (hcond2 t).mpr h25
    have hc1 : ¬cond1 (grid1.coords t) := fun h => by have := (hcond1 t).mp h; omega
    rw [show (dat p4 g4 m4 f3 f4 d).leavesExact 3 t = owns (d : Thread nD τ) (st1_3 t) fullShare (Spec.tcSum p4 g4 m4) from by
        unfold Dat.leavesExact; rw [live3 t hc2]; rfl,
      show (dat p4 g4 m4 f3 f4 d).leavesExact 4 t = owns (d : Thread nD τ) (st1_4 t) fullShare (Spec.tcCnt p4 g4 m4) from by
        unfold Dat.leavesExact; rw [live4 t hc2]; rfl,
      tcSum_eq, tcCnt_eq, ← h25]
    iintro ⟨⟨%f, %hf, HS⟩, Ho, ⟨%d0, H0⟩, ⟨%d1, H1⟩, ⟨%d2, H2⟩, ⟨%d3, H3⟩, ⟨%d4, H4⟩⟩
    obtain rfl := hf (by omega)
    iapply (run_last d (grid1.coords t) hc1 hc2 _ _ _ _ _ _ _ _ _ _ (Memref.whole cc1_scratch0) (Memref.isWhole_whole _)
      (Spec.blk p4 t.val) (Spec.blk g4 t.val) (Spec.blk m4 t.val) (Spec.tcRows p4 g4 m4 t.val) _ _ Set.univ _)
    isplitl [H0]; · iexact H0
    isplitl [H1]; · iexact H1
    isplitl [H2]; · iexact H2
    isplitl [H3]; · iexact H3
    isplitl [H4]; · iexact H4
    isplitl [HS]; · iapply (scratch_pre d _); iexact HS
    iintro ⟨H0, H1, H2, H3, H4, HS⟩
    isplitl [HS]
    · iapply (scratch_post d _ _); iexact HS
    isplitl [Ho]; · iexact Ho
    isplitl [H0]; · iexact H0
    isplitl [H1]; · iexact H1
    isplitl [H2]; · iexact H2
    isplitl [H3]; · iexact H3
    iexact H4
  · have hc2 : ¬k1_cond2 (grid1.coords t) = 1#1 := fun h => h25 ((hcond2 t).mp h)
    rw [Dat.leavesExact_idle (dat p4 g4 m4 f3 f4 d) 3 t (idle3 t hc2) (noFlush3 t hc2),
      Dat.leavesExact_idle (dat p4 g4 m4 f3 f4 d) 4 t (idle4 t hc2) (noFlush4 t hc2)]
    by_cases h0 : t.val = 0
    · -- the first point
      have hc1 : cond1 (grid1.coords t) := (hcond1 t).mpr h0
      rw [h0, rows_zero]
      iintro ⟨⟨%f, -, HS⟩, Ho, ⟨%d0, H0⟩, ⟨%d1, H1⟩, ⟨%d2, H2⟩, H3, H4⟩
      iapply (run_first d (grid1.coords t) hc1 hc2 _ _ _ _ _ _ _ _ _ _ (Memref.whole cc1_scratch0) (Memref.isWhole_whole _)
        (Spec.blk p4 0) (Spec.blk g4 0) (Spec.blk m4 0) f Set.univ _)
      isplitl [H0]; · iexact H0
      isplitl [H1]; · iexact H1
      isplitl [H2]; · iexact H2
      isplitl [HS]; · iapply (scratch_pre d _); iexact HS
      iintro ⟨H0, H1, H2, HS⟩
      isplitl [HS]
      · iapply (scratch_post d _ _); iexact HS
      isplitl [Ho]; · iexact Ho
      isplitl [H0]; · iexact H0
      isplitl [H1]; · iexact H1
      isplitl [H2]; · iexact H2
      isplitl [H3]; · iexact H3
      iexact H4
    · -- a middle point
      have hc1 : ¬cond1 (grid1.coords t) := fun h => h0 ((hcond1 t).mp h)
      iintro ⟨⟨%f, %hf, HS⟩, Ho, ⟨%d0, H0⟩, ⟨%d1, H1⟩, ⟨%d2, H2⟩, H3, H4⟩
      obtain rfl := hf h0
      iapply (run_mid d (grid1.coords t) hc1 hc2 _ _ _ _ _ _ _ _ _ _ (Memref.whole cc1_scratch0) (Memref.isWhole_whole _)
        (Spec.blk p4 t.val) (Spec.blk g4 t.val) (Spec.blk m4 t.val) (Spec.tcRows p4 g4 m4 t.val) Set.univ _)
      isplitl [H0]; · iexact H0
      isplitl [H1]; · iexact H1
      isplitl [H2]; · iexact H2
      isplitl [HS]; · iapply (scratch_pre d _); iexact HS
      iintro ⟨H0, H1, H2, HS⟩
      isplitl [HS]
      · iapply (scratch_post d _ _); iexact HS
      isplitl [Ho]; · iexact Ho
      isplitl [H0]; · iexact H0
      isplitl [H1]; · iexact H1
      isplitl [H2]; · iexact H2
      isplitl [H3]; · iexact H3
      iexact H4

set_option maxRecDepth 16384 in
/-- The library's body obligation, at every point. -/
theorem body_obligation [∀ e, Nonempty (Elt F e)] (d : Dev nD) :
    BodyObligation (dat p4 g4 m4 f3 f4 d) (defs₀ (F := F)) 𝒱₀ none Set.univ := fun t => by
  rw [Gen.bigSep_W1, Gen.bigSep_W1]
  exact sound_body p4 g4 m4 f3 f4 d t

end Cert.Kernel.TcBody
end
-- ==== Proof.K.TcRegion.lean ====
/-
  The TensorCore region as @main's TensorCore thread enters it inside the SparseCore program.

  The region is one pipeline of 26 points over five windows. Entered with the three operand arrays whole at any contents
  and the two one-word result arrays at anything, it leaves the operands as they were and the results at the
  specification's sum and count over all 26 blocks and all 128 columns. The TensorCore owes nothing after its one
  SparseCore call, so the pipeline's waits need no evidence; the waits the pipeline records sit at level 0, below the
  bound the handshake state keeps on the thread's recorded waits.
-/
import proofs.«210416_g85048942395886_cont_9to1c4b_614_23_alg».proof.Proof.K.TcBody
import Idealize.ShloMosaic.Lib.Pipeline.Regions
import Idealize.ShloMosaic.Lib.SparseCore.Threads

noncomputable section

namespace Cert.Kernel.TcRegion

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)
open Cert.Kernel.TcGhost Cert.Kernel.TcData
open Idealize.ShloMosaic.ValueIdx

variable (p4 g4 : FVec F S65536x128 .f32) (m4 : IVec S65536x128 32) (f3 f4 : FVec F S1 .f32)

/-! ## The TensorCore's handshake state, split: what it owes, and the rest -/

/-- Everything of the TensorCore's state after the one SparseCore call but what it owes: the region does not touch it. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) : ((K (F := F)).tcSt EH d 1 : sProp 𝕄)
    = iprop((∃ W, ⌜(K (F := F)).WBelow (SparseCore.T d) W (8 * 1)⌝ ∗ owes (SparseCore.T d) ((K (F := F)).Otc d 1) W) ∗ tcRest (F := F) d) := rfl

/-- The thread state the region is entered from: the handshake state and the five window arrays. -/
def pre (d : Dev nD) : sProp 𝕄 :=
  iprop((K (F := F)).tcSt EH d 1
    ∗ ((SparseCore.T d).loc main_v4 ↦{fullShare} p4) ∗ ((SparseCore.T d).loc main_v5 ↦{fullShare} g4) ∗ ((SparseCore.T d).loc main_v6 ↦{fullShare} m4)
    ∗ ((SparseCore.T d).loc main_v7_0 ↦{fullShare} f3) ∗ ((SparseCore.T d).loc main_v7_1 ↦{fullShare} f4))

/-- The one it leaves: the same, the two results at the specification's values. -/
def post (d : Dev nD) : sProp 𝕄 :=
  iprop((K (F := F)).tcSt EH d 1
    ∗ ((SparseCore.T d).loc main_v4 ↦{fullShare} p4) ∗ ((SparseCore.T d).loc main_v5 ↦{fullShare} g4) ∗ ((SparseCore.T d).loc main_v6 ↦{fullShare} m4)
    ∗ ((SparseCore.T d).loc main_v7_0 ↦{fullShare} Spec.tcSum p4 g4 m4) ∗ ((SparseCore.T d).loc main_v7_1 ↦{fullShare} Spec.tcCnt p4 g4 m4))

variable [∀ e, Nonempty (Elt F e)]

/-- The TensorCore owes nothing after its one SparseCore call. -/
theorem Otc_one (d : Dev nD) : (K (F := F)).Otc d 1 = 0 := (K (F := F)).Otc_end d (le_refl 1)

theorem harr (w : Fin 5) : ((Pipeline.pin (pcfgs (F := F)) adm 0).spec w).arr.IsWhole := Gen.arr_whole1 w

theorem hshare (d : Dev nD) (w : Fin 5) : (pdats p4 g4 m4 f3 f4 0 d).share w = fullShare := by
  unfold Dat.share
  match w with
  | ⟨0, _⟩ => rfl
  | ⟨1, _⟩ => rfl
  | ⟨2, _⟩ => rfl
  | ⟨3, _⟩ => rfl
  | ⟨4, _⟩ => rfl

/-! ## The two results' arrays after the region -/

/-- The last grid point. -/
def t25 : Fin cfg1.grid.N := ⟨25, by decide⟩

omit [FloatOps F] in
/-- A one-word result array is all inside the block the last point writes back. -/
theorem cover3 (d : Dev nD) : ∀ i : (View.loc (d.tc : Thread nD τ) (cfg1.win 3).arr.view).2.ty.Idx,
    ∃ t : Fin cfg1.grid.N, (cfg1.win 3).flush t = true ∧ i ∈ ((cfg1.win 3).blk t).view.set := by
  intro i
  refine ⟨t25, (Gen.flush1_3 t25).mpr rfl, ?_⟩
  have hy := ((cfg1.win 3).blk t25).view.emb_mem_set (ix1 (0 : Fin 1))
  have e : ((cfg1.win 3).blk t25).view.emb (ix1 (0 : Fin 1)) = i := by
    funext a
    match a with
    | ⟨0, h0⟩ =>
      apply Fin.ext
      have h1 : (i ⟨0, h0⟩).val < 1 := (i ⟨0, h0⟩).isLt
      have h2 : ((((cfg1.win 3).blk t25).view.emb (ix1 (0 : Fin 1))) ⟨0, h0⟩).val < 1 := Fin.isLt _
      show ((((cfg1.win 3).blk t25).view.emb (ix1 (0 : Fin 1))) ⟨0, h0⟩).val = (i ⟨0, h0⟩).val
      omega
  exact e ▸ hy

omit [FloatOps F] in
theorem cover4 (d : Dev nD) : ∀ i : (View.loc (d.tc : Thread nD τ) (cfg1.win 4).arr.view).2.ty.Idx,
    ∃ t : Fin cfg1.grid.N, (cfg1.win 4).flush t = true ∧ i ∈ ((cfg1.win 4).blk t).view.set := by
  intro i
  refine ⟨t25, (Gen.flush1_4 t25).mpr rfl, ?_⟩
  have hy := ((cfg1.win 4).blk t25).view.emb_mem_set (ix1 (0 : Fin 1))
  have e : ((cfg1.win 4).blk t25).view.emb (ix1 (0 : Fin 1)) = i := by
    funext a
    match a with
    | ⟨0, h0⟩ =>
      apply Fin.ext
      have h1 : (i ⟨0, h0⟩).val < 1 := (i ⟨0, h0⟩).isLt
      have h2 : ((((cfg1.win 4).blk t25).view.emb (ix1 (0 : Fin 1))) ⟨0, h0⟩).val < 1 := Fin.isLt _
      show ((((cfg1.win 4).blk t25).view.emb (ix1 (0 : Fin 1))) ⟨0, h0⟩).val = (i ⟨0, h0⟩).val
      omega
  exact e ▸ hy

/-- The one write-back, at the last point, writes the whole one-word array. -/
theorem arrAt3 (d : Dev nD) : (dat p4 g4 m4 f3 f4 d).arrAt 3 cfg1.N = Spec.tcSum p4 g4 m4 := by
  exact (dat p4 g4 m4 f3 f4 d).arrAt_eq_of_cover 3 (Spec.tcSum p4 g4 m4) (fun t _ => rfl) (cover3 d)

theorem arrAt4 (d : Dev nD) : (dat p4 g4 m4 f3 f4 d).arrAt 4 cfg1.N = Spec.tcCnt p4 g4 m4 := by
  exact (dat p4 g4 m4 f3 f4 d).arrAt_eq_of_cover 4 (Spec.tcCnt p4 g4 m4) (fun t _ => rfl) (cover4 d)

theorem Φ_eq (d : Dev nD) (t : Fin (cfg1.N + 1)) : (pdats p4 g4 m4 f3 f4 0 d).Φ t
    = iprop(∃ f : FVec F S2x128 .f32, ⌜t.val ≠ 0 → f = acc (Spec.tcRows p4 g4 m4 t.val)⌝ ∗ (((d.tc : Thread nD τ).loc cc1_scratch0) ↦{fullShare} f)) := rfl

/-- The region's record. -/
def seg : Pipeline.RegionSeg (pcfgs (F := F)) adm (pdats p4 g4 m4 f3 f4) none defs₀ 𝒱₀ (K (F := F)).L (K (F := F)).lev (0 : Fin 1) where
  win := Gen.launch1.win.to₀
  block_pos := Gen.block_pos1
  stage_whole := Gen.stage_whole1
  K := PEmpty
  osem := fun k => k.elim
  ho := Pipeline.OwnSemFacts.none _
  hbody := fun d => (TcBody.body_obligation p4 g4 m4 f3 f4 d).loose
  hwaits := Pipeline.hwaits_of_owed_zero (pcfgs (F := F)) adm (pdats p4 g4 m4 f3 f4) none (K (F := F)).L (K (F := F)).lev 0 (fun _ _ => rfl)
  pre := pre p4 g4 m4 f3 f4
  post := post p4 g4 m4
  X := fun _ => iprop(emp)
  Y := fun _ => iprop(emp)
  Z := fun d => tcRest (F := F) d
  hentry := fun d => by
    rw [Pipeline.arrays_eq (Pipeline.pin (pcfgs (F := F)) adm) (pdats p4 g4 m4 f3 f4) 0 d harr (hshare p4 g4 m4 f3 f4 d), Gen.bigSep_W1]
    unfold pre; rw [tcSt_eq, Otc_one]
    iintro ⟨⟨⟨⟨%W, %hW, HW⟩, Hrest⟩, H4, H5, H6, H70, H71⟩, -, -⟩
    imodintro
    isplitl [H4 H5 H6 H70 H71]
    · isplitl [H4]; · iexact H4
      isplitl [H5]; · iexact H5
      isplitl [H6]; · iexact H6
      isplitl [H70]; · iexact H70
      iexact H71
    isplitr
    · unfold Pipeline.prefHeld; rw [Finset.univ_eq_empty, BI.bigSep_empty]; iempintro
    isplitl [HW]
    · iexists W; isplitr
      · ipureintro; intro p hp; exact Or.inl (hW p hp)
      iexact HW
    isplitr; · iempintro
    iexact Hrest
  hin := fun d => by
    rw [Gen.scopedRest1_eq, Φ_eq]
    iintro ⟨-, -, ⟨%f, H⟩⟩
    iexists f; isplitr
    · ipureintro; intro h; exact absurd rfl h
    iexact H
  hout := fun d => by
    rw [Gen.scopedRest1_eq, Pipeline.ownSems0_none, Φ_eq]
    iintro ⟨%f, -, H⟩
    isplitr; · iempintro
    isplitr; · iempintro
    iexists f; iexact H
  hexit := fun d => by
    rw [Pipeline.arrays_eq (Pipeline.pin (pcfgs (F := F)) adm) (pdats p4 g4 m4 f3 f4) 0 d harr (hshare p4 g4 m4 f3 f4 d), Gen.bigSep_W1]
    have e0 : (pdats p4 g4 m4 f3 f4 0 d).arrAt 0 (Pipeline.pin (pcfgs (F := F)) adm 0).N = p4 := (dat p4 g4 m4 f3 f4 d).arrAt_in 0 rfl _
    have e1 : (pdats p4 g4 m4 f3 f4 0 d).arrAt 1 (Pipeline.pin (pcfgs (F := F)) adm 0).N = g4 := (dat p4 g4 m4 f3 f4 d).arrAt_in 1 rfl _
    have e2 : (pdats p4 g4 m4 f3 f4 0 d).arrAt 2 (Pipeline.pin (pcfgs (F := F)) adm 0).N = m4 := (dat p4 g4 m4 f3 f4 d).arrAt_in 2 rfl _
    have e3 : (pdats p4 g4 m4 f3 f4 0 d).arrAt 3 (Pipeline.pin (pcfgs (F := F)) adm 0).N = Spec.tcSum p4 g4 m4 := arrAt3 p4 g4 m4 f3 f4 d
    have e4 : (pdats p4 g4 m4 f3 f4 0 d).arrAt 4 (Pipeline.pin (pcfgs (F := F)) adm 0).N = Spec.tcCnt p4 g4 m4 := arrAt4 p4 g4 m4 f3 f4 d
    rw [e0, e1, e2, e3, e4]
    unfold post; rw [tcSt_eq, Otc_one]
    iintro ⟨⟨H4, H5, H6, H70, H71⟩, ⟨%W, %hW, HW⟩, -, Hrest⟩
    imodintro
    isplitl [HW Hrest]
    · isplitl [HW]
      · iexists W; isplitr
        · ipureintro; intro p hp
          rcases hW hp with h | ⟨w, s, rfl⟩
          · exact h
          · exact Nat.zero_le _
        iexact HW
      iexact Hrest
    isplitl [H4]; · iexact H4
    isplitl [H5]; · iexact H5
    isplitl [H6]; · iexact H6
    isplitl [H70]; · iexact H70
    iexact H71

/-- The region, entered from @main's TensorCore thread inside the SparseCore program. The call is the lifted call of the
    pipeline's entry label followed by the continuation; under the pipelines' own body table it is one region step. -/
theorem tc_region (P : (K (F := F)).Pay (nD := nD) (Val := Elt F) (Name := ℕ) (U := UU))
    (κ : GSem nD τ sig → ℕ) (d : Dev nD) (p4 g4 : FVec F S65536x128 .f32) (m4 : IVec S65536x128 32)
    {α : Type} (k : PUnit → Prog (TpuEff nD τ sig (Elt F) (SparseCore.Sig (ΛP (F := F)) 1) .tc) α) (Q : α → sProp 𝕄) :
    iprop((K (F := F)).ctx EH P κ ∗ (K (F := F)).tcSt EH d 1 ∗ boundary (SparseCore.T d) ∗ TcGhost.G d
        ∗ ((SparseCore.T d).loc main_v4 ↦{fullShare} p4) ∗ ((SparseCore.T d).loc main_v5 ↦{fullShare} g4) ∗ ((SparseCore.T d).loc main_v6 ↦{fullShare} m4)
        ∗ (∃ f, (SparseCore.T d).loc main_v7_0 ↦{fullShare} f) ∗ (∃ f, (SparseCore.T d).loc main_v7_1 ↦{fullShare} f)
        ∗ (iprop((K (F := F)).tcSt EH d 1 ∗ boundary (SparseCore.T d)
            ∗ ((SparseCore.T d).loc main_v4 ↦{fullShare} p4) ∗ ((SparseCore.T d).loc main_v5 ↦{fullShare} g4) ∗ ((SparseCore.T d).loc main_v6 ↦{fullShare} m4)
            ∗ ((SparseCore.T d).loc main_v7_0 ↦{fullShare} Spec.tcSum p4 g4 m4) ∗ ((SparseCore.T d).loc main_v7_1 ↦{fullShare} Spec.tcCnt p4 g4 m4))
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (.op (.customCall (SparseCore.inner (Pipeline.entry 0)) ()) k) Q := by
  have hprog : (Prog.op (.customCall (SparseCore.inner (Pipeline.entry (0 : Fin 1))) ()) k : Prog (TpuEff nD τ sig (Elt F) (SparseCore.Sig (ΛP (F := F)) 1) .tc) α)
      = (SparseCore.liftProg (Q := 1) (Prog.op (.customCall (Pipeline.entry (0 : Fin 1)) ()) fun x => .ret x)) >>= k := rfl
  rw [hprog, wp_bind]
  iintro ⟨#Hctx, Hst, Hb, HG, H4, H5, H6, ⟨%f3, H70⟩, ⟨%f4, H71⟩, Hk⟩
  have hpre : iprop((K (F := F)).tcSt EH d 1
      ∗ ((SparseCore.T d).loc main_v4 ↦{fullShare} p4) ∗ ((SparseCore.T d).loc main_v5 ↦{fullShare} g4) ∗ ((SparseCore.T d).loc main_v6 ↦{fullShare} m4)
      ∗ ((SparseCore.T d).loc main_v7_0 ↦{fullShare} f3) ∗ ((SparseCore.T d).loc main_v7_1 ↦{fullShare} f4))
      ⊢ (seg p4 g4 m4 f3 f4).pre d := BI.Entails.refl _
  have hpost : (seg p4 g4 m4 f3 f4).post d ⊢ iprop((K (F := F)).tcSt EH d 1
      ∗ ((SparseCore.T d).loc main_v4 ↦{fullShare} p4) ∗ ((SparseCore.T d).loc main_v5 ↦{fullShare} g4) ∗ ((SparseCore.T d).loc main_v6 ↦{fullShare} m4)
      ∗ ((SparseCore.T d).loc main_v7_0 ↦{fullShare} Spec.tcSum p4 g4 m4) ∗ ((SparseCore.T d).loc main_v7_1 ↦{fullShare} Spec.tcCnt p4 g4 m4)) := BI.Entails.refl _
  iapply ((K (F := F)).wp_liftProg (D (F := F)) 𝒱 (SparseCore.T d) Set.univ none _ _)
  iapply (Pipeline.RegionSeg.wp (pcfgs (F := F)) adm (pdats p4 g4 m4 f3 f4) none phinj EP defs₀ 𝒱₀ (K (F := F)).L (K (F := F)).lev
    (seg p4 g4 m4 f3 f4) d none (fun u hu => by cases hu) (fun x => .ret x) _)
  isplitl [Hk]
  · iintro ⟨Hb, Hpost⟩
    iapply (le_wp_ret _ _)
    ihave Hp := (hpost) $$ Hpost
    icases Hp with ⟨Hst, H4, H5, H6, H70, H71⟩
    iapply Hk
    isplitl [Hst]; · iexact Hst
    isplitl [Hb]; · iexact Hb
    isplitl [H4]; · iexact H4
    isplitl [H5]; · iexact H5
    isplitl [H6]; · iexact H6
    isplitl [H70]; · iexact H70
    iexact H71
  isplitl [Hb]; · iexact Hb
  isplitl [Hst H4 H5 H6 H70 H71]
  · iapply hpre
    isplitl [Hst]; · iexact Hst
    isplitl [H4]; · iexact H4
    isplitl [H5]; · iexact H5
    isplitl [H6]; · iexact H6
    isplitl [H70]; · iexact H70
    iexact H71
  isplitr
  · iapply (SparseCore.Cfg.ctx_levAts κ); iexact Hctx
  unfold TcGhost.G
  iexact HG

end Cert.Kernel.TcRegion

end
-- ==== Proof.K.MainOps.lean ====
/-
  @main as five stretches: three host operations (the arguments flattened), the SparseCore call, three host
  operations (the flat arrays seen as 65536 rows of 128), the TensorCore region, and the host operations that reduce
  the partials and combine the two pairs of sums into the quotient.
-/
import proofs.«210416_g85048942395886_cont_9to1c4b_614_23_alg».proof.Proof.K.Common
import Idealize.ShloMosaic.Lib.Pipeline.Frame

noncomputable section

namespace Cert.Kernel.MainOps

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- The arguments flattened. -/
def ops1 : List (HloOp τ sig (Elt F)) := [
    StableHlo.reshape main_arg0 main_v0 rfl shapeCasts_S4x1x128x128x128_S8388608,
    StableHlo.reshape main_arg1 main_v1 rfl shapeCasts_S4x1x128x128x128_S8388608,
    StableHlo.reshape main_arg2 main_v2 rfl shapeCasts_S4x1x128x128x128_S8388608 ]

/-- The flat arrays as 65536 rows of 128. -/
def ops2 : List (HloOp τ sig (Elt F)) := [
    StableHlo.reshape main_v0 main_v4 rfl shapeCasts_S8388608_S65536x128,
    StableHlo.reshape main_v1 main_v5 rfl shapeCasts_S8388608_S65536x128,
    StableHlo.reshape main_v2 main_v6 rfl shapeCasts_S8388608_S65536x128 ]

/-- The partials reduced to a sum and a count, each added to the region's, the quotient. -/
def ops3 : List (HloOp τ sig (Elt F)) := [
    StableHlo.reshape main_v3 main_v8 rfl shapeCasts_S32x32_S32x2x16,
    StableHlo.nullary main_cst (constant S_ .f32 0x00000000#32),
    StableHlo.binary main_v8 main_cst main_v9 ((fun x v => Host.reduceAdd x v reducesTo_S32x2x16_S2_d0_2 h_S_) : (⟨S32x2x16, .f32⟩ : BufTy).Contents (Elt F) → (⟨S_, .f32⟩ : BufTy).Contents (Elt F) → (⟨S2, .f32⟩ : BufTy).Contents (Elt F)),
    StableHlo.unary main_v9 main_v10 ((extractStridedSlice S1 ![0] · slices_S2_S1_0) : (⟨S2, .f32⟩ : BufTy).Contents (Elt F) → (⟨S1, .f32⟩ : BufTy).Contents (Elt F)),
    StableHlo.reshape main_v10 main_v11 rfl shapeCasts_S1_S_,
    StableHlo.reshape main_v7_0 main_v12 rfl shapeCasts_S1_S_,
    StableHlo.binary main_v11 main_v12 main_v13 (addf : (⟨S_, .f32⟩ : BufTy).Contents (Elt F) → (⟨S_, .f32⟩ : BufTy).Contents (Elt F) → (⟨S_, .f32⟩ : BufTy).Contents (Elt F)),
    StableHlo.unary main_v9 main_v14 ((extractStridedSlice S1 ![1] · slices_S2_S1_1) : (⟨S2, .f32⟩ : BufTy).Contents (Elt F) → (⟨S1, .f32⟩ : BufTy).Contents (Elt F)),
    StableHlo.reshape main_v14 main_v15 rfl shapeCasts_S1_S_,
    StableHlo.reshape main_v7_1 main_v16 rfl shapeCasts_S1_S_,
    StableHlo.binary main_v15 main_v16 main_v17 (addf : (⟨S_, .f32⟩ : BufTy).Contents (Elt F) → (⟨S_, .f32⟩ : BufTy).Contents (Elt F) → (⟨S_, .f32⟩ : BufTy).Contents (Elt F)),
    StableHlo.nullary main_cst_0 (constant S_ .f32 0x3F800000#32),
    StableHlo.binary main_v17 main_cst_0 main_v18 (maximumf : (⟨S_, .f32⟩ : BufTy).Contents (Elt F) → (⟨S_, .f32⟩ : BufTy).Contents (Elt F) → (⟨S_, .f32⟩ : BufTy).Contents (Elt F)),
    StableHlo.binary main_v13 main_v18 main_v19 (Host.divf : (⟨S_, .f32⟩ : BufTy).Contents (Elt F) → (⟨S_, .f32⟩ : BufTy).Contents (Elt F) → (⟨S_, .f32⟩ : BufTy).Contents (Elt F)) ]

/-- @main is the five stretches in order. -/
theorem main_chain (d : Dev nD) : main (F := F) d = (Pipeline.chain
    [ StableHlo.seq ops1,
      (sc (F := F)).run d 0,
      StableHlo.seq ops2,
      Prog.lift (.customCall (SparseCore.inner (Pipeline.entry 0)) ()),
      StableHlo.seq ops3 ] : Prog (TpuEff nD τ sig (Elt F) (SparseCore.Sig (ΛP (F := F)) 1) .tc) PUnit) := by
  unfold ops1 ops2 ops3
  chain_rfl

/-! Every host operation touches unscoped TensorCore buffers only, and determines its results. -/

theorem ops1_sub : ∀ op ∈ (ops1 : List (HloOp τ sig (Elt F))), op.bufs ⊆ Pipeline.ucRefs τ sig :=
  List.forall_iff_forall_mem.1 (show (ops1 : List (HloOp τ sig (Elt F))).Forall fun op => op.bufs ⊆ Pipeline.ucRefs τ sig from
    ⟨Pipeline.sub_ucRefs _ (StableHlo.reshape_bufs_sub ..),
    Pipeline.sub_ucRefs _ (StableHlo.reshape_bufs_sub ..),
    Pipeline.sub_ucRefs _ (StableHlo.reshape_bufs_sub ..)⟩)

theorem ops2_sub : ∀ op ∈ (ops2 : List (HloOp τ sig (Elt F))), op.bufs ⊆ Pipeline.ucRefs τ sig :=
  List.forall_iff_forall_mem.1 (show (ops2 : List (HloOp τ sig (Elt F))).Forall fun op => op.bufs ⊆ Pipeline.ucRefs τ sig from
    ⟨Pipeline.sub_ucRefs _ (StableHlo.reshape_bufs_sub ..),
    Pipeline.sub_ucRefs _ (StableHlo.reshape_bufs_sub ..),
    Pipeline.sub_ucRefs _ (StableHlo.reshape_bufs_sub ..)⟩)

theorem ops3_sub : ∀ op ∈ (ops3 : List (HloOp τ sig (Elt F))), op.bufs ⊆ Pipeline.ucRefs τ sig :=
  List.forall_iff_forall_mem.1 (show (ops3 : List (HloOp τ sig (Elt F))).Forall fun op => op.bufs ⊆ Pipeline.ucRefs τ sig from
    ⟨Pipeline.sub_ucRefs _ (StableHlo.reshape_bufs_sub ..),
    Pipeline.sub_ucRefs _ (StableHlo.nullary_bufs_sub ..),
    Pipeline.sub_ucRefs _ (StableHlo.binary_bufs_sub ..),
    Pipeline.sub_ucRefs _ (StableHlo.unary_bufs_sub ..),
    Pipeline.sub_ucRefs _ (StableHlo.reshape_bufs_sub ..),
    Pipeline.sub_ucRefs _ (StableHlo.reshape_bufs_sub ..),
    Pipeline.sub_ucRefs _ (StableHlo.binary_bufs_sub ..),
    Pipeline.sub_ucRefs _ (StableHlo.unary_bufs_sub ..),
    Pipeline.sub_ucRefs _ (StableHlo.reshape_bufs_sub ..),
    Pipeline.sub_ucRefs _ (StableHlo.reshape_bufs_sub ..),
    Pipeline.sub_ucRefs _ (StableHlo.binary_bufs_sub ..),
    Pipeline.sub_ucRefs _ (StableHlo.nullary_bufs_sub ..),
    Pipeline.sub_ucRefs _ (StableHlo.binary_bufs_sub ..),
    Pipeline.sub_ucRefs _ (StableHlo.binary_bufs_sub ..)⟩)

theorem ops1_fresh : ∀ op ∈ (ops1 : List (HloOp τ sig (Elt F))), op.fresh = ∅ := by
  intro _ h; unfold ops1 at h; (repeat (cases h with | head => rfl | tail _ h => ?_)); exact nomatch h

theorem ops2_fresh : ∀ op ∈ (ops2 : List (HloOp τ sig (Elt F))), op.fresh = ∅ := by
  intro _ h; unfold ops2 at h; (repeat (cases h with | head => rfl | tail _ h => ?_)); exact nomatch h

theorem ops3_fresh : ∀ op ∈ (ops3 : List (HloOp τ sig (Elt F))), op.fresh = ∅ := by
  intro _ h; unfold ops3 at h; (repeat (cases h with | head => rfl | tail _ h => ?_)); exact nomatch h

end Cert.Kernel.MainOps

end
-- ==== Proof.K.MainSplit.lean ====
/-
  The SparseCore call's operands, dealt to the thirty-two tasks and collected again.

  Each flat input array, held whole, is cut into thirty-two read shares and a remainder that stays behind; the partials
  array is cut into its thirty-two rows. Worker `w` gets share `w` of each input and row `w`. The workers are the pairs
  (SparseCore, subcore), `w = 2 s + c`, so a product over the workers is a product over the SparseCores of products
  over their subcores. Afterwards the shares and the remainder make each input whole again, and the rows, each now at
  the specification's partials, make the partials array whole at that value.
-/
import proofs.«210416_g85048942395886_cont_9to1c4b_614_23_alg».proof.Proof.K.Hand

noncomputable section

namespace Cert.Kernel.MainSplit

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- A worker number is a pair (SparseCore, subcore): `w = 2 s + c`. -/
def widEquiv : Fin 2 × Fin 16 ≃ Fin 32 where
  toFun p := Hand.wid p.1 p.2
  invFun w := (⟨w.val % 2, Nat.mod_lt _ (by decide)⟩, ⟨w.val / 2, by have := w.isLt; omega⟩)
  left_inv p := by
    rcases p with ⟨c, s⟩
    have hc := c.isLt; have hs := s.isLt
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- A product over the SparseCores of products over their subcores is a product over the workers. -/
theorem bigSep_wid (Φ : Fin 32 → sProp 𝕄) :
    (bigSep Finset.univ fun c : Fin ((K (F := F)).nCore 0) => bigSep Finset.univ fun s : Fin 16 => Φ (Hand.wid (Fin.cast nCore_zero c) s))
      = bigSep Finset.univ Φ := by
  rw [bigSep_univ_equiv widEquiv Φ, bigSep_univ_prod]
  rfl

/-! ## The rows of the partials array -/

theorem oRowSet_eq (w : Fin 32) : Hand.oRowSet w = (Hand.oRow w).set := by
  show ((View.whole (main_v3_scv : Ref sig .scVector)).slice (Hand.oRow w)).set = _
  rw [View.set_slice]; exact Finset.map_refl

theorem rows_disjoint : ∀ i ∈ (Finset.univ : Finset (Fin 32)), ∀ j ∈ (Finset.univ : Finset (Fin 32)), i ≠ j → Disjoint (Hand.oRowSet i) (Hand.oRowSet j) :=
  fun i _ j _ h => by rw [oRowSet_eq, oRowSet_eq]; exact Rect.part_disjoint Hand.hdiv h

theorem rows_cover : (Finset.univ : Finset (Fin 32)).biUnion Hand.oRowSet = Finset.univ :=
  (Finset.biUnion_congr rfl fun i _ => oRowSet_eq i).trans (Rect.biUnion_part Hand.hdiv)

/-- The partials array whole is its thirty-two rows. -/
theorem oPts_rows (d : Dev nD) (f : Buf (Elt F) (Hand.oLoc d)) :
    (Hand.oLoc d ↦{fullShare} f : sProp 𝕄) = bigSep Finset.univ fun w : Fin 32 => Hand.oLoc d ↦[Hand.oRowSet w]{fullShare} f := by
  rw [← pointsTo_biUnion Finset.univ (ℓ := Hand.oLoc d) Hand.oRowSet rows_disjoint, rows_cover]; try rfl

/-! ## The read shares of an input array -/

/-- An array held whole is what stays behind and thirty-two read shares; -/
theorem toks_split {ℓ : Loc nD τ sig} (f : Buf (Elt F) ℓ) :
    (ℓ ↦{fullShare} f : sProp 𝕄)
      ⊢ iprop((ℓ ↦{Transfers.shareDrop fullShare 32} f) ∗ bigSep Finset.univ fun w : Fin 32 => ℓ ↦{Hand.rdShare w} f) :=
  Transfers.pointsTo_toks_split fullShare 32

/-- and they make it whole again. -/
theorem toks_join {ℓ : Loc nD τ sig} (f : Buf (Elt F) ℓ) :
    iprop((ℓ ↦{Transfers.shareDrop fullShare 32} f) ∗ bigSep Finset.univ fun w : Fin 32 => ℓ ↦{Hand.rdShare w} f)
      ⊢ (ℓ ↦{fullShare} f : sProp 𝕄) :=
  Transfers.pointsTo_toks_join fullShare 32

/-- A row at some contents is a row at contents not named. -/
theorem row_ex (d : Dev nD) (f : Buf (Elt F) (Hand.oLoc d)) (w : Fin 32) :
    (Hand.oLoc d ↦[Hand.oRowSet w]{fullShare} f : sProp 𝕄) ⊢ iprop(∃ f, Hand.oLoc d ↦[Hand.oRowSet w]{fullShare} f) := by
  iintro H; iexists f; iexact H

theorem rows_ex (d : Dev nD) (f : Buf (Elt F) (Hand.oLoc d)) :
    iprop(bigSep Finset.univ fun w : Fin 32 => (Hand.oLoc d ↦[Hand.oRowSet w]{fullShare} f : sProp 𝕄))
      ⊢ (iprop(bigSep Finset.univ fun w : Fin 32 => iprop(∃ f, Hand.oLoc d ↦[Hand.oRowSet w]{fullShare} f)) : sProp 𝕄) :=
  bigSep_mono fun w _ => row_ex d f w

variable [FloatOps F]

/-- What stays behind of the three inputs while the tasks run. -/
def rest (d : Dev nD) : sProp 𝕄 :=
  iprop((Hand.pLoc d ↦{Transfers.shareDrop fullShare 32} Hand.pC m d) ∗ (Hand.gLoc d ↦{Transfers.shareDrop fullShare 32} Hand.gC m d)
    ∗ (Hand.mLoc d ↦{Transfers.shareDrop fullShare 32} Hand.mC m d))

/-- The three inputs whole are what stays behind and every worker's shares; -/
theorem inputs_split (d : Dev nD) :
    (iprop((Hand.pLoc d ↦{fullShare} Hand.pC m d) ∗ (Hand.gLoc d ↦{fullShare} Hand.gC m d) ∗ (Hand.mLoc d ↦{fullShare} Hand.mC m d)) : sProp 𝕄)
      ⊢ iprop(rest m d ∗ bigSep Finset.univ fun w : Fin 32 => Hand.inputs m d w) := by
  unfold rest Hand.inputs
  rw [bigSep_sep', bigSep_sep']
  iintro ⟨Hp, Hg, Hm⟩
  ihave Hp' := (toks_split (Hand.pC m d)) $$ Hp
  ihave Hg' := (toks_split (Hand.gC m d)) $$ Hg
  ihave Hm' := (toks_split (Hand.mC m d)) $$ Hm
  icases Hp' with ⟨Hp, Hps⟩
  icases Hg' with ⟨Hg, Hgs⟩
  icases Hm' with ⟨Hm, Hms⟩
  isplitl [Hp Hg Hm]
  · isplitl [Hp]; · iexact Hp
    isplitl [Hg]; · iexact Hg
    iexact Hm
  isplitl [Hps]; · iexact Hps
  isplitl [Hgs]; · iexact Hgs
  iexact Hms

/-- and they make the inputs whole again. -/
theorem inputs_join (d : Dev nD) :
    iprop(rest m d ∗ bigSep Finset.univ fun w : Fin 32 => Hand.inputs m d w)
      ⊢ (iprop((Hand.pLoc d ↦{fullShare} Hand.pC m d) ∗ (Hand.gLoc d ↦{fullShare} Hand.gC m d) ∗ (Hand.mLoc d ↦{fullShare} Hand.mC m d)) : sProp 𝕄) := by
  unfold rest Hand.inputs
  rw [bigSep_sep', bigSep_sep']
  iintro ⟨⟨Hp, Hg, Hm⟩, Hps, Hgs, Hms⟩
  isplitl [Hp Hps]
  · iapply (toks_join (Hand.pC m d))
    isplitl [Hp]; · iexact Hp
    iexact Hps
  isplitl [Hg Hgs]
  · iapply (toks_join (Hand.gC m d))
    isplitl [Hg]; · iexact Hg
    iexact Hgs
  iapply (toks_join (Hand.mC m d))
  isplitl [Hm]; · iexact Hm
  iexact Hms

/-- What the call takes, as a product over the workers. -/
theorem st0_eq (d : Dev nD) :
    (bigSep Finset.univ fun c : Fin ((K (F := F)).nCore 0) => (Hand.P m).st 0 d c) = bigSep Finset.univ fun w : Fin 32 => Hand.taskIn m d w :=
  bigSep_wid (fun w => Hand.taskIn m d w)

/-- What the call hands back, as a product over the workers. -/
theorem dn0_eq (d : Dev nD) :
    (bigSep Finset.univ fun c : Fin ((K (F := F)).nCore 0) => (Hand.P m).dn 0 d c) = bigSep Finset.univ fun w : Fin 32 => Hand.taskOut m d w :=
  bigSep_wid (fun w => Hand.taskOut m d w)

/-- Before the call: the inputs whole and the partials array whole at any contents give every SparseCore its tasks'
    operands, the remainders staying behind. -/
theorem call_in (d : Dev nD) :
    iprop((Hand.pLoc d ↦{fullShare} Hand.pC m d) ∗ (Hand.gLoc d ↦{fullShare} Hand.gC m d) ∗ (Hand.mLoc d ↦{fullShare} Hand.mC m d)
        ∗ ∃ f, Hand.oLoc d ↦{fullShare} f)
      ⊢ iprop(rest m d ∗ bigSep Finset.univ fun c : Fin ((K (F := F)).nCore 0) => (Hand.P m).st 0 d c) := by
  rw [st0_eq]
  unfold Hand.taskIn
  rw [bigSep_sep']
  iintro ⟨Hp, Hg, Hm, %f, Ho⟩
  ihave Hin := (inputs_split m d) $$ [Hp Hg Hm]
  · isplitl [Hp]; · iexact Hp
    isplitl [Hg]; · iexact Hg
    iexact Hm
  icases Hin with ⟨Hr, Hin⟩
  isplitl [Hr]; · iexact Hr
  isplitl [Hin]; · iexact Hin
  iapply (rows_ex d f)
  iapply (Entails.of_eq (oPts_rows d f))
  iexact Ho

/-- After the call: the remainders and what every SparseCore hands back give the inputs whole again and the partials
    array whole at the specification's value. -/
theorem call_out (d : Dev nD) :
    iprop(rest m d ∗ bigSep Finset.univ fun c : Fin ((K (F := F)).nCore 0) => (Hand.P m).dn 0 d c)
      ⊢ iprop((Hand.pLoc d ↦{fullShare} Hand.pC m d) ∗ (Hand.gLoc d ↦{fullShare} Hand.gC m d) ∗ (Hand.mLoc d ↦{fullShare} Hand.mC m d)
        ∗ (Hand.oLoc d ↦{fullShare} Hand.oC m d)) := by
  rw [dn0_eq]
  unfold Hand.taskOut
  rw [bigSep_sep', ← oPts_rows]
  iintro ⟨Hr, Hin, Ho⟩
  ihave H := (inputs_join m d) $$ [Hr Hin]
  · isplitl [Hr]; · iexact Hr
    iexact Hin
  icases H with ⟨Hp, Hg, Hm⟩
  isplitl [Hp]; · iexact Hp
  isplitl [Hg]; · iexact Hg
  isplitl [Hm]; · iexact Hm
  iexact Ho

end Cert.Kernel.MainSplit

end
-- ==== Proof.K.MainVal.lean ====
/-
  The contents of the TensorCore's unscoped arrays along @main.

  Between the stretches of host operations the contents are a function of the launch contents: after the first three
  operations the flat arrays hold the arguments flattened; the SparseCore call leaves the partials array at the
  specification's partials; after the next three operations the 65536 × 128 arrays hold the flat arrays re-read; the
  region leaves its two results at the specification's sum and count; the last operations leave the program's result at
  the specification's value. Each stage is the previous one folded through a stretch's operations, or updated at the
  arrays a call writes.
-/
import proofs.«210416_g85048942395886_cont_9to1c4b_614_23_alg».proof.Proof.K.Hand
import proofs.«210416_g85048942395886_cont_9to1c4b_614_23_alg».proof.Proof.K.MainOps

noncomputable section

namespace Cert.Kernel.MainVal

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Kernel.MainOps
open Idealize.ShloMosaic.StableHlo (after after_cons after_nil)

variable (m : (ℓ : Loc nD τ sig) → Buf (Elt F) ℓ)

/-- A TensorCore reference as a buffer of the device. -/
abbrev rf (b : Ref sig .tc) : DevRef τ sig := Proc.devRef .tc b

/-- The TensorCore's unscoped arrays. -/
abbrev U26 : Finset (DevRef τ sig) := Pipeline.ucRefs τ sig

/-- The SparseCore call's operands; the region's; what the claim reads at the end. -/
def T4 : Finset (DevRef τ sig) := {rf main_v0, rf main_v1, rf main_v2, rf main_v3}
def T5 : Finset (DevRef τ sig) := {rf main_v4, rf main_v5, rf main_v6, rf main_v7_0, rf main_v7_1}
def TF : Finset (DevRef τ sig) := {rf main_arg0, rf main_arg1, rf main_arg2, rf main_v19}

theorem T4_sub : T4 ⊆ U26 := by decide
theorem T5_sub : T5 ⊆ U26 := by decide
theorem TF_sub : TF ⊆ U26 := by decide

theorem held_T4 (d : Dev nD) (W : Valuation τ sig (Elt F)) :
    (StableHlo.held (SparseCore.T d) T4 W : sProp 𝕄)
      = iprop((Hand.pLoc d ↦{fullShare} W (rf main_v0)) ∗ (Hand.gLoc d ↦{fullShare} W (rf main_v1)) ∗ (Hand.mLoc d ↦{fullShare} W (rf main_v2))
          ∗ (Hand.oLoc d ↦{fullShare} W (rf main_v3))) := by
  unfold StableHlo.held T4
  rw [SparseCore.bigSep_insert' (by decide), SparseCore.bigSep_insert' (by decide), SparseCore.bigSep_insert' (by decide), bigSep_singleton]

theorem held_T5 (d : Dev nD) (W : Valuation τ sig (Elt F)) :
    (StableHlo.held (SparseCore.T d) T5 W : sProp 𝕄)
      = iprop(((SparseCore.T d).loc main_v4 ↦{fullShare} W (rf main_v4)) ∗ ((SparseCore.T d).loc main_v5 ↦{fullShare} W (rf main_v5)) ∗ ((SparseCore.T d).loc main_v6 ↦{fullShare} W (rf main_v6))
          ∗ ((SparseCore.T d).loc main_v7_0 ↦{fullShare} W (rf main_v7_0)) ∗ ((SparseCore.T d).loc main_v7_1 ↦{fullShare} W (rf main_v7_1))) := by
  unfold StableHlo.held T5
  rw [SparseCore.bigSep_insert' (by decide), SparseCore.bigSep_insert' (by decide), SparseCore.bigSep_insert' (by decide), SparseCore.bigSep_insert' (by decide), bigSep_singleton]

theorem held_TF (d : Dev nD) (W : Valuation τ sig (Elt F)) :
    (StableHlo.held (SparseCore.T d) TF W : sProp 𝕄)
      = iprop(((SparseCore.T d).loc main_arg0 ↦{fullShare} W (rf main_arg0)) ∗ ((SparseCore.T d).loc main_arg1 ↦{fullShare} W (rf main_arg1)) ∗ ((SparseCore.T d).loc main_arg2 ↦{fullShare} W (rf main_arg2))
          ∗ ((SparseCore.T d).loc main_v19 ↦{fullShare} W (rf main_v19))) := by
  unfold StableHlo.held TF
  rw [SparseCore.bigSep_insert' (by decide), SparseCore.bigSep_insert' (by decide), SparseCore.bigSep_insert' (by decide), bigSep_singleton]

/-- Contents changed at an array outside a set are the same on the set. -/
theorem held_update {c : Thread nD τ} {S : Finset (DevRef τ sig)} {W : Valuation τ sig (Elt F)} {b : DevRef τ sig} (hb : b ∉ S)
    (f : Buf (Elt F) (c.1, b)) : (StableHlo.held c S (Function.update W b f) : sProp 𝕄) = StableHlo.held c S W :=
  StableHlo.held_congr c fun x hx => Function.update_of_ne (show x ≠ b from fun e => hb (e ▸ hx)) _ _

variable [FloatOps F]

/-! ## The stages -/

/-- At launch. -/
def V0 (d : Dev nD) : Valuation τ sig (Elt F) := fun b => m (d, b)
/-- After the arguments are flattened. -/
def V1 (d : Dev nD) : Valuation τ sig (Elt F) := after ops1 (V0 m d)
/-- After the SparseCore call: the partials array at the specification's partials. -/
def V1' (d : Dev nD) : Valuation τ sig (Elt F) := Function.update (V1 m d) (rf main_v3) (Hand.oC m d)
/-- After the flat arrays are re-read as 65536 rows of 128. -/
def V2 (d : Dev nD) : Valuation τ sig (Elt F) := after ops2 (V1' m d)

/-- The region's three operands. -/
def p4 (d : Dev nD) : FVec F S65536x128 .f32 := shapeCast S65536x128 (Hand.pC m d) shapeCasts_S8388608_S65536x128
def g4 (d : Dev nD) : FVec F S65536x128 .f32 := shapeCast S65536x128 (Hand.gC m d) shapeCasts_S8388608_S65536x128
def m4 (d : Dev nD) : IVec S65536x128 32 := shapeCast S65536x128 (Hand.mC m d) shapeCasts_S8388608_S65536x128

/-- After the region: its two results at the specification's sum and count. -/
def V2' (d : Dev nD) : Valuation τ sig (Elt F) :=
  Function.update (Function.update (V2 m d) (rf main_v7_0) (Spec.tcSum (p4 m d) (g4 m d) (m4 m d) : Buf (Elt F) (d, rf main_v7_0)))
    (rf main_v7_1) (Spec.tcCnt (p4 m d) (g4 m d) (m4 m d) : Buf (Elt F) (d, rf main_v7_1))
/-- At the end. -/
def V3 (d : Dev nD) : Valuation τ sig (Elt F) := after ops3 (V2' m d)

/-! ## The stages read at the arrays that matter -/

theorem V1_v0 (d : Dev nD) : V1 m d (rf main_v0) = Hand.pC m d := by
  unfold V1 ops1; after_results; rfl
theorem V1_v1 (d : Dev nD) : V1 m d (rf main_v1) = Hand.gC m d := by
  unfold V1 ops1; after_results; rfl
theorem V1_v2 (d : Dev nD) : V1 m d (rf main_v2) = Hand.mC m d := by
  unfold V1 ops1; after_results; rfl

theorem V1'_v0 (d : Dev nD) : V1' m d (rf main_v0) = Hand.pC m d :=
  (Function.update_of_ne (show rf main_v0 ≠ rf main_v3 by decide) _ _).trans (V1_v0 m d)
theorem V1'_v1 (d : Dev nD) : V1' m d (rf main_v1) = Hand.gC m d :=
  (Function.update_of_ne (show rf main_v1 ≠ rf main_v3 by decide) _ _).trans (V1_v1 m d)
theorem V1'_v2 (d : Dev nD) : V1' m d (rf main_v2) = Hand.mC m d :=
  (Function.update_of_ne (show rf main_v2 ≠ rf main_v3 by decide) _ _).trans (V1_v2 m d)
theorem V1'_v3 (d : Dev nD) : V1' m d (rf main_v3) = Hand.oC m d := Function.update_self _ _ _

theorem V2_v4 (d : Dev nD) : V2 m d (rf main_v4) = p4 m d := by
  unfold V2 ops2; after_results; rw [V1'_v0]; rfl
theorem V2_v5 (d : Dev nD) : V2 m d (rf main_v5) = g4 m d := by
  unfold V2 ops2; after_results; rw [V1'_v1]; rfl
theorem V2_v6 (d : Dev nD) : V2 m d (rf main_v6) = m4 m d := by
  unfold V2 ops2; after_results; rw [V1'_v2]; rfl
theorem V2_v3 (d : Dev nD) : V2 m d (rf main_v3) = Hand.oC m d := by
  unfold V2 ops2; after_results; exact V1'_v3 m d

theorem V2'_v3 (d : Dev nD) : V2' m d (rf main_v3) = Hand.oC m d :=
  (Function.update_of_ne (show rf main_v3 ≠ rf main_v7_1 by decide) _ _).trans
    ((Function.update_of_ne (show rf main_v3 ≠ rf main_v7_0 by decide) _ _).trans (V2_v3 m d))
theorem V2'_v4 (d : Dev nD) : V2' m d (rf main_v4) = p4 m d :=
  (Function.update_of_ne (show rf main_v4 ≠ rf main_v7_1 by decide) _ _).trans
    ((Function.update_of_ne (show rf main_v4 ≠ rf main_v7_0 by decide) _ _).trans (V2_v4 m d))
theorem V2'_v5 (d : Dev nD) : V2' m d (rf main_v5) = g4 m d :=
  (Function.update_of_ne (show rf main_v5 ≠ rf main_v7_1 by decide) _ _).trans
    ((Function.update_of_ne (show rf main_v5 ≠ rf main_v7_0 by decide) _ _).trans (V2_v5 m d))
theorem V2'_v6 (d : Dev nD) : V2' m d (rf main_v6) = m4 m d :=
  (Function.update_of_ne (show rf main_v6 ≠ rf main_v7_1 by decide) _ _).trans
    ((Function.update_of_ne (show rf main_v6 ≠ rf main_v7_0 by decide) _ _).trans (V2_v6 m d))
theorem V2'_v7_0 (d : Dev nD) : V2' m d (rf main_v7_0) = Spec.tcSum (p4 m d) (g4 m d) (m4 m d) :=
  (Function.update_of_ne (show rf main_v7_0 ≠ rf main_v7_1 by decide) _ _).trans (Function.update_self _ _ _)
theorem V2'_v7_1 (d : Dev nD) : V2' m d (rf main_v7_1) = Spec.tcCnt (p4 m d) (g4 m d) (m4 m d) := Function.update_self _ _ _

/-- An argument is never written. -/
theorem V3_arg0 (d : Dev nD) : V3 m d (rf main_arg0) = m ((SparseCore.T d).loc main_arg0) := by
  unfold V3 ops3; after_results
  refine (Function.update_of_ne (show rf main_arg0 ≠ rf main_v7_1 by decide) _ _).trans
    ((Function.update_of_ne (show rf main_arg0 ≠ rf main_v7_0 by decide) _ _).trans ?_)
  unfold V2 ops2; after_results
  refine (Function.update_of_ne (show rf main_arg0 ≠ rf main_v3 by decide) _ _).trans ?_
  unfold V1 ops1; after_results; rfl
theorem V3_arg1 (d : Dev nD) : V3 m d (rf main_arg1) = m ((SparseCore.T d).loc main_arg1) := by
  unfold V3 ops3; after_results
  refine (Function.update_of_ne (show rf main_arg1 ≠ rf main_v7_1 by decide) _ _).trans
    ((Function.update_of_ne (show rf main_arg1 ≠ rf main_v7_0 by decide) _ _).trans ?_)
  unfold V2 ops2; after_results
  refine (Function.update_of_ne (show rf main_arg1 ≠ rf main_v3 by decide) _ _).trans ?_
  unfold V1 ops1; after_results; rfl
theorem V3_arg2 (d : Dev nD) : V3 m d (rf main_arg2) = m ((SparseCore.T d).loc main_arg2) := by
  unfold V3 ops3; after_results
  refine (Function.update_of_ne (show rf main_arg2 ≠ rf main_v7_1 by decide) _ _).trans
    ((Function.update_of_ne (show rf main_arg2 ≠ rf main_v7_0 by decide) _ _).trans ?_)
  unfold V2 ops2; after_results
  refine (Function.update_of_ne (show rf main_arg2 ≠ rf main_v3 by decide) _ _).trans ?_
  unfold V1 ops1; after_results; rfl

/-- The program's result is the specification's: the last operations are the specification's own, over the partials
    and the region's two results. -/
theorem V3_v19 (d : Dev nD) :
    V3 m d (rf main_v19) = Spec.result (m ((SparseCore.T d).loc main_arg0)) (m ((SparseCore.T d).loc main_arg1)) (m ((SparseCore.T d).loc main_arg2)) := by
  unfold V3 ops3; after_results
  rw [V2'_v3, V2'_v7_0, V2'_v7_1]
  rfl

/-! ## The unscoped arrays at each stage, the arrays a call takes set apart -/

theorem unscoped_V0 (d : Dev nD) :
    (unscopedBufs d (fun b => m ((SparseCore.T d).loc b)) : sProp 𝕄) = StableHlo.held (SparseCore.T d) U26 (V0 m d) :=
  Pipeline.unscopedBufs_held d (V0 m d)

theorem held_V1 (d : Dev nD) :
    (StableHlo.held (SparseCore.T d) U26 (V1 m d) : sProp 𝕄)
      = iprop(((Hand.pLoc d ↦{fullShare} Hand.pC m d) ∗ (Hand.gLoc d ↦{fullShare} Hand.gC m d) ∗ (Hand.mLoc d ↦{fullShare} Hand.mC m d)
            ∗ (Hand.oLoc d ↦{fullShare} V1 m d (rf main_v3)))
          ∗ StableHlo.held (SparseCore.T d) (U26 \ T4) (V1 m d)) := by
  rw [StableHlo.held_sub_split (SparseCore.T d) T4_sub, held_T4, V1_v0, V1_v1, V1_v2]

theorem held_V1' (d : Dev nD) :
    (StableHlo.held (SparseCore.T d) U26 (V1' m d) : sProp 𝕄)
      = iprop(((Hand.pLoc d ↦{fullShare} Hand.pC m d) ∗ (Hand.gLoc d ↦{fullShare} Hand.gC m d) ∗ (Hand.mLoc d ↦{fullShare} Hand.mC m d)
            ∗ (Hand.oLoc d ↦{fullShare} Hand.oC m d))
          ∗ StableHlo.held (SparseCore.T d) (U26 \ T4) (V1 m d)) := by
  rw [StableHlo.held_sub_split (SparseCore.T d) T4_sub, held_T4, V1'_v0, V1'_v1, V1'_v2, V1'_v3]
  unfold V1'
  rw [held_update (fun h => (Finset.mem_sdiff.mp h).2 (show rf main_v3 ∈ T4 by decide))]

theorem held_V2 (d : Dev nD) :
    (StableHlo.held (SparseCore.T d) U26 (V2 m d) : sProp 𝕄)
      = iprop((((SparseCore.T d).loc main_v4 ↦{fullShare} p4 m d) ∗ ((SparseCore.T d).loc main_v5 ↦{fullShare} g4 m d) ∗ ((SparseCore.T d).loc main_v6 ↦{fullShare} m4 m d)
            ∗ ((SparseCore.T d).loc main_v7_0 ↦{fullShare} V2 m d (rf main_v7_0)) ∗ ((SparseCore.T d).loc main_v7_1 ↦{fullShare} V2 m d (rf main_v7_1)))
          ∗ StableHlo.held (SparseCore.T d) (U26 \ T5) (V2 m d)) := by
  rw [StableHlo.held_sub_split (SparseCore.T d) T5_sub, held_T5, V2_v4, V2_v5, V2_v6]

theorem held_V2' (d : Dev nD) :
    (StableHlo.held (SparseCore.T d) U26 (V2' m d) : sProp 𝕄)
      = iprop((((SparseCore.T d).loc main_v4 ↦{fullShare} p4 m d) ∗ ((SparseCore.T d).loc main_v5 ↦{fullShare} g4 m d) ∗ ((SparseCore.T d).loc main_v6 ↦{fullShare} m4 m d)
            ∗ ((SparseCore.T d).loc main_v7_0 ↦{fullShare} Spec.tcSum (p4 m d) (g4 m d) (m4 m d)) ∗ ((SparseCore.T d).loc main_v7_1 ↦{fullShare} Spec.tcCnt (p4 m d) (g4 m d) (m4 m d)))
          ∗ StableHlo.held (SparseCore.T d) (U26 \ T5) (V2 m d)) := by
  rw [StableHlo.held_sub_split (SparseCore.T d) T5_sub, held_T5, V2'_v4, V2'_v5, V2'_v6, V2'_v7_0, V2'_v7_1]
  unfold V2'
  rw [held_update (fun h => (Finset.mem_sdiff.mp h).2 (show rf main_v7_1 ∈ T5 by decide)),
    held_update (fun h => (Finset.mem_sdiff.mp h).2 (show rf main_v7_0 ∈ T5 by decide))]

theorem held_V3 (d : Dev nD) :
    (StableHlo.held (SparseCore.T d) U26 (V3 m d) : sProp 𝕄)
      = iprop((((SparseCore.T d).loc main_arg0 ↦{fullShare} m ((SparseCore.T d).loc main_arg0)) ∗ ((SparseCore.T d).loc main_arg1 ↦{fullShare} m ((SparseCore.T d).loc main_arg1))
            ∗ ((SparseCore.T d).loc main_arg2 ↦{fullShare} m ((SparseCore.T d).loc main_arg2))
            ∗ ((SparseCore.T d).loc main_v19 ↦{fullShare}
                (Spec.result (m ((SparseCore.T d).loc main_arg0)) (m ((SparseCore.T d).loc main_arg1)) (m ((SparseCore.T d).loc main_arg2)) : Buf (Elt F) ((SparseCore.T d).loc main_v19))))
          ∗ StableHlo.held (SparseCore.T d) (U26 \ TF) (V3 m d)) := by
  rw [StableHlo.held_sub_split (SparseCore.T d) TF_sub, held_TF, V3_arg0, V3_arg1, V3_arg2, V3_v19]

end Cert.Kernel.MainVal

end
-- ==== Proof.K.MainAsm.lean ====
/-
  @main on the TensorCore, the region taken as given.

  From what the launch deals the TensorCore — its boundary holdings, its unscoped arrays at the launch contents, the
  region's ghost state — @main runs its five stretches in order. The host stretches run within the unscoped arrays held
  whole; around the SparseCore call the four arrays it touches are set apart, dealt to the tasks and collected; around
  the region its five arrays are set apart and handed over, the region's own correctness being the hypothesis `htc`. At
  the end the arguments are at their launch contents and the result at the specification's value.
-/
import proofs.«210416_g85048942395886_cont_9to1c4b_614_23_alg».proof.Proof.K.Hand
import proofs.«210416_g85048942395886_cont_9to1c4b_614_23_alg».proof.Proof.K.TcGhost
import proofs.«210416_g85048942395886_cont_9to1c4b_614_23_alg».proof.Proof.K.MainOps
import proofs.«210416_g85048942395886_cont_9to1c4b_614_23_alg».proof.Proof.K.MainSplit
import proofs.«210416_g85048942395886_cont_9to1c4b_614_23_alg».proof.Proof.K.MainVal

noncomputable section

namespace Cert.Kernel.MainAsm

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

-- a rule stated for any thread applies at the TensorCore's only when unification may unfold plain definitions in a
-- metavariable's type
set_option backward.isDefEq.respectTransparency.types false in
/-- @main on device `d`'s TensorCore, from the region's rule `htc`. -/
theorem hmain_of [∀ e, Nonempty (Elt F e)]
    (htc : ∀ (P : (K (F := F)).Pay (nD := nD) (Val := Elt F) (Name := ℕ) (U := UU))
    (κ : GSem nD τ sig → ℕ) (d : Dev nD) (p4 g4 : FVec F S65536x128 .f32) (m4 : IVec S65536x128 32)
    {α : Type} (k : PUnit → Prog (TpuEff nD τ sig (Elt F) (SparseCore.Sig (ΛP (F := F)) 1) .tc) α) (Q : α → sProp 𝕄),
    iprop((K (F := F)).ctx EH P κ ∗ (K (F := F)).tcSt EH d 1 ∗ boundary (SparseCore.T d) ∗ TcGhost.G d
        ∗ ((SparseCore.T d).loc main_v4 ↦{fullShare} p4) ∗ ((SparseCore.T d).loc main_v5 ↦{fullShare} g4) ∗ ((SparseCore.T d).loc main_v6 ↦{fullShare} m4)
        ∗ (∃ f, (SparseCore.T d).loc main_v7_0 ↦{fullShare} f) ∗ (∃ f, (SparseCore.T d).loc main_v7_1 ↦{fullShare} f)
        ∗ (iprop((K (F := F)).tcSt EH d 1 ∗ boundary (SparseCore.T d)
            ∗ ((SparseCore.T d).loc main_v4 ↦{fullShare} p4) ∗ ((SparseCore.T d).loc main_v5 ↦{fullShare} g4) ∗ ((SparseCore.T d).loc main_v6 ↦{fullShare} m4)
            ∗ ((SparseCore.T d).loc main_v7_0 ↦{fullShare} Spec.tcSum p4 g4 m4) ∗ ((SparseCore.T d).loc main_v7_1 ↦{fullShare} Spec.tcCnt p4 g4 m4))
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (.op (.customCall (SparseCore.inner (Pipeline.entry 0)) ()) k) Q)
    (m : (ℓ : Loc nD τ sig) → Buf (Elt F) ℓ) (ρ : Dev nD → PrngReg) (κ : GSem nD τ sig → ℕ) (d : Dev nD) :
    iprop((K (F := F)).ctx EH (Hand.P m) κ ∗ (K (F := F)).tcSt EH d 0 ∗ (K (F := F)).tcRes m ρ d ∗ TcGhost.G d)
      ⊢ wp frame (wpE ((K (F := F)).defs (D (F := F))) 𝒱 (SparseCore.T d) none) Set.univ (main d)
          fun _ => iprop((K (F := F)).tcSt EH d 1 ∗ Hand.FIN m d) := by
  have e1 : (StableHlo.held (Dev.tc d : Thread nD τ) MainVal.U26 (StableHlo.after MainOps.ops1 (MainVal.V0 m d)) : sProp 𝕄) = _ := MainVal.held_V1 m d
  have e2 : (StableHlo.held (Dev.tc d : Thread nD τ) MainVal.U26 (StableHlo.after MainOps.ops2 (MainVal.V1' m d)) : sProp 𝕄) = _ := MainVal.held_V2 m d
  have e3 : (StableHlo.held (Dev.tc d : Thread nD τ) MainVal.U26 (StableHlo.after MainOps.ops3 (MainVal.V2' m d)) : sProp 𝕄) = _ := MainVal.held_V3 m d
  unfold SparseCore.Cfg.tcRes
  rw [MainVal.unscoped_V0, MainOps.main_chain]
  simp only [Pipeline.chain_cons, Pipeline.chain_nil, Prog.bind_lift]
  iintro ⟨#Hctx, Hst, ⟨Hb, Hheld, -, -⟩, HG⟩
  -- the arguments flattened
  iapply (StableHlo.wp_seq 𝒱 none Set.univ d MainVal.U26 _ MainOps.ops1 MainOps.ops1_sub MainOps.ops1_fresh (MainVal.V0 m d)) $$ [Hb Hheld]
  · isplitl [Hb]; · iexact Hb
    iexact Hheld
  iintro ⟨Hb, Hheld⟩
  ihave Hh := (Entails.of_eq e1) $$ Hheld
  icases Hh with ⟨⟨Hp, Hg, Hm, Ho⟩, Hrest⟩
  -- the SparseCore call: every task its read shares and its row, all back with the rows filled
  ihave Hin := (MainSplit.call_in m d) $$ [Hp Hg Hm Ho]
  · isplitl [Hp]; · iexact Hp
    isplitl [Hg]; · iexact Hg
    isplitl [Hm]; · iexact Hm
    iexists _; iexact Ho
  icases Hin with ⟨Hr, Hst0⟩
  rw [wp_bind]
  iapply ((K (F := F)).wp_run (D (F := F)) 𝒱 (EH := EH) (P := Hand.P m) κ d 0) $$ [Hst Hst0 Hb Hr Hrest HG]
  isplitr; · iexact Hctx
  isplitl [Hst]; · iexact Hst
  isplitl [Hst0]; · iexact Hst0
  iintro ⟨Hst, Hdn⟩
  ihave Hout := (MainSplit.call_out m d) $$ [Hr Hdn]
  · isplitl [Hr]; · iexact Hr
    iexact Hdn
  ihave Hheld := (Entails.of_eq (MainVal.held_V1' m d).symm) $$ [Hout Hrest]
  · isplitl [Hout]; · iexact Hout
    iexact Hrest
  -- the flat arrays as 65536 rows of 128
  iapply (StableHlo.wp_seq 𝒱 none Set.univ d MainVal.U26 _ MainOps.ops2 MainOps.ops2_sub MainOps.ops2_fresh (MainVal.V1' m d)) $$ [Hb Hheld]
  · isplitl [Hb]; · iexact Hb
    iexact Hheld
  iintro ⟨Hb, Hheld⟩
  ihave Hh := (Entails.of_eq e2) $$ Hheld
  icases Hh with ⟨⟨H4, H5, H6, H70, H71⟩, Hrest⟩
  -- the region: its three operands in, its two results out at the specification's sum and count
  iapply (htc (Hand.P m) κ d (MainVal.p4 m d) (MainVal.g4 m d) (MainVal.m4 m d) _ _) $$ [Hst Hb HG H4 H5 H6 H70 H71 Hrest]
  isplitr; · iexact Hctx
  isplitl [Hst]; · iexact Hst
  isplitl [Hb]; · iexact Hb
  isplitl [HG]; · iexact HG
  isplitl [H4]; · iexact H4
  isplitl [H5]; · iexact H5
  isplitl [H6]; · iexact H6
  isplitl [H70]; · iexists _; iexact H70
  isplitl [H71]; · iexists _; iexact H71
  iintro ⟨Hst, Hb, H4, H5, H6, H70, H71⟩
  ihave Hheld := (Entails.of_eq (MainVal.held_V2' m d).symm) $$ [H4 H5 H6 H70 H71 Hrest]
  · isplitr [Hrest]
    · isplitl [H4]; · iexact H4
      isplitl [H5]; · iexact H5
      isplitl [H6]; · iexact H6
      isplitl [H70]; · iexact H70
      iexact H71
    iexact Hrest
  -- the partials reduced, the two pairs of sums added, the quotient
  iapply (StableHlo.wp_seq 𝒱 none Set.univ d MainVal.U26 _ MainOps.ops3 MainOps.ops3_sub MainOps.ops3_fresh (MainVal.V2' m d)) $$ [Hb Hheld]
  · isplitl [Hb]; · iexact Hb
    iexact Hheld
  iintro ⟨Hb, Hheld⟩
  ihave Hh := (Entails.of_eq e3) $$ Hheld
  icases Hh with ⟨⟨Ha0, Ha1, Ha2, H19⟩, -⟩
  rw [wp_pure]; imodintro
  unfold Hand.FIN
  isplitl [Hst]; · iexact Hst
  isplitl [Ha0]; · iexact Ha0
  isplitl [Ha1]; · iexact Ha1
  isplitl [Ha2]; · iexact Ha2
  iexact H19

end Cert.Kernel.MainAsm

end
-- ==== Proof.K.Main.lean ====
/-
  @main on the TensorCore: what the SparseCore launch theorem asks of the TensorCore's thread. From the launch's deal and
  the region's ghost state, @main ends with the handshake state one call on, the arguments at their launch contents and
  the result at the specification's value.
-/
import proofs.«210416_g85048942395886_cont_9to1c4b_614_23_alg».proof.Proof.K.Hand
import proofs.«210416_g85048942395886_cont_9to1c4b_614_23_alg».proof.Proof.K.TcGhost
import proofs.«210416_g85048942395886_cont_9to1c4b_614_23_alg».proof.Proof.K.TcRegion
import proofs.«210416_g85048942395886_cont_9to1c4b_614_23_alg».proof.Proof.K.MainAsm

noncomputable section

namespace Cert.Kernel.Main

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- @main on device `d`'s TensorCore. -/
theorem hmain [∀ e, Nonempty (Elt F e)] (m : (ℓ : Loc nD τ sig) → Buf (Elt F) ℓ) (ρ : Dev nD → PrngReg) (κ : GSem nD τ sig → ℕ) (d : Dev nD) :
    iprop((K (F := F)).ctx EH (Hand.P m) κ ∗ (K (F := F)).tcSt EH d 0 ∗ (K (F := F)).tcRes m ρ d ∗ TcGhost.G d)
      ⊢ wp frame (wpE ((K (F := F)).defs (D (F := F))) 𝒱 (SparseCore.T d) none) Set.univ (main d)
          fun _ => iprop((K (F := F)).tcSt EH d 1 ∗ Hand.FIN m d) :=
  MainAsm.hmain_of (fun P κ d p4 g4 m4 _ k Q => TcRegion.tc_region P κ d p4 g4 m4 k Q) m ρ κ d

end Cert.Kernel.Main

end
-- ==== Proof.K.Run.lean ====
/-
  The kernel program's run: every weakly fair execution of the device's thirty-five threads terminates, and in the
  final memory the three arguments are as launched and the result is the specification's value of them.

  The SparseCore launch theorem, at the one vector-subcore call: the subcore task's obligation, the (trivial) split of a
  SparseCore's sixteen tasks, @main on the TensorCore, the launch element, and the reading of the final memory.
-/
import proofs.«210416_g85048942395886_cont_9to1c4b_614_23_alg».proof.Proof.K.LaunchElem
import proofs.«210416_g85048942395886_cont_9to1c4b_614_23_alg».proof.Proof.K.TileObl
import proofs.«210416_g85048942395886_cont_9to1c4b_614_23_alg».proof.Proof.K.Main

noncomputable section

namespace Cert.Kernel.Run

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What every final state satisfies, on every device. -/
def QC : PUnit × MemSt nD τ sig (Elt F) → Prop := fun r => ∀ c : Dev nD,
  r.2.mem ((SparseCore.T c).loc main_v19)
      = (Spec.result (m ((SparseCore.T c).loc main_arg0)) (m ((SparseCore.T c).loc main_arg1)) (m ((SparseCore.T c).loc main_arg2))
          : Buf (Elt F) ((SparseCore.T c).loc main_v19))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)

set_option maxHeartbeats 2000000 in
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Hand.P m) facts v₀
    (fun q hq => match q with | 0 => nomatch hq)
    (fun q _ => match q with | 0 => TileObl.tileObl m facts)
    (fun q _ => match q with | 0 => SparseCore.Cfg.VecSplit.of_plain (TileObl.vecSplit m))
    m ρ main (fun d => TcGhost.G (F := F) d) (Hand.FIN m) (LaunchElem.u₀ (F := F)) (sep_elim_left.trans (LaunchElem.hu₀ m))
    (Main.hmain m ρ) (LaunchElem.fq m) (LaunchElem.hfin m) (QC m) (fun _ h => h)

end Cert.Kernel.Run

end
-- ==== Proof.KI.Common.lean ====
/-
  The program as the SparseCore launch theorem sees it, and the ghost state every part of the proof shares.

  The device runs 35 threads: the TensorCore (which runs the host operations, starts the one SparseCore call and later
  enters the one TensorCore region), two sequencers and thirty-two vector subcores. The ghost state has three factors:
  the rounds of the four launch handshakes, the rounds of the TensorCore region's staging cells, and the exclusive
  counters under which a subcore's own local copies are issued and waited for (no schedule is needed for those: a
  subcore only ever waits for copies it issued itself).
-/
import proofs.«210416_g85048942395886_cont_9to1c4b_614_23_alg».proof.KernelIdeal
import proofs.«210416_g85048942395886_cont_9to1c4b_614_23_alg».proof.Proof.Gen.KernelIdeal
import proofs.«210416_g85048942395886_cont_9to1c4b_614_23_alg».proof.Proof.Gen.KernelIdeal.Skeleton
import proofs.«210416_g85048942395886_cont_9to1c4b_614_23_alg».proof.Proof.Gen.KernelIdeal.Launch
import proofs.«210416_g85048942395886_cont_9to1c4b_614_23_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic

noncomputable section

namespace Cert.KernelIdeal.Common

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, staging-cell rounds, exclusive counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The staging cells' rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.KernelIdeal.Common

end
-- ==== Proof.KI.Spec.lean ====
/-
  What the kernel computes, as pure functions of the argument arrays, at any float instance.

  The flat array of 8388608 elements is split in two. Positions below 1572864 go to thirty-two subcore tasks: task
  `w` owns positions `49152 w .. 49152 w + 49151` and walks them sixteen lanes at a time, 3072 steps, keeping per lane a
  running sum of `|p − g|` over the positions whose mask word is positive and a running count of those positions. The
  remaining positions, rows `12288 ..` of the array seen as 65536 rows of 128, go to the TensorCore in 26 blocks of 2048
  rows: per column a running sum and a running count over the blocks, summed over the columns at the last block. The
  host adds the two sums, the two counts, and divides the sum by the larger of the count and one.
-/
import proofs.«210416_g85048942395886_cont_9to1c4b_614_23_alg».proof.Proof.Gen.KernelIdeal.Skeleton
import Idealize.ShloMosaic.Lib.ValueIdx

noncomputable section

namespace Cert.KernelIdeal.Spec

open Cert.KernelIdeal Cert.KernelIdeal.Gen
open Idealize.ShloMosaic Idealize.ShloMosaic.ValueIdx

variable {F : FTy → Type} [FloatOps F]

/-! ## The subcore tasks -/

/-- Position `n` of the flat array (past the end the position wraps; no such position is ever read). -/
def flat (n : ℕ) : S8388608.Idx := ix1 (⟨n % 8388608, Nat.mod_lt _ (by decide)⟩ : Fin 8388608)

/-- The sixteen lanes at positions `base .. base + 15` of a flat array, as a one-row vector. -/
def lanes16 {α : Type} (a : S8388608.Idx → α) (base : ℕ) : S1x16.Idx → α := fun y => a (flat (base + (y 1).val))

/-- Task `w` after `n` of its 3072 steps: the per-lane running sum and running count. Step `n` reads the sixteen
    positions from `49152 w + 16 n`. -/
def tileAcc (p g : FVec F S8388608 .f32) (m : IVec S8388608 32) (w : ℕ) : ℕ → FVec F S16 .f32 × FVec F S16 .f32
  | 0 => (k0_pay1, k0_pay2)
  | n + 1 =>
    let a := tileAcc p g m w n
    (k0_pay4 a.1 (lanes16 p (49152 * w + 16 * n)) (lanes16 g (49152 * w + 16 * n)) (lanes16 m (49152 * w + 16 * n)),
      k0_pay5 a.2 (lanes16 m (49152 * w + 16 * n)))

/-- The thirty-two tasks' partial results as one 32 × 32 array: row `w` holds task `w`'s sixteen sums, then its
    sixteen counts. -/
def partials (p g : FVec F S8388608 .f32) (m : IVec S8388608 32) : FVec F S32x32 .f32 := fun i =>
  if h : (i 1).val < 16 then k0_pay12 (tileAcc p g m (i 0).val 3072).1 (ix1 (⟨(i 1).val, h⟩ : Fin 16))
  else k0_pay13 (tileAcc p g m (i 0).val 3072).2 (ix1 (⟨(i 1).val % 16, Nat.mod_lt _ (by decide)⟩ : Fin 16))

/-! ## The TensorCore region -/

/-- Block `t` (of 26) of an array of 65536 rows of 128: rows `2048 (t + 6) ..`, 2048 of them. -/
def blk {α : Type} (a : S65536x128.Idx → α) (t : ℕ) : S2048x128.Idx → α := fun y =>
  a (ix2 (⟨(2048 * (t + 6) + (y 0).val) % 65536, Nat.mod_lt _ (by decide)⟩ : Fin 65536) (y 1))

/-- The two accumulator rows after `t` blocks: per column the running sum and the running count. -/
def tcRows (p g : FVec F S65536x128 .f32) (m : IVec S65536x128 32) : ℕ → FVec F S1x128 .f32 × FVec F S1x128 .f32
  | 0 => (fun y => (k1_pay3 (F := F)) (ix2 (0 : Fin 2) (y 1)), fun y => (k1_pay3 (F := F)) (ix2 (1 : Fin 2) (y 1)))
  | t + 1 =>
    let a := tcRows p g m t
    (k1_pay5 (blk m t) (blk p t) (blk g t) a.1, k1_pay6 (blk m t) a.2)

/-- The region's two results: the sum, and the count, over all 26 blocks and all 128 columns. -/
def tcSum (p g : FVec F S65536x128 .f32) (m : IVec S65536x128 32) : FVec F S1 .f32 := fun _ => k1_pay1 (tcRows p g m 26).1
def tcCnt (p g : FVec F S65536x128 .f32) (m : IVec S65536x128 32) : FVec F S1 .f32 := fun _ => k1_pay2 (tcRows p g m 26).2

/-! ## The host's last operations, and the whole result -/

/-- From the tasks' partials and the region's two results: both sums added, both counts added, the quotient by the
    larger of the count and one. -/
def hostTail (o : FVec F S32x32 .f32) (s c : FVec F S1 .f32) : FVec F S_ .f32 :=
  let v8 : FVec F S32x2x16 .f32 := shapeCast S32x2x16 o shapeCasts_S32x32_S32x2x16
  let v9 : FVec F S2 .f32 := Host.reduceAdd v8 (constant S_ .f32 0x00000000#32) reducesTo_S32x2x16_S2_d0_2 h_S_
  let v11 : FVec F S_ .f32 := shapeCast S_ (extractStridedSlice S1 ![0] v9 slices_S2_S1_0) shapeCasts_S1_S_
  let v12 : FVec F S_ .f32 := shapeCast S_ s shapeCasts_S1_S_
  let v13 : FVec F S_ .f32 := addf v11 v12
  let v15 : FVec F S_ .f32 := shapeCast S_ (extractStridedSlice S1 ![1] v9 slices_S2_S1_1) shapeCasts_S1_S_
  let v16 : FVec F S_ .f32 := shapeCast S_ c shapeCasts_S1_S_
  let v17 : FVec F S_ .f32 := addf v15 v16
  let v18 : FVec F S_ .f32 := maximumf v17 (constant S_ .f32 0x3F800000#32)
  Host.divf v13 v18

/-- The program's result as a function of its three argument arrays. -/
def result (P G : FVec F S4x1x128x128x128 .f32) (M : IVec S4x1x128x128x128 32) : FVec F S_ .f32 :=
  let p : FVec F S8388608 .f32 := shapeCast S8388608 P shapeCasts_S4x1x128x128x128_S8388608
  let g : FVec F S8388608 .f32 := shapeCast S8388608 G shapeCasts_S4x1x128x128x128_S8388608
  let m : IVec S8388608 32 := shapeCast S8388608 M shapeCasts_S4x1x128x128x128_S8388608
  hostTail (partials p g m)
    (tcSum (shapeCast S65536x128 p shapeCasts_S8388608_S65536x128) (shapeCast S65536x128 g shapeCasts_S8388608_S65536x128)
      (shapeCast S65536x128 m shapeCasts_S8388608_S65536x128))
    (tcCnt (shapeCast S65536x128 p shapeCasts_S8388608_S65536x128) (shapeCast S65536x128 g shapeCasts_S8388608_S65536x128)
      (shapeCast S65536x128 m shapeCasts_S8388608_S65536x128))

end Cert.KernelIdeal.Spec

end
-- ==== Proof.KI.Hand.lean ====
/-
  What the launch handshakes carry. The one SparseCore call hands every subcore task a read share of each of the three
  flat input arrays (whole: a task copies three stretches of each, two of them at once) and, outright, its own row of
  the 32 × 32 partials array; the task hands the shares back with its row filled: sixteen lane sums, sixteen lane
  counts, as the specification's `partials` has them. Task `(c, s)` — SparseCore `c`, subcore `s` — is worker
  `2 s + c`.
-/
import proofs.«210416_g85048942395886_cont_9to1c4b_614_23_alg».proof.Proof.KI.Common
import proofs.«210416_g85048942395886_cont_9to1c4b_614_23_alg».proof.Proof.KI.Spec

noncomputable section

namespace Cert.KernelIdeal.Hand

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The three flat inputs and the partials array, as locations of device `d`. -/
abbrev pLoc (d : Dev nD) : Loc nD τ sig := (SparseCore.T d).loc main_v0
abbrev gLoc (d : Dev nD) : Loc nD τ sig := (SparseCore.T d).loc main_v1
abbrev mLoc (d : Dev nD) : Loc nD τ sig := (SparseCore.T d).loc main_v2
abbrev oLoc (d : Dev nD) : Loc nD τ sig := (SparseCore.T d).loc main_v3

variable [FloatOps F]

/-- The flat inputs' contents when the call is made: the arguments, flattened. -/
def pC (d : Dev nD) : Buf (Elt F) (pLoc d) :=
  shapeCast S8388608 (m ((SparseCore.T d).loc main_arg0)) shapeCasts_S4x1x128x128x128_S8388608
def gC (d : Dev nD) : Buf (Elt F) (gLoc d) :=
  shapeCast S8388608 (m ((SparseCore.T d).loc main_arg1)) shapeCasts_S4x1x128x128x128_S8388608
def mC (d : Dev nD) : Buf (Elt F) (mLoc d) :=
  shapeCast S8388608 (m ((SparseCore.T d).loc main_arg2)) shapeCasts_S4x1x128x128x128_S8388608

/-- The partials array as the tasks leave it. -/
def oC (d : Dev nD) : Buf (Elt F) (oLoc d) := Spec.partials (pC m d) (gC m d) (mC m d)

omit [FloatOps F] in
theorem hdiv : 32 ∣ S32x32.size 0 := ⟨1, rfl⟩
/-- Row `w` of the partials array. -/
abbrev oRow (w : Fin 32) : Rect S32x32 := Rect.part (s := S32x32) (a₀ := 0) hdiv w
abbrev oRowSet (w : Fin 32) : Finset S32x32.Idx :=
  ((Memref.whole main_v3_scv : Memref sig .scVector .hbm S32x32 .f32).view.slice (oRow w)).set

/-- The worker number of task `(c, s)`. -/
def wid (c : Fin 2) (s : Fin 16) : Fin 32 := ⟨2 * s.val + c.val, by have := c.isLt; have := s.isLt; omega⟩

/-- Worker `w`'s read share of an input array. -/
abbrev rdShare (w : Fin 32) : PosShare TreeShare := Transfers.shareTok fullShare 32 w

/-- The three inputs, read-shared to worker `w`. -/
def inputs (d : Dev nD) (w : Fin 32) : sProp 𝕄 :=
  iprop((pLoc d ↦{rdShare w} pC m d) ∗ (gLoc d ↦{rdShare w} gC m d) ∗ (mLoc d ↦{rdShare w} mC m d))

/-- What worker `w`'s task is handed, and what it hands back. -/
def taskIn (d : Dev nD) (w : Fin 32) : sProp 𝕄 := iprop(inputs m d w ∗ ∃ f, oLoc d ↦[oRowSet w]{fullShare} f)
def taskOut (d : Dev nD) (w : Fin 32) : sProp 𝕄 := iprop(inputs m d w ∗ oLoc d ↦[oRowSet w]{fullShare} oC m d)

instance taskIn_storable (d : Dev nD) (w : Fin 32) : BI.Storable (upEmb : UEmb _ 𝕄) (taskIn m d w) := by
  unfold taskIn inputs; infer_instance
instance taskOut_storable (d : Dev nD) (w : Fin 32) : BI.Storable (upEmb : UEmb _ 𝕄) (taskOut m d w) := by
  unfold taskOut inputs; infer_instance

/-- The call's payloads: a SparseCore is handed its sixteen tasks' shares together. -/
def P : (K (F := F)).Pay (nD := nD) (Val := Elt F) (Name := ℕ) (U := UU) where
  st := fun q d c => match q with
    | 0 => bigSep Finset.univ fun s : Fin 16 => taskIn m d (wid (Fin.cast nCore_zero c) s)
  dn := fun q d c => match q with
    | 0 => bigSep Finset.univ fun s : Fin 16 => taskOut m d (wid (Fin.cast nCore_zero c) s)
  go := fun q d c i => match q with
    | 0 => taskIn m d (wid (Fin.cast nCore_zero c) (Fin.cast nSub_zero i))
  td := fun q d c i => match q with
    | 0 => taskOut m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => taskIn m d (wid (Fin.cast nCore_zero c) s)))
  dn q d c := match q with
    | 0 => (inferInstance : BI.Storable (upEmb : UEmb _ 𝕄) (bigSep Finset.univ fun s : Fin 16 => taskOut m d (wid (Fin.cast nCore_zero c) s)))
  go q d c i := match q with
    | 0 => (inferInstance : BI.Storable (upEmb : UEmb _ 𝕄) (taskIn m d (wid (Fin.cast nCore_zero c) (Fin.cast nSub_zero i))))
  td q d c i := match q with
    | 0 => (inferInstance : BI.Storable (upEmb : UEmb _ 𝕄) (taskOut m d (wid (Fin.cast nCore_zero c) (Fin.cast nSub_zero i))))

/-- What @main leaves for the claim: the three arguments as launched, the result at the specification's value. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v19 ↦{fullShare}
        (Spec.result (m ((SparseCore.T d).loc main_arg0)) (m ((SparseCore.T d).loc main_arg1)) (m ((SparseCore.T d).loc main_arg2))
          : Buf (Elt F) ((SparseCore.T d).loc main_v19))))

end Cert.KernelIdeal.Hand

end
-- ==== Proof.KI.TcGhost.lean ====
/-
  What the launch must fund for the TensorCore region: the rounds ghost state of the region's staging cells.

  The region stages its five windows through eight buffers (two each for the three operand windows, one each for the
  two results), each completing on its own semaphore: a staging cell. The launch element of the rounds library, taken
  at those cells and at the duty tokens of every transfer the region's loop issues, yields per device the cells' launch
  state and the tokens; the region's entry allocates the cells' invariants from them.
-/
import proofs.«210416_g85048942395886_cont_9to1c4b_614_23_alg».proof.Proof.KI.Common

noncomputable section

namespace Cert.KernelIdeal.TcGhost

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- No pipeline prefetches a table: the one admissible contents. -/
abbrev adm : (p : Fin 1) → (pcfgs (F := F) p).Adm := fun p => (cfgs p).toPCfg_adm

/-- The region's staging cells are pairwise distinct, also when the pipelines are read at the admissible tables. -/
theorem phinj : Function.Injective (Pipeline.cellOf (nD := nD) (τ := τ) (Pipeline.pin (pcfgs (F := F)) adm)) := Gen.cellOf_inj

/-- The staging cells of the region on every device. -/
def tcCells : Finset (GSem nD τ sig) := Pipeline.cells cfgs Gen.cellOf_inj

/-- The (cell, round, duty) triples of every transfer the region's loop issues on every device. -/
def tcToks : Finset (GSem nD τ sig × ℕ × Unit) := Pipeline.launchToks cfgs Gen.cellOf_inj

/-- The region's share of the rounds ghost state on device `d`: its cells' launch state and its duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The launch element at the region's cells and tokens funds every device's share. -/
theorem fundG : (BI.own (EP (initOf tcCells tcToks)) : sProp 𝕄) ⊢ iprop(|==> bigSep Finset.univ fun d : Dev nD => G d) := by
  have h1 : ∀ Φ : Fin 1 → sProp 𝕄, bigSep Finset.univ Φ = Φ 0 := fun Φ => by
    rw [show (Finset.univ : Finset (Fin 1)) = {0} from by decide, bigSep_singleton]
  refine (Pipeline.fund_ghost (Pipeline.pin (pcfgs (F := F)) adm) EP phinj).trans (bupd_mono ?_)
  unfold G
  simp only [h1]
  exact BI.Entails.refl _

end Cert.KernelIdeal.TcGhost

end
-- ==== Proof.KI.LaunchElem.lean ====
/-
  The launch element of the ghost state, and how the final assertion reads the final memory.

  The element has the launch handshakes' rounds at their cells and tokens, the TensorCore region's staging cells'
  rounds at theirs, and the unit of the exclusive counters (a subcore allocates the counter of a copy when it issues
  it). It splits into the three; the staging cells' part funds every device's share of the region's ghost state; no
  kernel consumes anything else of the launch's.
-/
import proofs.«210416_g85048942395886_cont_9to1c4b_614_23_alg».proof.Proof.KI.Hand
import proofs.«210416_g85048942395886_cont_9to1c4b_614_23_alg».proof.Proof.KI.TcGhost

noncomputable section

namespace Cert.KernelIdeal.LaunchElem

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The launch element: handshake rounds, staging-cell rounds, the counters' unit. -/
def u₀ : UU := (initOf (K (F := F)).hsCells (K (F := F)).hsToks, (initOf TcGhost.tcCells TcGhost.tcToks, 1))

theorem bigSep_emp' {I : Type} (s : Finset I) : (bigSep s fun _ => iprop(emp)) = (iprop(emp) : sProp 𝕄) := bigSep_emp_const s

variable [FloatOps F]

/-- From the launch element: the handshakes' rounds, every device's share of the region's ghost state, and (nothing)
    for the kernels' own proofs. -/
theorem hu₀ : (ownU (u₀ (F := F)) : sProp 𝕄)
    ⊢ |={Set.univ}=> iprop(BI.own (EH (initOf (K (F := F)).hsCells (K (F := F)).hsToks)) ∗ (bigSep Finset.univ fun d : Dev nD => TcGhost.G (F := F) d)
        ∗ bigSep Finset.univ fun thr : Thread nD τ => bigSep Finset.univ fun q : Fin 1 => (Hand.P m).x q thr) := by
  unfold u₀
  iintro Hu
  ihave H := (ownU_pair _ _) $$ Hu
  icases H with ⟨HH, HR⟩
  ihave HR' := (own_pair_emb (embR : Emb (UP × Counters) 𝕄) (initOf TcGhost.tcCells TcGhost.tcToks) (1 : Counters)) $$ HR
  icases HR' with ⟨HP, -⟩
  ihave HP' := (Entails.of_eq (show (BI.own (((Emb.inl : Emb UP (UP × Counters)).trans (embR : Emb (UP × Counters) 𝕄)) (initOf TcGhost.tcCells TcGhost.tcToks)) : sProp 𝕄)
      = BI.own ((EP : Emb UP 𝕄) (initOf TcGhost.tcCells TcGhost.tcToks)) from rfl)) $$ HP
  imod (TcGhost.fundG (F := F)) $$ HP' with HG
  imodintro
  isplitl [HH]; · iexact HH
  isplitl [HG]; · iexact HG
  unfold Hand.P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

/-- What the claim reads off device `d`'s final memory: the arguments as launched, the result the specification's. -/
def fq (d : Dev nD) (s' : Phys nD τ sig (Elt F)) : Prop :=
  s'.mem.mem ((SparseCore.T d).loc main_v19)
      = (Spec.result (m ((SparseCore.T d).loc main_arg0)) (m ((SparseCore.T d).loc main_arg1)) (m ((SparseCore.T d).loc main_arg2))
          : Buf (Elt F) ((SparseCore.T d).loc main_v19))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

theorem hfin (d : Dev nD) (s' : Phys nD τ sig (Elt F)) : iprop(Hand.FIN m d ∗ SI s') ⊢ (⌜fq m d s'⌝ : sProp 𝕄) := by
  have one (ℓ : Loc nD τ sig) (f : Buf (Elt F) ℓ) : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  have e19 : iprop(Hand.FIN m d ∗ SI s') ⊢ (⌜s'.mem.mem ((SparseCore.T d).loc main_v19)
      = (Spec.result (m ((SparseCore.T d).loc main_arg0)) (m ((SparseCore.T d).loc main_arg1)) (m ((SparseCore.T d).loc main_arg2))
          : Buf (Elt F) ((SparseCore.T d).loc main_v19))⌝ : sProp 𝕄) := by
    unfold Hand.FIN
    iintro ⟨⟨-, -, -, H⟩, HSI⟩
    iapply (one _ _); isplitl [H] <;> iassumption
  have e0 : iprop(Hand.FIN m d ∗ SI s') ⊢ (⌜s'.mem.mem ((SparseCore.T d).loc main_arg0) = m ((SparseCore.T d).loc main_arg0)⌝ : sProp 𝕄) := by
    unfold Hand.FIN
    iintro ⟨⟨H, -, -, -⟩, HSI⟩
    iapply (one _ _); isplitl [H] <;> iassumption
  have e1 : iprop(Hand.FIN m d ∗ SI s') ⊢ (⌜s'.mem.mem ((SparseCore.T d).loc main_arg1) = m ((SparseCore.T d).loc main_arg1)⌝ : sProp 𝕄) := by
    unfold Hand.FIN
    iintro ⟨⟨-, H, -, -⟩, HSI⟩
    iapply (one _ _); isplitl [H] <;> iassumption
  have e2 : iprop(Hand.FIN m d ∗ SI s') ⊢ (⌜s'.mem.mem ((SparseCore.T d).loc main_arg2) = m ((SparseCore.T d).loc main_arg2)⌝ : sProp 𝕄) := by
    unfold Hand.FIN
    iintro ⟨⟨-, -, H, -⟩, HSI⟩
    iapply (one _ _); isplitl [H] <;> iassumption
  unfold fq
  exact (BIClass.and_intro e19 ((BIClass.and_intro e0 ((BIClass.and_intro e1 e2).trans pure_and.1)).trans pure_and.1)).trans pure_and.1

end Cert.KernelIdeal.LaunchElem

end
-- ==== Proof.KI.TileDefs.lean ====
/-
  One subcore task: the memrefs its body slices, spelt as the body spells them; that each trip's sixteen lanes lie
  in the scratch row its chunk landed in; the running pair of a chunk's loop as a function of the rows' contents.

  A task copies its 49152 positions of each flat input in three stretches of 16384 into a two-row scratch, the
  stretches alternating between the rows; the loop over a stretch reads row by row sixteen lanes at a time.
-/
import proofs.«210416_g85048942395886_cont_9to1c4b_614_23_alg».proof.Proof.KI.Hand
import Idealize.ShloMosaic.Lib.SparseCore.Ops

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task's memrefs, spelt as the body slices them -/

abbrev pV : Memref sig .scVector .hbm S8388608 .f32 := Memref.whole main_v0_scv
abbrev gV : Memref sig .scVector .hbm S8388608 .f32 := Memref.whole main_v1_scv
abbrev mV : Memref sig .scVector .hbm S8388608 .i32 := Memref.whole main_v2_scv
abbrev oV : Memref sig .scVector .hbm S32x32 .f32 := Memref.whole main_v3_scv
abbrev sP : Memref sig .scVector .vmem S2x16384 .f32 := Memref.whole cc0_scratch0
abbrev sG : Memref sig .scVector .vmem S2x16384 .f32 := Memref.whole cc0_scratch1
abbrev sM : Memref sig .scVector .vmem S2x16384 .i32 := Memref.whole cc0_scratch2
abbrev sO : Memref sig .scVector .vmem S32 .f32 := Memref.whole cc0_scratch3

/-- Row 0 / row 1 of a two-row scratch, as a vector of 16384. -/
abbrev row0 {e : EltTy} (M : Memref sig .scVector .vmem S2x16384 e) : Memref sig .scVector .vmem S16384 e :=
  (M.slice (Rect.unit (s := S2x16384) ![0, 0] S1x16384.size inb_S2x16384_S1x16384_0_0) (fun _ => rfl)).squeeze S16384 squeezes_S1x16384_S16384
abbrev row1 {e : EltTy} (M : Memref sig .scVector .vmem S2x16384 e) : Memref sig .scVector .vmem S16384 e :=
  (M.slice (Rect.unit (s := S2x16384) ![1, 0] S1x16384.size inb_S2x16384_S1x16384_1_0) (fun _ => rfl)).squeeze S16384 squeezes_S1x16384_S16384

/-- The three stretches of 16384 a task copies out of a flat input. -/
abbrev src0 {e : EltTy} (A : Memref sig .scVector .hbm S8388608 e) (L : grid0.Coords) : Memref sig .scVector .hbm S16384 e :=
  A.slice (Rect.unit (s := S8388608) (k0_off1 L 0#32) S16384.size (k0_off1_inb L 0)) (fun _ => rfl)
abbrev src1 {e : EltTy} (A : Memref sig .scVector .hbm S8388608 e) (L : grid0.Coords) : Memref sig .scVector .hbm S16384 e :=
  A.slice (Rect.unit (s := S8388608) (k0_off1 L 16384#32) S16384.size (k0_off1_inb L 1)) (fun _ => rfl)
abbrev src2 {e : EltTy} (A : Memref sig .scVector .hbm S8388608 e) (L : grid0.Coords) : Memref sig .scVector .hbm S16384 e :=
  A.slice (Rect.unit (s := S8388608) (k0_off1 L 32768#32) S16384.size (k0_off1_inb L 2)) (fun _ => rfl)

/-- The task's row of the partials array. -/
abbrev oRowK (L : grid0.Coords) : Memref sig .scVector .hbm S32 .f32 :=
  (oV.slice (Rect.unit (s := S32x32) (k0_off5 L) S1x32.size (k0_off5_inb L)) (fun _ => rfl)).squeeze S32 squeezes_S1x32_S32

/-! ## A trip's sixteen lanes lie in the row the chunk landed in -/

theorem box_row0_t1 {e : EltTy} (M : Memref sig .scVector .vmem S2x16384 e) (k : Fin k0_t1_loop.trips) :
    M.view.setOn (Rect.unit (s := S2x16384) (k0_off2 k) S1x16.size (k0_off2_inb k)).set ⊆ (row0 M).view.set := by
  have hk : k.val < 1024 := lt_of_lt_of_le k.isLt k0_t1_abs.2.1
  rw [Memref.set_view_squeeze]
  refine Memref.setOn_subset_slice_of_within M _ _ (Rect.unit (s := S2x16384) (k0_off2 k) S1x16.size (k0_off2_inb k)).toLoadRect
    (LoadRect.within_of_withinP (LoadRect.withinP_of_forms ![0, 0] ![1, 16384] (fun _ => 1) ![0, 16 * k.val] ![1, 16] (fun _ => 1)
      rfl rfl rfl (k0_off2_eq k) rfl rfl ?_))
  intro a; fin_cases a <;> simp <;> omega

theorem box_row1_t2 {e : EltTy} (M : Memref sig .scVector .vmem S2x16384 e) (k : Fin k0_t2_loop.trips) :
    M.view.setOn (Rect.unit (s := S2x16384) (k0_off3 k) S1x16.size (k0_off3_inb k)).set ⊆ (row1 M).view.set := by
  have hk : k.val < 1024 := lt_of_lt_of_le k.isLt k0_t2_abs.2.1
  rw [Memref.set_view_squeeze]
  refine Memref.setOn_subset_slice_of_within M _ _ (Rect.unit (s := S2x16384) (k0_off3 k) S1x16.size (k0_off3_inb k)).toLoadRect
    (LoadRect.within_of_withinP (LoadRect.withinP_of_forms ![1, 0] ![1, 16384] (fun _ => 1) ![1, 16 * k.val] ![1, 16] (fun _ => 1)
      rfl rfl rfl (k0_off3_eq k) rfl rfl ?_))
  intro a; fin_cases a <;> simp <;> omega

theorem box_row0_t3 {e : EltTy} (M : Memref sig .scVector .vmem S2x16384 e) (k : Fin k0_t3_loop.trips) :
    M.view.setOn (Rect.unit (s := S2x16384) (k0_off4 k) S1x16.size (k0_off4_inb k)).set ⊆ (row0 M).view.set := by
  have hk : k.val < 1024 := lt_of_lt_of_le k.isLt k0_t3_abs.2.1
  rw [Memref.set_view_squeeze]
  refine Memref.setOn_subset_slice_of_within M _ _ (Rect.unit (s := S2x16384) (k0_off4 k) S1x16.size (k0_off4_inb k)).toLoadRect
    (LoadRect.within_of_withinP (LoadRect.withinP_of_forms ![0, 0] ![1, 16384] (fun _ => 1) ![0, 16 * k.val] ![1, 16] (fun _ => 1)
      rfl rfl rfl (k0_off4_eq k) rfl rfl ?_))
  intro a; fin_cases a <;> simp <;> omega

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev sem0 (d : Dev nD) (L : grid0.Coords) : GSem nD τ sig := (thr d L, .dma cc0_scratch4.sem)
abbrev sem1 (d : Dev nD) (L : grid0.Coords) : GSem nD τ sig := (thr d L, .dma cc0_scratch5.sem)
abbrev sem2 (d : Dev nD) (L : grid0.Coords) : GSem nD τ sig := (thr d L, .dma cc0_scoped0.sem)

/-- A scratch row held by exactly its own elements. -/
abbrev own {S : Shape} {e : EltTy} (M : Memref sig .scVector .vmem S e) (f : Buf (Elt F) (M.view.loc (thr d L))) : sProp 𝕄 :=
  M.view.loc (thr d L) ↦[M.view.set]{fullShare} f

variable [FloatOps F] [∀ e, Nonempty (Elt F e)]

/-! ## The three chunk loops: what a trip reads, and the running pair after `k` trips -/

/-- Trip `k` of the first / second / third loop reads these sixteen lanes of a two-row scratch held at `X`. -/
abbrev rd1 {e : EltTy} (M : Memref sig .scVector .vmem S2x16384 e) (X : Buf (Elt F) ((row0 M).view.loc (thr d L))) (k : Fin k0_t1_loop.trips) :=
  View.readAt (Elt F) M.view (Rect.unit (s := S2x16384) (k0_off2 k) S1x16.size (k0_off2_inb k)).toLoadRect X
abbrev rd2 {e : EltTy} (M : Memref sig .scVector .vmem S2x16384 e) (X : Buf (Elt F) ((row1 M).view.loc (thr d L))) (k : Fin k0_t2_loop.trips) :=
  View.readAt (Elt F) M.view (Rect.unit (s := S2x16384) (k0_off3 k) S1x16.size (k0_off3_inb k)).toLoadRect X
abbrev rd3 {e : EltTy} (M : Memref sig .scVector .vmem S2x16384 e) (X : Buf (Elt F) ((row0 M).view.loc (thr d L))) (k : Fin k0_t3_loop.trips) :=
  View.readAt (Elt F) M.view (Rect.unit (s := S2x16384) (k0_off4 k) S1x16.size (k0_off4_inb k)).toLoadRect X

/-- The running sum and count after `k` trips of a chunk's loop, from the pair `a`, the chunk's rows at `A B C`. -/
def fold1 (A : Buf (Elt F) ((row0 sP).view.loc (thr d L))) (B : Buf (Elt F) ((row0 sG).view.loc (thr d L)))
    (C : Buf (Elt F) ((row0 sM).view.loc (thr d L))) (a : FVec F S16 .f32 × FVec F S16 .f32) : ℕ → FVec F S16 .f32 × FVec F S16 .f32
  | 0 => a
  | k + 1 => if h : k < k0_t1_loop.trips then
      (k0_pay4 (fold1 A B C a k).1 (rd1 d L sP A ⟨k, h⟩) (rd1 d L sG B ⟨k, h⟩) (rd1 d L sM C ⟨k, h⟩), k0_pay5 (fold1 A B C a k).2 (rd1 d L sM C ⟨k, h⟩))
    else fold1 A B C a k
def fold2 (A : Buf (Elt F) ((row1 sP).view.loc (thr d L))) (B : Buf (Elt F) ((row1 sG).view.loc (thr d L)))
    (C : Buf (Elt F) ((row1 sM).view.loc (thr d L))) (a : FVec F S16 .f32 × FVec F S16 .f32) : ℕ → FVec F S16 .f32 × FVec F S16 .f32
  | 0 => a
  | k + 1 => if h : k < k0_t2_loop.trips then
      (k0_pay7 (fold2 A B C a k).1 (rd2 d L sP A ⟨k, h⟩) (rd2 d L sG B ⟨k, h⟩) (rd2 d L sM C ⟨k, h⟩), k0_pay8 (fold2 A B C a k).2 (rd2 d L sM C ⟨k, h⟩))
    else fold2 A B C a k
def fold3 (A : Buf (Elt F) ((row0 sP).view.loc (thr d L))) (B : Buf (Elt F) ((row0 sG).view.loc (thr d L)))
    (C : Buf (Elt F) ((row0 sM).view.loc (thr d L))) (a : FVec F S16 .f32 × FVec F S16 .f32) : ℕ → FVec F S16 .f32 × FVec F S16 .f32
  | 0 => a
  | k + 1 => if h : k < k0_t3_loop.trips then
      (k0_pay10 (fold3 A B C a k).1 (rd3 d L sP A ⟨k, h⟩) (rd3 d L sG B ⟨k, h⟩) (rd3 d L sM C ⟨k, h⟩), k0_pay11 (fold3 A B C a k).2 (rd3 d L sM C ⟨k, h⟩))
    else fold3 A B C a k

/-- A loop's invariant: the chunk's three rows as they landed, the carried pair the running pair. -/
def inv1 (A : Buf (Elt F) ((row0 sP).view.loc (thr d L))) (B : Buf (Elt F) ((row0 sG).view.loc (thr d L)))
    (C : Buf (Elt F) ((row0 sM).view.loc (thr d L))) (a : FVec F S16 .f32 × FVec F S16 .f32) (k : ℕ) (acc : FVec F S16 .f32 × FVec F S16 .f32) : sProp 𝕄 :=
  iprop(own d L (row0 sP) A ∗ own d L (row0 sG) B ∗ own d L (row0 sM) C ∗ ⌜acc = fold1 d L A B C a k⌝)
def inv2 (A : Buf (Elt F) ((row1 sP).view.loc (thr d L))) (B : Buf (Elt F) ((row1 sG).view.loc (thr d L)))
    (C : Buf (Elt F) ((row1 sM).view.loc (thr d L))) (a : FVec F S16 .f32 × FVec F S16 .f32) (k : ℕ) (acc : FVec F S16 .f32 × FVec F S16 .f32) : sProp 𝕄 :=
  iprop(own d L (row1 sP) A ∗ own d L (row1 sG) B ∗ own d L (row1 sM) C ∗ ⌜acc = fold2 d L A B C a k⌝)
def inv3 (A : Buf (Elt F) ((row0 sP).view.loc (thr d L))) (B : Buf (Elt F) ((row0 sG).view.loc (thr d L)))
    (C : Buf (Elt F) ((row0 sM).view.loc (thr d L))) (a : FVec F S16 .f32 × FVec F S16 .f32) (k : ℕ) (acc : FVec F S16 .f32 × FVec F S16 .f32) : sProp 𝕄 :=
  iprop(own d L (row0 sP) A ∗ own d L (row0 sG) B ∗ own d L (row0 sM) C ∗ ⌜acc = fold3 d L A B C a k⌝)

/-- The three flat inputs' contents at the subcore's location, as the plain vectors they are. -/
def asP (f : Buf (Elt F) (pV.view.loc (thr d L))) : FVec F S8388608 .f32 := f
def asG (f : Buf (Elt F) (gV.view.loc (thr d L))) : FVec F S8388608 .f32 := f
def asM (f : Buf (Elt F) (mV.view.loc (thr d L))) : IVec S8388608 32 := f
/-- The partials array's contents at the subcore's location, as the plain array they are. -/
def asOut (f : Buf (Elt F) ((oRowK L).view.loc (thr d L))) : FVec F S32x32 .f32 := f
/-- The task's row of the partials array, as a set of plain indices. -/
def oRowIdx : Finset S32x32.Idx := (oRowK L).view.set

/-- What the task's run starts from: read shares of the three flat inputs, its row of the partials array, the six
    scratch rows and the output scratch, the three DMA counters at zero, what the subcore owes. -/
def corePre (q q' : PosShare TreeShare) (O : CellTallies nD τ sig (HIx 1)) (W : Waits sig (HIx 1))
    (fp : Buf (Elt F) (pV.view.loc (thr d L))) (fg : Buf (Elt F) (gV.view.loc (thr d L))) (fm : Buf (Elt F) (mV.view.loc (thr d L)))
    (fo : Buf (Elt F) ((oRowK L).view.loc (thr d L)))
    (a0 : Buf (Elt F) ((row0 sP).view.loc (thr d L))) (a1 : Buf (Elt F) ((row1 sP).view.loc (thr d L)))
    (b0 : Buf (Elt F) ((row0 sG).view.loc (thr d L))) (b1 : Buf (Elt F) ((row1 sG).view.loc (thr d L)))
    (c0 : Buf (Elt F) ((row0 sM).view.loc (thr d L))) (c1 : Buf (Elt F) ((row1 sM).view.loc (thr d L)))
    (fs : Buf (Elt F) (sO.view.loc (thr d L))) : sProp 𝕄 :=
  iprop(levAts (K (F := F)).L (K (F := F)).lev
        ∗ (pV.view.loc (thr d L) ↦{q} fp) ∗ (gV.view.loc (thr d L) ↦{q} fg) ∗ (mV.view.loc (thr d L) ↦{q} fm)
        ∗ (pV.view.loc (thr d L) ↦{q'} fp) ∗ (gV.view.loc (thr d L) ↦{q'} fg) ∗ (mV.view.loc (thr d L) ↦{q'} fm)
        ∗ ((oRowK L).view.loc (thr d L) ↦[(oRowK L).view.set]{fullShare} fo)
        ∗ own d L (row0 sP) a0 ∗ own d L (row1 sP) a1 ∗ own d L (row0 sG) b0 ∗ own d L (row1 sG) b1
        ∗ own d L (row0 sM) c0 ∗ own d L (row1 sM) c1 ∗ (sO.view.loc (thr d L) ↦{fullShare} fs)
        ∗ semVal (sem0 d L) 0 ∗ semVal (sem1 d L) 0 ∗ semVal (sem2 d L) 0
        ∗ owes (thr d L) O W)

end Tile

end Cert.KernelIdeal.Tile

end
-- ==== Proof.KI.TileValue.lean ====
/-
  One subcore task's value. The task copies its 49152 positions of each flat input in three stretches of 16384 into a
  two-row scratch — the first into row 0, the second into row 1, the third into row 0 again — and after each copy a loop
  of 1024 trips reads the row sixteen lanes at a time, carrying a running sum and a running count per lane. Trip `k` of
  the loop over stretch `j` therefore reads positions `49152 w + 16 (1024 j + k) ..` of the inputs, `w` the task's
  number: the lanes of the specification's step `1024 j + k`. So the pair carried out of the third loop is the
  specification's pair after all 3072 steps, and the task's row of the partial results — written whole from an output
  scratch that holds the sums in entries 0 .. 15 and the counts in entries 16 .. 31 — is the specification's row.
-/
import proofs.«210416_g85048942395886_cont_9to1c4b_614_23_alg».proof.Proof.KI.TileDefs
import Idealize.ShloMosaic.Lib.ValueIdx
import Idealize.ShloMosaic.Lib.Pipeline.Value
import Idealize.ShloMosaic.Lib.Exec

noncomputable section

namespace Cert.KernelIdeal.Tile

open Cert.KernelIdeal Cert.KernelIdeal.Gen Cert.KernelIdeal.Common
open Idealize.ShloMosaic Idealize.ShloMosaic.ValueIdx
open Idealize.ShloMosaic.SparseCore (S V T)
open Idealize.SL.Sem

variable {F : FTy → Type}

/-! ## Reading a row of a two-row scratch, and sixteen lanes of it -/

section Rows
variable {e : EltTy} {Val : EltTy → Type}

/-- Entry `j` of row 0 of a two-row scratch is entry `(0, j)` of the scratch. -/
theorem read_row0 (M : Memref sig .scVector .vmem S2x16384 e) (X : M.view.ty.Contents Val) (j : Fin 16384) :
    (row0 M).view.read Val X (ix1 j) = M.view.read Val X (ix2 (0 : Fin 2) j) := by
  have h := congrFun (Memref.read_squeeze_slice (Val := Val) M (Rect.unit (s := S2x16384) ![0, 0] S1x16384.size inb_S2x16384_S1x16384_0_0)
    (fun _ => rfl) squeezes_S1x16384_S16384 (by decide) X) (ix1 j)
  refine h.trans ((shapeCast_apply _ _ (ix1 j) (ix2 (0 : Fin 1) j) (by
    rw [Shape.rowMajor_val_two, Shape.rowMajor_val_one]; show 0 * 16384 + j.val = j.val; omega)).trans ?_)
  rw [View.readAt_apply]
  refine congrArg (M.view.read Val X) (funext fun a => Fin.ext ?_)
  match a with
  | ⟨0, _⟩ => rfl
  | ⟨1, _⟩ => show 0 + 1 * j.val = j.val; omega

/-- Entry `j` of row 1 of a two-row scratch is entry `(1, j)` of the scratch. -/
theorem read_row1 (M : Memref sig .scVector .vmem S2x16384 e) (X : M.view.ty.Contents Val) (j : Fin 16384) :
    (row1 M).view.read Val X (ix1 j) = M.view.read Val X (ix2 (1 : Fin 2) j) := by
  have h := congrFun (Memref.read_squeeze_slice (Val := Val) M (Rect.unit (s := S2x16384) ![1, 0] S1x16384.size inb_S2x16384_S1x16384_1_0)
    (fun _ => rfl) squeezes_S1x16384_S16384 (by decide) X) (ix1 j)
  refine h.trans ((shapeCast_apply _ _ (ix1 j) (ix2 (0 : Fin 1) j) (by
    rw [Shape.rowMajor_val_two, Shape.rowMajor_val_one]; show 0 * 16384 + j.val = j.val; omega)).trans ?_)
  rw [View.readAt_apply]
  refine congrArg (M.view.read Val X) (funext fun a => Fin.ext ?_)
  match a with
  | ⟨0, _⟩ => rfl
  | ⟨1, _⟩ => show 0 + 1 * j.val = j.val; omega

/-- Sixteen lanes read through the whole scratch at row `b`, columns `16 k ..`: lane `y` is entry `(b, 16 k + y)`. -/
theorem read_box (M : Memref sig .scVector .vmem S2x16384 e) (X : M.view.ty.Contents Val) (off : Fin 2 → ℕ)
    (inb : ∀ a, off a + S1x16.size a ≤ S2x16384.size a) (b : Fin 2) (k : ℕ) (hk : k < 1024) (hoff : off = ![b.val, 16 * k])
    (y : S1x16.Idx) :
    M.view.readAt Val (Rect.unit (s := S2x16384) off S1x16.size inb).toLoadRect X y
      = M.view.read Val X (ix2 b (⟨16 * k + (y 1).val, by have h1 : (y 1).val < 16 := (y 1).isLt; omega⟩ : Fin 16384)) := by
  have h0 : (y 0).val < 1 := (y 0).isLt
  rw [View.readAt_apply]
  refine congrArg (M.view.read Val X) (funext fun a => Fin.ext ?_)
  match a with
  | ⟨0, _⟩ =>
    show off 0 + 1 * (y 0).val = b.val
    rw [hoff]; show b.val + 1 * (y 0).val = b.val; omega
  | ⟨1, _⟩ =>
    show off 1 + 1 * (y 1).val = 16 * k + (y 1).val
    rw [hoff]; show 16 * k + 1 * (y 1).val = 16 * k + (y 1).val; omega

end Rows

/-! ## A stretch of a flat input, and what a trip reads after the stretch landed in a scratch row -/

section Stretch
variable {e : EltTy} {Val : EltTy → Type}

/-- A stretch of 16384 positions of a flat array from position `base`: entry `z` is position `base + z`. -/
theorem read_stretch (A : Memref sig .scVector .hbm S8388608 e) (f : A.view.ty.Contents Val) (off : Fin 1 → ℕ)
    (inb : ∀ a, off a + S16384.size a ≤ S8388608.size a) (base : ℕ) (hoff : off = ![base]) (hb : base + 16384 ≤ 8388608) (j : Fin 16384) :
    (A.slice (Rect.unit (s := S8388608) off S16384.size inb) (fun _ => rfl)).view.read Val f (ix1 j)
      = A.view.read Val f (ix1 (⟨base + j.val, by omega⟩ : Fin 8388608)) := by
  show A.view.read Val f ((Rect.unit (s := S8388608) off S16384.size inb).emb (ix1 j)) = _
  refine congrArg (A.view.read Val f) (funext fun a => Fin.ext ?_)
  match a with
  | ⟨0, _⟩ =>
    show off 0 + 1 * j.val = base + j.val
    rw [hoff]; show base + 1 * j.val = base + j.val; omega

end Stretch

section Trips
variable (d : Dev nD) (L : grid0.Coords) [FloatOps F] [∀ e, Nonempty (Elt F e)] {e : EltTy}

/-- The task's number is below thirty-two. -/
theorem task_lt : 2 * (L 1).val + (L 0).val < 32 := by
  have h0 : (L 0).val < 2 := (L 0).isLt
  have h1 : (L 1).val < 16 := (L 1).isLt
  omega

/-- Trip `k` of the first loop, the first stretch landed in row 0: lane `y` is position
    `49152 w + 16 k + y` of the flat input. -/
theorem trip1 (A : Memref sig .scVector .hbm S8388608 e) (Sc : Memref sig .scVector .vmem S2x16384 e)
    (f : Buf (Elt F) (A.view.loc (thr d L))) (x0 : Buf (Elt F) ((row0 Sc).view.loc (thr d L))) (k : Fin k0_t1_loop.trips) :
    rd1 d L Sc ((row0 Sc).view.writes (Elt F) x0 [⟨Rect.whole S16384, ReadAs.same.apply (View.read (Elt F) (src0 A L).view f)⟩]) k
      = fun y => A.view.read (Elt F) f (Spec.flat (49152 * (2 * (L 1).val + (L 0).val) + 16 * k.val + (y 1).val)) := by
  have hk : k.val < 1024 := lt_of_lt_of_le k.isLt k0_t1_abs.2.1
  have hw := task_lt L
  funext y
  have h1 : (y 1).val < 16 := (y 1).isLt
  refine (read_box Sc _ (k0_off2 k) (k0_off2_inb k) 0 k.val hk (k0_off2_eq k) y).trans ?_
  refine (read_row0 Sc _ _).symm.trans ?_
  rw [View.read_writes_whole]
  refine (read_stretch A f (k0_off1 L 0#32) (k0_off1_inb L 0) (98304 * (L 1).val + 49152 * (L 0).val + 16384 * 0)
    (k0_off1_eq L 0) (by omega) _).trans ?_
  exact congrArg (A.view.read (Elt F) f) (congrArg ix1 (Fin.ext (by
    show 98304 * (L 1).val + 49152 * (L 0).val + 16384 * 0 + (16 * k.val + (y 1).val)
      = (49152 * (2 * (L 1).val + (L 0).val) + 16 * k.val + (y 1).val) % 8388608
    omega)))

/-- Trip `k` of the second loop, the second stretch landed in row 1: position `49152 w + 16 (1024 + k) + y`. -/
theorem trip2 (A : Memref sig .scVector .hbm S8388608 e) (Sc : Memref sig .scVector .vmem S2x16384 e)
    (f : Buf (Elt F) (A.view.loc (thr d L))) (x1 : Buf (Elt F) ((row1 Sc).view.loc (thr d L))) (k : Fin k0_t2_loop.trips) :
    rd2 d L Sc ((row1 Sc).view.writes (Elt F) x1 [⟨Rect.whole S16384, ReadAs.same.apply (View.read (Elt F) (src1 A L).view f)⟩]) k
      = fun y => A.view.read (Elt F) f (Spec.flat (49152 * (2 * (L 1).val + (L 0).val) + 16 * (1024 + k.val) + (y 1).val)) := by
  have hk : k.val < 1024 := lt_of_lt_of_le k.isLt k0_t2_abs.2.1
  have hw := task_lt L
  funext y
  have h1 : (y 1).val < 16 := (y 1).isLt
  refine (read_box Sc _ (k0_off3 k) (k0_off3_inb k) 1 k.val hk (k0_off3_eq k) y).trans ?_
  refine (read_row1 Sc _ _).symm.trans ?_
  rw [View.read_writes_whole]
  refine (read_stretch A f (k0_off1 L 16384#32) (k0_off1_inb L 1) (98304 * (L 1).val + 49152 * (L 0).val + 16384 * 1)
    (k0_off1_eq L 1) (by omega) _).trans ?_
  exact congrArg (A.view.read (Elt F) f) (congrArg ix1 (Fin.ext (by
    show 98304 * (L 1).val + 49152 * (L 0).val + 16384 * 1 + (16 * k.val + (y 1).val)
      = (49152 * (2 * (L 1).val + (L 0).val) + 16 * (1024 + k.val) + (y 1).val) % 8388608
    omega)))

/-- Trip `k` of the third loop, the third stretch landed in row 0 over the first: position
    `49152 w + 16 (2048 + k) + y`. -/
theorem trip3 (A : Memref sig .scVector .hbm S8388608 e) (Sc : Memref sig .scVector .vmem S2x16384 e)
    (f : Buf (Elt F) (A.view.loc (thr d L))) (x0 : Buf (Elt F) ((row0 Sc).view.loc (thr d L))) (k : Fin k0_t3_loop.trips) :
    rd3 d L Sc ((row0 Sc).view.writes (Elt F) x0 [⟨Rect.whole S16384, ReadAs.same.apply (View.read (Elt F) (src2 A L).view f)⟩]) k
      = fun y => A.view.read (Elt F) f (Spec.flat (49152 * (2 * (L 1).val + (L 0).val) + 16 * (2048 + k.val) + (y 1).val)) := by
  have hk : k.val < 1024 := lt_of_lt_of_le k.isLt k0_t3_abs.2.1
  have hw := task_lt L
  funext y
  have h1 : (y 1).val < 16 := (y 1).isLt
  refine (read_box Sc _ (k0_off4 k) (k0_off4_inb k) 0 k.val hk (k0_off4_eq k) y).trans ?_
  refine (read_row0 Sc _ _).symm.trans ?_
  rw [View.read_writes_whole]
  refine (read_stretch A f (k0_off1 L 32768#32) (k0_off1_inb L 2) (98304 * (L 1).val + 49152 * (L 0).val + 16384 * 2)
    (k0_off1_eq L 2) (by omega) _).trans ?_
  exact congrArg (A.view.read (Elt F) f) (congrArg ix1 (Fin.ext (by
    show 98304 * (L 1).val + 49152 * (L 0).val + 16384 * 2 + (16 * k.val + (y 1).val)
      = (49152 * (2 * (L 1).val + (L 0).val) + 16 * (2048 + k.val) + (y 1).val) % 8388608
    omega)))

end Trips

/-! ## The three loops' running pairs are the specification's -/

section Folds
variable (d : Dev nD) (L : grid0.Coords) [FloatOps F] [∀ e, Nonempty (Elt F e)]

/-- Each loop makes 1024 trips. -/
theorem trips1 : Scf.trips k0_t1_loop.lb k0_t1_loop.ub k0_t1_loop.st = 1024 := by decide
theorem trips2 : Scf.trips k0_t2_loop.lb k0_t2_loop.ub k0_t2_loop.st = 1024 := by decide
theorem trips3 : Scf.trips k0_t3_loop.lb k0_t3_loop.ub k0_t3_loop.st = 1024 := by decide

/-- If trip `k` of the first loop reads the sixteen lanes of step `base + k`, the running pair from the
    specification's pair after `base` steps is, after `n` trips, the specification's after `base + n` steps. -/
theorem fold1_eq (A : Buf (Elt F) ((row0 sP).view.loc (thr d L))) (B : Buf (Elt F) ((row0 sG).view.loc (thr d L)))
    (C : Buf (Elt F) ((row0 sM).view.loc (thr d L))) (P G : FVec F S8388608 .f32) (M : IVec S8388608 32) (w base : ℕ)
    (hA : ∀ k, rd1 d L sP A k = Spec.lanes16 P (49152 * w + 16 * (base + k.val)))
    (hB : ∀ k, rd1 d L sG B k = Spec.lanes16 G (49152 * w + 16 * (base + k.val)))
    (hC : ∀ k, rd1 d L sM C k = Spec.lanes16 M (49152 * w + 16 * (base + k.val)))
    (n : ℕ) (hn : n ≤ k0_t1_loop.trips) :
    fold1 d L A B C (Spec.tileAcc P G M w base) n = Spec.tileAcc P G M w (base + n) := by
  induction n with
  | zero => rfl
  | succ n ih =>
    have h : n < k0_t1_loop.trips := hn
    rw [fold1, dif_pos h, ih (le_of_lt h), hA, hB, hC]
    rfl
theorem fold2_eq (A : Buf (Elt F) ((row1 sP).view.loc (thr d L))) (B : Buf (Elt F) ((row1 sG).view.loc (thr d L)))
    (C : Buf (Elt F) ((row1 sM).view.loc (thr d L))) (P G : FVec F S8388608 .f32) (M : IVec S8388608 32) (w base : ℕ)
    (hA : ∀ k, rd2 d L sP A k = Spec.lanes16 P (49152 * w + 16 * (base + k.val)))
    (hB : ∀ k, rd2 d L sG B k = Spec.lanes16 G (49152 * w + 16 * (base + k.val)))
    (hC : ∀ k, rd2 d L sM C k = Spec.lanes16 M (49152 * w + 16 * (base + k.val)))
    (n : ℕ) (hn : n ≤ k0_t2_loop.trips) :
    fold2 d L A B C (Spec.tileAcc P G M w base) n = Spec.tileAcc P G M w (base + n) := by
  induction n with
  | zero => rfl
  | succ n ih =>
    have h : n < k0_t2_loop.trips := hn
    rw [fold2, dif_pos h, ih (le_of_lt h), hA, hB, hC]
    rfl
theorem fold3_eq (A : Buf (Elt F) ((row0 sP).view.loc (thr d L))) (B : Buf (Elt F) ((row0 sG).view.loc (thr d L)))
    (C : Buf (Elt F) ((row0 sM).view.loc (thr d L))) (P G : FVec F S8388608 .f32) (M : IVec S8388608 32) (w base : ℕ)
    (hA : ∀ k, rd3 d L sP A k = Spec.lanes16 P (49152 * w + 16 * (base + k.val)))
    (hB : ∀ k, rd3 d L sG B k = Spec.lanes16 G (49152 * w + 16 * (base + k.val)))
    (hC : ∀ k, rd3 d L sM C k = Spec.lanes16 M (49152 * w + 16 * (base + k.val)))
    (n : ℕ) (hn : n ≤ k0_t3_loop.trips) :
    fold3 d L A B C (Spec.tileAcc P G M w base) n = Spec.tileAcc P G M w (base + n) := by
  induction n with
  | zero => rfl
  | succ n ih =>
    have h : n < k0_t3_loop.trips := hn
    rw [fold3, dif_pos h, ih (le_of_lt h), hA, hB, hC]
    rfl

end Folds

/-! ## The output scratch and the task's row of the partial results -/

section Output
variable (d : Dev nD) (L : grid0.Coords) [FloatOps F] [∀ e, Nonempty (Elt F e)]

/-- The output scratch after the two sixteen-lane stores: entry `j` below sixteen is lane `j` of the first, entry
    `j` from sixteen on is lane `j − 16` of the second. -/
theorem scratch_read (fs : Buf (Elt F) (sO.view.loc (thr d L))) (r : FVec F S16 .f32 × FVec F S16 .f32) (j : Fin 32) :
    sO.view.read (Elt F) (sO.view.writes (Elt F) fs
        [⟨Rect.unit ![16] ![16] inb_S32_S16_16, k0_pay13 r.2⟩, ⟨Rect.unit ![0] ![16] inb_S32_S16_0, k0_pay12 r.1⟩]) (ix1 j)
      = if h : j.val < 16 then k0_pay12 r.1 (ix1 (⟨j.val, h⟩ : Fin 16))
        else k0_pay13 r.2 (ix1 (⟨j.val % 16, Nat.mod_lt _ (by decide)⟩ : Fin 16)) := by
  by_cases h : j.val < 16
  · rw [dif_pos h]
    have e : (ix1 j : S32.Idx) = (Rect.unit (s := S32) ![0] ![16] inb_S32_S16_0).emb (ix1 (⟨j.val, h⟩ : Fin 16)) :=
      funext fun a => Fin.ext (by match a with | ⟨0, _⟩ => show j.val = 0 + 1 * j.val; omega)
    have hn : (ix1 j : S32.Idx) ∉ Finset.univ.map (Rect.unit (s := S32) ![16] ![16] inb_S32_S16_16).emb := by
      rw [Rect.map_emb_univ, Rect.mem_set_unit]
      intro hm
      have := (hm 0).1
      have h' : 16 ≤ j.val := this
      omega
    rw [View.writes_cons, View.read_slice_write_of_not_mem _ _ _ _ hn, e]
    exact View.read_writes_cons_emb _ _ _ _ [] _
  · rw [dif_neg h]
    have hj : j.val < 32 := j.isLt
    have e : (ix1 j : S32.Idx) = (Rect.unit (s := S32) ![16] ![16] inb_S32_S16_16).emb (ix1 (⟨j.val % 16, Nat.mod_lt _ (by decide)⟩ : Fin 16)) :=
      funext fun a => Fin.ext (by match a with | ⟨0, _⟩ => show j.val = 16 + 1 * (j.val % 16); omega)
    rw [e]
    exact View.read_writes_cons_emb _ _ _ _ _ _

/-- Entry `z` of the task's row of the partial results is entry `(w, z)` of the array. -/
theorem oRow_emb (j : Fin 32) :
    ((oRowK L).view.emb (ix1 j) : S32x32.Idx) = ix2 (⟨2 * (L 1).val + (L 0).val, task_lt L⟩ : Fin 32) j := by
  show (Rect.unit (s := S32x32) (k0_off5 L) S1x32.size (k0_off5_inb L)).emb (Shape.reshapeEquiv _ (ix1 j)) = _
  refine (congrArg _ (Shape.reshapeEquiv_eq_of_rowMajor _ (y := ix2 (0 : Fin 1) j) (by
    rw [Shape.rowMajor_val_two, Shape.rowMajor_val_one]; show 0 * 32 + j.val = j.val; omega))).trans ?_
  funext a
  refine Fin.ext ?_
  match a with
  | ⟨0, _⟩ =>
    show (k0_off5 L) 0 + 1 * 0 = 2 * (L 1).val + (L 0).val
    rw [k0_off5_eq]; rfl
  | ⟨1, _⟩ =>
    show (k0_off5 L) 1 + 1 * j.val = j.val
    rw [k0_off5_eq]; show 0 + 1 * j.val = j.val; omega

/-- THE TASK'S VALUE: after the three stretches have landed and the three loops have run, the task's row of the partial
    results, written whole from the output scratch, is the specification's row. -/
theorem tile_value
    (fp : Buf (Elt F) (pV.view.loc (thr d L))) (fg : Buf (Elt F) (gV.view.loc (thr d L))) (fm : Buf (Elt F) (mV.view.loc (thr d L)))
    (fo : Buf (Elt F) ((oRowK L).view.loc (thr d L))) (fs : Buf (Elt F) (sO.view.loc (thr d L)))
    (a0 : Buf (Elt F) ((row0 sP).view.loc (thr d L))) (a1 : Buf (Elt F) ((row1 sP).view.loc (thr d L)))
    (b0 : Buf (Elt F) ((row0 sG).view.loc (thr d L))) (b1 : Buf (Elt F) ((row1 sG).view.loc (thr d L)))
    (c0 : Buf (Elt F) ((row0 sM).view.loc (thr d L))) (c1 : Buf (Elt F) ((row1 sM).view.loc (thr d L)))
    (A1 : BufTy.Contents (Elt F) (row0 sP).view.ty) (B1 : BufTy.Contents (Elt F) (row0 sG).view.ty) (C1 : BufTy.Contents (Elt F) (row0 sM).view.ty)
    (A2 : BufTy.Contents (Elt F) (row1 sP).view.ty) (B2 : BufTy.Contents (Elt F) (row1 sG).view.ty) (C2 : BufTy.Contents (Elt F) (row1 sM).view.ty)
    (A3 : BufTy.Contents (Elt F) (row0 sP).view.ty) (B3 : BufTy.Contents (Elt F) (row0 sG).view.ty) (C3 : BufTy.Contents (Elt F) (row0 sM).view.ty)
    (r1 r2 r3 : FVec F S16 .f32 × FVec F S16 .f32)
    (hA1 : (row0 sP).view.writes (Elt F) a0 [⟨Rect.whole S16384, ReadAs.same.apply (View.read (Elt F) (src0 pV L).view fp)⟩] = A1)
    (hB1 : (row0 sG).view.writes (Elt F) b0 [⟨Rect.whole S16384, ReadAs.same.apply (View.read (Elt F) (src0 gV L).view fg)⟩] = B1)
    (hC1 : (row0 sM).view.writes (Elt F) c0 [⟨Rect.whole S16384, ReadAs.same.apply (View.read (Elt F) (src0 mV L).view fm)⟩] = C1)
    (hr1 : r1 = fold1 d L A1 B1 C1 (k0_pay1, k0_pay2) (Scf.trips k0_t1_loop.lb k0_t1_loop.ub k0_t1_loop.st))
    (hA2 : (row1 sP).view.writes (Elt F) a1 [⟨Rect.whole S16384, ReadAs.same.apply (View.read (Elt F) (src1 pV L).view fp)⟩] = A2)
    (hB2 : (row1 sG).view.writes (Elt F) b1 [⟨Rect.whole S16384, ReadAs.same.apply (View.read (Elt F) (src1 gV L).view fg)⟩] = B2)
    (hC2 : (row1 sM).view.writes (Elt F) c1 [⟨Rect.whole S16384, ReadAs.same.apply (View.read (Elt F) (src1 mV L).view fm)⟩] = C2)
    (hr2 : r2 = fold2 d L A2 B2 C2 r1 (Scf.trips k0_t2_loop.lb k0_t2_loop.ub k0_t2_loop.st))
    (hA3 : (row0 sP).view.writes (Elt F) A1 [⟨Rect.whole S16384, ReadAs.same.apply (View.read (Elt F) (src2 pV L).view fp)⟩] = A3)
    (hB3 : (row0 sG).view.writes (Elt F) B1 [⟨Rect.whole S16384, ReadAs.same.apply (View.read (Elt F) (src2 gV L).view fg)⟩] = B3)
    (hC3 : (row0 sM).view.writes (Elt F) C1 [⟨Rect.whole S16384, ReadAs.same.apply (View.read (Elt F) (src2 mV L).view fm)⟩] = C3)
    (hr3 : r3 = fold3 d L A3 B3 C3 r2 (Scf.trips k0_t3_loop.lb k0_t3_loop.ub k0_t3_loop.st)) :
    ∀ i ∈ oRowIdx L,
      asOut d L ((oRowK L).view.writes (Elt F) fo
        [⟨Rect.whole S32, ReadAs.same.apply (View.read (Elt F) sO.view (sO.view.writes (Elt F) fs
          [⟨Rect.unit ![16] ![16] inb_S32_S16_16, k0_pay13 r3.2⟩, ⟨Rect.unit ![0] ![16] inb_S32_S16_0, k0_pay12 r3.1⟩]))⟩]) i
        = Spec.partials (asP d L fp) (asG d L fg) (asM d L fm) i := by
  -- the three loops' pairs
  have e1 : r1 = Spec.tileAcc (asP d L fp) (asG d L fg) (asM d L fm) (2 * (L 1).val + (L 0).val) (0 + 1024) := by
    rw [hr1, trips1, ← hA1, ← hB1, ← hC1]
    exact fold1_eq d L _ _ _ (asP d L fp) (asG d L fg) (asM d L fm) _ 0
      (fun k => (trip1 d L pV sP fp a0 k).trans (by rw [Nat.zero_add]; rfl))
      (fun k => (trip1 d L gV sG fg b0 k).trans (by rw [Nat.zero_add]; rfl))
      (fun k => (trip1 d L mV sM fm c0 k).trans (by rw [Nat.zero_add]; rfl)) 1024 (le_of_eq trips1.symm)
  have e2 : r2 = Spec.tileAcc (asP d L fp) (asG d L fg) (asM d L fm) (2 * (L 1).val + (L 0).val) (1024 + 1024) := by
    rw [hr2, trips2, ← hA2, ← hB2, ← hC2, e1, Nat.zero_add]
    exact fold2_eq d L _ _ _ (asP d L fp) (asG d L fg) (asM d L fm) _ 1024
      (fun k => (trip2 d L pV sP fp a1 k).trans rfl) (fun k => (trip2 d L gV sG fg b1 k).trans rfl)
      (fun k => (trip2 d L mV sM fm c1 k).trans rfl) 1024 (le_of_eq trips2.symm)
  have e3 : r3 = Spec.tileAcc (asP d L fp) (asG d L fg) (asM d L fm) (2 * (L 1).val + (L 0).val) 3072 := by
    rw [hr3, trips3, ← hA3, ← hB3, ← hC3, e2, show 1024 + 1024 = 2048 from rfl]
    exact fold3_eq d L _ _ _ (asP d L fp) (asG d L fg) (asM d L fm) _ 2048
      (fun k => (trip3 d L pV sP fp A1 k).trans rfl) (fun k => (trip3 d L gV sG fg B1 k).trans rfl)
      (fun k => (trip3 d L mV sM fm C1 k).trans rfl) 1024 (le_of_eq trips3.symm)
  -- the task's row
  intro i hi
  obtain ⟨z, -, rfl⟩ := Finset.mem_map.mp (show i ∈ Finset.univ.map (oRowK L).view.emb from hi)
  obtain ⟨j, rfl⟩ : ∃ j : Fin 32, z = ix1 j := ⟨z 0, eq_ix1 z⟩
  refine (show asOut d L _ ((oRowK L).view.emb (ix1 j)) = (oRowK L).view.read (Elt F) _ (ix1 j) from rfl).trans ?_
  rw [View.read_writes_whole, oRow_emb]
  refine (scratch_read d L fs r3 j).trans ?_
  rw [e3]
  rfl

end Output

end Cert.KernelIdeal.Tile

end
-- ==== Proof.KI.TileRun.lean ====
/-
  One subcore task's body, run symbolically from the task's holdings to the task's results.

  The task issues the first two stretches' copies (three copies per stretch — the two float inputs and the mask — each
  stretch on its own DMA semaphore: the three copies of a stretch are started together and all three waited for before
  the row they fill is read, so a wait that passes early does no harm), waits for the first stretch, folds its 1024
  sixteen-lane groups into the running pair, reissues that row for the third stretch, waits for the second, folds it,
  waits for the third, folds it, stores the pair into the output scratch and copies the scratch to its row of the
  partials array. Each input is held as two read shares, since two stretches of one input are in flight at once.
  The loops are passed by their invariant (the rows as they landed, the carried pair the fold so far). What the row
  of the partials array holds at the end is the specification's `partials` there: the value lemma of the module before.
-/
import proofs.«210416_g85048942395886_cont_9to1c4b_614_23_alg».proof.Proof.KI.TileDefs
import proofs.«210416_g85048942395886_cont_9to1c4b_614_23_alg».proof.Proof.KI.TileValue

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)
variable [FloatOps F] [∀ e, Nonempty (Elt F e)]

set_option maxHeartbeats 4000000 in
/-- The task's run: from read shares of the inputs, its row of the partials array, its scratch rows and its three DMA
    counters at zero, to the same with the row at the specification's values, every wait it recorded at the kernels'
    own index. -/
theorem tile_core (q q' : PosShare TreeShare) (O : CellTallies nD τ sig (HIx 1)) (W : Waits sig (HIx 1)) (hO : ∀ g, O g none = 0)
    (fp : Buf (Elt F) (pV.view.loc (thr d L))) (fg : Buf (Elt F) (gV.view.loc (thr d L))) (fm : Buf (Elt F) (mV.view.loc (thr d L)))
    (fo : Buf (Elt F) ((oRowK L).view.loc (thr d L)))
    (a0 : Buf (Elt F) ((row0 sP).view.loc (thr d L))) (a1 : Buf (Elt F) ((row1 sP).view.loc (thr d L)))
    (b0 : Buf (Elt F) ((row0 sG).view.loc (thr d L))) (b1 : Buf (Elt F) ((row1 sG).view.loc (thr d L)))
    (c0 : Buf (Elt F) ((row0 sM).view.loc (thr d L))) (c1 : Buf (Elt F) ((row1 sM).view.loc (thr d L)))
    (fs : Buf (Elt F) (sO.view.loc (thr d L))) :
    corePre d L q q' O W fp fg fm fo a0 a1 b0 b1 c0 c1 fs
      ⊢ wp frame (wpE (defs₀ (F := F)) 𝒱₀ (thr d L) none) Set.univ
          (cc0_k L pV (Memref.isWhole_whole _) gV (Memref.isWhole_whole _) mV (Memref.isWhole_whole _) oV (Memref.isWhole_whole _)
            sP (Memref.isWhole_whole _) sG (Memref.isWhole_whole _) sM (Memref.isWhole_whole _) sO (Memref.isWhole_whole _)
            cc0_scratch4 cc0_scratch5 cc0_scoped0)
          fun _ => iprop((pV.view.loc (thr d L) ↦{q} fp) ∗ (gV.view.loc (thr d L) ↦{q} fg) ∗ (mV.view.loc (thr d L) ↦{q} fm)
            ∗ (pV.view.loc (thr d L) ↦{q'} fp) ∗ (gV.view.loc (thr d L) ↦{q'} fg) ∗ (mV.view.loc (thr d L) ↦{q'} fm)
            ∗ (∃ fo', ((oRowK L).view.loc (thr d L) ↦[(oRowK L).view.set]{fullShare} fo')
                ∗ ⌜∀ i ∈ oRowIdx L, asOut d L fo' i = Spec.partials (asP d L fp) (asG d L fg) (asM d L fm) i⌝)
            ∗ (∃ f, own d L (row0 sP) f) ∗ (∃ f, own d L (row1 sP) f) ∗ (∃ f, own d L (row0 sG) f) ∗ (∃ f, own d L (row1 sG) f)
            ∗ (∃ f, own d L (row0 sM) f) ∗ (∃ f, own d L (row1 sM) f) ∗ (∃ f, sO.view.loc (thr d L) ↦{fullShare} f)
            ∗ semVal (sem0 d L) 0 ∗ semVal (sem1 d L) 0 ∗ semVal (sem2 d L) 0
            ∗ ∃ W', ⌜∀ p ∈ W', p ∈ W ∨ p.2 = none⌝ ∗ owes (thr d L) O W') := by
  simp only [cc0_k_eq_skeleton]; unfold cc0_k_skel
  simp only [k0_part4_eq_skeleton]; unfold k0_part4_skel
  simp only [k0_part1_eq_skeleton, k0_part2_eq_skeleton, k0_part3_eq_skeleton]; unfold k0_part1_skel k0_part2_skel k0_part3_skel
  unfold corePre
  iintro ⟨#Hlv, Hp, Hg, Hm, Hp', Hg', Hm', Ho, HP0, HP1, HG0, HG1, HM0, HM1, HsO, Hs0, Hs1, Hs2, HO⟩
  ihave Hmw := ((K (F := F)).mayWaits_none (thr := thr d L) hO) $$ Hlv
  have hB0 : Transfers.BatchOf (thr d L) (SemLoc.dma cc0_scratch4.sem) 3 := trivial
  have hB1 : Transfers.BatchOf (thr d L) (SemLoc.dma cc0_scratch5.sem) 3 := trivial
  sl_exec
  repeat sl_rw [bind_assoc]
  generalize hA1 : (row0 sP).view.writes (Elt F) a0 _ = A1
  generalize hB1 : (row0 sG).view.writes (Elt F) b0 _ = B1
  generalize hC1 : (row0 sM).view.writes (Elt F) c0 _ = C1
  sl_for (inv1 d L A1 B1 C1 (k0_pay1, k0_pay2)) $$ [HP0 HG0 HM0]
  case region =>
    intro k acc
    unfold inv1
    iintro ⟨HA, HB, HC, %hacc⟩
    have h1 := box_row0_t1 sP k
    have h2 := box_row0_t1 sG k
    have h3 := box_row0_t1 sM k
    sl_exec
    sl_step
    isplitl [HA]; · iexact HA
    isplitl [HB]; · iexact HB
    isplitl [HC]; · iexact HC
    ipureintro
    rw [fold1, dif_pos k.isLt, ← hacc]
    rfl
  · unfold inv1
    isplitl [HP0]; · iexact HP0
    isplitl [HG0]; · iexact HG0
    isplitl [HM0]; · iexact HM0
    ipureintro; rfl
  iintro %r1 HI
  unfold inv1
  icases HI with ⟨HP0, HG0, HM0, %hr1⟩
  sl_exec
  repeat sl_rw [bind_assoc]
  generalize hA2 : (row1 sP).view.writes (Elt F) a1 _ = A2
  generalize hB2 : (row1 sG).view.writes (Elt F) b1 _ = B2
  generalize hC2 : (row1 sM).view.writes (Elt F) c1 _ = C2
  sl_for (inv2 d L A2 B2 C2 r1) $$ [HP1 HG1 HM1]
  case region =>
    intro k acc
    unfold inv2
    iintro ⟨HA, HB, HC, %hacc⟩
    have h1 := box_row1_t2 sP k
    have h2 := box_row1_t2 sG k
    have h3 := box_row1_t2 sM k
    sl_exec
    sl_step
    isplitl [HA]; · iexact HA
    isplitl [HB]; · iexact HB
    isplitl [HC]; · iexact HC
    ipureintro
    rw [fold2, dif_pos k.isLt, ← hacc]
    rfl
  · unfold inv2
    isplitl [HP1]; · iexact HP1
    isplitl [HG1]; · iexact HG1
    isplitl [HM1]; · iexact HM1
    ipureintro; rfl
  iintro %r2 HI
  unfold inv2
  icases HI with ⟨HP1, HG1, HM1, %hr2⟩
  sl_exec
  repeat sl_rw [bind_assoc]
  generalize hA3 : (row0 sP).view.writes (Elt F) A1 _ = A3
  generalize hB3 : (row0 sG).view.writes (Elt F) B1 _ = B3
  generalize hC3 : (row0 sM).view.writes (Elt F) C1 _ = C3
  sl_for (inv3 d L A3 B3 C3 r2) $$ [HP0 HG0 HM0]
  case region =>
    intro k acc
    unfold inv3
    iintro ⟨HA, HB, HC, %hacc⟩
    have h1 := box_row0_t3 sP k
    have h2 := box_row0_t3 sG k
    have h3 := box_row0_t3 sM k
    sl_exec
    sl_step
    isplitl [HA]; · iexact HA
    isplitl [HB]; · iexact HB
    isplitl [HC]; · iexact HC
    ipureintro
    rw [fold3, dif_pos k.isLt, ← hacc]
    rfl
  · unfold inv3
    isplitl [HP0]; · iexact HP0
    isplitl [HG0]; · iexact HG0
    isplitl [HM0]; · iexact HM0
    ipureintro; rfl
  iintro %r3 HI
  unfold inv3
  icases HI with ⟨HP0, HG0, HM0, %hr3⟩
  sl_exec
  sl_step
  isplitl [Hp]; · iexact Hp
  isplitl [Hg]; · iexact Hg
  isplitl [Hm]; · iexact Hm
  isplitl [Hp']; · iexact Hp'
  isplitl [Hg']; · iexact Hg'
  isplitl [Hm']; · iexact Hm'
  isplitl [Ho]
  · iexists _; isplitl [Ho]; · iexact Ho
    ipureintro
    revert hA1 hB1 hC1 hA2 hB2 hC2 hA3 hB3 hC3
    sl_unfold_run_names
    intro hA1 hB1 hC1 hA2 hB2 hC2 hA3 hB3 hC3
    exact tile_value d L fp fg fm fo fs a0 a1 b0 b1 c0 c1 A1 B1 C1 A2 B2 C2 A3 B3 C3 r1 r2 r3 hA1 hB1 hC1 hr1 hA2 hB2 hC2 hr2 hA3 hB3 hC3 hr3
  isplitl [HP0]; · iexists _; iexact HP0
  isplitl [HP1]; · iexists _; iexact HP1
  isplitl [HG0]; · iexists _; iexact HG0
  isplitl [HG1]; · iexists _; iexact HG1
  isplitl [HM0]; · iexists _; iexact HM0
  isplitl [HM1]; · iexists _; iexact HM1
  isplitl [HsO]; · iexists _; iexact HsO
  isplitl [Hs0]; · iexact Hs0
  isplitl [Hs1]; · iexact Hs1
  isplitl [Hs2]; · iexact Hs2
  iexists _; isplitr
  pick_goal 2
  · iexact HO
  · ipureintro; intro p hp
    simp only [Finset.mem_insert] at hp
    rcases hp with rfl | rfl | rfl | rfl | rfl | rfl | rfl | rfl | rfl | rfl | hp
    all_goals first | exact .inr rfl | exact .inl hp

end Tile

end Cert.KernelIdeal.Tile

end
-- ==== Proof.KI.TileOblCore.lean ====
/-
  A subcore task against the launch theorem: from its read shares of the three flat inputs and its row of the partials
  array, together with the subcore's scoped buffers and semaphores, the task's body leaves the row at the
  specification's partials and everything else as it found it.

  The subcore's scoped storage is four scratch buffers and three DMA counters (and a rest that is not touched). Each
  two-row scratch, held whole, is its two rows held by their own elements; a read share of an input is two half shares;
  the task's row of the partials array, as the body slices it, is the row the launch handed over. With these the body's
  own theorem applies, and its conclusion folds back the same way.
-/
import proofs.«210416_g85048942395886_cont_9to1c4b_614_23_alg».proof.Proof.KI.Hand
import proofs.«210416_g85048942395886_cont_9to1c4b_614_23_alg».proof.Proof.KI.TileDefs

noncomputable section

namespace Cert.KernelIdeal.TileObl

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The task's worker number and its row of the partials array -/

/-- The worker number of the task at grid coordinates `L`: SparseCore `L 0`, subcore `L 1`. -/
def wL (L : grid0.Coords) : Fin 32 := Hand.wid ⟨(L 0).val, (L 0).isLt⟩ ⟨(L 1).val, (L 1).isLt⟩

theorem wL_val (L : grid0.Coords) : (wL L).val = 2 * (L 1).val + (L 0).val := rfl

/-- The row the body slices out of the partials array is the worker's row. -/
theorem oRow_eq (L : grid0.Coords) :
    Rect.unit (s := S32x32) (k0_off5 L) S1x32.size (k0_off5_inb L) = Hand.oRow (wL L) := by
  unfold Hand.oRow Rect.part Rect.block
  congr 1 <;> funext a
  · rw [k0_off5_eq]
    match a with
    | 0 => simp [Shape.partIx, Shape.partSize, wL_val]
    | 1 => simp [Shape.partIx, Shape.partSize]
  · match a with
    | 0 => simp [Shape.partSize]
    | 1 => simp [Shape.partSize]

theorem set_oRowK (L : grid0.Coords) : (Tile.oRowK L).view.set = Hand.oRowSet (wL L) := by
  show (((Tile.oV : Memref sig .scVector .hbm S32x32 .f32).view.slice (Rect.unit (s := S32x32) (k0_off5 L) S1x32.size (k0_off5_inb L))).reshape S32 squeezes_S1x32_S32.numel_eq).set
    = ((Tile.oV : Memref sig .scVector .hbm S32x32 .f32).view.slice (Hand.oRow (wL L))).set
  rw [View.set_reshape]
  exact oRow_eq L ▸ rfl

/-- The worker's row as the launch hands it over is the row as the body holds it. -/
theorem pts_oRowK (d : Dev nD) (L : grid0.Coords) (f : Buf (Elt F) (Hand.oLoc d)) :
    ((Tile.oRowK L).view.loc (Tile.thr d L) ↦[(Tile.oRowK L).view.set]{fullShare} f : sProp 𝕄) = Hand.oLoc d ↦[Hand.oRowSet (wL L)]{fullShare} f := by
  rw [set_oRowK]

/-! ## A two-row scratch is its two rows -/

theorem hdiv2 : 2 ∣ S2x16384.size 0 := ⟨1, rfl⟩
abbrev rowSet2 (j : Fin 2) : Finset S2x16384.Idx := (Rect.part (s := S2x16384) (a₀ := 0) hdiv2 j).set

theorem r0_eq : Rect.unit (s := S2x16384) ![0, 0] S1x16384.size inb_S2x16384_S1x16384_0_0 = Rect.part (s := S2x16384) (a₀ := 0) hdiv2 (0 : Fin 2) := by
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem r1_eq : Rect.unit (s := S2x16384) ![1, 0] S1x16384.size inb_S2x16384_S1x16384_1_0 = Rect.part (s := S2x16384) (a₀ := 0) hdiv2 (1 : Fin 2) := by
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem rows2_disjoint : ∀ i ∈ (Finset.univ : Finset (Fin 2)), ∀ j ∈ (Finset.univ : Finset (Fin 2)), i ≠ j → Disjoint (rowSet2 i) (rowSet2 j) :=
  fun _ _ _ _ h => Rect.part_disjoint hdiv2 h
theorem rows2_cover : (Finset.univ : Finset (Fin 2)).biUnion rowSet2 = Finset.univ := Rect.biUnion_part hdiv2

theorem set_row0_sP : (Tile.row0 Tile.sP).view.set = rowSet2 0 := by
  rw [Memref.set_view_squeeze]
  show ((View.whole (cc0_scratch0 : Ref sig .scVector)).slice _).set = _
  rw [View.set_slice_whole, r0_eq]
theorem set_row1_sP : (Tile.row1 Tile.sP).view.set = rowSet2 1 := by
  rw [Memref.set_view_squeeze]
  show ((View.whole (cc0_scratch0 : Ref sig .scVector)).slice _).set = _
  rw [View.set_slice_whole, r1_eq]

/-- The scratch held whole is its two rows, each held by its own elements; -/
theorem sP_rows (d : Dev nD) (L : grid0.Coords) (f : Buf (Elt F) ((Tile.thr d L).loc cc0_scratch0)) :
    ((Tile.thr d L).loc cc0_scratch0 ↦{fullShare} f : sProp 𝕄) = iprop(Tile.own d L (Tile.row0 Tile.sP) f ∗ Tile.own d L (Tile.row1 Tile.sP) f) := by
  unfold Tile.own
  rw [set_row0_sP, set_row1_sP, ← bigSep_univ_two (fun j : Fin 2 => ((Tile.thr d L).loc cc0_scratch0 ↦[rowSet2 j]{fullShare} f : sProp 𝕄)),
    ← pointsTo_biUnion Finset.univ (ℓ := (Tile.thr d L).loc cc0_scratch0) rowSet2 rows2_disjoint, rows2_cover]; try rfl

/-- and two rows at any contents are the scratch whole at some contents. -/
theorem sP_join (d : Dev nD) (L : grid0.Coords) :
    iprop((∃ f, Tile.own d L (Tile.row0 Tile.sP) f) ∗ (∃ f, Tile.own d L (Tile.row1 Tile.sP) f))
      ⊢ (iprop(∃ f, (Tile.thr d L).loc cc0_scratch0 ↦{fullShare} f) : sProp 𝕄) := by
  unfold Tile.own
  rw [set_row0_sP, set_row1_sP]
  iintro ⟨⟨%f0, H0⟩, ⟨%f1, H1⟩⟩
  ihave H := (pointsTo_biUnion_join (Finset.univ : Finset (Fin 2)) (ℓ := (Tile.thr d L).loc cc0_scratch0) rowSet2 (fun j => if j = 0 then f0 else f1) f0 rows2_disjoint) $$ [H0 H1]
  · rw [bigSep_univ_two]
    isplitl [H0]; · iexact H0
    iexact H1
  icases H with ⟨%g, -, Hg⟩
  rw [rows2_cover]
  iexists g; iexact Hg

theorem set_row0_sG : (Tile.row0 Tile.sG).view.set = rowSet2 0 := by
  rw [Memref.set_view_squeeze]
  show ((View.whole (cc0_scratch1 : Ref sig .scVector)).slice _).set = _
  rw [View.set_slice_whole, r0_eq]
theorem set_row1_sG : (Tile.row1 Tile.sG).view.set = rowSet2 1 := by
  rw [Memref.set_view_squeeze]
  show ((View.whole (cc0_scratch1 : Ref sig .scVector)).slice _).set = _
  rw [View.set_slice_whole, r1_eq]

/-- The scratch held whole is its two rows, each held by its own elements; -/
theorem sG_rows (d : Dev nD) (L : grid0.Coords) (f : Buf (Elt F) ((Tile.thr d L).loc cc0_scratch1)) :
    ((Tile.thr d L).loc cc0_scratch1 ↦{fullShare} f : sProp 𝕄) = iprop(Tile.own d L (Tile.row0 Tile.sG) f ∗ Tile.own d L (Tile.row1 Tile.sG) f) := by
  unfold Tile.own
  rw [set_row0_sG, set_row1_sG, ← bigSep_univ_two (fun j : Fin 2 => ((Tile.thr d L).loc cc0_scratch1 ↦[rowSet2 j]{fullShare} f : sProp 𝕄)),
    ← pointsTo_biUnion Finset.univ (ℓ := (Tile.thr d L).loc cc0_scratch1) rowSet2 rows2_disjoint, rows2_cover]; try rfl

/-- and two rows at any contents are the scratch whole at some contents. -/
theorem sG_join (d : Dev nD) (L : grid0.Coords) :
    iprop((∃ f, Tile.own d L (Tile.row0 Tile.sG) f) ∗ (∃ f, Tile.own d L (Tile.row1 Tile.sG) f))
      ⊢ (iprop(∃ f, (Tile.thr d L).loc cc0_scratch1 ↦{fullShare} f) : sProp 𝕄) := by
  unfold Tile.own
  rw [set_row0_sG, set_row1_sG]
  iintro ⟨⟨%f0, H0⟩, ⟨%f1, H1⟩⟩
  ihave H := (pointsTo_biUnion_join (Finset.univ : Finset (Fin 2)) (ℓ := (Tile.thr d L).loc cc0_scratch1) rowSet2 (fun j => if j = 0 then f0 else f1) f0 rows2_disjoint) $$ [H0 H1]
  · rw [bigSep_univ_two]
    isplitl [H0]; · iexact H0
    iexact H1
  icases H with ⟨%g, -, Hg⟩
  rw [rows2_cover]
  iexists g; iexact Hg

theorem set_row0_sM : (Tile.row0 Tile.sM).view.set = rowSet2 0 := by
  rw [Memref.set_view_squeeze]
  show ((View.whole (cc0_scratch2 : Ref sig .scVector)).slice _).set = _
  rw [View.set_slice_whole, r0_eq]
theorem set_row1_sM : (Tile.row1 Tile.sM).view.set = rowSet2 1 := by
  rw [Memref.set_view_squeeze]
  show ((View.whole (cc0_scratch2 : Ref sig .scVector)).slice _).set = _
  rw [View.set_slice_whole, r1_eq]

/-- The scratch held whole is its two rows, each held by its own elements; -/
theorem sM_rows (d : Dev nD) (L : grid0.Coords) (f : Buf (Elt F) ((Tile.thr d L).loc cc0_scratch2)) :
    ((Tile.thr d L).loc cc0_scratch2 ↦{fullShare} f : sProp 𝕄) = iprop(Tile.own d L (Tile.row0 Tile.sM) f ∗ Tile.own d L (Tile.row1 Tile.sM) f) := by
  unfold Tile.own
  rw [set_row0_sM, set_row1_sM, ← bigSep_univ_two (fun j : Fin 2 => ((Tile.thr d L).loc cc0_scratch2 ↦[rowSet2 j]{fullShare} f : sProp 𝕄)),
    ← pointsTo_biUnion Finset.univ (ℓ := (Tile.thr d L).loc cc0_scratch2) rowSet2 rows2_disjoint, rows2_cover]; try rfl

/-- and two rows at any contents are the scratch whole at some contents. -/
theorem sM_join (d : Dev nD) (L : grid0.Coords) :
    iprop((∃ f, Tile.own d L (Tile.row0 Tile.sM) f) ∗ (∃ f, Tile.own d L (Tile.row1 Tile.sM) f))
      ⊢ (iprop(∃ f, (Tile.thr d L).loc cc0_scratch2 ↦{fullShare} f) : sProp 𝕄) := by
  unfold Tile.own
  rw [set_row0_sM, set_row1_sM]
  iintro ⟨⟨%f0, H0⟩, ⟨%f1, H1⟩⟩
  ihave H := (pointsTo_biUnion_join (Finset.univ : Finset (Fin 2)) (ℓ := (Tile.thr d L).loc cc0_scratch2) rowSet2 (fun j => if j = 0 then f0 else f1) f0 rows2_disjoint) $$ [H0 H1]
  · rw [bigSep_univ_two]
    isplitl [H0]; · iexact H0
    iexact H1
  icases H with ⟨%g, -, Hg⟩
  rw [rows2_cover]
  iexists g; iexact Hg

/-! ## A read share is two half shares -/

theorem half_split {ℓ : Loc nD τ sig} (q : PosShare TreeShare) (f : Buf (Elt F) ℓ) :
    (ℓ ↦{q} f : sProp 𝕄) ⊢ iprop((ℓ ↦{q.left} f) ∗ ℓ ↦{q.right} f) := (pointsTo_share (PosShare.mem_left_op_right q)).1
theorem half_join {ℓ : Loc nD τ sig} (q : PosShare TreeShare) (f : Buf (Elt F) ℓ) :
    iprop((ℓ ↦{q.left} f) ∗ ℓ ↦{q.right} f) ⊢ (ℓ ↦{q} f : sProp 𝕄) := (pointsTo_share (PosShare.mem_left_op_right q)).2

/-! ## The subcore's scoped storage: three DMA counters and four scratch buffers, and a rest -/

theorem ownSems0_V (d : Dev nD) (L : grid0.Coords) :
    (ownSems0 (Tile.thr d L) : sProp 𝕄)
      = iprop(semVal (Tile.sem0 d L) 0 ∗ semVal (Tile.sem1 d L) 0 ∗ semVal (Tile.sem2 d L) 0
          ∗ bigSep ((((ownCells (Tile.thr d L)).erase (Tile.sem0 d L)).erase (Tile.sem1 d L)).erase (Tile.sem2 d L)) fun g => semVal g 0) := by
  unfold SparseCore.Cfg.ownSems0
  rw [SparseCore.bigSep_erase' ((mem_ownCells (g := Tile.sem0 d L)).mpr ⟨rfl, by
      show (SemLoc.dma cc0_scratch4.sem : SemLoc sig).isScoped .scVector = true; decide⟩),
    SparseCore.bigSep_erase' (Finset.mem_erase.mpr ⟨fun e => absurd (congrArg Prod.snd e) (show (SemLoc.dma cc0_scratch5.sem : SemLoc sig) ≠ .dma cc0_scratch4.sem by decide),
      (mem_ownCells (g := Tile.sem1 d L)).mpr ⟨rfl, by show (SemLoc.dma cc0_scratch5.sem : SemLoc sig).isScoped .scVector = true; decide⟩⟩),
    SparseCore.bigSep_erase' (Finset.mem_erase.mpr ⟨fun e => absurd (congrArg Prod.snd e) (show (SemLoc.dma cc0_scoped0.sem : SemLoc sig) ≠ .dma cc0_scratch5.sem by decide),
      Finset.mem_erase.mpr ⟨fun e => absurd (congrArg Prod.snd e) (show (SemLoc.dma cc0_scoped0.sem : SemLoc sig) ≠ .dma cc0_scratch4.sem by decide),
      (mem_ownCells (g := Tile.sem2 d L)).mpr ⟨rfl, by show (SemLoc.dma cc0_scoped0.sem : SemLoc sig).isScoped .scVector = true; decide⟩⟩⟩)]

theorem ownBufs_V (d : Dev nD) (L : grid0.Coords) :
    (ownBufs (Tile.thr d L) : sProp 𝕄)
      = iprop((∃ f, (Tile.thr d L).loc cc0_scratch0 ↦{fullShare} f) ∗ (∃ f, (Tile.thr d L).loc cc0_scratch1 ↦{fullShare} f)
          ∗ (∃ f, (Tile.thr d L).loc cc0_scratch2 ↦{fullShare} f) ∗ (∃ f, (Tile.thr d L).loc cc0_scratch3 ↦{fullShare} f)
          ∗ bigSep (((((ownRefs (τ := τ) (.scVector (Tile.cV L) (Tile.jV L))).erase ((Proc.scVector (Tile.cV L) (Tile.jV L)).devRef cc0_scratch0)).erase
              ((Proc.scVector (Tile.cV L) (Tile.jV L)).devRef cc0_scratch1)).erase ((Proc.scVector (Tile.cV L) (Tile.jV L)).devRef cc0_scratch2)).erase ((Proc.scVector (Tile.cV L) (Tile.jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := (Proc.scVector (Tile.cV L) (Tile.jV L)))
    (b := (Proc.scVector (Tile.cV L) (Tile.jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (Proc.scVector (Tile.cV L) (Tile.jV L))) (b := (Proc.scVector (Tile.cV L) (Tile.jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := (Proc.scVector (Tile.cV L) (Tile.jV L))) (b := (Proc.scVector (Tile.cV L) (Tile.jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := (Proc.scVector (Tile.cV L) (Tile.jV L))) (b := (Proc.scVector (Tile.cV L) (Tile.jV L)).devRef cc0_scratch3) rfl⟩⟩⟩)]

variable [FloatOps F] [∀ e, Nonempty (Elt F e)]

/-- The row as the body leaves it, equal to the specification's partials on the row's indices, is the row at the
    specification's partials. -/
theorem row_out (m : (ℓ : Loc nD τ sig) → Buf (Elt F) ℓ) (d : Dev nD) (L : grid0.Coords)
    (fo' : Buf (Elt F) ((Tile.oRowK L).view.loc (Tile.thr d L)))
    (h : ∀ i ∈ Tile.oRowIdx L, Tile.asOut d L fo' i = Spec.partials (Tile.asP d L (Hand.pC m d)) (Tile.asG d L (Hand.gC m d)) (Tile.asM d L (Hand.mC m d)) i) :
    ((Tile.oRowK L).view.loc (Tile.thr d L) ↦[(Tile.oRowK L).view.set]{fullShare} fo' : sProp 𝕄)
      = Hand.oLoc d ↦[Hand.oRowSet (wL L)]{fullShare} Hand.oC m d := by
  rw [pts_oRowK]
  exact pointsTo_congr fun i hi => h i (by unfold Tile.oRowIdx; rw [set_oRowK]; exact hi)

/-- One subcore task: from the worker's operands and the subcore's scoped storage to the worker's results, the scoped
    storage as it was. -/
theorem tile_body_of
    (htc : ∀ (d : Dev nD) (L : grid0.Coords) (q q' : PosShare TreeShare) (O : CellTallies nD τ sig (HIx 1)) (W : Waits sig (HIx 1)) (hO : ∀ g, O g none = 0)
    (fp : Buf (Elt F) (Tile.pV.view.loc (Tile.thr d L))) (fg : Buf (Elt F) (Tile.gV.view.loc (Tile.thr d L))) (fm : Buf (Elt F) (Tile.mV.view.loc (Tile.thr d L)))
    (fo : Buf (Elt F) ((Tile.oRowK L).view.loc (Tile.thr d L)))
    (a0 : Buf (Elt F) ((Tile.row0 Tile.sP).view.loc (Tile.thr d L))) (a1 : Buf (Elt F) ((Tile.row1 Tile.sP).view.loc (Tile.thr d L)))
    (b0 : Buf (Elt F) ((Tile.row0 Tile.sG).view.loc (Tile.thr d L))) (b1 : Buf (Elt F) ((Tile.row1 Tile.sG).view.loc (Tile.thr d L)))
    (c0 : Buf (Elt F) ((Tile.row0 Tile.sM).view.loc (Tile.thr d L))) (c1 : Buf (Elt F) ((Tile.row1 Tile.sM).view.loc (Tile.thr d L)))
    (fs : Buf (Elt F) (Tile.sO.view.loc (Tile.thr d L))),
    Tile.corePre d L q q' O W fp fg fm fo a0 a1 b0 b1 c0 c1 fs
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop((Tile.pV.view.loc (Tile.thr d L) ↦{q} fp) ∗ (Tile.gV.view.loc (Tile.thr d L) ↦{q} fg) ∗ (Tile.mV.view.loc (Tile.thr d L) ↦{q} fm)
            ∗ (Tile.pV.view.loc (Tile.thr d L) ↦{q'} fp) ∗ (Tile.gV.view.loc (Tile.thr d L) ↦{q'} fg) ∗ (Tile.mV.view.loc (Tile.thr d L) ↦{q'} fm)
            ∗ (∃ fo', ((Tile.oRowK L).view.loc (Tile.thr d L) ↦[(Tile.oRowK L).view.set]{fullShare} fo')
                ∗ ⌜∀ i ∈ Tile.oRowIdx L, Tile.asOut d L fo' i = Spec.partials (Tile.asP d L fp) (Tile.asG d L fg) (Tile.asM d L fm) i⌝)
            ∗ (∃ f, Tile.own d L (Tile.row0 Tile.sP) f) ∗ (∃ f, Tile.own d L (Tile.row1 Tile.sP) f) ∗ (∃ f, Tile.own d L (Tile.row0 Tile.sG) f) ∗ (∃ f, Tile.own d L (Tile.row1 Tile.sG) f)
            ∗ (∃ f, Tile.own d L (Tile.row0 Tile.sM) f) ∗ (∃ f, Tile.own d L (Tile.row1 Tile.sM) f) ∗ (∃ f, Tile.sO.view.loc (Tile.thr d L) ↦{fullShare} f)
            ∗ semVal (Tile.sem0 d L) 0 ∗ semVal (Tile.sem1 d L) 0 ∗ semVal (Tile.sem2 d L) 0
            ∗ ∃ W', ⌜∀ p ∈ W', p ∈ W ∨ p.2 = none⌝ ∗ owes (Tile.thr d L) O W'))
    (m : (ℓ : Loc nD τ sig) → Buf (Elt F) ℓ) (d : Dev nD) (L : grid0.Coords) (hF : (K (F := F)).Facts)
    (O : CellTallies nD τ sig (HIx 1)) (W : Waits sig (HIx 1)) (hO : ∀ g, O g none = 0) :
    iprop(levAts (K (F := F)).L (K (F := F)).lev ∗ emp ∗ Hand.taskIn m d (wL L) ∗ scopedBufs (Tile.thr d L) ∗ scopedSems0 (Tile.thr d L) ∗ owes (Tile.thr d L) O W)
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop(Hand.taskOut m d (wL L) ∗ scopedBufs (Tile.thr d L) ∗ scopedSems0 (Tile.thr d L) ∗ ∃ W', ⌜∀ p ∈ W', p ∈ W ∨ p.2 = none⌝ ∗ owes (Tile.thr d L) O W') := by
  rw [(K (F := F)).scopedBufs_V hF d (Tile.cV L) (Tile.jV L), SparseCore.Cfg.scopedSems0_V (Val := Elt F) d (Tile.cV L) (Tile.jV L), ownSems0_V, ownBufs_V]
  unfold Hand.taskIn Hand.taskOut Hand.inputs
  iintro ⟨#Hlv, -, ⟨⟨Hp, Hg, Hm⟩, %fo, Ho⟩, ⟨⟨%f0, H0⟩, ⟨%f1, H1⟩, ⟨%f2, H2⟩, ⟨%f3, H3⟩, Hbufs⟩, ⟨Hs0, Hs1, Hs2, Hsems⟩, HO⟩
  ihave Hp' := (half_split (Hand.rdShare (wL L)) (Hand.pC m d)) $$ Hp
  ihave Hg' := (half_split (Hand.rdShare (wL L)) (Hand.gC m d)) $$ Hg
  ihave Hm' := (half_split (Hand.rdShare (wL L)) (Hand.mC m d)) $$ Hm
  icases Hp' with ⟨Hp1, Hp2⟩
  icases Hg' with ⟨Hg1, Hg2⟩
  icases Hm' with ⟨Hm1, Hm2⟩
  ihave Ho' := (Entails.of_eq (pts_oRowK d L fo).symm) $$ Ho
  ihave H0' := (Entails.of_eq (sP_rows d L f0)) $$ H0
  ihave H1' := (Entails.of_eq (sG_rows d L f1)) $$ H1
  ihave H2' := (Entails.of_eq (sM_rows d L f2)) $$ H2
  icases H0' with ⟨A0, A1⟩
  icases H1' with ⟨B0, B1⟩
  icases H2' with ⟨C0, C1⟩
  iapply (wp_wand_r frame _ _)
  isplitl [Hp1 Hp2 Hg1 Hg2 Hm1 Hm2 Ho' A0 A1 B0 B1 C0 C1 H3 Hs0 Hs1 Hs2 HO]
  · iapply (htc d L (Hand.rdShare (wL L)).left (Hand.rdShare (wL L)).right O W hO (Hand.pC m d) (Hand.gC m d) (Hand.mC m d) fo f0 f0 f1 f1 f2 f2 f3)
    unfold Tile.corePre
    isplitr; · iexact Hlv
    isplitl [Hp1]; · iexact Hp1
    isplitl [Hg1]; · iexact Hg1
    isplitl [Hm1]; · iexact Hm1
    isplitl [Hp2]; · iexact Hp2
    isplitl [Hg2]; · iexact Hg2
    isplitl [Hm2]; · iexact Hm2
    isplitl [Ho']; · iexact Ho'
    isplitl [A0]; · iexact A0
    isplitl [A1]; · iexact A1
    isplitl [B0]; · iexact B0
    isplitl [B1]; · iexact B1
    isplitl [C0]; · iexact C0
    isplitl [C1]; · iexact C1
    isplitl [H3]; · iexact H3
    isplitl [Hs0]; · iexact Hs0
    isplitl [Hs1]; · iexact Hs1
    isplitl [Hs2]; · iexact Hs2
    iexact HO
  iintro %_ ⟨Hp1, Hg1, Hm1, Hp2, Hg2, Hm2, ⟨%fo', Ho, %hfo⟩, A0, A1, B0, B1, C0, C1, H3, Hs0, Hs1, Hs2, HW⟩
  isplitl [Hp1 Hg1 Hm1 Hp2 Hg2 Hm2 Ho]
  · isplitl [Hp1 Hg1 Hm1 Hp2 Hg2 Hm2]
    · isplitl [Hp1 Hp2]
      · iapply (half_join (Hand.rdShare (wL L)) (Hand.pC m d))
        isplitl [Hp1]; · iexact Hp1
        iexact Hp2
      isplitl [Hg1 Hg2]
      · iapply (half_join (Hand.rdShare (wL L)) (Hand.gC m d))
        isplitl [Hg1]; · iexact Hg1
        iexact Hg2
      iapply (half_join (Hand.rdShare (wL L)) (Hand.mC m d))
      isplitl [Hm1]; · iexact Hm1
      iexact Hm2
    iapply (Entails.of_eq (row_out m d L fo' hfo))
    iexact Ho
  isplitl [A0 A1 B0 B1 C0 C1 H3 Hbufs]
  · isplitl [A0 A1]
    · iapply (sP_join d L)
      isplitl [A0]; · iexact A0
      iexact A1
    isplitl [B0 B1]
    · iapply (sG_join d L)
      isplitl [B0]; · iexact B0
      iexact B1
    isplitl [C0 C1]
    · iapply (sM_join d L)
      isplitl [C0]; · iexact C0
      iexact C1
    isplitl [H3]; · iexact H3
    iexact Hbufs
  isplitl [Hs0 Hs1 Hs2 Hsems]
  · isplitl [Hs0]; · iexact Hs0
    isplitl [Hs1]; · iexact Hs1
    isplitl [Hs2]; · iexact Hs2
    iexact Hsems
  iexact HW

/-! ## The launch theorem's obligations for the vector subcores -/

/-- Grid coordinates from a SparseCore and a subcore of the grid. -/
def coordsV (c : Fin (grid0.bound 0)) (s : Fin (grid0.bound 1)) : grid0.Coords :=
  fun | 0 => c | 1 => s | ⟨_ + 2, h⟩ => absurd h (Nat.not_lt.2 (Nat.le_add_left _ _))

/-- On a vector subcore of the grid the kernel's label runs the body at the subcore's coordinates. -/
theorem defs₀_vector (c : Fin τ.nSC) (s : Fin τ.nSub) :
    defs₀ (F := F) (.scVector c s) 0 ()
      = SparseCore.onTile hcore0 hsub0 (fun c s => cc0_k (coordsV c s)
          Tile.pV (Memref.isWhole_whole _) Tile.gV (Memref.isWhole_whole _) Tile.mV (Memref.isWhole_whole _) Tile.oV (Memref.isWhole_whole _)
          Tile.sP (Memref.isWhole_whole _) Tile.sG (Memref.isWhole_whole _) Tile.sM (Memref.isWhole_whole _) Tile.sO (Memref.isWhole_whole _)
          cc0_scratch4 cc0_scratch5 cc0_scoped0) ⟨⟩ c s := rfl

omit [FloatOps F] [∀ e, Nonempty (Elt F e)] in
/-- A wait recorded at no index is among those the launch theorem allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets the launch theorem's obligation. -/
theorem tileObl_of
    (htc : ∀ (d : Dev nD) (L : grid0.Coords) (q q' : PosShare TreeShare) (O : CellTallies nD τ sig (HIx 1)) (W : Waits sig (HIx 1)) (hO : ∀ g, O g none = 0)
    (fp : Buf (Elt F) (Tile.pV.view.loc (Tile.thr d L))) (fg : Buf (Elt F) (Tile.gV.view.loc (Tile.thr d L))) (fm : Buf (Elt F) (Tile.mV.view.loc (Tile.thr d L)))
    (fo : Buf (Elt F) ((Tile.oRowK L).view.loc (Tile.thr d L)))
    (a0 : Buf (Elt F) ((Tile.row0 Tile.sP).view.loc (Tile.thr d L))) (a1 : Buf (Elt F) ((Tile.row1 Tile.sP).view.loc (Tile.thr d L)))
    (b0 : Buf (Elt F) ((Tile.row0 Tile.sG).view.loc (Tile.thr d L))) (b1 : Buf (Elt F) ((Tile.row1 Tile.sG).view.loc (Tile.thr d L)))
    (c0 : Buf (Elt F) ((Tile.row0 Tile.sM).view.loc (Tile.thr d L))) (c1 : Buf (Elt F) ((Tile.row1 Tile.sM).view.loc (Tile.thr d L)))
    (fs : Buf (Elt F) (Tile.sO.view.loc (Tile.thr d L))),
    Tile.corePre d L q q' O W fp fg fm fo a0 a1 b0 b1 c0 c1 fs
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop((Tile.pV.view.loc (Tile.thr d L) ↦{q} fp) ∗ (Tile.gV.view.loc (Tile.thr d L) ↦{q} fg) ∗ (Tile.mV.view.loc (Tile.thr d L) ↦{q} fm)
            ∗ (Tile.pV.view.loc (Tile.thr d L) ↦{q'} fp) ∗ (Tile.gV.view.loc (Tile.thr d L) ↦{q'} fg) ∗ (Tile.mV.view.loc (Tile.thr d L) ↦{q'} fm)
            ∗ (∃ fo', ((Tile.oRowK L).view.loc (Tile.thr d L) ↦[(Tile.oRowK L).view.set]{fullShare} fo')
                ∗ ⌜∀ i ∈ Tile.oRowIdx L, Tile.asOut d L fo' i = Spec.partials (Tile.asP d L fp) (Tile.asG d L fg) (Tile.asM d L fm) i⌝)
            ∗ (∃ f, Tile.own d L (Tile.row0 Tile.sP) f) ∗ (∃ f, Tile.own d L (Tile.row1 Tile.sP) f) ∗ (∃ f, Tile.own d L (Tile.row0 Tile.sG) f) ∗ (∃ f, Tile.own d L (Tile.row1 Tile.sG) f)
            ∗ (∃ f, Tile.own d L (Tile.row0 Tile.sM) f) ∗ (∃ f, Tile.own d L (Tile.row1 Tile.sM) f) ∗ (∃ f, Tile.sO.view.loc (Tile.thr d L) ↦{fullShare} f)
            ∗ semVal (Tile.sem0 d L) 0 ∗ semVal (Tile.sem1 d L) 0 ∗ semVal (Tile.sem2 d L) 0
            ∗ ∃ W', ⌜∀ p ∈ W', p ∈ W ∨ p.2 = none⌝ ∗ owes (Tile.thr d L) O W'))
    (m : (ℓ : Loc nD τ sig) → Buf (Elt F) ℓ) (hF : (K (F := F)).Facts) : (K (F := F)).TileObl (D (F := F)) 𝒱 (Hand.P m) v₀ 0 := by
  intro d c i O W hO _ _
  -- the kernel owes nothing for a protocol of its own
  simp only [show (Hand.P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body_of htc m d (coordsV ⟨_, hc.1⟩ ⟨_, hc.2⟩) hF O W hO).trans (wp_mono frame _ _ fun _ => obl_post)

omit [FloatOps F] [∀ e, Nonempty (Elt F e)] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [∀ e, Nonempty (Elt F e)] in
/-- A SparseCore's operands are its sixteen tasks' operands, and its results theirs. -/
theorem vecSplit (m : (ℓ : Loc nD τ sig) → Buf (Elt F) ℓ) : (K (F := F)).VecSplit' (Hand.P m) 0 := by
  intro d c
  show (bigSep Finset.univ fun s : Fin 16 => Hand.taskIn m d (Hand.wid (Fin.cast nCore_zero c) s)) ⊢ |={Set.univ}=> iprop(
      (bigSep Finset.univ fun i : Fin ((K (F := F)).nSub 0) => Hand.taskIn m d (Hand.wid (Fin.cast nCore_zero c) (Fin.cast nSub_zero i)))
      ∗ ((bigSep Finset.univ fun i : Fin ((K (F := F)).nSub 0) => Hand.taskOut m d (Hand.wid (Fin.cast nCore_zero c) (Fin.cast nSub_zero i)))
          -∗ (bigSep Finset.univ fun s : Fin 16 => Hand.taskOut m d (Hand.wid (Fin.cast nCore_zero c) s))))
  rw [bigSep_tasks (F := F) (fun s => Hand.taskIn m d (Hand.wid (Fin.cast nCore_zero c) s)),
    bigSep_tasks (F := F) (fun s => Hand.taskOut m d (Hand.wid (Fin.cast nCore_zero c) s))]
  iintro H; imodintro
  isplitl [H]; · iexact H
  iintro H; iexact H

end Cert.KernelIdeal.TileObl

end
-- ==== Proof.KI.TileObl.lean ====
/-
  The vector subcores' obligations of the launch theorem, from the task body's own theorem: one task from its operands
  to its results, every task of the call, and a SparseCore's operands as its tasks'.
-/
import proofs.«210416_g85048942395886_cont_9to1c4b_614_23_alg».proof.Proof.KI.Hand
import proofs.«210416_g85048942395886_cont_9to1c4b_614_23_alg».proof.Proof.KI.TileDefs
import proofs.«210416_g85048942395886_cont_9to1c4b_614_23_alg».proof.Proof.KI.TileRun
import proofs.«210416_g85048942395886_cont_9to1c4b_614_23_alg».proof.Proof.KI.TileOblCore

noncomputable section

namespace Cert.KernelIdeal.TileObl

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] [∀ e, Nonempty (Elt F e)]

/-- One subcore task: from the worker's operands and the subcore's scoped storage to the worker's results, the scoped
    storage as it was. -/
theorem tile_body (m : (ℓ : Loc nD τ sig) → Buf (Elt F) ℓ) (d : Dev nD) (L : grid0.Coords) (hF : (K (F := F)).Facts)
    (O : CellTallies nD τ sig (HIx 1)) (W : Waits sig (HIx 1)) (hO : ∀ g, O g none = 0) :
    iprop(levAts (K (F := F)).L (K (F := F)).lev ∗ emp ∗ Hand.taskIn m d (wL L) ∗ scopedBufs (Tile.thr d L) ∗ scopedSems0 (Tile.thr d L) ∗ owes (Tile.thr d L) O W)
      ⊢ wp frame (wpE (defs₀ (F := F)) 𝒱₀ (Tile.thr d L) none) Set.univ
          (cc0_k L Tile.pV (Memref.isWhole_whole _) Tile.gV (Memref.isWhole_whole _) Tile.mV (Memref.isWhole_whole _) Tile.oV (Memref.isWhole_whole _)
            Tile.sP (Memref.isWhole_whole _) Tile.sG (Memref.isWhole_whole _) Tile.sM (Memref.isWhole_whole _) Tile.sO (Memref.isWhole_whole _)
            cc0_scratch4 cc0_scratch5 cc0_scoped0)
          fun _ => iprop(Hand.taskOut m d (wL L) ∗ scopedBufs (Tile.thr d L) ∗ scopedSems0 (Tile.thr d L) ∗ ∃ W', ⌜∀ p ∈ W', p ∈ W ∨ p.2 = none⌝ ∗ owes (Tile.thr d L) O W') :=
  tile_body_of (fun d L q q' O W hO fp fg fm fo a0 a1 b0 b1 c0 c1 fs => Tile.tile_core d L q q' O W hO fp fg fm fo a0 a1 b0 b1 c0 c1 fs) m d L hF O W hO

/-- Every task of the call meets the launch theorem's obligation. -/
theorem tileObl (m : (ℓ : Loc nD τ sig) → Buf (Elt F) ℓ) (hF : (K (F := F)).Facts) : (K (F := F)).TileObl (D (F := F)) 𝒱 (Hand.P m) v₀ 0 :=
  tileObl_of (fun d L q q' O W hO fp fg fm fo a0 a1 b0 b1 c0 c1 fs => Tile.tile_core d L q q' O W hO fp fg fm fo a0 a1 b0 b1 c0 c1 fs) m hF

end Cert.KernelIdeal.TileObl

end
-- ==== Proof.KI.TcData.lean ====
/-
  The proof data of the TensorCore region: what every buffer the region touches holds between grid points.

  The region walks 26 blocks of 2048 rows. The three operand windows are only read: after the body at point `t` each
  staging buffer still holds block `t` of its array. The two accumulator rows live in a scratch buffer carried from point
  to point: after `t` points it holds the specification's running rows. The two one-word results are written at the
  last point only, with the sums of the rows over the columns; before that point their staging words are left as found.
  The TensorCore owes nothing during the region, and every wait it has recorded sits at a level not above 8.
-/
import proofs.«210416_g85048942395886_cont_9to1c4b_614_23_alg».proof.Proof.KI.TcGhost
import proofs.«210416_g85048942395886_cont_9to1c4b_614_23_alg».proof.Proof.KI.Spec
import Idealize.ShloMosaic.Lib.Pipeline.FrameBody
import Idealize.ShloMosaic.Lib.Pipeline.Frame
import Idealize.ShloMosaic.Lib.Pipeline.Value

noncomputable section

namespace Cert.KernelIdeal.TcData

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)
open Cert.KernelIdeal.TcGhost
open Idealize.ShloMosaic.ValueIdx

/-! ## Where a block's element sits in its array -/

/-- Element `y` of the block at point `t` of an operand window is the array's element at row `2048 (t + 6) + y₀`,
    column `y₁`: the specification's block. The three operand windows have the same index map. -/
theorem blk_eq0 {α : Type} (a : S65536x128.Idx → α) (t : Fin cfg1.N) (y : S2048x128.Idx) :
    a (((cfg1.win 0).blk t).view.emb y) = Spec.blk a t.val y := by
  unfold Spec.blk
  refine congrArg a ?_
  funext ax
  have hN : t.val < 26 := lt_of_lt_of_eq t.isLt (show cfg1.N = 26 from N_1)
  have hemb : ((cfg1.win 0).blk t).view.emb y = ((cfg1.win 0).rect t).emb y := rfl
  have hidx : ∀ t : Fin cfg1.N, (cfg1.win 0).index t = ![t.val + 6, 0] :=
    (by decide +kernel : ∀ t : Fin grid1.N, win1_0.index t = ![t.val + 6, 0])
  rw [hemb]
  apply Fin.ext
  rw [(cfg1.win 0).rect_emb_val t y ax, hidx t]
  have hy0 : (y 0).val < 2048 := (y 0).isLt
  match ax with
  | ⟨0, _⟩ =>
    show (t.val + 6) * 2048 + (y 0).val = (2048 * (t.val + 6) + (y 0).val) % 65536
    omega
  | ⟨1, _⟩ =>
    show 0 * 128 + (y 1).val = (y 1).val
    omega

theorem blk_eq1 {α : Type} (a : S65536x128.Idx → α) (t : Fin cfg1.N) (y : S2048x128.Idx) :
    a (((cfg1.win 1).blk t).view.emb y) = Spec.blk a t.val y := by
  unfold Spec.blk
  refine congrArg a ?_
  funext ax
  have hN : t.val < 26 := lt_of_lt_of_eq t.isLt (show cfg1.N = 26 from N_1)
  have hemb : ((cfg1.win 1).blk t).view.emb y = ((cfg1.win 1).rect t).emb y := rfl
  have hidx : ∀ t : Fin cfg1.N, (cfg1.win 1).index t = ![t.val + 6, 0] :=
    (by decide +kernel : ∀ t : Fin grid1.N, win1_1.index t = ![t.val + 6, 0])
  rw [hemb]
  apply Fin.ext
  rw [(cfg1.win 1).rect_emb_val t y ax, hidx t]
  have hy0 : (y 0).val < 2048 := (y 0).isLt
  match ax with
  | ⟨0, _⟩ =>
    show (t.val + 6) * 2048 + (y 0).val = (2048 * (t.val + 6) + (y 0).val) % 65536
    omega
  | ⟨1, _⟩ =>
    show 0 * 128 + (y 1).val = (y 1).val
    omega

theorem blk_eq2 {α : Type} (a : S65536x128.Idx → α) (t : Fin cfg1.N) (y : S2048x128.Idx) :
    a (((cfg1.win 2).blk t).view.emb y) = Spec.blk a t.val y := by
  unfold Spec.blk
  refine congrArg a ?_
  funext ax
  have hN : t.val < 26 := lt_of_lt_of_eq t.isLt (show cfg1.N = 26 from N_1)
  have hemb : ((cfg1.win 2).blk t).view.emb y = ((cfg1.win 2).rect t).emb y := rfl
  have hidx : ∀ t : Fin cfg1.N, (cfg1.win 2).index t = ![t.val + 6, 0] :=
    (by decide +kernel : ∀ t : Fin grid1.N, win1_2.index t = ![t.val + 6, 0])
  rw [hemb]
  apply Fin.ext
  rw [(cfg1.win 2).rect_emb_val t y ax, hidx t]
  have hy0 : (y 0).val < 2048 := (y 0).isLt
  match ax with
  | ⟨0, _⟩ =>
    show (t.val + 6) * 2048 + (y 0).val = (2048 * (t.val + 6) + (y 0).val) % 65536
    omega
  | ⟨1, _⟩ =>
    show 0 * 128 + (y 1).val = (y 1).val
    omega

/-! ## The accumulator -/

/-- The two running rows laid out as the 2 × 128 scratch buffer: row 0 the sums, row 1 the counts. -/
def acc (r : FVec F S1x128 .f32 × FVec F S1x128 .f32) : FVec F S2x128 .f32 :=
  fun y => if (y 0).val = 0 then r.1 (ix2 (0 : Fin 1) (y 1)) else r.2 (ix2 (0 : Fin 1) (y 1))

variable (p4 g4 : FVec F S65536x128 .f32) (m4 : IVec S65536x128 32) (f3 f4 : FVec F S1 .f32)

/-- The region's proof data on device `d`. -/
def dat (d : Dev nD) : Dat τ (Elt F) (HIx 1) ℕ UU ℕ cfg1 d where
  A w := match w with
    | ⟨0, _⟩ => p4
    | ⟨1, _⟩ => g4
    | ⟨2, _⟩ => m4
    | ⟨3, _⟩ => f3
    | ⟨4, _⟩ => f4
    | ⟨_ + 5, h⟩ => absurd h (Nat.not_lt.2 (Nat.le_add_left _ _))
  after w t := match w with
    | ⟨0, _⟩ => Spec.blk p4 t.val
    | ⟨1, _⟩ => Spec.blk g4 t.val
    | ⟨2, _⟩ => Spec.blk m4 t.val
    | ⟨3, _⟩ => Spec.tcSum p4 g4 m4
    | ⟨4, _⟩ => Spec.tcCnt p4 g4 m4
    | ⟨_ + 5, h⟩ => absurd h (Nat.not_lt.2 (Nat.le_add_left _ _))
  Φ t := iprop(∃ f : FVec F S2x128 .f32, ⌜t.val ≠ 0 → f = acc (Spec.tcRows p4 g4 m4 t.val)⌝
    ∗ (((d.tc : Thread nD τ).loc cc1_scratch0) ↦{fullShare} f))
  q _ := fullShare
  owed _ := 0
  recorded _ := {p | (K (F := F)).lev ((d.tc : Thread nD τ), p.1) p.2 ≤ 8}

/-- The proof data as the region theorem indexes it: by pipeline (there is one) and device. -/
def pdats : (p : Fin 1) → (d : Dev nD) → Dat τ (Elt F) (HIx 1) ℕ UU ℕ (Pipeline.pin (pcfgs (F := F)) adm p) d :=
  fun _ d => dat p4 g4 m4 f3 f4 d

/-! ## The operand windows hold their blocks at every point -/

theorem N26 (t : Fin cfg1.N) : t.val < 26 := lt_of_lt_of_eq t.isLt (show cfg1.N = 26 from N_1)

theorem read_blk0 (t : Fin cfg1.N) : ((cfg1.win 0).blk t).view.read (Elt F) p4 = Spec.blk p4 t.val :=
  funext fun y => blk_eq0 p4 t y
theorem read_blk1 (t : Fin cfg1.N) : ((cfg1.win 1).blk t).view.read (Elt F) g4 = Spec.blk g4 t.val :=
  funext fun y => blk_eq1 g4 t y
theorem read_blk2 (t : Fin cfg1.N) : ((cfg1.win 2).blk t).view.read (Elt F) m4 = Spec.blk m4 t.val :=
  funext fun y => blk_eq2 m4 t y

/-- An operand's current staging buffer holds its block at every point, fetched there or not: unfetched, the block
    index has not moved and the body left the block in place. -/
theorem before0 (d : Dev nD) (t : Fin cfg1.N) (x) : (dat p4 g4 m4 f3 f4 d).before 0 t x = Spec.blk p4 t.val :=
  ((dat p4 g4 m4 f3 f4 d).before_in_eq_fetched 0 rfl (fun _ => rfl) (fun _ _ _ => rfl)
    (fun t => (read_blk0 p4 t).symm) t x).trans (read_blk0 p4 t)
theorem before1 (d : Dev nD) (t : Fin cfg1.N) (x) : (dat p4 g4 m4 f3 f4 d).before 1 t x = Spec.blk g4 t.val :=
  ((dat p4 g4 m4 f3 f4 d).before_in_eq_fetched 1 rfl (fun _ => rfl) (fun _ _ _ => rfl)
    (fun t => (read_blk1 g4 t).symm) t x).trans (read_blk1 g4 t)
theorem before2 (d : Dev nD) (t : Fin cfg1.N) (x) : (dat p4 g4 m4 f3 f4 d).before 2 t x = Spec.blk m4 t.val :=
  ((dat p4 g4 m4 f3 f4 d).before_in_eq_fetched 2 rfl (fun _ => rfl) (fun _ _ _ => rfl)
    (fun t => (read_blk2 (F := F) m4 t).symm) t x).trans (read_blk2 (F := F) m4 t)

end Cert.KernelIdeal.TcData

end
-- ==== Proof.KI.TcBody.lean ====
/-
  The TensorCore region's body, point by point.

  At every grid point the body adds to two running rows of 128 lanes, kept in a scratch buffer: row 0 the per-column sums of
  `|p − g|` over the block's positions whose mask word is positive, row 1 the per-column counts of those positions. At
  the first point it zeroes the buffer first; at the last it also sums each row over its columns into the two one-word
  results. The proof runs the body once for each of the three cases, on any whole buffers, and then reads what the
  scratch buffer and the result words hold as the specification's functions of the three blocks.
-/
import proofs.«210416_g85048942395886_cont_9to1c4b_614_23_alg».proof.Proof.KI.TcData
import proofs.«210416_g85048942395886_cont_9to1c4b_614_23_alg».proof.Proof.Gen.KernelIdeal.Skeleton
import proofs.«210416_g85048942395886_cont_9to1c4b_614_23_alg».proof.Proof.Gen.KernelIdeal.Points
import Idealize.ShloMosaic.Lib.Tactic
import Idealize.ShloMosaic.Lib.WholeRead
import Idealize.ShloMosaic.Lib.Ring

set_option maxRecDepth 16384

noncomputable section

namespace Cert.KernelIdeal.TcBody

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)
open Idealize.ShloMosaic.TcCoe Idealize.ShloMosaic.Tactic
open Cert.KernelIdeal.TcGhost Cert.KernelIdeal.TcData
open Idealize.ShloMosaic.ValueIdx

/-! ## The body's two branch conditions, in closed form over the grid -/

/-- The first `scf.if`'s condition as the kernel computes it from the grid coordinate: "this is point 0". -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)
/-- The second holds at the last point only. -/
theorem hcond2 : ∀ t : Fin cfg1.N, k1_cond2 (grid1.coords t) = 1#1 ↔ t.val = 25 :=
  (by decide +kernel : ∀ t : Fin grid1.N, k1_cond2 (grid1.coords t) = 1#1 ↔ t.val = 25)

/-! ## Reading rows of the accumulator -/

abbrev r0 : Rect S2x128 := Rect.unit (s := S2x128) ![0, 0] S1x128.size inb_S2x128_S1x128_0_0
abbrev r1 : Rect S2x128 := Rect.unit (s := S2x128) ![1, 0] S1x128.size inb_S2x128_S1x128_1_0

omit [FloatOps F] in
theorem emb_r0 (x : S1x128.Idx) : r0.emb x = ix2 (0 : Fin 2) (x 1) := by
  funext a
  apply Fin.ext
  rw [Rect.emb_apply]
  match a with
  | ⟨0, _⟩ => have : (x 0).val < 1 := (x 0).isLt; show 0 + 1 * (x 0).val = 0; omega
  | ⟨1, _⟩ => show 0 + 1 * (x 1).val = (x 1).val; omega

omit [FloatOps F] in
theorem emb_r1 (x : S1x128.Idx) : r1.emb x = ix2 (1 : Fin 2) (x 1) := by
  funext a
  apply Fin.ext
  rw [Rect.emb_apply]
  match a with
  | ⟨0, _⟩ => have : (x 0).val < 1 := (x 0).isLt; show 1 + 1 * (x 0).val = 1; omega
  | ⟨1, _⟩ => show 0 + 1 * (x 1).val = (x 1).val; omega

omit [FloatOps F] in
theorem ix2_self (x : S1x128.Idx) : ix2 (0 : Fin 1) (x 1) = x := by
  funext a
  match a with
  | ⟨0, _⟩ => exact Fin.ext (by have : (x 0).val < 1 := (x 0).isLt; show 0 = (x 0).val; omega)
  | ⟨1, _⟩ => rfl

theorem acc_row0 (r : FVec F S1x128 .f32 × FVec F S1x128 .f32) (x : S1x128.Idx) : acc r (r0.emb x) = r.1 x := by
  rw [emb_r0]
  show (if (0 : ℕ) = 0 then r.1 (ix2 (0 : Fin 1) (x 1)) else r.2 (ix2 (0 : Fin 1) (x 1))) = r.1 x
  rw [if_pos rfl]; exact congrArg r.1 (ix2_self x)
theorem acc_row1 (r : FVec F S1x128 .f32 × FVec F S1x128 .f32) (x : S1x128.Idx) : acc r (r1.emb x) = r.2 x := by
  rw [emb_r1]
  show (if (1 : ℕ) = 0 then r.1 (ix2 (0 : Fin 1) (x 1)) else r.2 (ix2 (0 : Fin 1) (x 1))) = r.2 x
  rw [if_neg (by decide)]; exact congrArg r.2 (ix2_self x)

/-! ## What loads through whole memrefs read -/

theorem readAt_whole_f (m : Memref sig .tc .vmem S2048x128 .f32) (h : m.IsWhole) (X : Vec F S2048x128 .f32) :
    View.readAt (Elt F) m.view (Rect.unit (s := S2048x128) ![0, 0] S2048x128.size inb_S2048x128_S2048x128_0_0).toLoadRect (h.unread X) = X :=
  funext fun x => (Memref.IsWhole.readAt_unread h X _ x).trans (congrFun (View.ld_unit_zero (by funext a; fin_cases a <;> rfl) inb_S2048x128_S2048x128_0_0 X) x)

theorem readAt_whole_i (m : Memref sig .tc .vmem S2048x128 .i32) (h : m.IsWhole) (X : Vec F S2048x128 .i32) :
    View.readAt (Elt F) m.view (Rect.unit (s := S2048x128) ![0, 0] S2048x128.size inb_S2048x128_S2048x128_0_0).toLoadRect (h.unread X) = X :=
  funext fun x => (Memref.IsWhole.readAt_unread h X _ x).trans (congrFun (View.ld_unit_zero (by funext a; fin_cases a <;> rfl) inb_S2048x128_S2048x128_0_0 X) x)

theorem readAt_row0 (m : Memref sig .tc .vmem S2x128 .f32) (h : m.IsWhole) (r : FVec F S1x128 .f32 × FVec F S1x128 .f32) :
    View.readAt (Elt F) m.view r0.toLoadRect (h.unread (acc r)) = r.1 :=
  funext fun x => (Memref.IsWhole.readAt_unread (Val := Elt F) (e := .f32) h (acc r) r0.toLoadRect x).trans (acc_row0 r x)
theorem readAt_row1 (m : Memref sig .tc .vmem S2x128 .f32) (h : m.IsWhole) (r : FVec F S1x128 .f32 × FVec F S1x128 .f32) :
    View.readAt (Elt F) m.view r1.toLoadRect (h.unread (acc r)) = r.2 :=
  funext fun x => (Memref.IsWhole.readAt_unread (Val := Elt F) (e := .f32) h (acc r) r1.toLoadRect x).trans (acc_row1 r x)

/-! ## The body, case by case -/

/-- One accumulation step on the rows `a`, from the three blocks. -/
abbrev stepRows (x1 x2 : Vec F S2048x128 .f32) (x3 : Vec F S2048x128 .i32) (a : FVec F S1x128 .f32 × FVec F S1x128 .f32) :
    FVec F S1x128 .f32 × FVec F S1x128 .f32 := (k1_pay5 x3 x1 x2 a.1, k1_pay6 x3 a.2)

/-- Two row stores whose payloads are the rows of `G` leave `G`. -/
theorem read_rows (v : View sig .tc .vmem S2x128 .f32) (f : v.ty.Contents (Elt F)) (n : FVec F S1x128 .f32 × FVec F S1x128 .f32) :
    v.read (Elt F) (v.writes (Elt F) f [⟨r1, n.2⟩, ⟨r0, n.1⟩]) = acc n := by
  funext y
  refine View.read_writes_apply_of_pieces v f (acc n) _ (fun p hp x => ?_) y
    (View.cover_of_tiledL [(⟨r1, n.2⟩ : View.Piece (Elt F) S2x128 .f32), ⟨r0, n.1⟩] S1x128.size (by sl_kernel_rfl) y)
  rcases List.mem_cons.mp hp with rfl | hp
  · exact (acc_row1 n x).symm
  rcases List.mem_cons.mp hp with rfl | hp
  · exact (acc_row0 n x).symm
  · exact absurd hp List.not_mem_nil

set_option maxHeartbeats 1000000 in
/-- A middle point: neither branch taken. The rows advance one step; the result words are not touched. -/
theorem run_mid (c : Dev nD) (i : grid1.Coords) (hc1 : ¬cond1 i) (hc2 : ¬k1_cond2 i = 1#1)
    (arg1 : Memref sig .tc .vmem S2048x128 .f32) (harg1 : arg1.IsWhole) (arg2 : Memref sig .tc .vmem S2048x128 .f32) (harg2 : arg2.IsWhole)
    (arg3 : Memref sig .tc .vmem S2048x128 .i32) (harg3 : arg3.IsWhole) (arg4 : Memref sig .tc .smem S1 .f32) (harg4 : arg4.IsWhole)
    (arg5 : Memref sig .tc .smem S1 .f32) (harg5 : arg5.IsWhole) (arg6 : Memref sig .tc .vmem S2x128 .f32) (harg6 : arg6.IsWhole)
    (x1 x2 : Vec F S2048x128 .f32) (x3 : Vec F S2048x128 .i32) (a : FVec F S1x128 .f32 × FVec F S1x128 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg6 fullShare (acc a)
        ∗ (iprop(owns (c : Thread nD τ) arg1 fullShare x1 ∗ owns (c : Thread nD τ) arg2 fullShare x2 ∗ owns (c : Thread nD τ) arg3 fullShare x3
            ∗ owns (c : Thread nD τ) arg6 fullShare (acc (stepRows x1 x2 x3 a))) -∗ Kk ⟨⟩))
      ⊢ wp frame (wpE (defs₀ (F := F)) Variants.none c none) E
          (cc1__tc_body i arg1 harg1 arg2 harg2 arg3 harg3 arg4 harg4 arg5 harg5 arg6 harg6) Kk := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f6, %hf6, H6⟩, Hk⟩
  obtain rfl := harg1.eq_unread hf1; obtain rfl := harg2.eq_unread hf2; obtain rfl := harg3.eq_unread hf3; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  sl_unfold_run_names
  rw [readAt_whole_i, readAt_whole_f, readAt_whole_f, readAt_row0, readAt_row1]
  exact read_rows arg6.view _ (stepRows x1 x2 x3 a)

/-- The rows before the first point: the two rows of the zero fill. -/
def rows0 : FVec F S1x128 .f32 × FVec F S1x128 .f32 :=
  (fun y => (k1_pay3 (F := F)) (ix2 (0 : Fin 2) (y 1)), fun y => (k1_pay3 (F := F)) (ix2 (1 : Fin 2) (y 1)))

abbrev rw2 : Rect S2x128 := Rect.unit (s := S2x128) ![0, 0] S2x128.size inb_S2x128_S2x128_0_0

omit [FloatOps F] in
theorem r1_not_mem_r0 (x : S1x128.Idx) : r1.emb x ∉ r0.set := by
  intro h
  have e : ((r1.emb x) 0).val = 1 := congrArg (fun y : S2x128.Idx => (y 0).val) (emb_r1 x)
  have h0 : ((r1.emb x) 0).val < 0 + 1 := (Rect.mem_set_unit.mp h 0).2
  omega

/-- After the zero fill, a load of row 0 reads the fill's row 0, -/
theorem readCov_fill_r0 [∀ e, Nonempty (Elt F e)] (v : View sig .tc .vmem S2x128 .f32) :
    v.readCov [(⟨rw2, k1_pay3 (F := F)⟩ : View.Piece (Elt F) S2x128 .f32)] r0.toLoadRect = (rows0 (F := F)).1 := by
  rw [View.readCov_eq_canon']
  funext j
  show View.canon [(⟨rw2, k1_pay3 (F := F)⟩ : View.Piece (Elt F) S2x128 .f32)] (r0.emb j) = _
  rw [View.canon_unit_zero (by funext a; fin_cases a <;> rfl), emb_r0]
  rfl

/-- and after the store of row 0 a load of row 1 still reads the fill's row 1. -/
theorem readCov_fill_r1 [∀ e, Nonempty (Elt F e)] (v : View sig .tc .vmem S2x128 .f32) (w : FVec F S1x128 .f32) :
    v.readCov [(⟨r0, w⟩ : View.Piece (Elt F) S2x128 .f32), ⟨rw2, k1_pay3 (F := F)⟩] r1.toLoadRect = (rows0 (F := F)).2 := by
  rw [View.readCov_eq_canon']
  funext j
  show View.canon [(⟨r0, w⟩ : View.Piece (Elt F) S2x128 .f32), ⟨rw2, k1_pay3 (F := F)⟩] (r1.emb j) = _
  rw [View.canon_cons_of_not_mem _ _ (r1_not_mem_r0 j), View.canon_unit_zero (by funext a; fin_cases a <;> rfl), emb_r1]
  rfl

/-- Two row stores over anything leave the two rows. -/
theorem read_rows_tail (v : View sig .tc .vmem S2x128 .f32) (f : v.ty.Contents (Elt F)) (n : FVec F S1x128 .f32 × FVec F S1x128 .f32)
    (Lt : List (View.Piece (Elt F) S2x128 .f32)) :
    v.read (Elt F) (v.writes (Elt F) f ((⟨r1, n.2⟩ : View.Piece (Elt F) S2x128 .f32) :: ⟨r0, n.1⟩ :: Lt)) = acc n := by
  rw [show ((⟨r1, n.2⟩ : View.Piece (Elt F) S2x128 .f32) :: ⟨r0, n.1⟩ :: Lt) = [⟨r1, n.2⟩, ⟨r0, n.1⟩] ++ Lt from rfl, View.writes_append]
  exact read_rows v _ n

set_option maxHeartbeats 1000000 in
theorem run_first [∀ e, Nonempty (Elt F e)] (c : Dev nD) (i : grid1.Coords) (hc1 : cond1 i) (hc2 : ¬k1_cond2 i = 1#1)
    (arg1 : Memref sig .tc .vmem S2048x128 .f32) (harg1 : arg1.IsWhole) (arg2 : Memref sig .tc .vmem S2048x128 .f32) (harg2 : arg2.IsWhole)
    (arg3 : Memref sig .tc .vmem S2048x128 .i32) (harg3 : arg3.IsWhole) (arg4 : Memref sig .tc .smem S1 .f32) (harg4 : arg4.IsWhole)
    (arg5 : Memref sig .tc .smem S1 .f32) (harg5 : arg5.IsWhole) (arg6 : Memref sig .tc .vmem S2x128 .f32) (harg6 : arg6.IsWhole)
    (x1 x2 : Vec F S2048x128 .f32) (x3 : Vec F S2048x128 .i32) (f : FVec F S2x128 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg6 fullShare f
        ∗ (iprop(owns (c : Thread nD τ) arg1 fullShare x1 ∗ owns (c : Thread nD τ) arg2 fullShare x2 ∗ owns (c : Thread nD τ) arg3 fullShare x3
            ∗ owns (c : Thread nD τ) arg6 fullShare (acc (stepRows x1 x2 x3 rows0))) -∗ Kk ⟨⟩))
      ⊢ wp frame (wpE (defs₀ (F := F)) Variants.none c none) E
          (cc1__tc_body i arg1 harg1 arg2 harg2 arg3 harg3 arg4 harg4 arg5 harg5 arg6 harg6) Kk := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f6, %hf6, H6⟩, Hk⟩
  obtain rfl := harg1.eq_unread hf1; obtain rfl := harg2.eq_unread hf2; obtain rfl := harg3.eq_unread hf3; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  sl_unfold_run_names
  rw [readAt_whole_i, readAt_whole_f, readAt_whole_f, readCov_fill_r0, readCov_fill_r1]
  exact read_rows_tail arg6.view _ (stepRows x1 x2 x3 rows0) _

theorem pieces_rows (n : FVec F S1x128 .f32 × FVec F S1x128 .f32) :
    ∀ p ∈ [(⟨r1, n.2⟩ : View.Piece (Elt F) S2x128 .f32), ⟨r0, n.1⟩], ∀ x : p.1.shape.Idx, p.2 x = acc n (p.1.emb x) := by
  intro p hp x
  rcases List.mem_cons.mp hp with rfl | hp
  · exact (acc_row1 n x).symm
  rcases List.mem_cons.mp hp with rfl | hp
  · exact (acc_row0 n x).symm
  · exact absurd hp List.not_mem_nil

theorem cover_rows (n : FVec F S1x128 .f32 × FVec F S1x128 .f32) (y : S2x128.Idx) :
    ∃ p ∈ [(⟨r1, n.2⟩ : View.Piece (Elt F) S2x128 .f32), ⟨r0, n.1⟩], y ∈ p.1.set :=
  View.cover_of_tiledL [(⟨r1, n.2⟩ : View.Piece (Elt F) S2x128 .f32), ⟨r0, n.1⟩] S1x128.size (by sl_kernel_rfl) y

/-- After the two row stores a load of a row reads that row. -/
theorem readCov_rows_r0 [∀ e, Nonempty (Elt F e)] (v : View sig .tc .vmem S2x128 .f32) (n : FVec F S1x128 .f32 × FVec F S1x128 .f32) :
    v.readCov [(⟨r1, n.2⟩ : View.Piece (Elt F) S2x128 .f32), ⟨r0, n.1⟩] r0.toLoadRect = n.1 := by
  rw [View.readCov_eq_canon']
  funext j
  show View.canon [(⟨r1, n.2⟩ : View.Piece (Elt F) S2x128 .f32), ⟨r0, n.1⟩] (r0.emb j) = _
  rw [View.canon_apply_of_pieces (acc n) _ (pieces_rows n) _ (cover_rows n _), acc_row0]
theorem readCov_rows_r1 [∀ e, Nonempty (Elt F e)] (v : View sig .tc .vmem S2x128 .f32) (n : FVec F S1x128 .f32 × FVec F S1x128 .f32) :
    v.readCov [(⟨r1, n.2⟩ : View.Piece (Elt F) S2x128 .f32), ⟨r0, n.1⟩] r1.toLoadRect = n.2 := by
  rw [View.readCov_eq_canon']
  funext j
  show View.canon [(⟨r1, n.2⟩ : View.Piece (Elt F) S2x128 .f32), ⟨r0, n.1⟩] (r1.emb j) = _
  rw [View.canon_apply_of_pieces (acc n) _ (pieces_rows n) _ (cover_rows n _), acc_row1]

/-- One store of a word leaves the word. -/
theorem read_word (v : View sig .tc .smem S1 .f32) (f : v.ty.Contents (Elt F)) (z : F .f32) :
    v.read (Elt F) (v.writes (Elt F) f [(⟨Rect.unit (s := S1) ![0] ![1] inb_S1_S1_0, fun _ => z⟩ : View.Piece (Elt F) S1 .f32)]) = fun _ => z := by
  funext y
  refine View.read_writes_apply_of_pieces v f (fun _ => z) _ (fun p hp x => ?_) y
    (View.cover_of_tiledL [(⟨Rect.unit (s := S1) ![0] ![1] inb_S1_S1_0, fun _ => z⟩ : View.Piece (Elt F) S1 .f32)] S1.size (by sl_kernel_rfl) y)
  rcases List.mem_cons.mp hp with rfl | hp
  · rfl
  · exact absurd hp List.not_mem_nil

set_option maxHeartbeats 1000000 in
theorem run_last [∀ e, Nonempty (Elt F e)] (c : Dev nD) (i : grid1.Coords) (hc1 : ¬cond1 i) (hc2 : k1_cond2 i = 1#1)
    (arg1 : Memref sig .tc .vmem S2048x128 .f32) (harg1 : arg1.IsWhole) (arg2 : Memref sig .tc .vmem S2048x128 .f32) (harg2 : arg2.IsWhole)
    (arg3 : Memref sig .tc .vmem S2048x128 .i32) (harg3 : arg3.IsWhole) (arg4 : Memref sig .tc .smem S1 .f32) (harg4 : arg4.IsWhole)
    (arg5 : Memref sig .tc .smem S1 .f32) (harg5 : arg5.IsWhole) (arg6 : Memref sig .tc .vmem S2x128 .f32) (harg6 : arg6.IsWhole)
    (x1 x2 : Vec F S2048x128 .f32) (x3 : Vec F S2048x128 .i32) (a : FVec F S1x128 .f32 × FVec F S1x128 .f32)
    (x4 x5 : Vec F S1 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare (acc a)
        ∗ (iprop(owns (c : Thread nD τ) arg1 fullShare x1 ∗ owns (c : Thread nD τ) arg2 fullShare x2 ∗ owns (c : Thread nD τ) arg3 fullShare x3
            ∗ owns (c : Thread nD τ) arg4 fullShare (fun _ => k1_pay1 (stepRows x1 x2 x3 a).1)
            ∗ owns (c : Thread nD τ) arg5 fullShare (fun _ => k1_pay2 (stepRows x1 x2 x3 a).2)
            ∗ owns (c : Thread nD τ) arg6 fullShare (acc (stepRows x1 x2 x3 a))) -∗ Kk ⟨⟩))
      ⊢ wp frame (wpE (defs₀ (F := F)) Variants.none c none) E
          (cc1__tc_body i arg1 harg1 arg2 harg2 arg3 harg3 arg4 harg4 arg5 harg5 arg6 harg6) Kk := by
  simp only [cc1__tc_body_eq_skeleton]; unfold cc1__tc_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [readAt_whole_i, readAt_whole_f, readAt_whole_f, readAt_row0, readAt_row1, readCov_rows_r0 arg6.view (stepRows x1 x2 x3 a)]
    exact read_word arg4.view _ _
  isplitl [H5]
  · iexists _; isplitr
    swap; · iexact H5
    ipureintro
    sl_unfold_run_names
    rw [readAt_whole_i, readAt_whole_f, readAt_whole_f, readAt_row0, readAt_row1, readCov_rows_r1 arg6.view (stepRows x1 x2 x3 a)]
    exact read_word arg5.view _ _
  iexists _; isplitr
  swap; · iexact H6
  ipureintro
  sl_unfold_run_names
  rw [readAt_whole_i, readAt_whole_f, readAt_whole_f, readAt_row0, readAt_row1]
  exact read_rows arg6.view _ (stepRows x1 x2 x3 a)

/-! ## The body obligation -/

variable (p4 g4 : FVec F S65536x128 .f32) (m4 : IVec S65536x128 32) (f3 f4 : FVec F S1 .f32)

theorem rows_succ (n : ℕ) : Spec.tcRows p4 g4 m4 (n + 1)
    = stepRows (Spec.blk p4 n) (Spec.blk g4 n) (Spec.blk m4 n) (Spec.tcRows p4 g4 m4 n) := rfl
theorem rows_zero : Spec.tcRows p4 g4 m4 0 = rows0 := rfl

theorem tcSum_eq : Spec.tcSum p4 g4 m4
    = fun _ => k1_pay1 (stepRows (Spec.blk p4 25) (Spec.blk g4 25) (Spec.blk m4 25) (Spec.tcRows p4 g4 m4 25)).1 := by
  unfold Spec.tcSum; rw [show (26 : ℕ) = 25 + 1 from rfl, rows_succ]
theorem tcCnt_eq : Spec.tcCnt p4 g4 m4
    = fun _ => k1_pay2 (stepRows (Spec.blk p4 25) (Spec.blk g4 25) (Spec.blk m4 25) (Spec.tcRows p4 g4 m4 25)).2 := by
  unfold Spec.tcCnt; rw [show (26 : ℕ) = 25 + 1 from rfl, rows_succ]

/-- Where the result windows are idle, live, written back: decided over the grid. -/
theorem idle3 : ∀ t : Fin cfg1.N, ¬k1_cond2 (grid1.coords t) = 1#1 → cfg1.idle 3 (grid1.coords t) = true := by decide +kernel
theorem idle4 : ∀ t : Fin cfg1.N, ¬k1_cond2 (grid1.coords t) = 1#1 → cfg1.idle 4 (grid1.coords t) = true := by decide +kernel
theorem noFlush3 : ∀ t : Fin cfg1.N, ¬k1_cond2 (grid1.coords t) = 1#1 → (cfg1.win 3).flush t = false := by decide +kernel
theorem noFlush4 : ∀ t : Fin cfg1.N, ¬k1_cond2 (grid1.coords t) = 1#1 → (cfg1.win 4).flush t = false := by decide +kernel
theorem live3 : ∀ t : Fin cfg1.N, k1_cond2 (grid1.coords t) = 1#1 → cfg1.idle 3 (grid1.coords t) = false := by decide +kernel
theorem live4 : ∀ t : Fin cfg1.N, k1_cond2 (grid1.coords t) = 1#1 → cfg1.idle 4 (grid1.coords t) = false := by decide +kernel

theorem Φ_castSucc (d : Dev nD) (t : Fin cfg1.N) : (dat p4 g4 m4 f3 f4 d).Φ t.castSucc
    = iprop(∃ f : FVec F S2x128 .f32, ⌜t.val ≠ 0 → f = acc (Spec.tcRows p4 g4 m4 t.val)⌝ ∗ (((d.tc : Thread nD τ).loc cc1_scratch0) ↦{fullShare} f)) := rfl
theorem Φ_succ (d : Dev nD) (t : Fin cfg1.N) : (dat p4 g4 m4 f3 f4 d).Φ t.succ
    = iprop(∃ f : FVec F S2x128 .f32, ⌜t.val + 1 ≠ 0 → f = acc (Spec.tcRows p4 g4 m4 (t.val + 1))⌝ ∗ (((d.tc : Thread nD τ).loc cc1_scratch0) ↦{fullShare} f)) := rfl

omit [FloatOps F] in
/-- The scratch buffer, whole: as the invariant holds it and as the runs hold it. -/
theorem scratch_pre (d : Dev nD) (X : FVec F S2x128 .f32) :
    (((d.tc : Thread nD τ).loc cc1_scratch0) ↦{fullShare} X : sProp 𝕄) ⊢ owns (d : Thread nD τ) (Memref.whole cc1_scratch0) fullShare X := by
  rw [owns_whole_eq]; iintro HS; iexists X; isplitr; · ipureintro; rfl
  iexact HS
omit [FloatOps F] in
theorem scratch_post (d : Dev nD) (X : FVec F S2x128 .f32) (C : Prop) :
    (owns (d : Thread nD τ) (Memref.whole cc1_scratch0) fullShare X : sProp 𝕄)
      ⊢ iprop(∃ f : FVec F S2x128 .f32, ⌜C → f = X⌝ ∗ (((d.tc : Thread nD τ).loc cc1_scratch0) ↦{fullShare} f)) := by
  rw [owns_whole_eq]; iintro ⟨%f', %hf', HS⟩
  iexists f'; isplitr; · ipureintro; intro _; exact hf'
  iexact HS

/-- What the body is called with at point `t`, the windows one by one, -/
def bodyPre (d : Dev nD) (t : Fin cfg1.N) : sProp 𝕄 :=
  iprop((dat p4 g4 m4 f3 f4 d).Φ t.castSucc ∗ (dat p4 g4 m4 f3 f4 d).owesAt none t.castSucc
    ∗ (∃ x, owns (d : Thread nD τ) (st1_0 t) fullShare ((dat p4 g4 m4 f3 f4 d).before 0 t x))
    ∗ (∃ x, owns (d : Thread nD τ) (st1_1 t) fullShare ((dat p4 g4 m4 f3 f4 d).before 1 t x))
    ∗ (∃ x, owns (d : Thread nD τ) (st1_2 t) fullShare ((dat p4 g4 m4 f3 f4 d).before 2 t x))
    ∗ (∃ x, owns (d : Thread nD τ) (st1_3 t) fullShare ((dat p4 g4 m4 f3 f4 d).before 3 t x))
    ∗ (∃ x, owns (d : Thread nD τ) (st1_4 t) fullShare ((dat p4 g4 m4 f3 f4 d).before 4 t x)))

/-- and what it returns. -/
def bodyPost (d : Dev nD) (t : Fin cfg1.N) : sProp 𝕄 :=
  iprop((dat p4 g4 m4 f3 f4 d).Φ t.succ ∗ (dat p4 g4 m4 f3 f4 d).owesAt none t.succ
    ∗ (dat p4 g4 m4 f3 f4 d).leavesExact 0 t ∗ (dat p4 g4 m4 f3 f4 d).leavesExact 1 t ∗ (dat p4 g4 m4 f3 f4 d).leavesExact 2 t
    ∗ (dat p4 g4 m4 f3 f4 d).leavesExact 3 t ∗ (dat p4 g4 m4 f3 f4 d).leavesExact 4 t)

set_option maxHeartbeats 4000000 in
/-- The body at any point. The operand buffers hold their blocks; the grid coordinate says which of the three cases the
    point is in; the scratch holds the running rows (anything at the first point, where the body zeroes it); the result
    words are left as found except at the last point, where they receive the rows' sums over the columns. -/
theorem sound_body [∀ e, Nonempty (Elt F e)] (d : Dev nD) (t : Fin cfg1.N) :
    bodyPre p4 g4 m4 f3 f4 d t ⊢ wp frame (wpE (defs₀ (F := F)) 𝒱₀ d none) Set.univ (bodyAt1 t) (fun _ => bodyPost p4 g4 m4 f3 f4 d t) := by
  unfold bodyPre bodyPost bodyAt1
  simp only [before0, before1, before2]
  rw [show (dat p4 g4 m4 f3 f4 d).owesAt none t.succ = (dat p4 g4 m4 f3 f4 d).owesAt none t.castSucc from rfl,
    Φ_castSucc, Φ_succ, rows_succ,
    show (dat p4 g4 m4 f3 f4 d).leavesExact 0 t = owns (d : Thread nD τ) (st1_0 t) fullShare (Spec.blk p4 t.val) from rfl,
    show (dat p4 g4 m4 f3 f4 d).leavesExact 1 t = owns (d : Thread nD τ) (st1_1 t) fullShare (Spec.blk g4 t.val) from rfl,
    show (dat p4 g4 m4 f3 f4 d).leavesExact 2 t = owns (d : Thread nD τ) (st1_2 t) fullShare (Spec.blk m4 t.val) from rfl]
  have hN : t.val < 26 := N26 t
  by_cases h25 : t.val = 25
  · -- the last point
    have hc2 : k1_cond2 (grid1.coords t) = 1#1 := (hcond2 t).mpr h25
    have hc1 : ¬cond1 (grid1.coords t) := fun h => by have := (hcond1 t).mp h; omega
    rw [show (dat p4 g4 m4 f3 f4 d).leavesExact 3 t = owns (d : Thread nD τ) (st1_3 t) fullShare (Spec.tcSum p4 g4 m4) from by
        unfold Dat.leavesExact; rw [live3 t hc2]; rfl,
      show (dat p4 g4 m4 f3 f4 d).leavesExact 4 t = owns (d : Thread nD τ) (st1_4 t) fullShare (Spec.tcCnt p4 g4 m4) from by
        unfold Dat.leavesExact; rw [live4 t hc2]; rfl,
      tcSum_eq, tcCnt_eq, ← h25]
    iintro ⟨⟨%f, %hf, HS⟩, Ho, ⟨%d0, H0⟩, ⟨%d1, H1⟩, ⟨%d2, H2⟩, ⟨%d3, H3⟩, ⟨%d4, H4⟩⟩
    obtain rfl := hf (by omega)
    iapply (run_last d (grid1.coords t) hc1 hc2 _ _ _ _ _ _ _ _ _ _ (Memref.whole cc1_scratch0) (Memref.isWhole_whole _)
      (Spec.blk p4 t.val) (Spec.blk g4 t.val) (Spec.blk m4 t.val) (Spec.tcRows p4 g4 m4 t.val) _ _ Set.univ _)
    isplitl [H0]; · iexact H0
    isplitl [H1]; · iexact H1
    isplitl [H2]; · iexact H2
    isplitl [H3]; · iexact H3
    isplitl [H4]; · iexact H4
    isplitl [HS]; · iapply (scratch_pre d _); iexact HS
    iintro ⟨H0, H1, H2, H3, H4, HS⟩
    isplitl [HS]
    · iapply (scratch_post d _ _); iexact HS
    isplitl [Ho]; · iexact Ho
    isplitl [H0]; · iexact H0
    isplitl [H1]; · iexact H1
    isplitl [H2]; · iexact H2
    isplitl [H3]; · iexact H3
    iexact H4
  · have hc2 : ¬k1_cond2 (grid1.coords t) = 1#1 := fun h => h25 ((hcond2 t).mp h)
    rw [Dat.leavesExact_idle (dat p4 g4 m4 f3 f4 d) 3 t (idle3 t hc2) (noFlush3 t hc2),
      Dat.leavesExact_idle (dat p4 g4 m4 f3 f4 d) 4 t (idle4 t hc2) (noFlush4 t hc2)]
    by_cases h0 : t.val = 0
    · -- the first point
      have hc1 : cond1 (grid1.coords t) := (hcond1 t).mpr h0
      rw [h0, rows_zero]
      iintro ⟨⟨%f, -, HS⟩, Ho, ⟨%d0, H0⟩, ⟨%d1, H1⟩, ⟨%d2, H2⟩, H3, H4⟩
      iapply (run_first d (grid1.coords t) hc1 hc2 _ _ _ _ _ _ _ _ _ _ (Memref.whole cc1_scratch0) (Memref.isWhole_whole _)
        (Spec.blk p4 0) (Spec.blk g4 0) (Spec.blk m4 0) f Set.univ _)
      isplitl [H0]; · iexact H0
      isplitl [H1]; · iexact H1
      isplitl [H2]; · iexact H2
      isplitl [HS]; · iapply (scratch_pre d _); iexact HS
      iintro ⟨H0, H1, H2, HS⟩
      isplitl [HS]
      · iapply (scratch_post d _ _); iexact HS
      isplitl [Ho]; · iexact Ho
      isplitl [H0]; · iexact H0
      isplitl [H1]; · iexact H1
      isplitl [H2]; · iexact H2
      isplitl [H3]; · iexact H3
      iexact H4
    · -- a middle point
      have hc1 : ¬cond1 (grid1.coords t) := fun h => h0 ((hcond1 t).mp h)
      iintro ⟨⟨%f, %hf, HS⟩, Ho, ⟨%d0, H0⟩, ⟨%d1, H1⟩, ⟨%d2, H2⟩, H3, H4⟩
      obtain rfl := hf h0
      iapply (run_mid d (grid1.coords t) hc1 hc2 _ _ _ _ _ _ _ _ _ _ (Memref.whole cc1_scratch0) (Memref.isWhole_whole _)
        (Spec.blk p4 t.val) (Spec.blk g4 t.val) (Spec.blk m4 t.val) (Spec.tcRows p4 g4 m4 t.val) Set.univ _)
      isplitl [H0]; · iexact H0
      isplitl [H1]; · iexact H1
      isplitl [H2]; · iexact H2
      isplitl [HS]; · iapply (scratch_pre d _); iexact HS
      iintro ⟨H0, H1, H2, HS⟩
      isplitl [HS]
      · iapply (scratch_post d _ _); iexact HS
      isplitl [Ho]; · iexact Ho
      isplitl [H0]; · iexact H0
      isplitl [H1]; · iexact H1
      isplitl [H2]; · iexact H2
      isplitl [H3]; · iexact H3
      iexact H4

set_option maxRecDepth 16384 in
/-- The library's body obligation, at every point. -/
theorem body_obligation [∀ e, Nonempty (Elt F e)] (d : Dev nD) :
    BodyObligation (dat p4 g4 m4 f3 f4 d) (defs₀ (F := F)) 𝒱₀ none Set.univ := fun t => by
  rw [Gen.bigSep_W1, Gen.bigSep_W1]
  exact sound_body p4 g4 m4 f3 f4 d t

end Cert.KernelIdeal.TcBody
end
-- ==== Proof.KI.TcRegion.lean ====
/-
  The TensorCore region as @main's TensorCore thread enters it inside the SparseCore program.

  The region is one pipeline of 26 points over five windows. Entered with the three operand arrays whole at any contents
  and the two one-word result arrays at anything, it leaves the operands as they were and the results at the
  specification's sum and count over all 26 blocks and all 128 columns. The TensorCore owes nothing after its one
  SparseCore call, so the pipeline's waits need no evidence; the waits the pipeline records sit at level 0, below the
  bound the handshake state keeps on the thread's recorded waits.
-/
import proofs.«210416_g85048942395886_cont_9to1c4b_614_23_alg».proof.Proof.KI.TcBody
import Idealize.ShloMosaic.Lib.Pipeline.Regions
import Idealize.ShloMosaic.Lib.SparseCore.Threads

noncomputable section

namespace Cert.KernelIdeal.TcRegion

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)
open Cert.KernelIdeal.TcGhost Cert.KernelIdeal.TcData
open Idealize.ShloMosaic.ValueIdx

variable (p4 g4 : FVec F S65536x128 .f32) (m4 : IVec S65536x128 32) (f3 f4 : FVec F S1 .f32)

/-! ## The TensorCore's handshake state, split: what it owes, and the rest -/

/-- Everything of the TensorCore's state after the one SparseCore call but what it owes: the region does not touch it. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) : ((K (F := F)).tcSt EH d 1 : sProp 𝕄)
    = iprop((∃ W, ⌜(K (F := F)).WBelow (SparseCore.T d) W (8 * 1)⌝ ∗ owes (SparseCore.T d) ((K (F := F)).Otc d 1) W) ∗ tcRest (F := F) d) := rfl

/-- The thread state the region is entered from: the handshake state and the five window arrays. -/
def pre (d : Dev nD) : sProp 𝕄 :=
  iprop((K (F := F)).tcSt EH d 1
    ∗ ((SparseCore.T d).loc main_v4 ↦{fullShare} p4) ∗ ((SparseCore.T d).loc main_v5 ↦{fullShare} g4) ∗ ((SparseCore.T d).loc main_v6 ↦{fullShare} m4)
    ∗ ((SparseCore.T d).loc main_v7_0 ↦{fullShare} f3) ∗ ((SparseCore.T d).loc main_v7_1 ↦{fullShare} f4))

/-- The one it leaves: the same, the two results at the specification's values. -/
def post (d : Dev nD) : sProp 𝕄 :=
  iprop((K (F := F)).tcSt EH d 1
    ∗ ((SparseCore.T d).loc main_v4 ↦{fullShare} p4) ∗ ((SparseCore.T d).loc main_v5 ↦{fullShare} g4) ∗ ((SparseCore.T d).loc main_v6 ↦{fullShare} m4)
    ∗ ((SparseCore.T d).loc main_v7_0 ↦{fullShare} Spec.tcSum p4 g4 m4) ∗ ((SparseCore.T d).loc main_v7_1 ↦{fullShare} Spec.tcCnt p4 g4 m4))

variable [∀ e, Nonempty (Elt F e)]

/-- The TensorCore owes nothing after its one SparseCore call. -/
theorem Otc_one (d : Dev nD) : (K (F := F)).Otc d 1 = 0 := (K (F := F)).Otc_end d (le_refl 1)

theorem harr (w : Fin 5) : ((Pipeline.pin (pcfgs (F := F)) adm 0).spec w).arr.IsWhole := Gen.arr_whole1 w

theorem hshare (d : Dev nD) (w : Fin 5) : (pdats p4 g4 m4 f3 f4 0 d).share w = fullShare := by
  unfold Dat.share
  match w with
  | ⟨0, _⟩ => rfl
  | ⟨1, _⟩ => rfl
  | ⟨2, _⟩ => rfl
  | ⟨3, _⟩ => rfl
  | ⟨4, _⟩ => rfl

/-! ## The two results' arrays after the region -/

/-- The last grid point. -/
def t25 : Fin cfg1.grid.N := ⟨25, by decide⟩

omit [FloatOps F] in
/-- A one-word result array is all inside the block the last point writes back. -/
theorem cover3 (d : Dev nD) : ∀ i : (View.loc (d.tc : Thread nD τ) (cfg1.win 3).arr.view).2.ty.Idx,
    ∃ t : Fin cfg1.grid.N, (cfg1.win 3).flush t = true ∧ i ∈ ((cfg1.win 3).blk t).view.set := by
  intro i
  refine ⟨t25, (Gen.flush1_3 t25).mpr rfl, ?_⟩
  have hy := ((cfg1.win 3).blk t25).view.emb_mem_set (ix1 (0 : Fin 1))
  have e : ((cfg1.win 3).blk t25).view.emb (ix1 (0 : Fin 1)) = i := by
    funext a
    match a with
    | ⟨0, h0⟩ =>
      apply Fin.ext
      have h1 : (i ⟨0, h0⟩).val < 1 := (i ⟨0, h0⟩).isLt
      have h2 : ((((cfg1.win 3).blk t25).view.emb (ix1 (0 : Fin 1))) ⟨0, h0⟩).val < 1 := Fin.isLt _
      show ((((cfg1.win 3).blk t25).view.emb (ix1 (0 : Fin 1))) ⟨0, h0⟩).val = (i ⟨0, h0⟩).val
      omega
  exact e ▸ hy

omit [FloatOps F] in
theorem cover4 (d : Dev nD) : ∀ i : (View.loc (d.tc : Thread nD τ) (cfg1.win 4).arr.view).2.ty.Idx,
    ∃ t : Fin cfg1.grid.N, (cfg1.win 4).flush t = true ∧ i ∈ ((cfg1.win 4).blk t).view.set := by
  intro i
  refine ⟨t25, (Gen.flush1_4 t25).mpr rfl, ?_⟩
  have hy := ((cfg1.win 4).blk t25).view.emb_mem_set (ix1 (0 : Fin 1))
  have e : ((cfg1.win 4).blk t25).view.emb (ix1 (0 : Fin 1)) = i := by
    funext a
    match a with
    | ⟨0, h0⟩ =>
      apply Fin.ext
      have h1 : (i ⟨0, h0⟩).val < 1 := (i ⟨0, h0⟩).isLt
      have h2 : ((((cfg1.win 4).blk t25).view.emb (ix1 (0 : Fin 1))) ⟨0, h0⟩).val < 1 := Fin.isLt _
      show ((((cfg1.win 4).blk t25).view.emb (ix1 (0 : Fin 1))) ⟨0, h0⟩).val = (i ⟨0, h0⟩).val
      omega
  exact e ▸ hy

/-- The one write-back, at the last point, writes the whole one-word array. -/
theorem arrAt3 (d : Dev nD) : (dat p4 g4 m4 f3 f4 d).arrAt 3 cfg1.N = Spec.tcSum p4 g4 m4 := by
  exact (dat p4 g4 m4 f3 f4 d).arrAt_eq_of_cover 3 (Spec.tcSum p4 g4 m4) (fun t _ => rfl) (cover3 d)

theorem arrAt4 (d : Dev nD) : (dat p4 g4 m4 f3 f4 d).arrAt 4 cfg1.N = Spec.tcCnt p4 g4 m4 := by
  exact (dat p4 g4 m4 f3 f4 d).arrAt_eq_of_cover 4 (Spec.tcCnt p4 g4 m4) (fun t _ => rfl) (cover4 d)

theorem Φ_eq (d : Dev nD) (t : Fin (cfg1.N + 1)) : (pdats p4 g4 m4 f3 f4 0 d).Φ t
    = iprop(∃ f : FVec F S2x128 .f32, ⌜t.val ≠ 0 → f = acc (Spec.tcRows p4 g4 m4 t.val)⌝ ∗ (((d.tc : Thread nD τ).loc cc1_scratch0) ↦{fullShare} f)) := rfl

/-- The region's record. -/
def seg : Pipeline.RegionSeg (pcfgs (F := F)) adm (pdats p4 g4 m4 f3 f4) none defs₀ 𝒱₀ (K (F := F)).L (K (F := F)).lev (0 : Fin 1) where
  win := Gen.launch1.win.to₀
  block_pos := Gen.block_pos1
  stage_whole := Gen.stage_whole1
  K := PEmpty
  osem := fun k => k.elim
  ho := Pipeline.OwnSemFacts.none _
  hbody := fun d => (TcBody.body_obligation p4 g4 m4 f3 f4 d).loose
  hwaits := Pipeline.hwaits_of_owed_zero (pcfgs (F := F)) adm (pdats p4 g4 m4 f3 f4) none (K (F := F)).L (K (F := F)).lev 0 (fun _ _ => rfl)
  pre := pre p4 g4 m4 f3 f4
  post := post p4 g4 m4
  X := fun _ => iprop(emp)
  Y := fun _ => iprop(emp)
  Z := fun d => tcRest (F := F) d
  hentry := fun d => by
    rw [Pipeline.arrays_eq (Pipeline.pin (pcfgs (F := F)) adm) (pdats p4 g4 m4 f3 f4) 0 d harr (hshare p4 g4 m4 f3 f4 d), Gen.bigSep_W1]
    unfold pre; rw [tcSt_eq, Otc_one]
    iintro ⟨⟨⟨⟨%W, %hW, HW⟩, Hrest⟩, H4, H5, H6, H70, H71⟩, -, -⟩
    imodintro
    isplitl [H4 H5 H6 H70 H71]
    · isplitl [H4]; · iexact H4
      isplitl [H5]; · iexact H5
      isplitl [H6]; · iexact H6
      isplitl [H70]; · iexact H70
      iexact H71
    isplitr
    · unfold Pipeline.prefHeld; rw [Finset.univ_eq_empty, BI.bigSep_empty]; iempintro
    isplitl [HW]
    · iexists W; isplitr
      · ipureintro; intro p hp; exact Or.inl (hW p hp)
      iexact HW
    isplitr; · iempintro
    iexact Hrest
  hin := fun d => by
    rw [Gen.scopedRest1_eq, Φ_eq]
    iintro ⟨-, -, ⟨%f, H⟩⟩
    iexists f; isplitr
    · ipureintro; intro h; exact absurd rfl h
    iexact H
  hout := fun d => by
    rw [Gen.scopedRest1_eq, Pipeline.ownSems0_none, Φ_eq]
    iintro ⟨%f, -, H⟩
    isplitr; · iempintro
    isplitr; · iempintro
    iexists f; iexact H
  hexit := fun d => by
    rw [Pipeline.arrays_eq (Pipeline.pin (pcfgs (F := F)) adm) (pdats p4 g4 m4 f3 f4) 0 d harr (hshare p4 g4 m4 f3 f4 d), Gen.bigSep_W1]
    have e0 : (pdats p4 g4 m4 f3 f4 0 d).arrAt 0 (Pipeline.pin (pcfgs (F := F)) adm 0).N = p4 := (dat p4 g4 m4 f3 f4 d).arrAt_in 0 rfl _
    have e1 : (pdats p4 g4 m4 f3 f4 0 d).arrAt 1 (Pipeline.pin (pcfgs (F := F)) adm 0).N = g4 := (dat p4 g4 m4 f3 f4 d).arrAt_in 1 rfl _
    have e2 : (pdats p4 g4 m4 f3 f4 0 d).arrAt 2 (Pipeline.pin (pcfgs (F := F)) adm 0).N = m4 := (dat p4 g4 m4 f3 f4 d).arrAt_in 2 rfl _
    have e3 : (pdats p4 g4 m4 f3 f4 0 d).arrAt 3 (Pipeline.pin (pcfgs (F := F)) adm 0).N = Spec.tcSum p4 g4 m4 := arrAt3 p4 g4 m4 f3 f4 d
    have e4 : (pdats p4 g4 m4 f3 f4 0 d).arrAt 4 (Pipeline.pin (pcfgs (F := F)) adm 0).N = Spec.tcCnt p4 g4 m4 := arrAt4 p4 g4 m4 f3 f4 d
    rw [e0, e1, e2, e3, e4]
    unfold post; rw [tcSt_eq, Otc_one]
    iintro ⟨⟨H4, H5, H6, H70, H71⟩, ⟨%W, %hW, HW⟩, -, Hrest⟩
    imodintro
    isplitl [HW Hrest]
    · isplitl [HW]
      · iexists W; isplitr
        · ipureintro; intro p hp
          rcases hW hp with h | ⟨w, s, rfl⟩
          · exact h
          · exact Nat.zero_le _
        iexact HW
      iexact Hrest
    isplitl [H4]; · iexact H4
    isplitl [H5]; · iexact H5
    isplitl [H6]; · iexact H6
    isplitl [H70]; · iexact H70
    iexact H71

/-- The region, entered from @main's TensorCore thread inside the SparseCore program. The call is the lifted call of the
    pipeline's entry label followed by the continuation; under the pipelines' own body table it is one region step. -/
theorem tc_region (P : (K (F := F)).Pay (nD := nD) (Val := Elt F) (Name := ℕ) (U := UU))
    (κ : GSem nD τ sig → ℕ) (d : Dev nD) (p4 g4 : FVec F S65536x128 .f32) (m4 : IVec S65536x128 32)
    {α : Type} (k : PUnit → Prog (TpuEff nD τ sig (Elt F) (SparseCore.Sig (ΛP (F := F)) 1) .tc) α) (Q : α → sProp 𝕄) :
    iprop((K (F := F)).ctx EH P κ ∗ (K (F := F)).tcSt EH d 1 ∗ boundary (SparseCore.T d) ∗ TcGhost.G d
        ∗ ((SparseCore.T d).loc main_v4 ↦{fullShare} p4) ∗ ((SparseCore.T d).loc main_v5 ↦{fullShare} g4) ∗ ((SparseCore.T d).loc main_v6 ↦{fullShare} m4)
        ∗ (∃ f, (SparseCore.T d).loc main_v7_0 ↦{fullShare} f) ∗ (∃ f, (SparseCore.T d).loc main_v7_1 ↦{fullShare} f)
        ∗ (iprop((K (F := F)).tcSt EH d 1 ∗ boundary (SparseCore.T d)
            ∗ ((SparseCore.T d).loc main_v4 ↦{fullShare} p4) ∗ ((SparseCore.T d).loc main_v5 ↦{fullShare} g4) ∗ ((SparseCore.T d).loc main_v6 ↦{fullShare} m4)
            ∗ ((SparseCore.T d).loc main_v7_0 ↦{fullShare} Spec.tcSum p4 g4 m4) ∗ ((SparseCore.T d).loc main_v7_1 ↦{fullShare} Spec.tcCnt p4 g4 m4))
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (.op (.customCall (SparseCore.inner (Pipeline.entry 0)) ()) k) Q := by
  have hprog : (Prog.op (.customCall (SparseCore.inner (Pipeline.entry (0 : Fin 1))) ()) k : Prog (TpuEff nD τ sig (Elt F) (SparseCore.Sig (ΛP (F := F)) 1) .tc) α)
      = (SparseCore.liftProg (Q := 1) (Prog.op (.customCall (Pipeline.entry (0 : Fin 1)) ()) fun x => .ret x)) >>= k := rfl
  rw [hprog, wp_bind]
  iintro ⟨#Hctx, Hst, Hb, HG, H4, H5, H6, ⟨%f3, H70⟩, ⟨%f4, H71⟩, Hk⟩
  have hpre : iprop((K (F := F)).tcSt EH d 1
      ∗ ((SparseCore.T d).loc main_v4 ↦{fullShare} p4) ∗ ((SparseCore.T d).loc main_v5 ↦{fullShare} g4) ∗ ((SparseCore.T d).loc main_v6 ↦{fullShare} m4)
      ∗ ((SparseCore.T d).loc main_v7_0 ↦{fullShare} f3) ∗ ((SparseCore.T d).loc main_v7_1 ↦{fullShare} f4))
      ⊢ (seg p4 g4 m4 f3 f4).pre d := BI.Entails.refl _
  have hpost : (seg p4 g4 m4 f3 f4).post d ⊢ iprop((K (F := F)).tcSt EH d 1
      ∗ ((SparseCore.T d).loc main_v4 ↦{fullShare} p4) ∗ ((SparseCore.T d).loc main_v5 ↦{fullShare} g4) ∗ ((SparseCore.T d).loc main_v6 ↦{fullShare} m4)
      ∗ ((SparseCore.T d).loc main_v7_0 ↦{fullShare} Spec.tcSum p4 g4 m4) ∗ ((SparseCore.T d).loc main_v7_1 ↦{fullShare} Spec.tcCnt p4 g4 m4)) := BI.Entails.refl _
  iapply ((K (F := F)).wp_liftProg (D (F := F)) 𝒱 (SparseCore.T d) Set.univ none _ _)
  iapply (Pipeline.RegionSeg.wp (pcfgs (F := F)) adm (pdats p4 g4 m4 f3 f4) none phinj EP defs₀ 𝒱₀ (K (F := F)).L (K (F := F)).lev
    (seg p4 g4 m4 f3 f4) d none (fun u hu => by cases hu) (fun x => .ret x) _)
  isplitl [Hk]
  · iintro ⟨Hb, Hpost⟩
    iapply (le_wp_ret _ _)
    ihave Hp := (hpost) $$ Hpost
    icases Hp with ⟨Hst, H4, H5, H6, H70, H71⟩
    iapply Hk
    isplitl [Hst]; · iexact Hst
    isplitl [Hb]; · iexact Hb
    isplitl [H4]; · iexact H4
    isplitl [H5]; · iexact H5
    isplitl [H6]; · iexact H6
    isplitl [H70]; · iexact H70
    iexact H71
  isplitl [Hb]; · iexact Hb
  isplitl [Hst H4 H5 H6 H70 H71]
  · iapply hpre
    isplitl [Hst]; · iexact Hst
    isplitl [H4]; · iexact H4
    isplitl [H5]; · iexact H5
    isplitl [H6]; · iexact H6
    isplitl [H70]; · iexact H70
    iexact H71
  isplitr
  · iapply (SparseCore.Cfg.ctx_levAts κ); iexact Hctx
  unfold TcGhost.G
  iexact HG

end Cert.KernelIdeal.TcRegion

end
-- ==== Proof.KI.MainOps.lean ====
/-
  @main as five stretches: three host operations (the arguments flattened), the SparseCore call, three host
  operations (the flat arrays seen as 65536 rows of 128), the TensorCore region, and the host operations that reduce
  the partials and combine the two pairs of sums into the quotient.
-/
import proofs.«210416_g85048942395886_cont_9to1c4b_614_23_alg».proof.Proof.KI.Common
import Idealize.ShloMosaic.Lib.Pipeline.Frame

noncomputable section

namespace Cert.KernelIdeal.MainOps

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- The arguments flattened. -/
def ops1 : List (HloOp τ sig (Elt F)) := [
    StableHlo.reshape main_arg0 main_v0 rfl shapeCasts_S4x1x128x128x128_S8388608,
    StableHlo.reshape main_arg1 main_v1 rfl shapeCasts_S4x1x128x128x128_S8388608,
    StableHlo.reshape main_arg2 main_v2 rfl shapeCasts_S4x1x128x128x128_S8388608 ]

/-- The flat arrays as 65536 rows of 128. -/
def ops2 : List (HloOp τ sig (Elt F)) := [
    StableHlo.reshape main_v0 main_v4 rfl shapeCasts_S8388608_S65536x128,
    StableHlo.reshape main_v1 main_v5 rfl shapeCasts_S8388608_S65536x128,
    StableHlo.reshape main_v2 main_v6 rfl shapeCasts_S8388608_S65536x128 ]

/-- The partials reduced to a sum and a count, each added to the region's, the quotient. -/
def ops3 : List (HloOp τ sig (Elt F)) := [
    StableHlo.reshape main_v3 main_v8 rfl shapeCasts_S32x32_S32x2x16,
    StableHlo.nullary main_cst (constant S_ .f32 0x00000000#32),
    StableHlo.binary main_v8 main_cst main_v9 ((fun x v => Host.reduceAdd x v reducesTo_S32x2x16_S2_d0_2 h_S_) : (⟨S32x2x16, .f32⟩ : BufTy).Contents (Elt F) → (⟨S_, .f32⟩ : BufTy).Contents (Elt F) → (⟨S2, .f32⟩ : BufTy).Contents (Elt F)),
    StableHlo.unary main_v9 main_v10 ((extractStridedSlice S1 ![0] · slices_S2_S1_0) : (⟨S2, .f32⟩ : BufTy).Contents (Elt F) → (⟨S1, .f32⟩ : BufTy).Contents (Elt F)),
    StableHlo.reshape main_v10 main_v11 rfl shapeCasts_S1_S_,
    StableHlo.reshape main_v7_0 main_v12 rfl shapeCasts_S1_S_,
    StableHlo.binary main_v11 main_v12 main_v13 (addf : (⟨S_, .f32⟩ : BufTy).Contents (Elt F) → (⟨S_, .f32⟩ : BufTy).Contents (Elt F) → (⟨S_, .f32⟩ : BufTy).Contents (Elt F)),
    StableHlo.unary main_v9 main_v14 ((extractStridedSlice S1 ![1] · slices_S2_S1_1) : (⟨S2, .f32⟩ : BufTy).Contents (Elt F) → (⟨S1, .f32⟩ : BufTy).Contents (Elt F)),
    StableHlo.reshape main_v14 main_v15 rfl shapeCasts_S1_S_,
    StableHlo.reshape main_v7_1 main_v16 rfl shapeCasts_S1_S_,
    StableHlo.binary main_v15 main_v16 main_v17 (addf : (⟨S_, .f32⟩ : BufTy).Contents (Elt F) → (⟨S_, .f32⟩ : BufTy).Contents (Elt F) → (⟨S_, .f32⟩ : BufTy).Contents (Elt F)),
    StableHlo.nullary main_cst_0 (constant S_ .f32 0x3F800000#32),
    StableHlo.binary main_v17 main_cst_0 main_v18 (maximumf : (⟨S_, .f32⟩ : BufTy).Contents (Elt F) → (⟨S_, .f32⟩ : BufTy).Contents (Elt F) → (⟨S_, .f32⟩ : BufTy).Contents (Elt F)),
    StableHlo.binary main_v13 main_v18 main_v19 (Host.divf : (⟨S_, .f32⟩ : BufTy).Contents (Elt F) → (⟨S_, .f32⟩ : BufTy).Contents (Elt F) → (⟨S_, .f32⟩ : BufTy).Contents (Elt F)) ]

/-- @main is the five stretches in order. -/
theorem main_chain (d : Dev nD) : main (F := F) d = (Pipeline.chain
    [ StableHlo.seq ops1,
      (sc (F := F)).run d 0,
      StableHlo.seq ops2,
      Prog.lift (.customCall (SparseCore.inner (Pipeline.entry 0)) ()),
      StableHlo.seq ops3 ] : Prog (TpuEff nD τ sig (Elt F) (SparseCore.Sig (ΛP (F := F)) 1) .tc) PUnit) := by
  unfold ops1 ops2 ops3
  chain_rfl

/-! Every host operation touches unscoped TensorCore buffers only, and determines its results. -/

theorem ops1_sub : ∀ op ∈ (ops1 : List (HloOp τ sig (Elt F))), op.bufs ⊆ Pipeline.ucRefs τ sig :=
  List.forall_iff_forall_mem.1 (show (ops1 : List (HloOp τ sig (Elt F))).Forall fun op => op.bufs ⊆ Pipeline.ucRefs τ sig from
    ⟨Pipeline.sub_ucRefs _ (StableHlo.reshape_bufs_sub ..),
    Pipeline.sub_ucRefs _ (StableHlo.reshape_bufs_sub ..),
    Pipeline.sub_ucRefs _ (StableHlo.reshape_bufs_sub ..)⟩)

theorem ops2_sub : ∀ op ∈ (ops2 : List (HloOp τ sig (Elt F))), op.bufs ⊆ Pipeline.ucRefs τ sig :=
  List.forall_iff_forall_mem.1 (show (ops2 : List (HloOp τ sig (Elt F))).Forall fun op => op.bufs ⊆ Pipeline.ucRefs τ sig from
    ⟨Pipeline.sub_ucRefs _ (StableHlo.reshape_bufs_sub ..),
    Pipeline.sub_ucRefs _ (StableHlo.reshape_bufs_sub ..),
    Pipeline.sub_ucRefs _ (StableHlo.reshape_bufs_sub ..)⟩)

theorem ops3_sub : ∀ op ∈ (ops3 : List (HloOp τ sig (Elt F))), op.bufs ⊆ Pipeline.ucRefs τ sig :=
  List.forall_iff_forall_mem.1 (show (ops3 : List (HloOp τ sig (Elt F))).Forall fun op => op.bufs ⊆ Pipeline.ucRefs τ sig from
    ⟨Pipeline.sub_ucRefs _ (StableHlo.reshape_bufs_sub ..),
    Pipeline.sub_ucRefs _ (StableHlo.nullary_bufs_sub ..),
    Pipeline.sub_ucRefs _ (StableHlo.binary_bufs_sub ..),
    Pipeline.sub_ucRefs _ (StableHlo.unary_bufs_sub ..),
    Pipeline.sub_ucRefs _ (StableHlo.reshape_bufs_sub ..),
    Pipeline.sub_ucRefs _ (StableHlo.reshape_bufs_sub ..),
    Pipeline.sub_ucRefs _ (StableHlo.binary_bufs_sub ..),
    Pipeline.sub_ucRefs _ (StableHlo.unary_bufs_sub ..),
    Pipeline.sub_ucRefs _ (StableHlo.reshape_bufs_sub ..),
    Pipeline.sub_ucRefs _ (StableHlo.reshape_bufs_sub ..),
    Pipeline.sub_ucRefs _ (StableHlo.binary_bufs_sub ..),
    Pipeline.sub_ucRefs _ (StableHlo.nullary_bufs_sub ..),
    Pipeline.sub_ucRefs _ (StableHlo.binary_bufs_sub ..),
    Pipeline.sub_ucRefs _ (StableHlo.binary_bufs_sub ..)⟩)

theorem ops1_fresh : ∀ op ∈ (ops1 : List (HloOp τ sig (Elt F))), op.fresh = ∅ := by
  intro _ h; unfold ops1 at h; (repeat (cases h with | head => rfl | tail _ h => ?_)); exact nomatch h

theorem ops2_fresh : ∀ op ∈ (ops2 : List (HloOp τ sig (Elt F))), op.fresh = ∅ := by
  intro _ h; unfold ops2 at h; (repeat (cases h with | head => rfl | tail _ h => ?_)); exact nomatch h

theorem ops3_fresh : ∀ op ∈ (ops3 : List (HloOp τ sig (Elt F))), op.fresh = ∅ := by
  intro _ h; unfold ops3 at h; (repeat (cases h with | head => rfl | tail _ h => ?_)); exact nomatch h

end Cert.KernelIdeal.MainOps

end
-- ==== Proof.KI.MainSplit.lean ====
/-
  The SparseCore call's operands, dealt to the thirty-two tasks and collected again.

  Each flat input array, held whole, is cut into thirty-two read shares and a remainder that stays behind; the partials
  array is cut into its thirty-two rows. Worker `w` gets share `w` of each input and row `w`. The workers are the pairs
  (SparseCore, subcore), `w = 2 s + c`, so a product over the workers is a product over the SparseCores of products
  over their subcores. Afterwards the shares and the remainder make each input whole again, and the rows, each now at
  the specification's partials, make the partials array whole at that value.
-/
import proofs.«210416_g85048942395886_cont_9to1c4b_614_23_alg».proof.Proof.KI.Hand

noncomputable section

namespace Cert.KernelIdeal.MainSplit

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- A worker number is a pair (SparseCore, subcore): `w = 2 s + c`. -/
def widEquiv : Fin 2 × Fin 16 ≃ Fin 32 where
  toFun p := Hand.wid p.1 p.2
  invFun w := (⟨w.val % 2, Nat.mod_lt _ (by decide)⟩, ⟨w.val / 2, by have := w.isLt; omega⟩)
  left_inv p := by
    rcases p with ⟨c, s⟩
    have hc := c.isLt; have hs := s.isLt
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- A product over the SparseCores of products over their subcores is a product over the workers. -/
theorem bigSep_wid (Φ : Fin 32 → sProp 𝕄) :
    (bigSep Finset.univ fun c : Fin ((K (F := F)).nCore 0) => bigSep Finset.univ fun s : Fin 16 => Φ (Hand.wid (Fin.cast nCore_zero c) s))
      = bigSep Finset.univ Φ := by
  rw [bigSep_univ_equiv widEquiv Φ, bigSep_univ_prod]
  rfl

/-! ## The rows of the partials array -/

theorem oRowSet_eq (w : Fin 32) : Hand.oRowSet w = (Hand.oRow w).set := by
  show ((View.whole (main_v3_scv : Ref sig .scVector)).slice (Hand.oRow w)).set = _
  rw [View.set_slice]; exact Finset.map_refl

theorem rows_disjoint : ∀ i ∈ (Finset.univ : Finset (Fin 32)), ∀ j ∈ (Finset.univ : Finset (Fin 32)), i ≠ j → Disjoint (Hand.oRowSet i) (Hand.oRowSet j) :=
  fun i _ j _ h => by rw [oRowSet_eq, oRowSet_eq]; exact Rect.part_disjoint Hand.hdiv h

theorem rows_cover : (Finset.univ : Finset (Fin 32)).biUnion Hand.oRowSet = Finset.univ :=
  (Finset.biUnion_congr rfl fun i _ => oRowSet_eq i).trans (Rect.biUnion_part Hand.hdiv)

/-- The partials array whole is its thirty-two rows. -/
theorem oPts_rows (d : Dev nD) (f : Buf (Elt F) (Hand.oLoc d)) :
    (Hand.oLoc d ↦{fullShare} f : sProp 𝕄) = bigSep Finset.univ fun w : Fin 32 => Hand.oLoc d ↦[Hand.oRowSet w]{fullShare} f := by
  rw [← pointsTo_biUnion Finset.univ (ℓ := Hand.oLoc d) Hand.oRowSet rows_disjoint, rows_cover]; try rfl

/-! ## The read shares of an input array -/

/-- An array held whole is what stays behind and thirty-two read shares; -/
theorem toks_split {ℓ : Loc nD τ sig} (f : Buf (Elt F) ℓ) :
    (ℓ ↦{fullShare} f : sProp 𝕄)
      ⊢ iprop((ℓ ↦{Transfers.shareDrop fullShare 32} f) ∗ bigSep Finset.univ fun w : Fin 32 => ℓ ↦{Hand.rdShare w} f) :=
  Transfers.pointsTo_toks_split fullShare 32

/-- and they make it whole again. -/
theorem toks_join {ℓ : Loc nD τ sig} (f : Buf (Elt F) ℓ) :
    iprop((ℓ ↦{Transfers.shareDrop fullShare 32} f) ∗ bigSep Finset.univ fun w : Fin 32 => ℓ ↦{Hand.rdShare w} f)
      ⊢ (ℓ ↦{fullShare} f : sProp 𝕄) :=
  Transfers.pointsTo_toks_join fullShare 32

/-- A row at some contents is a row at contents not named. -/
theorem row_ex (d : Dev nD) (f : Buf (Elt F) (Hand.oLoc d)) (w : Fin 32) :
    (Hand.oLoc d ↦[Hand.oRowSet w]{fullShare} f : sProp 𝕄) ⊢ iprop(∃ f, Hand.oLoc d ↦[Hand.oRowSet w]{fullShare} f) := by
  iintro H; iexists f; iexact H

theorem rows_ex (d : Dev nD) (f : Buf (Elt F) (Hand.oLoc d)) :
    iprop(bigSep Finset.univ fun w : Fin 32 => (Hand.oLoc d ↦[Hand.oRowSet w]{fullShare} f : sProp 𝕄))
      ⊢ (iprop(bigSep Finset.univ fun w : Fin 32 => iprop(∃ f, Hand.oLoc d ↦[Hand.oRowSet w]{fullShare} f)) : sProp 𝕄) :=
  bigSep_mono fun w _ => row_ex d f w

variable [FloatOps F]

/-- What stays behind of the three inputs while the tasks run. -/
def rest (d : Dev nD) : sProp 𝕄 :=
  iprop((Hand.pLoc d ↦{Transfers.shareDrop fullShare 32} Hand.pC m d) ∗ (Hand.gLoc d ↦{Transfers.shareDrop fullShare 32} Hand.gC m d)
    ∗ (Hand.mLoc d ↦{Transfers.shareDrop fullShare 32} Hand.mC m d))

/-- The three inputs whole are what stays behind and every worker's shares; -/
theorem inputs_split (d : Dev nD) :
    (iprop((Hand.pLoc d ↦{fullShare} Hand.pC m d) ∗ (Hand.gLoc d ↦{fullShare} Hand.gC m d) ∗ (Hand.mLoc d ↦{fullShare} Hand.mC m d)) : sProp 𝕄)
      ⊢ iprop(rest m d ∗ bigSep Finset.univ fun w : Fin 32 => Hand.inputs m d w) := by
  unfold rest Hand.inputs
  rw [bigSep_sep', bigSep_sep']
  iintro ⟨Hp, Hg, Hm⟩
  ihave Hp' := (toks_split (Hand.pC m d)) $$ Hp
  ihave Hg' := (toks_split (Hand.gC m d)) $$ Hg
  ihave Hm' := (toks_split (Hand.mC m d)) $$ Hm
  icases Hp' with ⟨Hp, Hps⟩
  icases Hg' with ⟨Hg, Hgs⟩
  icases Hm' with ⟨Hm, Hms⟩
  isplitl [Hp Hg Hm]
  · isplitl [Hp]; · iexact Hp
    isplitl [Hg]; · iexact Hg
    iexact Hm
  isplitl [Hps]; · iexact Hps
  isplitl [Hgs]; · iexact Hgs
  iexact Hms

/-- and they make the inputs whole again. -/
theorem inputs_join (d : Dev nD) :
    iprop(rest m d ∗ bigSep Finset.univ fun w : Fin 32 => Hand.inputs m d w)
      ⊢ (iprop((Hand.pLoc d ↦{fullShare} Hand.pC m d) ∗ (Hand.gLoc d ↦{fullShare} Hand.gC m d) ∗ (Hand.mLoc d ↦{fullShare} Hand.mC m d)) : sProp 𝕄) := by
  unfold rest Hand.inputs
  rw [bigSep_sep', bigSep_sep']
  iintro ⟨⟨Hp, Hg, Hm⟩, Hps, Hgs, Hms⟩
  isplitl [Hp Hps]
  · iapply (toks_join (Hand.pC m d))
    isplitl [Hp]; · iexact Hp
    iexact Hps
  isplitl [Hg Hgs]
  · iapply (toks_join (Hand.gC m d))
    isplitl [Hg]; · iexact Hg
    iexact Hgs
  iapply (toks_join (Hand.mC m d))
  isplitl [Hm]; · iexact Hm
  iexact Hms

/-- What the call takes, as a product over the workers. -/
theorem st0_eq (d : Dev nD) :
    (bigSep Finset.univ fun c : Fin ((K (F := F)).nCore 0) => (Hand.P m).st 0 d c) = bigSep Finset.univ fun w : Fin 32 => Hand.taskIn m d w :=
  bigSep_wid (fun w => Hand.taskIn m d w)

/-- What the call hands back, as a product over the workers. -/
theorem dn0_eq (d : Dev nD) :
    (bigSep Finset.univ fun c : Fin ((K (F := F)).nCore 0) => (Hand.P m).dn 0 d c) = bigSep Finset.univ fun w : Fin 32 => Hand.taskOut m d w :=
  bigSep_wid (fun w => Hand.taskOut m d w)

/-- Before the call: the inputs whole and the partials array whole at any contents give every SparseCore its tasks'
    operands, the remainders staying behind. -/
theorem call_in (d : Dev nD) :
    iprop((Hand.pLoc d ↦{fullShare} Hand.pC m d) ∗ (Hand.gLoc d ↦{fullShare} Hand.gC m d) ∗ (Hand.mLoc d ↦{fullShare} Hand.mC m d)
        ∗ ∃ f, Hand.oLoc d ↦{fullShare} f)
      ⊢ iprop(rest m d ∗ bigSep Finset.univ fun c : Fin ((K (F := F)).nCore 0) => (Hand.P m).st 0 d c) := by
  rw [st0_eq]
  unfold Hand.taskIn
  rw [bigSep_sep']
  iintro ⟨Hp, Hg, Hm, %f, Ho⟩
  ihave Hin := (inputs_split m d) $$ [Hp Hg Hm]
  · isplitl [Hp]; · iexact Hp
    isplitl [Hg]; · iexact Hg
    iexact Hm
  icases Hin with ⟨Hr, Hin⟩
  isplitl [Hr]; · iexact Hr
  isplitl [Hin]; · iexact Hin
  iapply (rows_ex d f)
  iapply (Entails.of_eq (oPts_rows d f))
  iexact Ho

/-- After the call: the remainders and what every SparseCore hands back give the inputs whole again and the partials
    array whole at the specification's value. -/
theorem call_out (d : Dev nD) :
    iprop(rest m d ∗ bigSep Finset.univ fun c : Fin ((K (F := F)).nCore 0) => (Hand.P m).dn 0 d c)
      ⊢ iprop((Hand.pLoc d ↦{fullShare} Hand.pC m d) ∗ (Hand.gLoc d ↦{fullShare} Hand.gC m d) ∗ (Hand.mLoc d ↦{fullShare} Hand.mC m d)
        ∗ (Hand.oLoc d ↦{fullShare} Hand.oC m d)) := by
  rw [dn0_eq]
  unfold Hand.taskOut
  rw [bigSep_sep', ← oPts_rows]
  iintro ⟨Hr, Hin, Ho⟩
  ihave H := (inputs_join m d) $$ [Hr Hin]
  · isplitl [Hr]; · iexact Hr
    iexact Hin
  icases H with ⟨Hp, Hg, Hm⟩
  isplitl [Hp]; · iexact Hp
  isplitl [Hg]; · iexact Hg
  isplitl [Hm]; · iexact Hm
  iexact Ho

end Cert.KernelIdeal.MainSplit

end
-- ==== Proof.KI.MainVal.lean ====
/-
  The contents of the TensorCore's unscoped arrays along @main.

  Between the stretches of host operations the contents are a function of the launch contents: after the first three
  operations the flat arrays hold the arguments flattened; the SparseCore call leaves the partials array at the
  specification's partials; after the next three operations the 65536 × 128 arrays hold the flat arrays re-read; the
  region leaves its two results at the specification's sum and count; the last operations leave the program's result at
  the specification's value. Each stage is the previous one folded through a stretch's operations, or updated at the
  arrays a call writes.
-/
import proofs.«210416_g85048942395886_cont_9to1c4b_614_23_alg».proof.Proof.KI.Hand
import proofs.«210416_g85048942395886_cont_9to1c4b_614_23_alg».proof.Proof.KI.MainOps

noncomputable section

namespace Cert.KernelIdeal.MainVal

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.KernelIdeal.MainOps
open Idealize.ShloMosaic.StableHlo (after after_cons after_nil)

variable (m : (ℓ : Loc nD τ sig) → Buf (Elt F) ℓ)

/-- A TensorCore reference as a buffer of the device. -/
abbrev rf (b : Ref sig .tc) : DevRef τ sig := Proc.devRef .tc b

/-- The TensorCore's unscoped arrays. -/
abbrev U26 : Finset (DevRef τ sig) := Pipeline.ucRefs τ sig

/-- The SparseCore call's operands; the region's; what the claim reads at the end. -/
def T4 : Finset (DevRef τ sig) := {rf main_v0, rf main_v1, rf main_v2, rf main_v3}
def T5 : Finset (DevRef τ sig) := {rf main_v4, rf main_v5, rf main_v6, rf main_v7_0, rf main_v7_1}
def TF : Finset (DevRef τ sig) := {rf main_arg0, rf main_arg1, rf main_arg2, rf main_v19}

theorem T4_sub : T4 ⊆ U26 := by decide
theorem T5_sub : T5 ⊆ U26 := by decide
theorem TF_sub : TF ⊆ U26 := by decide

theorem held_T4 (d : Dev nD) (W : Valuation τ sig (Elt F)) :
    (StableHlo.held (SparseCore.T d) T4 W : sProp 𝕄)
      = iprop((Hand.pLoc d ↦{fullShare} W (rf main_v0)) ∗ (Hand.gLoc d ↦{fullShare} W (rf main_v1)) ∗ (Hand.mLoc d ↦{fullShare} W (rf main_v2))
          ∗ (Hand.oLoc d ↦{fullShare} W (rf main_v3))) := by
  unfold StableHlo.held T4
  rw [SparseCore.bigSep_insert' (by decide), SparseCore.bigSep_insert' (by decide), SparseCore.bigSep_insert' (by decide), bigSep_singleton]

theorem held_T5 (d : Dev nD) (W : Valuation τ sig (Elt F)) :
    (StableHlo.held (SparseCore.T d) T5 W : sProp 𝕄)
      = iprop(((SparseCore.T d).loc main_v4 ↦{fullShare} W (rf main_v4)) ∗ ((SparseCore.T d).loc main_v5 ↦{fullShare} W (rf main_v5)) ∗ ((SparseCore.T d).loc main_v6 ↦{fullShare} W (rf main_v6))
          ∗ ((SparseCore.T d).loc main_v7_0 ↦{fullShare} W (rf main_v7_0)) ∗ ((SparseCore.T d).loc main_v7_1 ↦{fullShare} W (rf main_v7_1))) := by
  unfold StableHlo.held T5
  rw [SparseCore.bigSep_insert' (by decide), SparseCore.bigSep_insert' (by decide), SparseCore.bigSep_insert' (by decide), SparseCore.bigSep_insert' (by decide), bigSep_singleton]

theorem held_TF (d : Dev nD) (W : Valuation τ sig (Elt F)) :
    (StableHlo.held (SparseCore.T d) TF W : sProp 𝕄)
      = iprop(((SparseCore.T d).loc main_arg0 ↦{fullShare} W (rf main_arg0)) ∗ ((SparseCore.T d).loc main_arg1 ↦{fullShare} W (rf main_arg1)) ∗ ((SparseCore.T d).loc main_arg2 ↦{fullShare} W (rf main_arg2))
          ∗ ((SparseCore.T d).loc main_v19 ↦{fullShare} W (rf main_v19))) := by
  unfold StableHlo.held TF
  rw [SparseCore.bigSep_insert' (by decide), SparseCore.bigSep_insert' (by decide), SparseCore.bigSep_insert' (by decide), bigSep_singleton]

/-- Contents changed at an array outside a set are the same on the set. -/
theorem held_update {c : Thread nD τ} {S : Finset (DevRef τ sig)} {W : Valuation τ sig (Elt F)} {b : DevRef τ sig} (hb : b ∉ S)
    (f : Buf (Elt F) (c.1, b)) : (StableHlo.held c S (Function.update W b f) : sProp 𝕄) = StableHlo.held c S W :=
  StableHlo.held_congr c fun x hx => Function.update_of_ne (show x ≠ b from fun e => hb (e ▸ hx)) _ _

variable [FloatOps F]

/-! ## The stages -/

/-- At launch. -/
def V0 (d : Dev nD) : Valuation τ sig (Elt F) := fun b => m (d, b)
/-- After the arguments are flattened. -/
def V1 (d : Dev nD) : Valuation τ sig (Elt F) := after ops1 (V0 m d)
/-- After the SparseCore call: the partials array at the specification's partials. -/
def V1' (d : Dev nD) : Valuation τ sig (Elt F) := Function.update (V1 m d) (rf main_v3) (Hand.oC m d)
/-- After the flat arrays are re-read as 65536 rows of 128. -/
def V2 (d : Dev nD) : Valuation τ sig (Elt F) := after ops2 (V1' m d)

/-- The region's three operands. -/
def p4 (d : Dev nD) : FVec F S65536x128 .f32 := shapeCast S65536x128 (Hand.pC m d) shapeCasts_S8388608_S65536x128
def g4 (d : Dev nD) : FVec F S65536x128 .f32 := shapeCast S65536x128 (Hand.gC m d) shapeCasts_S8388608_S65536x128
def m4 (d : Dev nD) : IVec S65536x128 32 := shapeCast S65536x128 (Hand.mC m d) shapeCasts_S8388608_S65536x128

/-- After the region: its two results at the specification's sum and count. -/
def V2' (d : Dev nD) : Valuation τ sig (Elt F) :=
  Function.update (Function.update (V2 m d) (rf main_v7_0) (Spec.tcSum (p4 m d) (g4 m d) (m4 m d) : Buf (Elt F) (d, rf main_v7_0)))
    (rf main_v7_1) (Spec.tcCnt (p4 m d) (g4 m d) (m4 m d) : Buf (Elt F) (d, rf main_v7_1))
/-- At the end. -/
def V3 (d : Dev nD) : Valuation τ sig (Elt F) := after ops3 (V2' m d)

/-! ## The stages read at the arrays that matter -/

theorem V1_v0 (d : Dev nD) : V1 m d (rf main_v0) = Hand.pC m d := by
  unfold V1 ops1; after_results; rfl
theorem V1_v1 (d : Dev nD) : V1 m d (rf main_v1) = Hand.gC m d := by
  unfold V1 ops1; after_results; rfl
theorem V1_v2 (d : Dev nD) : V1 m d (rf main_v2) = Hand.mC m d := by
  unfold V1 ops1; after_results; rfl

theorem V1'_v0 (d : Dev nD) : V1' m d (rf main_v0) = Hand.pC m d :=
  (Function.update_of_ne (show rf main_v0 ≠ rf main_v3 by decide) _ _).trans (V1_v0 m d)
theorem V1'_v1 (d : Dev nD) : V1' m d (rf main_v1) = Hand.gC m d :=
  (Function.update_of_ne (show rf main_v1 ≠ rf main_v3 by decide) _ _).trans (V1_v1 m d)
theorem V1'_v2 (d : Dev nD) : V1' m d (rf main_v2) = Hand.mC m d :=
  (Function.update_of_ne (show rf main_v2 ≠ rf main_v3 by decide) _ _).trans (V1_v2 m d)
theorem V1'_v3 (d : Dev nD) : V1' m d (rf main_v3) = Hand.oC m d := Function.update_self _ _ _

theorem V2_v4 (d : Dev nD) : V2 m d (rf main_v4) = p4 m d := by
  unfold V2 ops2; after_results; rw [V1'_v0]; rfl
theorem V2_v5 (d : Dev nD) : V2 m d (rf main_v5) = g4 m d := by
  unfold V2 ops2; after_results; rw [V1'_v1]; rfl
theorem V2_v6 (d : Dev nD) : V2 m d (rf main_v6) = m4 m d := by
  unfold V2 ops2; after_results; rw [V1'_v2]; rfl
theorem V2_v3 (d : Dev nD) : V2 m d (rf main_v3) = Hand.oC m d := by
  unfold V2 ops2; after_results; exact V1'_v3 m d

theorem V2'_v3 (d : Dev nD) : V2' m d (rf main_v3) = Hand.oC m d :=
  (Function.update_of_ne (show rf main_v3 ≠ rf main_v7_1 by decide) _ _).trans
    ((Function.update_of_ne (show rf main_v3 ≠ rf main_v7_0 by decide) _ _).trans (V2_v3 m d))
theorem V2'_v4 (d : Dev nD) : V2' m d (rf main_v4) = p4 m d :=
  (Function.update_of_ne (show rf main_v4 ≠ rf main_v7_1 by decide) _ _).trans
    ((Function.update_of_ne (show rf main_v4 ≠ rf main_v7_0 by decide) _ _).trans (V2_v4 m d))
theorem V2'_v5 (d : Dev nD) : V2' m d (rf main_v5) = g4 m d :=
  (Function.update_of_ne (show rf main_v5 ≠ rf main_v7_1 by decide) _ _).trans
    ((Function.update_of_ne (show rf main_v5 ≠ rf main_v7_0 by decide) _ _).trans (V2_v5 m d))
theorem V2'_v6 (d : Dev nD) : V2' m d (rf main_v6) = m4 m d :=
  (Function.update_of_ne (show rf main_v6 ≠ rf main_v7_1 by decide) _ _).trans
    ((Function.update_of_ne (show rf main_v6 ≠ rf main_v7_0 by decide) _ _).trans (V2_v6 m d))
theorem V2'_v7_0 (d : Dev nD) : V2' m d (rf main_v7_0) = Spec.tcSum (p4 m d) (g4 m d) (m4 m d) :=
  (Function.update_of_ne (show rf main_v7_0 ≠ rf main_v7_1 by decide) _ _).trans (Function.update_self _ _ _)
theorem V2'_v7_1 (d : Dev nD) : V2' m d (rf main_v7_1) = Spec.tcCnt (p4 m d) (g4 m d) (m4 m d) := Function.update_self _ _ _

/-- An argument is never written. -/
theorem V3_arg0 (d : Dev nD) : V3 m d (rf main_arg0) = m ((SparseCore.T d).loc main_arg0) := by
  unfold V3 ops3; after_results
  refine (Function.update_of_ne (show rf main_arg0 ≠ rf main_v7_1 by decide) _ _).trans
    ((Function.update_of_ne (show rf main_arg0 ≠ rf main_v7_0 by decide) _ _).trans ?_)
  unfold V2 ops2; after_results
  refine (Function.update_of_ne (show rf main_arg0 ≠ rf main_v3 by decide) _ _).trans ?_
  unfold V1 ops1; after_results; rfl
theorem V3_arg1 (d : Dev nD) : V3 m d (rf main_arg1) = m ((SparseCore.T d).loc main_arg1) := by
  unfold V3 ops3; after_results
  refine (Function.update_of_ne (show rf main_arg1 ≠ rf main_v7_1 by decide) _ _).trans
    ((Function.update_of_ne (show rf main_arg1 ≠ rf main_v7_0 by decide) _ _).trans ?_)
  unfold V2 ops2; after_results
  refine (Function.update_of_ne (show rf main_arg1 ≠ rf main_v3 by decide) _ _).trans ?_
  unfold V1 ops1; after_results; rfl
theorem V3_arg2 (d : Dev nD) : V3 m d (rf main_arg2) = m ((SparseCore.T d).loc main_arg2) := by
  unfold V3 ops3; after_results
  refine (Function.update_of_ne (show rf main_arg2 ≠ rf main_v7_1 by decide) _ _).trans
    ((Function.update_of_ne (show rf main_arg2 ≠ rf main_v7_0 by decide) _ _).trans ?_)
  unfold V2 ops2; after_results
  refine (Function.update_of_ne (show rf main_arg2 ≠ rf main_v3 by decide) _ _).trans ?_
  unfold V1 ops1; after_results; rfl

/-- The program's result is the specification's: the last operations are the specification's own, over the partials
    and the region's two results. -/
theorem V3_v19 (d : Dev nD) :
    V3 m d (rf main_v19) = Spec.result (m ((SparseCore.T d).loc main_arg0)) (m ((SparseCore.T d).loc main_arg1)) (m ((SparseCore.T d).loc main_arg2)) := by
  unfold V3 ops3; after_results
  rw [V2'_v3, V2'_v7_0, V2'_v7_1]
  rfl

/-! ## The unscoped arrays at each stage, the arrays a call takes set apart -/

theorem unscoped_V0 (d : Dev nD) :
    (unscopedBufs d (fun b => m ((SparseCore.T d).loc b)) : sProp 𝕄) = StableHlo.held (SparseCore.T d) U26 (V0 m d) :=
  Pipeline.unscopedBufs_held d (V0 m d)

theorem held_V1 (d : Dev nD) :
    (StableHlo.held (SparseCore.T d) U26 (V1 m d) : sProp 𝕄)
      = iprop(((Hand.pLoc d ↦{fullShare} Hand.pC m d) ∗ (Hand.gLoc d ↦{fullShare} Hand.gC m d) ∗ (Hand.mLoc d ↦{fullShare} Hand.mC m d)
            ∗ (Hand.oLoc d ↦{fullShare} V1 m d (rf main_v3)))
          ∗ StableHlo.held (SparseCore.T d) (U26 \ T4) (V1 m d)) := by
  rw [StableHlo.held_sub_split (SparseCore.T d) T4_sub, held_T4, V1_v0, V1_v1, V1_v2]

theorem held_V1' (d : Dev nD) :
    (StableHlo.held (SparseCore.T d) U26 (V1' m d) : sProp 𝕄)
      = iprop(((Hand.pLoc d ↦{fullShare} Hand.pC m d) ∗ (Hand.gLoc d ↦{fullShare} Hand.gC m d) ∗ (Hand.mLoc d ↦{fullShare} Hand.mC m d)
            ∗ (Hand.oLoc d ↦{fullShare} Hand.oC m d))
          ∗ StableHlo.held (SparseCore.T d) (U26 \ T4) (V1 m d)) := by
  rw [StableHlo.held_sub_split (SparseCore.T d) T4_sub, held_T4, V1'_v0, V1'_v1, V1'_v2, V1'_v3]
  unfold V1'
  rw [held_update (fun h => (Finset.mem_sdiff.mp h).2 (show rf main_v3 ∈ T4 by decide))]

theorem held_V2 (d : Dev nD) :
    (StableHlo.held (SparseCore.T d) U26 (V2 m d) : sProp 𝕄)
      = iprop((((SparseCore.T d).loc main_v4 ↦{fullShare} p4 m d) ∗ ((SparseCore.T d).loc main_v5 ↦{fullShare} g4 m d) ∗ ((SparseCore.T d).loc main_v6 ↦{fullShare} m4 m d)
            ∗ ((SparseCore.T d).loc main_v7_0 ↦{fullShare} V2 m d (rf main_v7_0)) ∗ ((SparseCore.T d).loc main_v7_1 ↦{fullShare} V2 m d (rf main_v7_1)))
          ∗ StableHlo.held (SparseCore.T d) (U26 \ T5) (V2 m d)) := by
  rw [StableHlo.held_sub_split (SparseCore.T d) T5_sub, held_T5, V2_v4, V2_v5, V2_v6]

theorem held_V2' (d : Dev nD) :
    (StableHlo.held (SparseCore.T d) U26 (V2' m d) : sProp 𝕄)
      = iprop((((SparseCore.T d).loc main_v4 ↦{fullShare} p4 m d) ∗ ((SparseCore.T d).loc main_v5 ↦{fullShare} g4 m d) ∗ ((SparseCore.T d).loc main_v6 ↦{fullShare} m4 m d)
            ∗ ((SparseCore.T d).loc main_v7_0 ↦{fullShare} Spec.tcSum (p4 m d) (g4 m d) (m4 m d)) ∗ ((SparseCore.T d).loc main_v7_1 ↦{fullShare} Spec.tcCnt (p4 m d) (g4 m d) (m4 m d)))
          ∗ StableHlo.held (SparseCore.T d) (U26 \ T5) (V2 m d)) := by
  rw [StableHlo.held_sub_split (SparseCore.T d) T5_sub, held_T5, V2'_v4, V2'_v5, V2'_v6, V2'_v7_0, V2'_v7_1]
  unfold V2'
  rw [held_update (fun h => (Finset.mem_sdiff.mp h).2 (show rf main_v7_1 ∈ T5 by decide)),
    held_update (fun h => (Finset.mem_sdiff.mp h).2 (show rf main_v7_0 ∈ T5 by decide))]

theorem held_V3 (d : Dev nD) :
    (StableHlo.held (SparseCore.T d) U26 (V3 m d) : sProp 𝕄)
      = iprop((((SparseCore.T d).loc main_arg0 ↦{fullShare} m ((SparseCore.T d).loc main_arg0)) ∗ ((SparseCore.T d).loc main_arg1 ↦{fullShare} m ((SparseCore.T d).loc main_arg1))
            ∗ ((SparseCore.T d).loc main_arg2 ↦{fullShare} m ((SparseCore.T d).loc main_arg2))
            ∗ ((SparseCore.T d).loc main_v19 ↦{fullShare}
                (Spec.result (m ((SparseCore.T d).loc main_arg0)) (m ((SparseCore.T d).loc main_arg1)) (m ((SparseCore.T d).loc main_arg2)) : Buf (Elt F) ((SparseCore.T d).loc main_v19))))
          ∗ StableHlo.held (SparseCore.T d) (U26 \ TF) (V3 m d)) := by
  rw [StableHlo.held_sub_split (SparseCore.T d) TF_sub, held_TF, V3_arg0, V3_arg1, V3_arg2, V3_v19]

end Cert.KernelIdeal.MainVal

end
-- ==== Proof.KI.MainAsm.lean ====
/-
  @main on the TensorCore, the region taken as given.

  From what the launch deals the TensorCore — its boundary holdings, its unscoped arrays at the launch contents, the
  region's ghost state — @main runs its five stretches in order. The host stretches run within the unscoped arrays held
  whole; around the SparseCore call the four arrays it touches are set apart, dealt to the tasks and collected; around
  the region its five arrays are set apart and handed over, the region's own correctness being the hypothesis `htc`. At
  the end the arguments are at their launch contents and the result at the specification's value.
-/
import proofs.«210416_g85048942395886_cont_9to1c4b_614_23_alg».proof.Proof.KI.Hand
import proofs.«210416_g85048942395886_cont_9to1c4b_614_23_alg».proof.Proof.KI.TcGhost
import proofs.«210416_g85048942395886_cont_9to1c4b_614_23_alg».proof.Proof.KI.MainOps
import proofs.«210416_g85048942395886_cont_9to1c4b_614_23_alg».proof.Proof.KI.MainSplit
import proofs.«210416_g85048942395886_cont_9to1c4b_614_23_alg».proof.Proof.KI.MainVal

noncomputable section

namespace Cert.KernelIdeal.MainAsm

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

-- a rule stated for any thread applies at the TensorCore's only when unification may unfold plain definitions in a
-- metavariable's type
set_option backward.isDefEq.respectTransparency.types false in
/-- @main on device `d`'s TensorCore, from the region's rule `htc`. -/
theorem hmain_of [∀ e, Nonempty (Elt F e)]
    (htc : ∀ (P : (K (F := F)).Pay (nD := nD) (Val := Elt F) (Name := ℕ) (U := UU))
    (κ : GSem nD τ sig → ℕ) (d : Dev nD) (p4 g4 : FVec F S65536x128 .f32) (m4 : IVec S65536x128 32)
    {α : Type} (k : PUnit → Prog (TpuEff nD τ sig (Elt F) (SparseCore.Sig (ΛP (F := F)) 1) .tc) α) (Q : α → sProp 𝕄),
    iprop((K (F := F)).ctx EH P κ ∗ (K (F := F)).tcSt EH d 1 ∗ boundary (SparseCore.T d) ∗ TcGhost.G d
        ∗ ((SparseCore.T d).loc main_v4 ↦{fullShare} p4) ∗ ((SparseCore.T d).loc main_v5 ↦{fullShare} g4) ∗ ((SparseCore.T d).loc main_v6 ↦{fullShare} m4)
        ∗ (∃ f, (SparseCore.T d).loc main_v7_0 ↦{fullShare} f) ∗ (∃ f, (SparseCore.T d).loc main_v7_1 ↦{fullShare} f)
        ∗ (iprop((K (F := F)).tcSt EH d 1 ∗ boundary (SparseCore.T d)
            ∗ ((SparseCore.T d).loc main_v4 ↦{fullShare} p4) ∗ ((SparseCore.T d).loc main_v5 ↦{fullShare} g4) ∗ ((SparseCore.T d).loc main_v6 ↦{fullShare} m4)
            ∗ ((SparseCore.T d).loc main_v7_0 ↦{fullShare} Spec.tcSum p4 g4 m4) ∗ ((SparseCore.T d).loc main_v7_1 ↦{fullShare} Spec.tcCnt p4 g4 m4))
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (.op (.customCall (SparseCore.inner (Pipeline.entry 0)) ()) k) Q)
    (m : (ℓ : Loc nD τ sig) → Buf (Elt F) ℓ) (ρ : Dev nD → PrngReg) (κ : GSem nD τ sig → ℕ) (d : Dev nD) :
    iprop((K (F := F)).ctx EH (Hand.P m) κ ∗ (K (F := F)).tcSt EH d 0 ∗ (K (F := F)).tcRes m ρ d ∗ TcGhost.G d)
      ⊢ wp frame (wpE ((K (F := F)).defs (D (F := F))) 𝒱 (SparseCore.T d) none) Set.univ (main d)
          fun _ => iprop((K (F := F)).tcSt EH d 1 ∗ Hand.FIN m d) := by
  have e1 : (StableHlo.held (Dev.tc d : Thread nD τ) MainVal.U26 (StableHlo.after MainOps.ops1 (MainVal.V0 m d)) : sProp 𝕄) = _ := MainVal.held_V1 m d
  have e2 : (StableHlo.held (Dev.tc d : Thread nD τ) MainVal.U26 (StableHlo.after MainOps.ops2 (MainVal.V1' m d)) : sProp 𝕄) = _ := MainVal.held_V2 m d
  have e3 : (StableHlo.held (Dev.tc d : Thread nD τ) MainVal.U26 (StableHlo.after MainOps.ops3 (MainVal.V2' m d)) : sProp 𝕄) = _ := MainVal.held_V3 m d
  unfold SparseCore.Cfg.tcRes
  rw [MainVal.unscoped_V0, MainOps.main_chain]
  simp only [Pipeline.chain_cons, Pipeline.chain_nil, Prog.bind_lift]
  iintro ⟨#Hctx, Hst, ⟨Hb, Hheld, -, -⟩, HG⟩
  -- the arguments flattened
  iapply (StableHlo.wp_seq 𝒱 none Set.univ d MainVal.U26 _ MainOps.ops1 MainOps.ops1_sub MainOps.ops1_fresh (MainVal.V0 m d)) $$ [Hb Hheld]
  · isplitl [Hb]; · iexact Hb
    iexact Hheld
  iintro ⟨Hb, Hheld⟩
  ihave Hh := (Entails.of_eq e1) $$ Hheld
  icases Hh with ⟨⟨Hp, Hg, Hm, Ho⟩, Hrest⟩
  -- the SparseCore call: every task its read shares and its row, all back with the rows filled
  ihave Hin := (MainSplit.call_in m d) $$ [Hp Hg Hm Ho]
  · isplitl [Hp]; · iexact Hp
    isplitl [Hg]; · iexact Hg
    isplitl [Hm]; · iexact Hm
    iexists _; iexact Ho
  icases Hin with ⟨Hr, Hst0⟩
  rw [wp_bind]
  iapply ((K (F := F)).wp_run (D (F := F)) 𝒱 (EH := EH) (P := Hand.P m) κ d 0) $$ [Hst Hst0 Hb Hr Hrest HG]
  isplitr; · iexact Hctx
  isplitl [Hst]; · iexact Hst
  isplitl [Hst0]; · iexact Hst0
  iintro ⟨Hst, Hdn⟩
  ihave Hout := (MainSplit.call_out m d) $$ [Hr Hdn]
  · isplitl [Hr]; · iexact Hr
    iexact Hdn
  ihave Hheld := (Entails.of_eq (MainVal.held_V1' m d).symm) $$ [Hout Hrest]
  · isplitl [Hout]; · iexact Hout
    iexact Hrest
  -- the flat arrays as 65536 rows of 128
  iapply (StableHlo.wp_seq 𝒱 none Set.univ d MainVal.U26 _ MainOps.ops2 MainOps.ops2_sub MainOps.ops2_fresh (MainVal.V1' m d)) $$ [Hb Hheld]
  · isplitl [Hb]; · iexact Hb
    iexact Hheld
  iintro ⟨Hb, Hheld⟩
  ihave Hh := (Entails.of_eq e2) $$ Hheld
  icases Hh with ⟨⟨H4, H5, H6, H70, H71⟩, Hrest⟩
  -- the region: its three operands in, its two results out at the specification's sum and count
  iapply (htc (Hand.P m) κ d (MainVal.p4 m d) (MainVal.g4 m d) (MainVal.m4 m d) _ _) $$ [Hst Hb HG H4 H5 H6 H70 H71 Hrest]
  isplitr; · iexact Hctx
  isplitl [Hst]; · iexact Hst
  isplitl [Hb]; · iexact Hb
  isplitl [HG]; · iexact HG
  isplitl [H4]; · iexact H4
  isplitl [H5]; · iexact H5
  isplitl [H6]; · iexact H6
  isplitl [H70]; · iexists _; iexact H70
  isplitl [H71]; · iexists _; iexact H71
  iintro ⟨Hst, Hb, H4, H5, H6, H70, H71⟩
  ihave Hheld := (Entails.of_eq (MainVal.held_V2' m d).symm) $$ [H4 H5 H6 H70 H71 Hrest]
  · isplitr [Hrest]
    · isplitl [H4]; · iexact H4
      isplitl [H5]; · iexact H5
      isplitl [H6]; · iexact H6
      isplitl [H70]; · iexact H70
      iexact H71
    iexact Hrest
  -- the partials reduced, the two pairs of sums added, the quotient
  iapply (StableHlo.wp_seq 𝒱 none Set.univ d MainVal.U26 _ MainOps.ops3 MainOps.ops3_sub MainOps.ops3_fresh (MainVal.V2' m d)) $$ [Hb Hheld]
  · isplitl [Hb]; · iexact Hb
    iexact Hheld
  iintro ⟨Hb, Hheld⟩
  ihave Hh := (Entails.of_eq e3) $$ Hheld
  icases Hh with ⟨⟨Ha0, Ha1, Ha2, H19⟩, -⟩
  rw [wp_pure]; imodintro
  unfold Hand.FIN
  isplitl [Hst]; · iexact Hst
  isplitl [Ha0]; · iexact Ha0
  isplitl [Ha1]; · iexact Ha1
  isplitl [Ha2]; · iexact Ha2
  iexact H19

end Cert.KernelIdeal.MainAsm

end
-- ==== Proof.KI.Main.lean ====
/-
  @main on the TensorCore: what the SparseCore launch theorem asks of the TensorCore's thread. From the launch's deal and
  the region's ghost state, @main ends with the handshake state one call on, the arguments at their launch contents and
  the result at the specification's value.
-/
import proofs.«210416_g85048942395886_cont_9to1c4b_614_23_alg».proof.Proof.KI.Hand
import proofs.«210416_g85048942395886_cont_9to1c4b_614_23_alg».proof.Proof.KI.TcGhost
import proofs.«210416_g85048942395886_cont_9to1c4b_614_23_alg».proof.Proof.KI.TcRegion
import proofs.«210416_g85048942395886_cont_9to1c4b_614_23_alg».proof.Proof.KI.MainAsm

noncomputable section

namespace Cert.KernelIdeal.Main

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- @main on device `d`'s TensorCore. -/
theorem hmain [∀ e, Nonempty (Elt F e)] (m : (ℓ : Loc nD τ sig) → Buf (Elt F) ℓ) (ρ : Dev nD → PrngReg) (κ : GSem nD τ sig → ℕ) (d : Dev nD) :
    iprop((K (F := F)).ctx EH (Hand.P m) κ ∗ (K (F := F)).tcSt EH d 0 ∗ (K (F := F)).tcRes m ρ d ∗ TcGhost.G d)
      ⊢ wp frame (wpE ((K (F := F)).defs (D (F := F))) 𝒱 (SparseCore.T d) none) Set.univ (main d)
          fun _ => iprop((K (F := F)).tcSt EH d 1 ∗ Hand.FIN m d) :=
  MainAsm.hmain_of (fun P κ d p4 g4 m4 _ k Q => TcRegion.tc_region P κ d p4 g4 m4 k Q) m ρ κ d

end Cert.KernelIdeal.Main

end
-- ==== Proof.KI.Run.lean ====
/-
  The kernel program's run: every weakly fair execution of the device's thirty-five threads terminates, and in the
  final memory the three arguments are as launched and the result is the specification's value of them.

  The SparseCore launch theorem, at the one vector-subcore call: the subcore task's obligation, the (trivial) split of a
  SparseCore's sixteen tasks, @main on the TensorCore, the launch element, and the reading of the final memory.
-/
import proofs.«210416_g85048942395886_cont_9to1c4b_614_23_alg».proof.Proof.KI.LaunchElem
import proofs.«210416_g85048942395886_cont_9to1c4b_614_23_alg».proof.Proof.KI.TileObl
import proofs.«210416_g85048942395886_cont_9to1c4b_614_23_alg».proof.Proof.KI.Main

noncomputable section

namespace Cert.KernelIdeal.Run

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What every final state satisfies, on every device. -/
def QC : PUnit × MemSt nD τ sig (Elt F) → Prop := fun r => ∀ c : Dev nD,
  r.2.mem ((SparseCore.T c).loc main_v19)
      = (Spec.result (m ((SparseCore.T c).loc main_arg0)) (m ((SparseCore.T c).loc main_arg1)) (m ((SparseCore.T c).loc main_arg2))
          : Buf (Elt F) ((SparseCore.T c).loc main_v19))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)

set_option maxHeartbeats 2000000 in
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Hand.P m) facts v₀
    (fun q hq => match q with | 0 => nomatch hq)
    (fun q _ => match q with | 0 => TileObl.tileObl m facts)
    (fun q _ => match q with | 0 => SparseCore.Cfg.VecSplit.of_plain (TileObl.vecSplit m))
    m ρ main (fun d => TcGhost.G (F := F) d) (Hand.FIN m) (LaunchElem.u₀ (F := F)) (sep_elim_left.trans (LaunchElem.hu₀ m))
    (Main.hmain m ρ) (LaunchElem.fq m) (LaunchElem.hfin m) (QC m) (fun _ h => h)

end Cert.KernelIdeal.Run

end
-- ==== Proof.Value.Partition.lean ====
/-
  The positions 0 .. 8388607 of the flat array, cut the way the program walks them: first thirty-two runs of 3072
  steps of sixteen consecutive positions, then twenty-six blocks of 2048 rows of 128 consecutive positions, the
  first of which begins at row 12288 = 2048 * 6. A sum over all positions, in any commutative monoid, is the sum
  of the triple sums over the two cuts.
-/
import Mathlib.Algebra.BigOperators.Fin
import Mathlib.Algebra.BigOperators.Intervals
import Mathlib.Tactic.Ring

namespace Cert.Value

open Finset

variable {M : Type*} [AddCommMonoid M]

/-- A sum over `a * b` consecutive naturals is the sum over `a` runs of `b`. -/
theorem sum_range_mul (f : ℕ → M) (a b : ℕ) :
    ∑ n ∈ range (a * b), f n = ∑ i ∈ range a, ∑ j ∈ range b, f (b * i + j) := by
  induction a with
  | zero => simp
  | succ a ih => rw [Nat.succ_mul, sum_range_add, ih, sum_range_succ, Nat.mul_comm a b]

/-- The same over three nested runs: `a` runs of `b` runs of `c`. -/
theorem sum_range_mul_mul (f : ℕ → M) (a b c : ℕ) :
    ∑ n ∈ range (a * (b * c)), f n
      = ∑ i ∈ range a, ∑ j ∈ range b, ∑ k ∈ range c, f (b * c * i + c * j + k) := by
  rw [sum_range_mul]
  refine sum_congr rfl fun i _ => ?_
  rw [sum_range_mul]
  refine sum_congr rfl fun j _ => sum_congr rfl fun k _ => ?_
  rw [Nat.add_assoc]

/-- The cut of all 8388608 positions, over ranges of naturals. -/
theorem sum_positions_range (f : ℕ → M) :
    ∑ n ∈ range 8388608, f n
      = (∑ w ∈ range 32, ∑ n ∈ range 3072, ∑ l ∈ range 16, f (49152 * w + 16 * n + l))
        + ∑ t ∈ range 26, ∑ r ∈ range 2048, ∑ c ∈ range 128, f (128 * (2048 * (t + 6) + r) + c) := by
  have e : (8388608 : ℕ) = 32 * (3072 * 16) + 26 * (2048 * 128) := by norm_num
  rw [e, sum_range_add, sum_range_mul_mul, sum_range_mul_mul]
  refine congrArg₂ (· + ·) rfl ?_
  refine sum_congr rfl fun t _ => sum_congr rfl fun r _ => sum_congr rfl fun c _ => congrArg f ?_
  ring

/-- The cut of all 8388608 positions, over the finite index types the program's sums run over. -/
theorem sum_positions (f : ℕ → M) :
    ∑ n : Fin 8388608, f n.val
      = (∑ w : Fin 32, ∑ n : Fin 3072, ∑ l : Fin 16, f (49152 * w.val + 16 * n.val + l.val))
        + ∑ t : Fin 26, ∑ r : Fin 2048, ∑ c : Fin 128, f (128 * (2048 * (t.val + 6) + r.val) + c.val) := by
  rw [Fin.sum_univ_eq_sum_range (fun n => f n) 8388608, sum_positions_range,
    ← Fin.sum_univ_eq_sum_range (fun w => ∑ n ∈ range 3072, ∑ l ∈ range 16, f (49152 * w + 16 * n + l)) 32,
    ← Fin.sum_univ_eq_sum_range (fun t => ∑ r ∈ range 2048, ∑ c ∈ range 128, f (128 * (2048 * (t + 6) + r) + c)) 26]
  refine congrArg₂ (· + ·) (sum_congr rfl fun w _ => ?_) (sum_congr rfl fun t _ => ?_)
  · rw [← Fin.sum_univ_eq_sum_range (fun n => ∑ l ∈ range 16, f (49152 * w.val + 16 * n + l)) 3072]
    refine sum_congr rfl fun n _ => ?_
    rw [← Fin.sum_univ_eq_sum_range (fun l => f (49152 * w.val + 16 * n.val + l)) 16]
  · rw [← Fin.sum_univ_eq_sum_range (fun r => ∑ c ∈ range 128, f (128 * (2048 * (t.val + 6) + r) + c)) 2048]
    refine sum_congr rfl fun r _ => ?_
    rw [← Fin.sum_univ_eq_sum_range (fun c => f (128 * (2048 * (t.val + 6) + r.val) + c)) 128]

end Cert.Value
-- ==== Proof.Value.Idx.lean ====
/-
  Sums over the index sets of small rank as nested sums over the coordinates, and the fact that laying an array out
  again in another shape of the same size does not change its total.
-/
import proofs.«210416_g85048942395886_cont_9to1c4b_614_23_alg».proof.Proof.KI.Spec
import Idealize.ShloMosaic.PureOps.Ideal.Laws
import Idealize.ShloMosaic.Lib.ValueIdx
import Idealize.ShloMosaic.Lib.Pipeline.Value

noncomputable section

namespace Cert.Value

open Cert.KernelIdeal Cert.KernelIdeal.Gen Cert.KernelIdeal.Spec
open Idealize.ShloMosaic Idealize.ShloMosaic.ValueIdx

variable {M : Type} [AddCommMonoid M]

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {n : Nat} (f : (⟨1, ![n]⟩ : Shape).Idx → M) : ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An array laid out again in another shape has the same total. -/
theorem sum_shapeCast {s t : Shape} (x : s.Idx → M) (h : s.ShapeCasts t) : ∑ j : t.Idx, shapeCast t x h j = ∑ i : s.Idx, x i :=
  Equiv.sum_comp (Shape.reshapeEquiv h) x

end Cert.Value

end
-- ==== Proof.Value.Tail.lean ====
/-
  The host's last operations in closed form. The thirty-two tasks' partial results, 32 rows of sixteen sums and sixteen
  counts, are seen as 32 × 2 × 16 and summed over the first and last axes: entry 0 of the pair is the sum of every task's
  sum lanes, entry 1 the sum of every task's count lanes. To each the TensorCore region's result is added, and the first
  is divided by the larger of the second and one.
-/
import proofs.«210416_g85048942395886_cont_9to1c4b_614_23_alg».proof.Proof.KI.Spec
import Idealize.ShloMosaic.PureOps.Ideal.Laws
import Idealize.ShloMosaic.Lib.ValueIdx
import Idealize.ShloMosaic.Lib.Pipeline.Value
import proofs.«210416_g85048942395886_cont_9to1c4b_614_23_alg».proof.Proof.Value.Idx

noncomputable section

namespace Cert.Value

open Cert.KernelIdeal Cert.KernelIdeal.Gen Cert.KernelIdeal.Spec
open Idealize.ShloMosaic Idealize.ShloMosaic.ValueIdx

/-- Summing the 32 × 2 × 16 array over its first and last axes keeps the middle coordinate. -/
theorem drop_mid (h : S32x2x16.ReducesTo [0, 2] S2) (i : S32x2x16.Idx) : h.drop i = ix1 (i 1) := by
  funext b
  match b with
  | ⟨0, _⟩ => exact Fin.ext (Shape.ReducesTo.drop_apply_val_of_eq h i 0 1)

/-- The host's sum over the first and last axes, at middle coordinate `a`: the initial value plus the double sum. -/
theorem hostSum_mid (h : S32x2x16.ReducesTo [0, 2] S2) (x : S32x2x16.Idx → EReal) (init : EReal) (a : Fin 2) :
    Ideal.hostReduceAdd h x init (ix1 a) = init + ∑ w : Fin 32, ∑ l : Fin 16, x (ix3 w a l) := by
  unfold Ideal.hostReduceAdd
  refine congrArg (init + ·) ?_
  rw [Finset.sum_filter, sum_idx3]
  refine Finset.sum_congr rfl fun w _ => ?_
  have hd : ∀ (b : Fin 2) (l : Fin 16), (h.drop (ix3 w b l) = ix1 a) ↔ b = a := fun b l => by
    rw [drop_mid]
    constructor
    · intro e; exact congrFun e 0
    · rintro rfl; rfl
  simp only [hd]
  rw [Finset.sum_comm]
  refine Finset.sum_congr rfl fun l _ => ?_
  rw [Finset.sum_ite_eq' Finset.univ a (fun b => x (ix3 w b l)), if_pos (Finset.mem_univ a)]

/-- The 32 × 32 partial results seen as 32 × 2 × 16: entry `(w, a, l)` is entry `(w, 16 a + l)`. -/
theorem cast_32x2x16 {α : Type} (o : S32x32.Idx → α) (w : Fin 32) (a : Fin 2) (l : Fin 16) :
    shapeCast S32x2x16 o shapeCasts_S32x32_S32x2x16 (ix3 w a l) = o (ix2 w (⟨16 * a.val + l.val, by omega⟩ : Fin 32)) :=
  shapeCast_apply o _ _ _ (by
    rw [Shape.rowMajor_val_two, Shape.rowMajor_val_three]
    show w.val * 32 + (16 * a.val + l.val) = (w.val * 2 + a.val) * 16 + l.val
    omega)

/-- Entry `a` of a pair, cut out as a one-entry slice and read as a scalar. -/
theorem slot_apply {α : Type} (v : S2.Idx → α) (a : Fin 2) (off : Fin 1 → Nat) (hoff : off 0 = a.val) (hs : S2.Slices off S1) (i : S_.Idx) :
    shapeCast S_ (extractStridedSlice S1 off v hs) shapeCasts_S1_S_ i = v (ix1 a) := by
  refine (shapeCast_apply _ shapeCasts_S1_S_ i (ix1 (0 : Fin 1)) ?_).trans ?_
  · rw [Shape.rowMajor_val_one]
    exact (Shape.rowMajorPi_zero _ i).symm
  · exact extractStridedSlice_apply off v hs (ix1 (0 : Fin 1)) (ix1 a) fun b => by
      match b with
      | ⟨0, _⟩ => show a.val = off 0 + 0; omega

/-- The host's last operations in closed form: the sum over the tasks' sixteen sum lanes plus the region's sum, over
    the larger of one and the sum over the tasks' sixteen count lanes plus the region's count. -/
theorem hostTail_eq (o : FVec Ideal S32x32 .f32) (s c : FVec Ideal S1 .f32) :
    hostTail o s c
      = Host.divf (F := Ideal)
          (fun _ : S_.Idx => (∑ w : Fin 32, ∑ l : Fin 16, o (ix2 w (⟨l.val, by omega⟩ : Fin 32))) + s (ix1 (0 : Fin 1)))
          (maximumf (F := Ideal)
            (fun _ : S_.Idx => (∑ w : Fin 32, ∑ l : Fin 16, o (ix2 w (⟨16 + l.val, by omega⟩ : Fin 32))) + c (ix1 (0 : Fin 1)))
            (constant (F := Ideal) S_ .f32 0x3F800000#32)) := by
  have hs : ∀ (x : FVec Ideal S1 .f32) (i : S_.Idx), shapeCast S_ x shapeCasts_S1_S_ i = x (ix1 (0 : Fin 1)) := fun x i =>
    shapeCast_apply x _ _ _ (by rw [Shape.rowMajor_val_one]; exact (Shape.rowMajorPi_zero _ i).symm)
  have hv : ∀ a : Fin 2, Host.reduceAdd (F := Ideal) (shapeCast S32x2x16 o shapeCasts_S32x32_S32x2x16)
      (constant (F := Ideal) S_ .f32 0x00000000#32) reducesTo_S32x2x16_S2_d0_2 h_S_ (ix1 a)
        = ∑ w : Fin 32, ∑ l : Fin 16, o (ix2 w (⟨16 * a.val + l.val, by omega⟩ : Fin 32)) := fun a => by
    show Ideal.hostReduceAdd reducesTo_S32x2x16_S2_d0_2 _ (Ideal.ofBits .f32 0x00000000#32) (ix1 a) = _
    rw [hostSum_mid, Ideal.ofBits_zero_f32, zero_add]
    exact Finset.sum_congr rfl fun w _ => Finset.sum_congr rfl fun l _ => cast_32x2x16 o w a l
  unfold hostTail
  refine congrArg₂ (Host.divf (F := Ideal)) (funext fun i => ?_) (congrArg (maximumf (F := Ideal) · _) (funext fun i => ?_))
  · show shapeCast S_ (extractStridedSlice (s := S2) S1 ![0] _ slices_S2_S1_0) shapeCasts_S1_S_ i + shapeCast S_ s shapeCasts_S1_S_ i = _
    rw [slot_apply _ (0 : Fin 2) ![0] rfl, hs, hv]
    rfl
  · show shapeCast S_ (extractStridedSlice (s := S2) S1 ![1] _ slices_S2_S1_1) shapeCasts_S1_S_ i + shapeCast S_ c shapeCasts_S1_S_ i = _
    rw [slot_apply _ (1 : Fin 2) ![1] rfl, hs, hv]
    rfl

end Cert.Value

end
-- ==== Proof.Value.Tile.lean ====
/-
  The subcore tasks' running sums and counts, read at the exact values: after `n` steps a task's lane holds the sum,
  over those steps, of that lane's positions' shares — `|p − g|` (for the sum) or one (for the count) where the mask
  word is positive, zero elsewhere. The thirty-two tasks' partial results are those sums after all 3072 steps.
-/
import proofs.«210416_g85048942395886_cont_9to1c4b_614_23_alg».proof.Proof.KI.Spec
import Idealize.ShloMosaic.PureOps.Ideal.Laws
import Idealize.ShloMosaic.Lib.ValueIdx
import Idealize.ShloMosaic.Lib.Pipeline.Value

noncomputable section

namespace Cert.Value

open Cert.KernelIdeal Cert.KernelIdeal.Gen Cert.KernelIdeal.Spec
open Idealize.ShloMosaic Idealize.ShloMosaic.ValueIdx

/-- One position's share of the running sum: `|p − g|` where the mask word is positive, zero elsewhere. -/
def termS (p g : EReal) (m : BitVec 32) : EReal :=
  Scalar.select (IntOp.cmpi .sgt m 0#32) (max (p - g) (-(p - g))) 0

/-- One position's share of the running count: one where the mask word is positive, zero elsewhere. -/
def termC (m : BitVec 32) : EReal := Scalar.select (IntOp.cmpi .sgt m 0#32) 1 0

/-- The word of the float one denotes one. -/
theorem ofBits_one_f32 : Ideal.ofBits .f32 0x3F800000#32 = 1 := by
  simp [Ideal.ofBits, Ideal.ieee, -EReal.coe_mul]; norm_num

/-- A one-row vector of sixteen lanes seen as sixteen lanes: lane `l` is entry `(0, l)`. -/
theorem cast_1x16 {α : Type} (v : S1x16.Idx → α) (l : Fin 16) :
    shapeCast S16 v shapeCasts_S1x16_S16 (ix1 l) = v (ix2 (0 : Fin 1) l) :=
  shapeCast_apply v _ _ _ (by rw [Shape.rowMajor_val_two, Shape.rowMajor_val_one]; show 0 * 16 + l.val = l.val; omega)

/-- One step of a task's running sum, at a lane. -/
theorem pay4_apply (acc : FVec Ideal S16 .f32) (vp vg : Vec Ideal S1x16 .f32) (vm : Vec Ideal S1x16 .i32) (l : Fin 16) :
    k0_pay4 acc vp vg vm (ix1 l)
      = acc (ix1 l) + termS (vp (ix2 (0 : Fin 1) l)) (vg (ix2 (0 : Fin 1) l)) (vm (ix2 (0 : Fin 1) l)) := by
  simp only [k0_pay4, k0_pay3]
  show acc (ix1 l) + Scalar.select (IntOp.cmpi .sgt (shapeCast S16 vm shapeCasts_S1x16_S16 (ix1 l)) 0#32)
      (max (shapeCast S16 vp shapeCasts_S1x16_S16 (ix1 l) - shapeCast S16 vg shapeCasts_S1x16_S16 (ix1 l))
        (-(shapeCast S16 vp shapeCasts_S1x16_S16 (ix1 l) - shapeCast S16 vg shapeCasts_S1x16_S16 (ix1 l))))
      (Ideal.ofBits .f32 0x00000000#32) = _
  rw [cast_1x16, cast_1x16, cast_1x16, Ideal.ofBits_zero_f32]
  rfl

/-- One step of a task's running count, at a lane. -/
theorem pay5_apply (acc : FVec Ideal S16 .f32) (vm : Vec Ideal S1x16 .i32) (l : Fin 16) :
    k0_pay5 acc vm (ix1 l) = acc (ix1 l) + termC (vm (ix2 (0 : Fin 1) l)) := by
  simp only [k0_pay5, k0_pay3]
  show acc (ix1 l) + Scalar.select (IntOp.cmpi .sgt (shapeCast S16 vm shapeCasts_S1x16_S16 (ix1 l)) 0#32)
      (Ideal.ofBits .f32 0x3F800000#32) (Ideal.ofBits .f32 0x00000000#32) = _
  rw [cast_1x16, Ideal.ofBits_zero_f32, ofBits_one_f32]
  rfl

/-- A task's running sum after `n` steps, at lane `l`: the sum over the steps of that lane's shares. -/
theorem tileAcc_fst (p g : FVec Ideal S8388608 .f32) (m : IVec S8388608 32) (w n : ℕ) (l : Fin 16) :
    (tileAcc p g m w n).1 (ix1 l)
      = ∑ k ∈ Finset.range n, termS (p (flat (49152 * w + 16 * k + l.val))) (g (flat (49152 * w + 16 * k + l.val)))
          (m (flat (49152 * w + 16 * k + l.val))) := by
  induction n with
  | zero =>
    rw [Finset.sum_range_zero]
    show Ideal.ofBits .f32 0x00000000#32 = 0
    exact Ideal.ofBits_zero_f32
  | succ n ih =>
    rw [Finset.sum_range_succ, ← ih]
    show k0_pay4 _ _ _ _ (ix1 l) = _
    rw [pay4_apply]
    rfl

/-- A task's running count after `n` steps, at lane `l`. -/
theorem tileAcc_snd (p g : FVec Ideal S8388608 .f32) (m : IVec S8388608 32) (w n : ℕ) (l : Fin 16) :
    (tileAcc p g m w n).2 (ix1 l) = ∑ k ∈ Finset.range n, termC (m (flat (49152 * w + 16 * k + l.val))) := by
  induction n with
  | zero =>
    rw [Finset.sum_range_zero]
    show Ideal.ofBits .f32 0x00000000#32 = 0
    exact Ideal.ofBits_zero_f32
  | succ n ih =>
    rw [Finset.sum_range_succ, ← ih]
    show k0_pay5 _ _ (ix1 l) = _
    rw [pay5_apply]
    rfl

/-- The tasks' partial results: entry `(w, l)`, `l` below sixteen, is task `w`'s sum at lane `l`; entry
    `(w, 16 + l)` its count at lane `l`. -/
theorem partials_sum (p g : FVec Ideal S8388608 .f32) (m : IVec S8388608 32) (w : Fin 32) (l : Fin 16) :
    partials p g m (ix2 w (⟨l.val, by omega⟩ : Fin 32)) = (tileAcc p g m w.val 3072).1 (ix1 l) := by
  unfold partials
  rw [dif_pos (show ((ix2 w (⟨l.val, by omega⟩ : Fin 32) : S32x32.Idx) 1).val < 16 from l.isLt)]
  unfold k0_pay12
  rw [shapeCast_self]
theorem partials_cnt (p g : FVec Ideal S8388608 .f32) (m : IVec S8388608 32) (w : Fin 32) (l : Fin 16) :
    partials p g m (ix2 w (⟨16 + l.val, by omega⟩ : Fin 32)) = (tileAcc p g m w.val 3072).2 (ix1 l) := by
  unfold partials
  rw [dif_neg (show ¬ ((ix2 w (⟨16 + l.val, by omega⟩ : Fin 32) : S32x32.Idx) 1).val < 16 from by show ¬ (16 + l.val < 16); omega)]
  unfold k0_pay13
  rw [shapeCast_self]
  exact congrArg _ (congrArg ix1 (Fin.ext (by show (16 + l.val) % 16 = l.val; omega)))

end Cert.Value

end
-- ==== Proof.Value.Region.lean ====
/-
  The TensorCore region's accumulator, read at the exact values: after `t` blocks its first row holds, per column,
  the sum over those blocks' rows of the positions' shares of the sum, its second row their shares of the count; the
  region's two results are the sums of the two rows over the 128 columns after all 26 blocks.
-/
import proofs.«210416_g85048942395886_cont_9to1c4b_614_23_alg».proof.Proof.KI.Spec
import Idealize.ShloMosaic.PureOps.Ideal.Laws
import Idealize.ShloMosaic.Lib.ValueIdx
import Idealize.ShloMosaic.Lib.Pipeline.Value
import proofs.«210416_g85048942395886_cont_9to1c4b_614_23_alg».proof.Proof.Value.Tile
import proofs.«210416_g85048942395886_cont_9to1c4b_614_23_alg».proof.Proof.Value.Idx

noncomputable section

namespace Cert.Value

open Cert.KernelIdeal Cert.KernelIdeal.Gen Cert.KernelIdeal.Spec
open Idealize.ShloMosaic Idealize.ShloMosaic.ValueIdx

/-- A vector of 128 lanes seen as one row of 128: entry `(0, c)` is lane `c`. -/
theorem cast_128 {α : Type} (v : S128.Idx → α) (c : Fin 128) :
    shapeCast S1x128 v shapeCasts_S128_S1x128 (ix2 (0 : Fin 1) c) = v (ix1 c) :=
  shapeCast_apply v _ _ _ (by rw [Shape.rowMajor_val_two, Shape.rowMajor_val_one]; show c.val = 0 * 128 + c.val; omega)

/-- The index the sum over the rows inserts row `r` into, at column `c`. -/
theorem lift_col (h : S2048x128.Reduces [0] S128) (c : Fin 128) (r : Fin 2048) : h.lift (ix1 c) r = ix2 r c := by
  funext a
  match a with
  | ⟨0, _⟩ => exact Fin.ext rfl
  | ⟨1, _⟩ => exact Fin.ext rfl

/-- The column sums of a block of 2048 rows, as a row: at column `c` the sum over the rows. -/
theorem colsum_apply (v : FVec Ideal S2048x128 .f32) (hφ : FKind.Formats .f32)
    (hacc : (0x00000000#32 : BitVec 32) = FKind.add.neutral .f32 hφ) (c : Fin 128) :
    shapeCast S1x128 (multiReduction .add [0] S128 v 0x00000000#32 reduces_S2048x128_S128 hφ hacc) shapeCasts_S128_S1x128
        (ix2 (0 : Fin 1) c) = ∑ r : Fin 2048, v (ix2 r c) := by
  rw [cast_128]
  refine (Ideal.multiReduction_add_single v _ reduces_S2048x128_S128 hφ hacc (ix1 c)).trans ?_
  exact Finset.sum_congr rfl fun r _ => congrArg v (lift_col _ c r)

/-- One block's step of the running column sums, at a column. -/
theorem pay5tc_apply (vm : Vec Ideal S2048x128 .i32) (vp vg : Vec Ideal S2048x128 .f32) (acc : Vec Ideal S1x128 .f32) (c : Fin 128) :
    k1_pay5 vm vp vg acc (ix2 (0 : Fin 1) c)
      = acc (ix2 (0 : Fin 1) c) + ∑ r : Fin 2048, termS (vp (ix2 r c)) (vg (ix2 r c)) (vm (ix2 r c)) := by
  simp only [k1_pay5, k1_pay4, shapeCast_self]
  show acc (ix2 (0 : Fin 1) c) + shapeCast S1x128 (multiReduction (F := Ideal) .add [0] S128 _ 0x00000000#32 reduces_S2048x128_S128 _ _)
      shapeCasts_S128_S1x128 (ix2 (0 : Fin 1) c) = _
  refine congrArg (acc (ix2 (0 : Fin 1) c) + ·) ((colsum_apply _ _ _ c).trans (Finset.sum_congr rfl fun r _ => ?_))
  show Scalar.select (IntOp.cmpi .sgt (vm (ix2 r c)) 0#32) (max (vp (ix2 r c) - vg (ix2 r c)) (-(vp (ix2 r c) - vg (ix2 r c))))
      (Ideal.ofBits .f32 0x00000000#32) = _
  rw [Ideal.ofBits_zero_f32]
  rfl

/-- One block's step of the running column counts, at a column. -/
theorem pay6tc_apply (vm : Vec Ideal S2048x128 .i32) (acc : Vec Ideal S1x128 .f32) (c : Fin 128) :
    k1_pay6 vm acc (ix2 (0 : Fin 1) c) = acc (ix2 (0 : Fin 1) c) + ∑ r : Fin 2048, termC (vm (ix2 r c)) := by
  simp only [k1_pay6, k1_pay4, shapeCast_self]
  show acc (ix2 (0 : Fin 1) c) + shapeCast S1x128 (multiReduction (F := Ideal) .add [0] S128 _ 0x00000000#32 reduces_S2048x128_S128 _ _)
      shapeCasts_S128_S1x128 (ix2 (0 : Fin 1) c) = _
  refine congrArg (acc (ix2 (0 : Fin 1) c) + ·) ((colsum_apply _ _ _ c).trans (Finset.sum_congr rfl fun r _ => ?_))
  show Scalar.select (IntOp.cmpi .sgt (vm (ix2 r c)) 0#32) (Ideal.ofBits .f32 0x3F800000#32) (Ideal.ofBits .f32 0x00000000#32) = _
  rw [Ideal.ofBits_zero_f32, ofBits_one_f32]
  rfl

/-- The zeroed accumulator reads zero everywhere. -/
theorem pay3tc_apply (i : S2x128.Idx) : k1_pay3 (F := Ideal) i = 0 := by
  unfold k1_pay3
  rw [shapeCast_self]
  exact Ideal.ofBits_zero_f32

/-- The running column sums after `t` blocks, at column `c`. -/
theorem tcRows_fst (p g : FVec Ideal S65536x128 .f32) (m : IVec S65536x128 32) (t : ℕ) (c : Fin 128) :
    (tcRows p g m t).1 (ix2 (0 : Fin 1) c)
      = ∑ s ∈ Finset.range t, ∑ r : Fin 2048, termS (blk p s (ix2 r c)) (blk g s (ix2 r c)) (blk m s (ix2 r c)) := by
  induction t with
  | zero =>
    rw [Finset.sum_range_zero]
    exact pay3tc_apply (ix2 (0 : Fin 2) c)
  | succ t ih =>
    rw [Finset.sum_range_succ, ← ih]
    show k1_pay5 _ _ _ _ (ix2 (0 : Fin 1) c) = _
    rw [pay5tc_apply]

/-- The running column counts after `t` blocks, at column `c`. -/
theorem tcRows_snd (p g : FVec Ideal S65536x128 .f32) (m : IVec S65536x128 32) (t : ℕ) (c : Fin 128) :
    (tcRows p g m t).2 (ix2 (0 : Fin 1) c) = ∑ s ∈ Finset.range t, ∑ r : Fin 2048, termC (blk m s (ix2 r c)) := by
  induction t with
  | zero =>
    rw [Finset.sum_range_zero]
    exact pay3tc_apply (ix2 (1 : Fin 2) c)
  | succ t ih =>
    rw [Finset.sum_range_succ, ← ih]
    show k1_pay6 _ _ (ix2 (0 : Fin 1) c) = _
    rw [pay6tc_apply]

/-- A row of 128 seen as a 1 × 1 × 128 array: entry `(0, 0, c)` is entry `(0, c)`. -/
theorem cast_1x1x128 {α : Type} (v : S1x128.Idx → α) (c : Fin 128) :
    shapeCast S1x1x128 v shapeCasts_S1x128_S1x1x128 (ix3 (0 : Fin 1) (0 : Fin 1) c) = v (ix2 (0 : Fin 1) c) :=
  shapeCast_apply v _ _ _ (by
    rw [Shape.rowMajor_val_two, Shape.rowMajor_val_three]; show 0 * 128 + c.val = (0 * 1 + 0) * 128 + c.val; omega)

/-- The sum over the 128 columns of a row, as the program takes it: a sum over the last two axes of the row seen as
    1 × 1 × 128, read at its one entry. -/
theorem rowsum (v : FVec Ideal S1x128 .f32) (hφ : FKind.Formats .f32) (hacc : (0x00000000#32 : BitVec 32) = FKind.add.neutral .f32 hφ)
    (j : S1.Idx) :
    multiReduction (F := Ideal) .add [1, 2] S1 (shapeCast S1x1x128 v shapeCasts_S1x128_S1x1x128) 0x00000000#32 reduces_S1x1x128_S1 hφ hacc j
      = ∑ c : Fin 128, v (ix2 (0 : Fin 1) c) := by
  refine (Ideal.multiReduction_add_total _ _ reduces_S1x1x128_S1 (fun b => by match b with | ⟨0, _⟩ => rfl) hφ hacc j).trans ?_
  rw [sum_idx3, Fin.sum_univ_one, Fin.sum_univ_one]
  exact Finset.sum_congr rfl fun c _ => cast_1x1x128 v c

/-- The region's first result is the sum over the columns of the first accumulator row. -/
theorem pay1tc (v : FVec Ideal S1x128 .f32) : k1_pay1 v = ∑ c : Fin 128, v (ix2 (0 : Fin 1) c) := by
  simp only [k1_pay1]
  unfold extractAt shapeCast
  exact rowsum v _ _ _
theorem pay2tc (v : FVec Ideal S1x128 .f32) : k1_pay2 v = ∑ c : Fin 128, v (ix2 (0 : Fin 1) c) := by
  simp only [k1_pay2]
  unfold extractAt shapeCast
  exact rowsum v _ _ _

/-- The region's two results: the shares of every position of the 26 blocks, summed. -/
theorem tcSum_eq (p g : FVec Ideal S65536x128 .f32) (m : IVec S65536x128 32) (i : S1.Idx) :
    tcSum p g m i = ∑ c : Fin 128, ∑ s ∈ Finset.range 26, ∑ r : Fin 2048,
      termS (blk p s (ix2 r c)) (blk g s (ix2 r c)) (blk m s (ix2 r c)) := by
  show k1_pay1 _ = _
  rw [pay1tc]
  exact Finset.sum_congr rfl fun c _ => tcRows_fst p g m 26 c
theorem tcCnt_eq (p g : FVec Ideal S65536x128 .f32) (m : IVec S65536x128 32) (i : S1.Idx) :
    tcCnt p g m i = ∑ c : Fin 128, ∑ s ∈ Finset.range 26, ∑ r : Fin 2048, termC (blk m s (ix2 r c)) := by
  show k1_pay2 _ = _
  rw [pay2tc]
  exact Finset.sum_congr rfl fun c _ => tcRows_snd p g m 26 c

end Cert.Value

end
-- ==== Proof.Value.Ref.lean ====
/-
  The reference program's run and its value read stage by stage, gathered under one name for the modules that relate
  the specification's result to the reference's.
-/
import proofs.«210416_g85048942395886_cont_9to1c4b_614_23_alg».proof.Proof.Gen.ReferenceIdeal.Run
import proofs.«210416_g85048942395886_cont_9to1c4b_614_23_alg».proof.Proof.Gen.ReferenceIdeal.Read
-- ==== Proof.Value.RefForm.lean ====
/-
  The reference read at the exact values: its numerator is the sum over all positions of `|p − g|` times the mask as a
  number, and that product is `|p − g|` where the mask word is positive and zero elsewhere — the share the kernel adds;
  its count is the sum of the mask as a number, one where the mask word is positive and zero elsewhere.
-/
import proofs.«210416_g85048942395886_cont_9to1c4b_614_23_alg».proof.Proof.KI.Spec
import Idealize.ShloMosaic.PureOps.Ideal.Laws
import Idealize.ShloMosaic.Lib.ValueIdx
import Idealize.ShloMosaic.Lib.Pipeline.Value
import proofs.«210416_g85048942395886_cont_9to1c4b_614_23_alg».proof.Proof.Value.Tile
import proofs.«210416_g85048942395886_cont_9to1c4b_614_23_alg».proof.Proof.Value.Ref

noncomputable section

namespace Cert.Value

open Cert.KernelIdeal Cert.KernelIdeal.Gen Cert.KernelIdeal.Spec
open Idealize.ShloMosaic Idealize.ShloMosaic.ValueIdx

open Cert.ReferenceIdeal.Read

/-- A value times the number a one-bit word reads as is the value where the bit is set and zero elsewhere: on the
    extended reals too, where zero times an infinity is zero. -/
theorem mul_bit (x : EReal) (b : BitVec 1) : x * (((b.toNat : ℝ)) : EReal) = Scalar.select b x 0 := by
  rcases BitVec.eq_zero_or_eq_one b with rfl | rfl
  · rw [select_zero]; simp
  · rw [select_one]; simp

/-- The number a one-bit word reads as: one where the bit is set, zero elsewhere. -/
theorem bit_val (b : BitVec 1) : (((b.toNat : ℝ)) : EReal) = Scalar.select b 1 0 := by
  rcases BitVec.eq_zero_or_eq_one b with rfl | rfl
  · rw [select_zero]; simp
  · rw [select_one]; simp

/-- The reference's mask as a number, at a position: that position's share of the count. -/
theorem ref_mask (M : IVec Cert.ReferenceIdeal.S4x1x128x128x128 32) (j : Cert.ReferenceIdeal.S4x1x128x128x128.Idx) :
    val_main_v2 (F := Ideal) M j = termC (M j) := by
  rw [val_main_v2_apply, val_main_v1_apply, val_main_v0_apply, val_main_c_apply]
  exact bit_val _

/-- The reference's masked absolute difference, at a position: that position's share of the sum. -/
theorem ref_term (P G : FVec Ideal Cert.ReferenceIdeal.S4x1x128x128x128 .f32) (M : IVec Cert.ReferenceIdeal.S4x1x128x128x128 32)
    (j : Cert.ReferenceIdeal.S4x1x128x128x128.Idx) :
    val_main_v5 (F := Ideal) P G M j = termS (P j) (G j) (M j) := by
  rw [val_main_v5_apply, val_main_v4_apply, val_main_v3_apply, val_main_v2_apply, val_main_v1_apply, val_main_v0_apply,
    val_main_c_apply]
  exact mul_bit _ _

/-- The reference's numerator: the sum of every position's share. -/
theorem ref_sum (P G : FVec Ideal Cert.ReferenceIdeal.S4x1x128x128x128 .f32) (M : IVec Cert.ReferenceIdeal.S4x1x128x128x128 32)
    (i : Cert.ReferenceIdeal.S_.Idx) :
    val_main_v8 (F := Ideal) P G M i = ∑ j : Cert.ReferenceIdeal.S4x1x128x128x128.Idx, termS (P j) (G j) (M j) := by
  rw [val_main_v8_apply, val_main_cst_1_apply]
  show Ideal.ofBits .f32 0x00000000#32 + _ = _
  rw [Ideal.ofBits_zero_f32, zero_add]
  exact Finset.sum_congr rfl fun j _ => ref_term P G M j

/-- The reference's count: the sum of every position's share of the count. -/
theorem ref_cnt (M : IVec Cert.ReferenceIdeal.S4x1x128x128x128 32) (i : Cert.ReferenceIdeal.S_.Idx) :
    val_main_v6 (F := Ideal) M i = ∑ j : Cert.ReferenceIdeal.S4x1x128x128x128.Idx, termC (M j) := by
  rw [val_main_v6_apply, val_main_cst_apply]
  show Ideal.ofBits .f32 0x00000000#32 + _ = _
  rw [Ideal.ofBits_zero_f32, zero_add]
  exact Finset.sum_congr rfl fun j _ => ref_mask M j

end Cert.Value

end
-- ==== Proof.Value.Bridge.lean ====
/-
  At the exact values the specification's result is the reference's. The five-axis arrays flattened row by row have
  8388608 positions; each position has a share of the sum, `|p − g|` where its mask word is positive and zero elsewhere,
  and a share of the count, one or zero likewise. The reference sums the shares over all positions. The specification
  sums them over the thirty-two tasks' runs of 3072 steps of sixteen lanes, which are the positions below 1572864, and
  over the 26 blocks of 2048 rows of 128 columns, which are the positions from 1572864 on; sums on the extended reals
  may be taken in any order, so the two agree, and both end with the same quotient by the larger of the count and one.
-/
import proofs.«210416_g85048942395886_cont_9to1c4b_614_23_alg».proof.Proof.KI.Spec
import Idealize.ShloMosaic.PureOps.Ideal.Laws
import Idealize.ShloMosaic.Lib.ValueIdx
import Idealize.ShloMosaic.Lib.Pipeline.Value
import proofs.«210416_g85048942395886_cont_9to1c4b_614_23_alg».proof.Proof.Value.Partition
import proofs.«210416_g85048942395886_cont_9to1c4b_614_23_alg».proof.Proof.Value.Tail
import proofs.«210416_g85048942395886_cont_9to1c4b_614_23_alg».proof.Proof.Value.Region
import proofs.«210416_g85048942395886_cont_9to1c4b_614_23_alg».proof.Proof.Value.RefForm

noncomputable section

namespace Cert.Value

open Cert.KernelIdeal Cert.KernelIdeal.Gen Cert.KernelIdeal.Spec
open Idealize.ShloMosaic Idealize.ShloMosaic.ValueIdx

open Cert.ReferenceIdeal.Read

/-- Below the extent a position is its own index. -/
theorem flat_of_lt (n : Fin 8388608) : flat n.val = ix1 n :=
  congrArg ix1 (Fin.ext (Nat.mod_eq_of_lt n.isLt))

/-- The flat array seen as 65536 rows of 128: entry `(R, c)` is position `128 R + c`. -/
theorem cast_view {α : Type} (x : S8388608.Idx → α) (R : Fin 65536) (c : Fin 128) :
    shapeCast S65536x128 x shapeCasts_S8388608_S65536x128 (ix2 R c) = x (flat (128 * R.val + c.val)) :=
  shapeCast_apply x _ _ _ (by
    rw [Shape.rowMajor_val_one, Shape.rowMajor_val_two]
    show (128 * R.val + c.val) % 8388608 = R.val * 128 + c.val
    have := R.isLt; have := c.isLt; omega)

/-- Row `r`, column `c` of block `t` of that view is position `128 (2048 (t + 6) + r) + c`. -/
theorem blk_view {α : Type} (x : S8388608.Idx → α) (t : ℕ) (ht : t < 26) (r : Fin 2048) (c : Fin 128) :
    blk (shapeCast S65536x128 x shapeCasts_S8388608_S65536x128) t (ix2 r c)
      = x (flat (128 * (2048 * (t + 6) + r.val) + c.val)) := by
  have e : (2048 * (t + 6) + r.val) % 65536 = 2048 * (t + 6) + r.val := Nat.mod_eq_of_lt (by have := r.isLt; omega)
  show shapeCast S65536x128 x shapeCasts_S8388608_S65536x128
      (ix2 (⟨(2048 * (t + 6) + r.val) % 65536, Nat.mod_lt _ (by decide)⟩ : Fin 65536) c) = _
  rw [cast_view]
  show x (flat (128 * ((2048 * (t + 6) + r.val) % 65536) + c.val)) = _
  rw [e]

/-- The total of a function over the five-axis array is its total over the flat positions. -/
theorem sum_flat {M : Type} [AddCommMonoid M] (φ : S4x1x128x128x128.Idx → M) :
    ∑ j, φ j = ∑ n : Fin 8388608, shapeCast S8388608 φ shapeCasts_S4x1x128x128x128_S8388608 (flat n.val) := by
  rw [← sum_shapeCast φ shapeCasts_S4x1x128x128x128_S8388608, sum_idx1]
  exact Finset.sum_congr rfl fun n _ => by rw [flat_of_lt]

/-- The order in which the tasks' lanes and steps are summed does not matter … -/
theorem reorder_tasks {M : Type} [AddCommMonoid M] (F : ℕ → ℕ → ℕ → M) :
    ∑ w : Fin 32, ∑ n : Fin 3072, ∑ l : Fin 16, F w.val n.val l.val
      = ∑ w : Fin 32, ∑ l : Fin 16, ∑ k ∈ Finset.range 3072, F w.val k l.val :=
  Finset.sum_congr rfl fun w _ => Finset.sum_comm.trans (Finset.sum_congr rfl fun l _ =>
    Fin.sum_univ_eq_sum_range (fun k => F w.val k l.val) 3072)

/-- … nor the order of the region's blocks, rows and columns. -/
theorem reorder_region {M : Type} [AddCommMonoid M] (F : ℕ → ℕ → ℕ → M) :
    ∑ t : Fin 26, ∑ r : Fin 2048, ∑ c : Fin 128, F t.val r.val c.val
      = ∑ c : Fin 128, ∑ s ∈ Finset.range 26, ∑ r : Fin 2048, F s r.val c.val :=
  calc ∑ t : Fin 26, ∑ r : Fin 2048, ∑ c : Fin 128, F t.val r.val c.val
      = ∑ t ∈ Finset.range 26, ∑ r : Fin 2048, ∑ c : Fin 128, F t r.val c.val :=
        Fin.sum_univ_eq_sum_range (fun t => ∑ r : Fin 2048, ∑ c : Fin 128, F t r.val c.val) 26
    _ = ∑ t ∈ Finset.range 26, ∑ c : Fin 128, ∑ r : Fin 2048, F t r.val c.val :=
        Finset.sum_congr rfl fun t _ => Finset.sum_comm
    _ = ∑ c : Fin 128, ∑ t ∈ Finset.range 26, ∑ r : Fin 2048, F t r.val c.val := Finset.sum_comm

/-- Over the flat arrays: the tasks' sum lanes and the region's sum together are the sum of every position's share. -/
theorem total_sum_flat (p g : FVec Ideal S8388608 .f32) (m : IVec S8388608 32) :
    (∑ w : Fin 32, ∑ l : Fin 16, partials p g m (ix2 w (⟨l.val, by omega⟩ : Fin 32))) + tcSum (shapeCast S65536x128 p shapeCasts_S8388608_S65536x128) (shapeCast S65536x128 g shapeCasts_S8388608_S65536x128)
          (shapeCast S65536x128 m shapeCasts_S8388608_S65536x128) (ix1 (0 : Fin 1))
      = ∑ n : Fin 8388608, termS (p (flat n.val)) (g (flat n.val)) (m (flat n.val)) := by
  symm
  refine (sum_positions fun n => termS (p (flat n)) (g (flat n)) (m (flat n))).trans (congrArg₂ (· + ·) ?_ ?_)
  · refine (reorder_tasks fun w k l => termS (p (flat (49152 * w + 16 * k + l))) (g (flat (49152 * w + 16 * k + l)))
      (m (flat (49152 * w + 16 * k + l)))).trans ?_
    exact Finset.sum_congr rfl fun w _ => Finset.sum_congr rfl fun l _ => by rw [partials_sum, tileAcc_fst]
  · refine (reorder_region fun t r c => termS (p (flat (128 * (2048 * (t + 6) + r) + c))) (g (flat (128 * (2048 * (t + 6) + r) + c)))
      (m (flat (128 * (2048 * (t + 6) + r) + c)))).trans ?_
    rw [tcSum_eq]
    exact Finset.sum_congr rfl fun c _ => Finset.sum_congr rfl fun s hs => Finset.sum_congr rfl fun r _ => by
      rw [blk_view p s (Finset.mem_range.mp hs), blk_view g s (Finset.mem_range.mp hs), blk_view m s (Finset.mem_range.mp hs)]

/-- Over the flat arrays: the tasks' count lanes and the region's count together are the sum of every position's share
    of the count. -/
theorem total_cnt_flat (p g : FVec Ideal S8388608 .f32) (m : IVec S8388608 32) :
    (∑ w : Fin 32, ∑ l : Fin 16, partials p g m (ix2 w (⟨16 + l.val, by omega⟩ : Fin 32))) + tcCnt (shapeCast S65536x128 p shapeCasts_S8388608_S65536x128) (shapeCast S65536x128 g shapeCasts_S8388608_S65536x128)
          (shapeCast S65536x128 m shapeCasts_S8388608_S65536x128) (ix1 (0 : Fin 1))
      = ∑ n : Fin 8388608, termC (m (flat n.val)) := by
  symm
  refine (sum_positions fun n => termC (m (flat n))).trans (congrArg₂ (· + ·) ?_ ?_)
  · refine (reorder_tasks fun w k l => termC (m (flat (49152 * w + 16 * k + l)))).trans ?_
    exact Finset.sum_congr rfl fun w _ => Finset.sum_congr rfl fun l _ => by rw [partials_cnt, tileAcc_snd]
  · refine (reorder_region fun t r c => termC (m (flat (128 * (2048 * (t + 6) + r) + c)))).trans ?_
    rw [tcCnt_eq]
    exact Finset.sum_congr rfl fun c _ => Finset.sum_congr rfl fun s hs => Finset.sum_congr rfl fun r _ => by
      rw [blk_view m s (Finset.mem_range.mp hs)]

/-- At the exact values the specification's result is the reference's: both are the sum of every position's share of
    the sum over the larger of one and the sum of every position's share of the count. -/
theorem result_eq_reference (P G : FVec Ideal Cert.KernelIdeal.S4x1x128x128x128 .f32) (M : IVec Cert.KernelIdeal.S4x1x128x128x128 32) :
    Cert.KernelIdeal.Spec.result (F := Ideal) P G M = Cert.ReferenceIdeal.Read.val_main_v9 (F := Ideal) P G M := by
  unfold Cert.KernelIdeal.Spec.result
  simp only []
  rw [hostTail_eq]
  unfold val_main_v9 val_main_v7
  refine congrArg₂ (Host.divf (F := Ideal)) (funext fun i => ?_) (congrArg₂ (maximumf (F := Ideal)) (funext fun i => ?_) rfl)
  · rw [ref_sum]
    exact (total_sum_flat (shapeCast S8388608 P shapeCasts_S4x1x128x128x128_S8388608) (shapeCast S8388608 G shapeCasts_S4x1x128x128x128_S8388608) (shapeCast S8388608 M shapeCasts_S4x1x128x128x128_S8388608)).trans (sum_flat fun j => termS (P j) (G j) (M j)).symm
  · rw [ref_cnt]
    exact (total_cnt_flat (shapeCast S8388608 P shapeCasts_S4x1x128x128x128_S8388608) (shapeCast S8388608 G shapeCasts_S4x1x128x128x128_S8388608) (shapeCast S8388608 M shapeCasts_S4x1x128x128x128_S8388608)).trans (sum_flat fun j => termC (M j)).symm

end Cert.Value

end
-- ==== Proof.lean ====
/-
  A masked mean of absolute differences, computed three ways.

  The reference sums |p − g| over the positions whose mask word is positive, counts those positions, and divides the sum
  by the larger of the count and one. The kernel splits the 8388608 positions between thirty-two SparseCore subcore
  tasks (positions below 1572864, each task folding 3072 groups of sixteen lanes) and one TensorCore region (the rest,
  26 blocks of 2048 rows of 128), and the host adds the partial sums and counts before the same division. On the
  extended reals the kernel's result is the reference's: addition is commutative and associative, x · 1 = x and
  x · 0 = 0, so selecting |p − g| or zero by the mask is multiplying by the mask's float, and regrouping the sum by
  task, step, lane, block, row and column changes nothing.

  The kernel program's run — every weakly fair execution of the device's thirty-five threads ends, faults nowhere,
  leaves the arguments as they were and the result at one pure function of them — is proved once, at any float
  instance, and read at the word-level instance for the printed kernel's frame and at the ideal instance for the
  idealized kernel's frame and value. The ideal pass rewrote nothing, so there is nothing to preserve.
-/
import proofs.«210416_g85048942395886_cont_9to1c4b_614_23_alg».proof.Defs
import proofs.«210416_g85048942395886_cont_9to1c4b_614_23_alg».proof.Proof.Gen.Kernel
import proofs.«210416_g85048942395886_cont_9to1c4b_614_23_alg».proof.Proof.Gen.KernelIdeal
import proofs.«210416_g85048942395886_cont_9to1c4b_614_23_alg».proof.Proof.Gen.ReferenceIdeal
import proofs.«210416_g85048942395886_cont_9to1c4b_614_23_alg».proof.Proof.Gen.ReferenceIdeal.Run
import proofs.«210416_g85048942395886_cont_9to1c4b_614_23_alg».proof.Proof.Gen.ReferenceIdeal.Read
import proofs.«210416_g85048942395886_cont_9to1c4b_614_23_alg».proof.Proof.Gen.Pre_input_domain
import proofs.«210416_g85048942395886_cont_9to1c4b_614_23_alg».proof.Proof.K.Run
import proofs.«210416_g85048942395886_cont_9to1c4b_614_23_alg».proof.Proof.KI.Run
import proofs.«210416_g85048942395886_cont_9to1c4b_614_23_alg».proof.Proof.Value.Bridge
import Idealize.ShloMosaic.Adequacy
import Idealize.ShloMosaic.Init

noncomputable section

namespace Cert.Proof

open Idealize.ShloMosaic Idealize.SL.Sem

/-- The printed kernel runs and leaves its arguments unchanged. -/
theorem frame_k : @Cert.frame_Kernel Cert.Kernel.Gen.facts Cert.Pre_input_domain.Gen.facts := fun m g _ =>
  (θ_run Cert.Kernel.defs _ _).mono (fun _ h c => ⟨(h c).2.1, (h c).2.2.1, (h c).2.2.2⟩) (Cert.Kernel.Run.run_main (F := Bits) m g)

/-- So does the idealized kernel. -/
theorem frame_ki : @Cert.frame_KernelIdeal Cert.KernelIdeal.Gen.facts Cert.Pre_input_domain.Gen.facts := fun m g _ =>
  (θ_run Cert.KernelIdeal.defs _ _).mono (fun _ h c => ⟨(h c).2.1, (h c).2.2.1, (h c).2.2.2⟩) (Cert.KernelIdeal.Run.run_main (F := Ideal) m g)

/-- The reference's run, its result dropped. -/
theorem frame_ri : @Cert.frame_ReferenceIdeal Cert.ReferenceIdeal.Gen.facts Cert.Pre_input_domain.Gen.facts := fun m g _ =>
  (θ_run Cert.ReferenceIdeal.defs _ _).mono (fun _ h c => (h c).2) (Cert.ReferenceIdeal.Value.run (F := Ideal) m g)

/-- Both idealized programs end with the specification's value of the arguments they agree on. -/
theorem algebraic : @Cert.algebraic_KernelIdeal_ReferenceIdeal Cert.KernelIdeal.Gen.facts Cert.ReferenceIdeal.Gen.facts Cert.Pre_input_domain.Gen.facts := by
  intro m g m' g' _ hagree
  refine ⟨fun c => Cert.KernelIdeal.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1, (h c).2.1, (h c).2.2.1, (h c).2.2.2⟩)
      (Cert.KernelIdeal.Run.run_main (F := Ideal) m g)
  · refine (θ_run Cert.ReferenceIdeal.defs _ _).mono (fun _ h c => ⟨(h c).1.trans ?_, (h c).2⟩)
      (Cert.ReferenceIdeal.Value.run (F := Ideal) m' g')
    rw [(hagree c).1, (hagree c).2.1, (hagree c).2.2]
    exact (Cert.ReferenceIdeal.Read.val_main_v9_eq (F := Ideal) _ _ _).trans (Cert.Value.result_eq_reference _ _ _).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
